-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v253)) (v1 : (c : Dev Cert.KernelIdeal.nD) → Buf (Elt Ideal) ((c.tc : Thread Cert.KernelIdeal.nD Cert.KernelIdeal.τ).loc Cert.KernelIdeal.main_v259)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v253) = v0 c
          ∧ r.2.mem ((c.tc : Thread Cert.KernelIdeal.nD Cert.KernelIdeal.τ).loc Cert.KernelIdeal.main_v259) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v321) = v0 c
          ∧ r.2.mem ((c.tc : Thread Cert.ReferenceIdeal.nD Cert.ReferenceIdeal.τ).loc Cert.ReferenceIdeal.main_v327) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S30000x64 : Shape := ⟨2, ![30000, 64]⟩
abbrev S100000x3 : Shape := ⟨2, ![100000, 3]⟩
abbrev S3 : Shape := ⟨1, ![3]⟩
abbrev S3x30000x1 : Shape := ⟨3, ![3, 30000, 1]⟩
abbrev S3x128x128 : Shape := ⟨3, ![3, 128, 128]⟩
abbrev S3x64x64 : Shape := ⟨3, ![3, 64, 64]⟩
abbrev S64x64 : Shape := ⟨2, ![64, 64]⟩
abbrev S64x128 : Shape := ⟨2, ![64, 128]⟩
abbrev S128x1 : Shape := ⟨2, ![128, 1]⟩
abbrev S3x500000 : Shape := ⟨2, ![3, 500000]⟩
abbrev S3x400000 : Shape := ⟨2, ![3, 400000]⟩
abbrev S1000000 : Shape := ⟨1, ![1000000]⟩
abbrev S2048x1 : Shape := ⟨2, ![2048, 1]⟩
abbrev S2048x20 : Shape := ⟨2, ![2048, 20]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S30000x64 : S_.BroadcastsInDim S30000x64 (![] : Fin 0 → Fin S30000x64.rank)
  reducesTo_S30000x64_S_d0_1 : S30000x64.ReducesTo [0, 1] S_
  bcast_S_S100000x3 : S_.BroadcastsInDim S100000x3 (![] : Fin 0 → Fin S100000x3.rank)
  reducesTo_S100000x3_S_d0_1 : S100000x3.ReducesTo [0, 1] S_
  bcast_S_S3 : S_.BroadcastsInDim S3 (![] : Fin 0 → Fin S3.rank)
  reducesTo_S3_S_d0 : S3.ReducesTo [0] S_
  bcast_S_S3x30000x1 : S_.BroadcastsInDim S3x30000x1 (![] : Fin 0 → Fin S3x30000x1.rank)
  reducesTo_S3x30000x1_S_d0_1_2 : S3x30000x1.ReducesTo [0, 1, 2] S_
  bcast_S_S3x128x128 : S_.BroadcastsInDim S3x128x128 (![] : Fin 0 → Fin S3x128x128.rank)
  reducesTo_S3x128x128_S_d0_1_2 : S3x128x128.ReducesTo [0, 1, 2] S_
  bcast_S_S3x64x64 : S_.BroadcastsInDim S3x64x64 (![] : Fin 0 → Fin S3x64x64.rank)
  reducesTo_S3x64x64_S_d0_1_2 : S3x64x64.ReducesTo [0, 1, 2] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128x1 : S_.BroadcastsInDim S128x1 (![] : Fin 0 → Fin S128x1.rank)
  reducesTo_S128x1_S_d0_1 : S128x1.ReducesTo [0, 1] S_

variable [Facts]

def fn_part3 {F : FTy → Type} [FloatOps F] (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  main_v53

def fn_part2 {F : FTy → Type} [FloatOps F] (main_arg7 : FVec F S64x64 .f32) (main_arg8 : FVec F S64x128 .f32) (main_arg9 : FVec F S64x128 .f32) (main_arg10 : FVec F S128x1 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x128 .f32 := Host.absf main_arg8
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64x128 .f32 := Host.absf main_arg9
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128x1 .f32 := Host.absf main_arg10
  let main_cst_18 : FVec F S_ .f32 := constant S_ .f32 0x7F800000#32
  let main_v50 : FVec F S128x1 .f32 := broadcastInDim S128x1 ![] bcast_S_S128x1 main_cst_18
  fn_part3 (F := F) main_v48 main_v49 main_v50

def fn_part1 {F : FTy → Type} [FloatOps F] (main_arg4 : FVec F S3x30000x1 .f32) (main_arg5 : FVec F S3x128x128 .f32) (main_arg6 : FVec F S3x64x64 .f32) (main_arg7 : FVec F S64x64 .f32) (main_arg8 : FVec F S64x128 .f32) (main_arg9 : FVec F S64x128 .f32) (main_arg10 : FVec F S128x1 .f32) (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  let main_v19 : FVec F S3x30000x1 .f32 := Host.absf main_arg4
  let main_cst_6 : FVec F S_ .f32 := constant S_ .f32 0x7F800000#32
  let main_v20 : FVec F S3x30000x1 .f32 := broadcastInDim S3x30000x1 ![] bcast_S_S3x30000x1 main_cst_6
  let main_v21 : IVec S3x30000x1 1 := cmpf .olt main_v19 main_v20
  let main_c_7 : IVec S_ 1 := constantI S_ 1 1#1
  let main_v22 : IVec S_ 1 := (fun x v => Host.reduce IntOp.andi x v reducesTo_S3x30000x1_S_d0_1_2 h_S_) main_v21 main_c_7
  let main_v23 : IVec S_ 1 := andi main_v18 main_v22
  let main_v24 : FVec F S3x128x128 .f32 := Host.absf main_arg5
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x64x64 .f32 := Host.absf main_arg6
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x64 .f32) (main_arg1 : FVec F S30000x64 .f32) (main_arg2 : FVec F S100000x3 .f32) (main_arg3 : FVec F S3 .f32) (main_arg4 : FVec F S3x30000x1 .f32) (main_arg5 : FVec F S3x128x128 .f32) (main_arg6 : FVec F S3x64x64 .f32) (main_arg7 : FVec F S64x64 .f32) (main_arg8 : FVec F S64x128 .f32) (main_arg9 : FVec F S64x128 .f32) (main_arg10 : FVec F S128x1 .f32) (main_arg11 : IVec S3x500000 32) (main_arg12 : IVec S3x500000 32) (main_arg13 : IVec S3x400000 32) (main_arg14 : IVec S3x400000 32) (main_arg15 : IVec S1000000 32) (main_arg16 : IVec S1000000 32) (main_arg17 : IVec S2048x1 32) (main_arg18 : IVec S2048x20 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S30000x64 .f32 := Host.absf main_arg1
  let main_cst_0 : FVec F S_ .f32 := constant S_ .f32 0x7F800000#32
  let main_v5 : FVec F S30000x64 .f32 := broadcastInDim S30000x64 ![] bcast_S_S30000x64 main_cst_0
  let main_v6 : IVec S30000x64 1 := cmpf .olt main_v4 main_v5
  let main_c_1 : IVec S_ 1 := constantI S_ 1 1#1
  let main_v7 : IVec S_ 1 := (fun x v => Host.reduce IntOp.andi x v reducesTo_S30000x64_S_d0_1 h_S_) main_v6 main_c_1
  let main_v8 : IVec S_ 1 := andi main_v3 main_v7
  let main_v9 : FVec F S100000x3 .f32 := Host.absf main_arg2
  let main_cst_2 : FVec F S_ .f32 := constant S_ .f32 0x7F800000#32
  let main_v10 : FVec F S100000x3 .f32 := broadcastInDim S100000x3 ![] bcast_S_S100000x3 main_cst_2
  let main_v11 : IVec S100000x3 1 := cmpf .olt main_v9 main_v10
  let main_c_3 : IVec S_ 1 := constantI S_ 1 1#1
  let main_v12 : IVec S_ 1 := (fun x v => Host.reduce IntOp.andi x v reducesTo_S100000x3_S_d0_1 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_arg4 main_arg5 main_arg6 main_arg7 main_arg8 main_arg9 main_arg10 main_v13 main_v16
-- ==== Kernel.lean ====
abbrev S100000x64 : Shape := ⟨2, ![100000, 64]⟩
abbrev S30000x64 : Shape := ⟨2, ![30000, 64]⟩
abbrev S100000x3 : Shape := ⟨2, ![100000, 3]⟩
abbrev S3 : Shape := ⟨1, ![3]⟩
abbrev S3x30000x1 : Shape := ⟨3, ![3, 30000, 1]⟩
abbrev S3x128x128 : Shape := ⟨3, ![3, 128, 128]⟩
abbrev S3x64x64 : Shape := ⟨3, ![3, 64, 64]⟩
abbrev S64x64 : Shape := ⟨2, ![64, 64]⟩
abbrev S64x128 : Shape := ⟨2, ![64, 128]⟩
abbrev S128x1 : Shape := ⟨2, ![128, 1]⟩
abbrev S3x500000 : Shape := ⟨2, ![3, 500000]⟩
abbrev S3x400000 : Shape := ⟨2, ![3, 400000]⟩
abbrev S1000000 : Shape := ⟨1, ![1000000]⟩
abbrev S2048x1 : Shape := ⟨2, ![2048, 1]⟩
abbrev S2048x20 : Shape := ⟨2, ![2048, 20]⟩
abbrev S3x1 : Shape := ⟨2, ![3, 1]⟩
abbrev S100000x1 : Shape := ⟨2, ![100000, 1]⟩
abbrev S1x3 : Shape := ⟨2, ![1, 3]⟩
abbrev S_ : Shape := ⟨0, ![]⟩
abbrev S1x400000 : Shape := ⟨2, ![1, 400000]⟩
abbrev S400000 : Shape := ⟨1, ![400000]⟩
abbrev S400000x1 : Shape := ⟨2, ![400000, 1]⟩
abbrev S400000x64 : Shape := ⟨2, ![400000, 64]⟩
abbrev S1x30000x64 : Shape := ⟨3, ![1, 30000, 64]⟩
abbrev S3x30000x64 : Shape := ⟨3, ![3, 30000, 64]⟩
abbrev S3x2000x64 : Shape := ⟨3, ![3, 2000, 64]⟩
abbrev S3x2000x1 : Shape := ⟨3, ![3, 2000, 1]⟩
abbrev S3x30000x128 : Shape := ⟨3, ![3, 30000, 128]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩
abbrev S1x100000x64 : Shape := ⟨3, ![1, 100000, 64]⟩
abbrev S3x100000x64 : Shape := ⟨3, ![3, 100000, 64]⟩
abbrev S1x30000x128 : Shape := ⟨3, ![1, 30000, 128]⟩
abbrev S30000x128 : Shape := ⟨2, ![30000, 128]⟩
abbrev S500000x128 : Shape := ⟨2, ![500000, 128]⟩
abbrev S100000x128 : Shape := ⟨2, ![100000, 128]⟩
abbrev S1x100000x128 : Shape := ⟨3, ![1, 100000, 128]⟩
abbrev S3x100000x128 : Shape := ⟨3, ![3, 100000, 128]⟩
abbrev S3x100000 : Shape := ⟨2, ![3, 100000]⟩
abbrev S3x100000x1 : Shape := ⟨3, ![3, 100000, 1]⟩
abbrev S3x2000x128 : Shape := ⟨3, ![3, 2000, 128]⟩
abbrev S2048x20x1 : Shape := ⟨3, ![2048, 20, 1]⟩
abbrev S3x2048x20x128 : Shape := ⟨4, ![3, 2048, 20, 128]⟩
abbrev S2048 : Shape := ⟨1, ![2048]⟩
abbrev S3x2048x128 : Shape := ⟨3, ![3, 2048, 128]⟩
abbrev S3x2048x1x128 : Shape := ⟨4, ![3, 2048, 1, 128]⟩
abbrev S3x2048x20 : Shape := ⟨3, ![3, 2048, 20]⟩
abbrev S1000000x1 : Shape := ⟨2, ![1000000, 1]⟩
abbrev S1000000x64 : Shape := ⟨2, ![1000000, 64]⟩
abbrev S64x192 : Shape := ⟨2, ![64, 192]⟩
abbrev S100000x192 : Shape := ⟨2, ![100000, 192]⟩
abbrev S5000x64 : Shape := ⟨2, ![5000, 64]⟩
abbrev S5000x192 : Shape := ⟨2, ![5000, 192]⟩
abbrev S30000x192 : Shape := ⟨2, ![30000, 192]⟩
abbrev S2048x128 : Shape := ⟨2, ![2048, 128]⟩
abbrev S2048x1x128 : Shape := ⟨3, ![2048, 1, 128]⟩
abbrev S2048x20x128 : Shape := ⟨3, ![2048, 20, 128]⟩
abbrev S5000x128 : Shape := ⟨2, ![5000, 128]⟩
abbrev S5000x1 : Shape := ⟨2, ![5000, 1]⟩

abbrev nBuf : Space → Nat
  | .hbm => 332
  | .vmem => 27
  | .smem => 0
  | _ => 0

abbrev hbmTy0_0 (i : Nat) : BufTy := match i % 128 with
  | 0 => ⟨S100000x64, .f32⟩
  | 1 => ⟨S30000x64, .f32⟩
  | 2 => ⟨S100000x3, .f32⟩
  | 3 => ⟨S3, .f32⟩
  | 4 => ⟨S3x30000x1, .f32⟩
  | 5 => ⟨S3x128x128, .f32⟩
  | 6 => ⟨S3x64x64, .f32⟩
  | 7 => ⟨S64x64, .f32⟩
  | 8 => ⟨S64x128, .f32⟩
  | 9 => ⟨S64x128, .f32⟩
  | 10 => ⟨S128x1, .f32⟩
  | 11 => ⟨S3x500000, .i32⟩
  | 12 => ⟨S3x500000, .i32⟩
  | 13 => ⟨S3x400000, .i32⟩
  | 14 => ⟨S3x400000, .i32⟩
  | 15 => ⟨S1000000, .i32⟩
  | 16 => ⟨S1000000, .i32⟩
  | 17 => ⟨S2048x1, .i32⟩
  | 18 => ⟨S2048x20, .i32⟩
  | 19 => ⟨S3x1, .f32⟩
  | 20 => ⟨S100000x1, .f32⟩
  | 21 => ⟨S1x3, .f32⟩
  | 22 => ⟨S100000x3, .f32⟩
  | 23 => ⟨S100000x3, .f32⟩
  | 24 => ⟨S_, .f32⟩
  | 25 => ⟨S100000x1, .f32⟩
  | 26 => ⟨S100000x1, .f32⟩
  | 27 => ⟨S100000x3, .f32⟩
  | 28 => ⟨S100000x3, .f32⟩
  | 29 => ⟨S1x400000, .i32⟩
  | 30 => ⟨S400000, .i32⟩
  | 31 => ⟨S_, .i32⟩
  | 32 => ⟨S400000, .i32⟩
  | 33 => ⟨S400000, .i1⟩
  | 34 => ⟨S_, .i32⟩
  | 35 => ⟨S400000, .i32⟩
  | 36 => ⟨S400000, .i32⟩
  | 37 => ⟨S400000, .i32⟩
  | 38 => ⟨S400000x1, .i32⟩
  | 39 => ⟨S400000x64, .f32⟩
  | 40 => ⟨S1x400000, .i32⟩
  | 41 => ⟨S400000, .i32⟩
  | 42 => ⟨S_, .f32⟩
  | 43 => ⟨S30000x64, .f32⟩
  | 44 => ⟨S400000x1, .i32⟩
  | 45 => ⟨S30000x64, .f32⟩
  | 46 => ⟨S1x400000, .i32⟩
  | 47 => ⟨S400000, .i32⟩
  | 48 => ⟨S_, .i32⟩
  | 49 => ⟨S400000, .i32⟩
  | 50 => ⟨S400000, .i1⟩
  | 51 => ⟨S_, .i32⟩
  | 52 => ⟨S400000, .i32⟩
  | 53 => ⟨S400000, .i32⟩
  | 54 => ⟨S400000, .i32⟩
  | 55 => ⟨S400000x1, .i32⟩
  | 56 => ⟨S400000x64, .f32⟩
  | 57 => ⟨S1x400000, .i32⟩
  | 58 => ⟨S400000, .i32⟩
  | 59 => ⟨S_, .f32⟩
  | 60 => ⟨S30000x64, .f32⟩
  | 61 => ⟨S400000x1, .i32⟩
  | 62 => ⟨S30000x64, .f32⟩
  | 63 => ⟨S1x400000, .i32⟩
  | 64 => ⟨S400000, .i32⟩
  | 65 => ⟨S_, .i32⟩
  | 66 => ⟨S400000, .i32⟩
  | 67 => ⟨S400000, .i1⟩
  | 68 => ⟨S_, .i32⟩
  | 69 => ⟨S400000, .i32⟩
  | 70 => ⟨S400000, .i32⟩
  | 71 => ⟨S400000, .i32⟩
  | 72 => ⟨S400000x1, .i32⟩
  | 73 => ⟨S400000x64, .f32⟩
  | 74 => ⟨S1x400000, .i32⟩
  | 75 => ⟨S400000, .i32⟩
  | 76 => ⟨S_, .f32⟩
  | 77 => ⟨S30000x64, .f32⟩
  | 78 => ⟨S400000x1, .i32⟩
  | 79 => ⟨S30000x64, .f32⟩
  | 80 => ⟨S1x30000x64, .f32⟩
  | 81 => ⟨S1x30000x64, .f32⟩
  | 82 => ⟨S1x30000x64, .f32⟩
  | 83 => ⟨S3x30000x64, .f32⟩
  | 84 => ⟨S3x30000x64, .f32⟩
  | 85 => ⟨S1x30000x64, .f32⟩
  | 86 => ⟨S3x30000x64, .f32⟩
  | 87 => ⟨S3x30000x128, .f32⟩
  | 88 => ⟨S1x500000, .i32⟩
  | 89 => ⟨S500000, .i32⟩
  | 90 => ⟨S_, .i32⟩
  | 91 => ⟨S500000, .i32⟩
  | 92 => ⟨S500000, .i1⟩
  | 93 => ⟨S_, .i32⟩
  | 94 => ⟨S500000, .i32⟩
  | 95 => ⟨S500000, .i32⟩
  | 96 => ⟨S500000, .i32⟩
  | 97 => ⟨S500000x1, .i32⟩
  | 98 => ⟨S500000x64, .f32⟩
  | 99 => ⟨S1x500000, .i32⟩
  | 100 => ⟨S500000, .i32⟩
  | 101 => ⟨S_, .f32⟩
  | 102 => ⟨S100000x64, .f32⟩
  | 103 => ⟨S500000x1, .i32⟩
  | 104 => ⟨S100000x64, .f32⟩
  | 105 => ⟨S1x500000, .i32⟩
  | 106 => ⟨S500000, .i32⟩
  | 107 => ⟨S_, .i32⟩
  | 108 => ⟨S500000, .i32⟩
  | 109 => ⟨S500000, .i1⟩
  | 110 => ⟨S_, .i32⟩
  | 111 => ⟨S500000, .i32⟩
  | 112 => ⟨S500000, .i32⟩
  | 113 => ⟨S500000, .i32⟩
  | 114 => ⟨S500000x1, .i32⟩
  | 115 => ⟨S500000x64, .f32⟩
  | 116 => ⟨S1x500000, .i32⟩
  | 117 => ⟨S500000, .i32⟩
  | 118 => ⟨S_, .f32⟩
  | 119 => ⟨S100000x64, .f32⟩
  | 120 => ⟨S500000x1, .i32⟩
  | 121 => ⟨S100000x64, .f32⟩
  | 122 => ⟨S1x500000, .i32⟩
  | 123 => ⟨S500000, .i32⟩
  | 124 => ⟨S_, .i32⟩
  | 125 => ⟨S500000, .i32⟩
  | 126 => ⟨S500000, .i1⟩
  | 127 => ⟨S_, .i32⟩
  | _ => ⟨S100000x64, .f32⟩

abbrev hbmTy0_1 (i : Nat) : BufTy := match i % 128 with
  | 0 => ⟨S500000, .i32⟩
  | 1 => ⟨S500000, .i32⟩
  | 2 => ⟨S500000, .i32⟩
  | 3 => ⟨S500000x1, .i32⟩
  | 4 => ⟨S500000x64, .f32⟩
  | 5 => ⟨S1x500000, .i32⟩
  | 6 => ⟨S500000, .i32⟩
  | 7 => ⟨S_, .f32⟩
  | 8 => ⟨S100000x64, .f32⟩
  | 9 => ⟨S500000x1, .i32⟩
  | 10 => ⟨S100000x64, .f32⟩
  | 11 => ⟨S1x100000x64, .f32⟩
  | 12 => ⟨S1x100000x64, .f32⟩
  | 13 => ⟨S1x100000x64, .f32⟩
  | 14 => ⟨S3x100000x64, .f32⟩
  | 15 => ⟨S1x30000x128, .f32⟩
  | 16 => ⟨S30000x128, .f32⟩
  | 17 => ⟨S1x500000, .i32⟩
  | 18 => ⟨S500000, .i32⟩
  | 19 => ⟨S_, .i32⟩
  | 20 => ⟨S500000, .i32⟩
  | 21 => ⟨S500000, .i1⟩
  | 22 => ⟨S_, .i32⟩
  | 23 => ⟨S500000, .i32⟩
  | 24 => ⟨S500000, .i32⟩
  | 25 => ⟨S500000, .i32⟩
  | 26 => ⟨S500000x1, .i32⟩
  | 27 => ⟨S500000x128, .f32⟩
  | 28 => ⟨S1x500000, .i32⟩
  | 29 => ⟨S500000, .i32⟩
  | 30 => ⟨S_, .f32⟩
  | 31 => ⟨S100000x128, .f32⟩
  | 32 => ⟨S500000x1, .i32⟩
  | 33 => ⟨S100000x128, .f32⟩
  | 34 => ⟨S1x30000x128, .f32⟩
  | 35 => ⟨S30000x128, .f32⟩
  | 36 => ⟨S1x500000, .i32⟩
  | 37 => ⟨S500000, .i32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S500000x128, .f32⟩
  | 47 => ⟨S1x500000, .i32⟩
  | 48 => ⟨S500000, .i32⟩
  | 49 => ⟨S_, .f32⟩
  | 50 => ⟨S100000x128, .f32⟩
  | 51 => ⟨S500000x1, .i32⟩
  | 52 => ⟨S100000x128, .f32⟩
  | 53 => ⟨S1x30000x128, .f32⟩
  | 54 => ⟨S30000x128, .f32⟩
  | 55 => ⟨S1x500000, .i32⟩
  | 56 => ⟨S500000, .i32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S500000x1, .i32⟩
  | 65 => ⟨S500000x128, .f32⟩
  | 66 => ⟨S1x500000, .i32⟩
  | 67 => ⟨S500000, .i32⟩
  | 68 => ⟨S_, .f32⟩
  | 69 => ⟨S100000x128, .f32⟩
  | 70 => ⟨S500000x1, .i32⟩
  | 71 => ⟨S100000x128, .f32⟩
  | 72 => ⟨S1x100000x128, .f32⟩
  | 73 => ⟨S1x100000x128, .f32⟩
  | 74 => ⟨S1x100000x128, .f32⟩
  | 75 => ⟨S3x100000x128, .f32⟩
  | 76 => ⟨S3x100000, .f32⟩
  | 77 => ⟨S3x100000x1, .f32⟩
  | 78 => ⟨S_, .f32⟩
  | 79 => ⟨S3x100000x1, .f32⟩
  | 80 => ⟨S3x100000x1, .f32⟩
  | 81 => ⟨S3x100000x64, .f32⟩
  | 82 => ⟨S3x100000x64, .f32⟩
  | 83 => ⟨S3x100000x128, .f32⟩
  | 84 => ⟨S3x100000x128, .f32⟩
  | 85 => ⟨S3x100000, .f32⟩
  | 86 => ⟨S3x100000x1, .f32⟩
  | 87 => ⟨S3x100000x64, .f32⟩
  | 88 => ⟨S3x100000x64, .f32⟩
  | 89 => ⟨S_, .f32⟩
  | 90 => ⟨S100000x64, .f32⟩
  | 91 => ⟨S3x100000x128, .f32⟩
  | 92 => ⟨S_, .i32⟩
  | 93 => ⟨S2048x20, .i32⟩
  | 94 => ⟨S2048x20, .i1⟩
  | 95 => ⟨S_, .i32⟩
  | 96 => ⟨S2048x20, .i32⟩
  | 97 => ⟨S2048x20, .i32⟩
  | 98 => ⟨S2048x20, .i32⟩
  | 99 => ⟨S2048x20x1, .i32⟩
  | 100 => ⟨S3x2048x20x128, .f32⟩
  | 101 => ⟨S2048, .i32⟩
  | 102 => ⟨S_, .i32⟩
  | 103 => ⟨S2048, .i32⟩
  | 104 => ⟨S2048, .i1⟩
  | 105 => ⟨S_, .i32⟩
  | 106 => ⟨S2048, .i32⟩
  | 107 => ⟨S2048, .i32⟩
  | 108 => ⟨S2048, .i32⟩
  | 109 => ⟨S2048x1, .i32⟩
  | 110 => ⟨S3x2048x128, .f32⟩
  | 111 => ⟨S3x2048x1x128, .f32⟩
  | 112 => ⟨S3x2048x20x128, .f32⟩
  | 113 => ⟨S3x2048x20x128, .f32⟩
  | 114 => ⟨S_, .f32⟩
  | 115 => ⟨S3x2048x20, .f32⟩
  | 116 => ⟨S_, .f32⟩
  | 117 => ⟨S2048x20, .f32⟩
  | 118 => ⟨S_, .f32⟩
  | 119 => ⟨S2048x20, .f32⟩
  | 120 => ⟨S2048x20, .f32⟩
  | 121 => ⟨S_, .i32⟩
  | 122 => ⟨S1000000, .i32⟩
  | 123 => ⟨S1000000, .i1⟩
  | 124 => ⟨S_, .i32⟩
  | 125 => ⟨S1000000, .i32⟩
  | 126 => ⟨S1000000, .i32⟩
  | 127 => ⟨S1000000, .i32⟩
  | _ => ⟨S100000x64, .f32⟩

abbrev hbmTy0_2 (i : Nat) : BufTy := match i % 128 with
  | 0 => ⟨S1000000x1, .i32⟩
  | 1 => ⟨S1000000x64, .f32⟩
  | 2 => ⟨S_, .f32⟩
  | 3 => ⟨S30000x64, .f32⟩
  | 4 => ⟨S1000000x1, .i32⟩
  | 5 => ⟨S30000x64, .f32⟩
  | 6 => ⟨S64x192, .f32⟩
  | 7 => ⟨S100000x192, .f32⟩
  | 8 => ⟨S100000x64, .f32⟩
  | 9 => ⟨S100000x128, .f32⟩
  | 10 => ⟨S100000x128, .f32⟩
  | 11 => ⟨S100000x128, .f32⟩
  | 12 => ⟨S64x192, .f32⟩
  | 13 => ⟨S30000x192, .f32⟩
  | 14 => ⟨S30000x64, .f32⟩
  | 15 => ⟨S30000x128, .f32⟩
  | 16 => ⟨S30000x128, .f32⟩
  | 17 => ⟨S30000x128, .f32⟩
  | 18 => ⟨S_, .i32⟩
  | 19 => ⟨S2048, .i32⟩
  | 20 => ⟨S2048, .i1⟩
  | 21 => ⟨S_, .i32⟩
  | 22 => ⟨S2048, .i32⟩
  | 23 => ⟨S2048, .i32⟩
  | 24 => ⟨S2048, .i32⟩
  | 25 => ⟨S2048x1, .i32⟩
  | 26 => ⟨S2048x128, .f32⟩
  | 27 => ⟨S2048x1x128, .f32⟩
  | 28 => ⟨S2048x20x128, .f32⟩
  | 29 => ⟨S_, .i32⟩
  | 30 => ⟨S2048x20, .i32⟩
  | 31 => ⟨S2048x20, .i1⟩
  | 32 => ⟨S_, .i32⟩
  | 33 => ⟨S2048x20, .i32⟩
  | 34 => ⟨S2048x20, .i32⟩
  | 35 => ⟨S2048x20, .i32⟩
  | 36 => ⟨S2048x20x1, .i32⟩
  | 37 => ⟨S2048x20x128, .f32⟩
  | 38 => ⟨S2048x20x128, .f32⟩
  | 39 => ⟨S_, .f32⟩
  | 40 => ⟨S2048x20, .f32⟩
  | 41 => ⟨S100000x1, .f32⟩
  | 42 => ⟨S_, .i32⟩
  | 43 => ⟨S2048, .i32⟩
  | 44 => ⟨S2048, .i1⟩
  | 45 => ⟨S_, .i32⟩
  | 46 => ⟨S2048, .i32⟩
  | 47 => ⟨S2048, .i32⟩
  | 48 => ⟨S2048, .i32⟩
  | 49 => ⟨S2048x1, .i32⟩
  | 50 => ⟨S2048x1, .f32⟩
  | 51 => ⟨S2048x1, .f32⟩
  | 52 => ⟨S2048x1, .f32⟩
  | 53 => ⟨S_, .f32⟩
  | 54 => ⟨S2048x1, .f32⟩
  | 55 => ⟨S2048x1, .f32⟩
  | 56 => ⟨S_, .f32⟩
  | 57 => ⟨S2048x1, .f32⟩
  | 58 => ⟨S2048x1, .f32⟩
  | 59 => ⟨S2048x20, .f32⟩
  | 60 => ⟨S2048x20, .f32⟩
  | 61 => ⟨S_, .f32⟩
  | 62 => ⟨S2048x1, .f32⟩
  | 63 => ⟨S2048x1, .f32⟩
  | 64 => ⟨S2048x20, .f32⟩
  | 65 => ⟨S2048x20, .f32⟩
  | 66 => ⟨S2048x20, .f32⟩
  | 67 => ⟨S2048x20x128, .f32⟩
  | 68 => ⟨S_, .f32⟩
  | 69 => ⟨S_, .f32⟩
  | 70 => ⟨S2048x20x128, .f32⟩
  | 71 => ⟨S_, .f32⟩
  | 72 => ⟨S_, .f32⟩
  | 73 => ⟨S_, .f32⟩
  | 74 => ⟨S_, .f32⟩
  | 75 => ⟨S_, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | .local _ .vmem, ⟨0, _⟩ => ⟨S3x2000x64, .f32⟩
  | .local _ .vmem, ⟨1, _⟩ => ⟨S3x2000x64, .f32⟩
  | .local _ .vmem, ⟨2, _⟩ => ⟨S3x2000x1, .f32⟩
  | .local _ .vmem, ⟨3, _⟩ => ⟨S3x2000x1, .f32⟩
  | .local _ .vmem, ⟨4, _⟩ => ⟨S3x64x64, .f32⟩
  | .local _ .vmem, ⟨5, _⟩ => ⟨S3x2000x64, .f32⟩
  | .local _ .vmem, ⟨6, _⟩ => ⟨S3x2000x64, .f32⟩
  | .local _ .vmem, ⟨7, _⟩ => ⟨S3x2000x128, .f32⟩
  | .local _ .vmem, ⟨8, _⟩ => ⟨S3x2000x128, .f32⟩
  | .local _ .vmem, ⟨9, _⟩ => ⟨S3x128x128, .f32⟩
  | .local _ .vmem, ⟨10, _⟩ => ⟨S3x2000x128, .f32⟩
  | .local _ .vmem, ⟨11, _⟩ => ⟨S3x2000x128, .f32⟩
  | .local _ .vmem, ⟨12, _⟩ => ⟨S5000x64, .f32⟩
  | .local _ .vmem, ⟨13, _⟩ => ⟨S5000x64, .f32⟩
  | .local _ .vmem, ⟨14, _⟩ => ⟨S64x192, .f32⟩
  | .local _ .vmem, ⟨15, _⟩ => ⟨S5000x192, .f32⟩
  | .local _ .vmem, ⟨16, _⟩ => ⟨S5000x192, .f32⟩
  | .local _ .vmem, ⟨17, _⟩ => ⟨S5000x64, .f32⟩
  | .local _ .vmem, ⟨18, _⟩ => ⟨S5000x64, .f32⟩
  | .local _ .vmem, ⟨19, _⟩ => ⟨S64x192, .f32⟩
  | .local _ .vmem, ⟨20, _⟩ => ⟨S5000x192, .f32⟩
  | .local _ .vmem, ⟨21, _⟩ => ⟨S5000x192, .f32⟩
  | .local _ .vmem, ⟨22, _⟩ => ⟨S5000x128, .f32⟩
  | .local _ .vmem, ⟨23, _⟩ => ⟨S5000x128, .f32⟩
  | .local _ .vmem, ⟨24, _⟩ => ⟨S128x1, .f32⟩
  | .local _ .vmem, ⟨25, _⟩ => ⟨S5000x1, .f32⟩
  | .local _ .vmem, ⟨26, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_0 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_2 : Ref sig .tc := ⟨.hbm, 48, rfl⟩
abbrev main_v25 : Ref sig .tc := ⟨.hbm, 49, rfl⟩
abbrev main_v26 : Ref sig .tc := ⟨.hbm, 50, rfl⟩
abbrev main_c_3 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_4 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_5 : Ref sig .tc := ⟨.hbm, 65, rfl⟩
abbrev main_v39 : Ref sig .tc := ⟨.hbm, 66, rfl⟩
abbrev main_v40 : Ref sig .tc := ⟨.hbm, 67, rfl⟩
abbrev main_c_6 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_7 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_8 : Ref sig .tc := ⟨.hbm, 90, rfl⟩
abbrev main_v61 : Ref sig .tc := ⟨.hbm, 91, rfl⟩
abbrev main_v62 : Ref sig .tc := ⟨.hbm, 92, rfl⟩
abbrev main_c_9 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_10 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_11 : Ref sig .tc := ⟨.hbm, 107, rfl⟩
abbrev main_v75 : Ref sig .tc := ⟨.hbm, 108, rfl⟩
abbrev main_v76 : Ref sig .tc := ⟨.hbm, 109, rfl⟩
abbrev main_c_12 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_13 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_c_14 : Ref sig .tc := ⟨.hbm, 124, rfl⟩
abbrev main_v89 : Ref sig .tc := ⟨.hbm, 125, rfl⟩
abbrev main_v90 : Ref sig .tc := ⟨.hbm, 126, rfl⟩
abbrev main_c_15 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_16 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_c_17 : Ref sig .tc := ⟨.hbm, 147, rfl⟩
abbrev main_v109 : Ref sig .tc := ⟨.hbm, 148, rfl⟩
abbrev main_v110 : Ref sig .tc := ⟨.hbm, 149, rfl⟩
abbrev main_c_18 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_19 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_c_20 : Ref sig .tc := ⟨.hbm, 166, rfl⟩
abbrev main_v125 : Ref sig .tc := ⟨.hbm, 167, rfl⟩
abbrev main_v126 : Ref sig .tc := ⟨.hbm, 168, rfl⟩
abbrev main_c_21 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_cst_22 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_c_23 : Ref sig .tc := ⟨.hbm, 185, rfl⟩
abbrev main_v141 : Ref sig .tc := ⟨.hbm, 186, rfl⟩
abbrev main_v142 : Ref sig .tc := ⟨.hbm, 187, rfl⟩
abbrev main_c_24 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_cst_25 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_cst_26 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_cst_27 : Ref sig .tc := ⟨.hbm, 217, rfl⟩
abbrev main_v169 : Ref sig .tc := ⟨.hbm, 218, rfl⟩
abbrev main_v170 : Ref sig .tc := ⟨.hbm, 219, rfl⟩
abbrev main_c_28 : Ref sig .tc := ⟨.hbm, 220, rfl⟩
abbrev main_v171 : Ref sig .tc := ⟨.hbm, 221, rfl⟩
abbrev main_v172 : Ref sig .tc := ⟨.hbm, 222, rfl⟩
abbrev main_c_29 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_c_30 : Ref sig .tc := ⟨.hbm, 230, rfl⟩
abbrev main_v179 : Ref sig .tc := ⟨.hbm, 231, rfl⟩
abbrev main_v180 : Ref sig .tc := ⟨.hbm, 232, rfl⟩
abbrev main_c_31 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_cst_32 : Ref sig .tc := ⟨.hbm, 242, rfl⟩
abbrev main_v189 : Ref sig .tc := ⟨.hbm, 243, rfl⟩
abbrev main_cst_33 : Ref sig .tc := ⟨.hbm, 244, rfl⟩
abbrev main_v190 : Ref sig .tc := ⟨.hbm, 245, rfl⟩
abbrev main_cst_34 : Ref sig .tc := ⟨.hbm, 246, rfl⟩
abbrev main_v191 : Ref sig .tc := ⟨.hbm, 247, rfl⟩
abbrev main_v192 : Ref sig .tc := ⟨.hbm, 248, rfl⟩
abbrev main_c_35 : Ref sig .tc := ⟨.hbm, 249, rfl⟩
abbrev main_v193 : Ref sig .tc := ⟨.hbm, 250, rfl⟩
abbrev main_v194 : Ref sig .tc := ⟨.hbm, 251, rfl⟩
abbrev main_c_36 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_cst_37 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_c_38 : Ref sig .tc := ⟨.hbm, 274, rfl⟩
abbrev main_v215 : Ref sig .tc := ⟨.hbm, 275, rfl⟩
abbrev main_v216 : Ref sig .tc := ⟨.hbm, 276, rfl⟩
abbrev main_c_39 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_c_40 : Ref sig .tc := ⟨.hbm, 285, rfl⟩
abbrev main_v224 : Ref sig .tc := ⟨.hbm, 286, rfl⟩
abbrev main_v225 : Ref sig .tc := ⟨.hbm, 287, rfl⟩
abbrev main_c_41 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_cst_42 : Ref sig .tc := ⟨.hbm, 295, rfl⟩
abbrev main_v232 : Ref sig .tc := ⟨.hbm, 296, rfl⟩
abbrev main_v233 : Ref sig .tc := ⟨.hbm, 297, rfl⟩
abbrev main_c_43 : Ref sig .tc := ⟨.hbm, 298, rfl⟩
abbrev main_v234 : Ref sig .tc := ⟨.hbm, 299, rfl⟩
abbrev main_v235 : Ref sig .tc := ⟨.hbm, 300, rfl⟩
abbrev main_c_44 : Ref sig .tc := ⟨.hbm, 301, rfl⟩
abbrev main_v236 : Ref sig .tc := ⟨.hbm, 302, rfl⟩
abbrev main_v237 : Ref sig .tc := ⟨.hbm, 303, rfl⟩
abbrev main_v238 : Ref sig .tc := ⟨.hbm, 304, rfl⟩
abbrev main_v239 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_cst_45 : Ref sig .tc := ⟨.hbm, 309, rfl⟩
abbrev main_v243 : Ref sig .tc := ⟨.hbm, 310, rfl⟩
abbrev main_v244 : Ref sig .tc := ⟨.hbm, 311, rfl⟩
abbrev main_cst_46 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_v248 : Ref sig .tc := ⟨.hbm, 316, rfl⟩
abbrev main_cst_47 : Ref sig .tc := ⟨.hbm, 317, rfl⟩
abbrev main_v249 : Ref sig .tc := ⟨.hbm, 318, rfl⟩
abbrev main_v250 : Ref sig .tc := ⟨.hbm, 319, rfl⟩
abbrev main_v251 : Ref sig .tc := ⟨.hbm, 320, rfl⟩
abbrev main_v252 : Ref sig .tc := ⟨.hbm, 321, rfl⟩
abbrev main_v253 : Ref sig .tc := ⟨.hbm, 322, rfl⟩
abbrev main_v254 : Ref sig .tc := ⟨.hbm, 323, rfl⟩
abbrev main_cst_48 : Ref sig .tc := ⟨.hbm, 324, rfl⟩
abbrev main_v255 : Ref sig .tc := ⟨.hbm, 325, rfl⟩
abbrev main_v256 : Ref sig .tc := ⟨.hbm, 326, rfl⟩
abbrev main_cst_49 : Ref sig .tc := ⟨.hbm, 327, rfl⟩
abbrev main_v257 : Ref sig .tc := ⟨.hbm, 328, rfl⟩
abbrev main_v258 : Ref sig .tc := ⟨.hbm, 329, rfl⟩
abbrev main_cst_50 : Ref sig .tc := ⟨.hbm, 330, rfl⟩
abbrev main_v259 : Ref sig .tc := ⟨.hbm, 331, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26

abbrev nD : Nat := 1
abbrev τ : Topo := Topo.v7x

variable {F : FTy → Type} [FloatOps F]

abbrev grid0 : Pipeline.Grid := ⟨1, ![15], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S3x2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S3x2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S3x2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![6], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x192 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x192 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  bcast_S3_S3x1_0 : S3.BroadcastsInDim S3x1 (![0] : Fin 1 → Fin S3x1.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  bcast_S_S100000x1 : S_.BroadcastsInDim S100000x1 (![] : Fin 0 → Fin S100000x1.rank)
  bcast_S100000x1_S100000x3_0_1 : S100000x1.BroadcastsInDim S100000x3 (![0, 1] : Fin 2 → Fin S100000x3.rank)
  slices_S3x400000_S1x400000_0_0 : S3x400000.Slices ![0, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  bcast_S_S30000x64 : S_.BroadcastsInDim S30000x64 (![] : Fin 0 → Fin S30000x64.rank)
  slices_S3x400000_S1x400000_1_0 : S3x400000.Slices ![1, 0] S1x400000
  slices_S3x400000_S1x400000_2_0 : S3x400000.Slices ![2, 0] S1x400000
  bcast_S30000x64_S1x30000x64_1_2 : S30000x64.BroadcastsInDim S1x30000x64 (![1, 2] : Fin 2 → Fin S1x30000x64.rank)
  concatenates_S1x30000x64_S1x30000x64_S1x30000x64_S3x30000x64_d0 : Shape.Concatenates [S1x30000x64, S1x30000x64, S1x30000x64] S3x30000x64 0
  inb_S3x2000x64_S3x2000x64_0_0_0 : ∀ a, (![0, 0, 0] : Fin 3 → Nat) a + S3x2000x64.size a ≤ S3x2000x64.size a
  h_S3x2000x64 : 0 < S3x2000x64.numel
  shapeCasts_S3x2000x64_S3x2000x64 : S3x2000x64.ShapeCasts S3x2000x64
  inb_S3x2000x1_S3x2000x1_0_0_0 : ∀ a, (![0, 0, 0] : Fin 3 → Nat) a + S3x2000x1.size a ≤ S3x2000x1.size a
  h_S3x2000x1 : 0 < S3x2000x1.numel
  broadcasts_S3x2000x1_S3x2000x64 : S3x2000x1.Broadcasts S3x2000x64
  bitsLt_bf16_f32 : FTy.bits .bf16 < FTy.bits .f32
  inb_S3x64x64_S3x64x64_0_0_0 : ∀ a, (![0, 0, 0] : Fin 3 → Nat) a + S3x64x64.size a ≤ S3x64x64.size a
  h_S3x64x64 : 0 < S3x64x64.numel
  bcast_S1x30000x64_S3x30000x64_0_1_2 : S1x30000x64.BroadcastsInDim S3x30000x64 (![0, 1, 2] : Fin 3 → Fin S3x30000x64.rank)
  concatenates_S3x30000x64_S3x30000x64_S3x30000x128_d2 : Shape.Concatenates [S3x30000x64, S3x30000x64] S3x30000x128 2
  slices_S3x500000_S1x500000_0_0 : S3x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  bcast_S_S100000x64 : S_.BroadcastsInDim S100000x64 (![] : Fin 0 → Fin S100000x64.rank)
  slices_S3x500000_S1x500000_1_0 : S3x500000.Slices ![1, 0] S1x500000
  slices_S3x500000_S1x500000_2_0 : S3x500000.Slices ![2, 0] S1x500000
  bcast_S100000x64_S1x100000x64_1_2 : S100000x64.BroadcastsInDim S1x100000x64 (![1, 2] : Fin 2 → Fin S1x100000x64.rank)
  concatenates_S1x100000x64_S1x100000x64_S1x100000x64_S3x100000x64_d0 : Shape.Concatenates [S1x100000x64, S1x100000x64, S1x100000x64] S3x100000x64 0
  slices_S3x30000x128_S1x30000x128_0_0_0 : S3x30000x128.Slices ![0, 0, 0] S1x30000x128
  shapeCasts_S1x30000x128_S30000x128 : S1x30000x128.ShapeCasts S30000x128
  bcast_S_S100000x128 : S_.BroadcastsInDim S100000x128 (![] : Fin 0 → Fin S100000x128.rank)
  slices_S3x30000x128_S1x30000x128_1_0_0 : S3x30000x128.Slices ![1, 0, 0] S1x30000x128
  slices_S3x30000x128_S1x30000x128_2_0_0 : S3x30000x128.Slices ![2, 0, 0] S1x30000x128
  bcast_S100000x128_S1x100000x128_1_2 : S100000x128.BroadcastsInDim S1x100000x128 (![1, 2] : Fin 2 → Fin S1x100000x128.rank)
  concatenates_S1x100000x128_S1x100000x128_S1x100000x128_S3x100000x128_d0 : Shape.Concatenates [S1x100000x128, S1x100000x128, S1x100000x128] S3x100000x128 0
  transposes_S100000x3_S3x100000_1_0 : S100000x3.Transposes [1, 0] S3x100000
  bcast_S3x100000_S3x100000x1_0_1 : S3x100000.BroadcastsInDim S3x100000x1 (![0, 1] : Fin 2 → Fin S3x100000x1.rank)
  bcast_S_S3x100000x1 : S_.BroadcastsInDim S3x100000x1 (![] : Fin 0 → Fin S3x100000x1.rank)
  bcast_S3x100000x1_S3x100000x64_0_1_2 : S3x100000x1.BroadcastsInDim S3x100000x64 (![0, 1, 2] : Fin 3 → Fin S3x100000x64.rank)
  bcast_S3x100000x1_S3x100000x128_0_1_2 : S3x100000x1.BroadcastsInDim S3x100000x128 (![0, 1, 2] : Fin 3 → Fin S3x100000x128.rank)
  reducesTo_S3x100000x64_S100000x64_d0 : S3x100000x64.ReducesTo [0] S100000x64
  h_S_ : 0 < S_.numel
  inb_S3x2000x128_S3x2000x128_0_0_0 : ∀ a, (![0, 0, 0] : Fin 3 → Nat) a + S3x2000x128.size a ≤ S3x2000x128.size a
  h_S3x2000x128 : 0 < S3x2000x128.numel
  shapeCasts_S3x2000x128_S3x2000x128 : S3x2000x128.ShapeCasts S3x2000x128
  inb_S3x128x128_S3x128x128_0_0_0 : ∀ a, (![0, 0, 0] : Fin 3 → Nat) a + S3x128x128.size a ≤ S3x128x128.size a
  h_S3x128x128 : 0 < S3x128x128.numel
  bcast_S_S2048x20 : S_.BroadcastsInDim S2048x20 (![] : Fin 0 → Fin S2048x20.rank)
  bcast_S2048x20_S2048x20x1_0_1 : S2048x20.BroadcastsInDim S2048x20x1 (![0, 1] : Fin 2 → Fin S2048x20x1.rank)
  shapeCasts_S2048x1_S2048 : S2048x1.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  bcast_S3x2048x128_S3x2048x1x128_0_1_3 : S3x2048x128.BroadcastsInDim S3x2048x1x128 (![0, 1, 3] : Fin 3 → Fin S3x2048x1x128.rank)
  bcast_S3x2048x1x128_S3x2048x20x128_0_1_2_3 : S3x2048x1x128.BroadcastsInDim S3x2048x20x128 (![0, 1, 2, 3] : Fin 4 → Fin S3x2048x20x128.rank)
  reducesTo_S3x2048x20x128_S3x2048x20_d3 : S3x2048x20x128.ReducesTo [3] S3x2048x20
  reducesTo_S3x2048x20_S2048x20_d0 : S3x2048x20.ReducesTo [0] S2048x20
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S64x64_S64x128_S64x192_d1 : Shape.Concatenates [S64x64, S64x128] S64x192 1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S5000x192_S5000x192_0_0 : ∀ a, (![0, 0] : Fin 2 → Nat) a + S5000x192.size a ≤ S5000x192.size a
  h_S5000x192 : 0 < S5000x192.numel
  slices_S100000x192_S100000x64_0_0 : S100000x192.Slices ![0, 0] S100000x64
  slices_S100000x192_S100000x128_0_64 : S100000x192.Slices ![0, 64] S100000x128
  concatenates_S100000x64_S100000x64_S100000x128_d1 : Shape.Concatenates [S100000x64, S100000x64] S100000x128 1
  slices_S30000x192_S30000x64_0_0 : S30000x192.Slices ![0, 0] S30000x64
  slices_S30000x192_S30000x128_0_64 : S30000x192.Slices ![0, 64] S30000x128
  concatenates_S30000x64_S30000x64_S30000x128_d1 : Shape.Concatenates [S30000x64, S30000x64] S30000x128 1
  bcast_S2048x128_S2048x1x128_0_2 : S2048x128.BroadcastsInDim S2048x1x128 (![0, 2] : Fin 2 → Fin S2048x1x128.rank)
  bcast_S2048x1x128_S2048x20x128_0_1_2 : S2048x1x128.BroadcastsInDim S2048x20x128 (![0, 1, 2] : Fin 3 → Fin S2048x20x128.rank)
  reducesTo_S2048x20x128_S2048x20_d2 : S2048x20x128.ReducesTo [2] S2048x20
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x1_S128x1_0_0 : ∀ a, (![0, 0] : Fin 2 → Nat) a + S128x1.size a ≤ S128x1.size a
  h_S128x1 : 0 < S128x1.numel
  inb_S5000x1_S5000x1_0_0 : ∀ a, (![0, 0] : Fin 2 → Nat) a + S5000x1.size a ≤ S5000x1.size a
  h_S5000x1 : 0 < S5000x1.numel
  bcast_S_S2048x1 : S_.BroadcastsInDim S2048x1 (![] : Fin 0 → Fin S2048x1.rank)
  bcast_S2048x1_S2048x20_0_1 : S2048x1.BroadcastsInDim S2048x20 (![0, 1] : Fin 2 → Fin S2048x20.rank)
  reducesTo_S2048x20x128_S_d0_1_2 : S2048x20x128.ReducesTo [0, 1, 2] S_
  dot_S100000x3_S3x1_S100000x1_1_0_0_1_n_n_wf : DotDims.WF S100000x3 S3x1 S100000x1 [1] [0] [0] [1] [] []
  gather_S30000x64_S400000x1_S400000x64_1_0_n_n_0_1_164_wf : GatherDims.WF S30000x64 S400000x1 S400000x64 [1] [0] [] [0] [] 1 ![1, 64]
  scatter_S30000x64_S400000x1_S400000x64_1_0_0_1_wf : ScatterDims.WF S30000x64 S400000x1 S400000x64 [1] [0] [0] 1
  dot_S3x2000x64_S3x64x64_S3x2000x64_2_1_1_2_0_0_wf : DotDims.WF S3x2000x64 S3x64x64 S3x2000x64 [2] [1] [1] [2] [0] [0]
  gather_S30000x64_S500000x1_S500000x64_1_0_n_n_0_1_164_wf : GatherDims.WF S30000x64 S500000x1 S500000x64 [1] [0] [] [0] [] 1 ![1, 64]
  scatter_S100000x64_S500000x1_S500000x64_1_0_0_1_wf : ScatterDims.WF S100000x64 S500000x1 S500000x64 [1] [0] [0] 1
  gather_S30000x128_S500000x1_S500000x128_1_0_n_n_0_1_1128_wf : GatherDims.WF S30000x128 S500000x1 S500000x128 [1] [0] [] [0] [] 1 ![1, 128]
  scatter_S100000x128_S500000x1_S500000x128_1_0_0_1_wf : ScatterDims.WF S100000x128 S500000x1 S500000x128 [1] [0] [0] 1
  dot_S3x2000x128_S3x128x128_S3x2000x128_2_1_1_2_0_0_wf : DotDims.WF S3x2000x128 S3x128x128 S3x2000x128 [2] [1] [1] [2] [0] [0]
  gather_S3x30000x128_S2048x20x1_S3x2048x20x128_03_1_n_n_1_2_31128_wf : GatherDims.WF S3x30000x128 S2048x20x1 S3x2048x20x128 [0, 3] [1] [] [1] [] 2 ![3, 1, 128]
  gather_S3x100000x128_S2048x1_S3x2048x128_02_1_n_n_1_1_31128_wf : GatherDims.WF S3x100000x128 S2048x1 S3x2048x128 [0, 2] [1] [] [1] [] 1 ![3, 1, 128]
  gather_S100000x64_S1000000x1_S1000000x64_1_0_n_n_0_1_164_wf : GatherDims.WF S100000x64 S1000000x1 S1000000x64 [1] [0] [] [0] [] 1 ![1, 64]
  scatter_S30000x64_S1000000x1_S1000000x64_1_0_0_1_wf : ScatterDims.WF S30000x64 S1000000x1 S1000000x64 [1] [0] [0] 1
  dot_S5000x64_S64x192_S5000x192_1_0_0_1_n_n_wf : DotDims.WF S5000x64 S64x192 S5000x192 [1] [0] [0] [1] [] []
  gather_S100000x128_S2048x1_S2048x128_1_0_n_n_0_1_1128_wf : GatherDims.WF S100000x128 S2048x1 S2048x128 [1] [0] [] [0] [] 1 ![1, 128]
  gather_S30000x128_S2048x20x1_S2048x20x128_2_0_n_n_0_2_1128_wf : GatherDims.WF S30000x128 S2048x20x1 S2048x20x128 [2] [0] [] [0] [] 2 ![1, 128]
  dot_S5000x128_S128x1_S5000x1_1_0_0_1_n_n_wf : DotDims.WF S5000x128 S128x1 S5000x1 [1] [0] [0] [1] [] []
  gather_S100000x1_S2048x1_S2048x1_1_0_n_n_0_1_11_wf : GatherDims.WF S100000x1 S2048x1 S2048x1 [1] [0] [] [0] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x2000x64.size a ≤ S3x30000x64.size a
  hwx0_0 : ∀ i : grid0.Coords, EltTy.bits .f32 = 32 ∨ (Rect.block (s := S3x30000x64) S3x2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x2000x1.size a ≤ S3x30000x1.size a
  hwx0_1 : ∀ i : grid0.Coords, EltTy.bits .f32 = 32 ∨ (Rect.block (s := S3x30000x1) S3x2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64x64.size a ≤ S3x64x64.size a
  hwx0_2 : ∀ i : grid0.Coords, EltTy.bits .f32 = 32 ∨ (Rect.block (s := S3x64x64) S3x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x2000x64.size a ≤ S3x30000x64.size a
  hwx0_3 : ∀ i : grid0.Coords, EltTy.bits .f32 = 32 ∨ (Rect.block (s := S3x30000x64) S3x2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x2000x128.size a ≤ S3x100000x128.size a
  hwx1_0 : ∀ i : grid1.Coords, EltTy.bits .f32 = 32 ∨ (Rect.block (s := S3x100000x128) S3x2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x128x128.size a ≤ S3x128x128.size a
  hwx1_1 : ∀ i : grid1.Coords, EltTy.bits .f32 = 32 ∨ (Rect.block (s := S3x128x128) S3x128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3x2000x128.size a ≤ S3x100000x128.size a
  hwx1_2 : ∀ i : grid1.Coords, EltTy.bits .f32 = 32 ∨ (Rect.block (s := S3x100000x128) S3x2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x192.size a ≤ S64x192.size a
  hwx2_1 : ∀ i : grid2.Coords, EltTy.bits .f32 = 32 ∨ (Rect.block (s := S64x192) S64x192.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x192.size a ≤ S100000x192.size a
  hwx2_2 : ∀ i : grid2.Coords, EltTy.bits .f32 = 32 ∨ (Rect.block (s := S100000x192) S5000x192.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S30000x64.size a
  hwx3_0 : ∀ i : grid3.Coords, EltTy.bits .f32 = 32 ∨ (Rect.block (s := S30000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x192.size a ≤ S64x192.size a
  hwx3_1 : ∀ i : grid3.Coords, EltTy.bits .f32 = 32 ∨ (Rect.block (s := S64x192) S64x192.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x192.size a ≤ S30000x192.size a
  hwx3_2 : ∀ i : grid3.Coords, EltTy.bits .f32 = 32 ∨ (Rect.block (s := S30000x192) S5000x192.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x1.size a ≤ S128x1.size a
  hwx4_1 : ∀ i : grid4.Coords, EltTy.bits .f32 = 32 ∨ (Rect.block (s := S128x1) S128x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)

variable [Facts₀]

def dot_S100000x3_S3x1_S100000x1_1_0_0_1_n_n : DotDims S100000x3 S3x1 S100000x1 where
  lhsContracting := [1]
  rhsContracting := [0]
  lhsNonContracting := [0]
  rhsNonContracting := [1]
  lhsBatch := []
  rhsBatch := []
  wf := dot_S100000x3_S3x1_S100000x1_1_0_0_1_n_n_wf
def gather_S30000x64_S400000x1_S400000x64_1_0_n_n_0_1_164 : GatherDims S30000x64 S400000x1 S400000x64 where
  offsetDims := [1]
  collapsedSliceDims := [0]
  operandBatchingDims := []
  startIndicesBatchingDims := []
  startIndexMap := [0]
  indexVectorDim := 1
  sliceSizes := ![1, 64]
  wf := gather_S30000x64_S400000x1_S400000x64_1_0_n_n_0_1_164_wf
def scatter_S30000x64_S400000x1_S400000x64_1_0_0_1 : ScatterDims S30000x64 S400000x1 S400000x64 where
  updateWindowDims := [1]
  insertedWindowDims := [0]
  scatterDimsToOperandDims := [0]
  indexVectorDim := 1
  wf := scatter_S30000x64_S400000x1_S400000x64_1_0_0_1_wf
def dot_S3x2000x64_S3x64x64_S3x2000x64_2_1_1_2_0_0 : DotDims S3x2000x64 S3x64x64 S3x2000x64 where
  lhsContracting := [2]
  rhsContracting := [1]
  lhsNonContracting := [1]
  rhsNonContracting := [2]
  lhsBatch := [0]
  rhsBatch := [0]
  wf := dot_S3x2000x64_S3x64x64_S3x2000x64_2_1_1_2_0_0_wf
def gather_S30000x64_S500000x1_S500000x64_1_0_n_n_0_1_164 : GatherDims S30000x64 S500000x1 S500000x64 where
  offsetDims := [1]
  collapsedSliceDims := [0]
  operandBatchingDims := []
  startIndicesBatchingDims := []
  startIndexMap := [0]
  indexVectorDim := 1
  sliceSizes := ![1, 64]
  wf := gather_S30000x64_S500000x1_S500000x64_1_0_n_n_0_1_164_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf
def gather_S30000x128_S500000x1_S500000x128_1_0_n_n_0_1_1128 : GatherDims S30000x128 S500000x1 S500000x128 where
  offsetDims := [1]
  collapsedSliceDims := [0]
  operandBatchingDims := []
  startIndicesBatchingDims := []
  startIndexMap := [0]
  indexVectorDim := 1
  sliceSizes := ![1, 128]
  wf := gather_S30000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S3x2000x128_S3x128x128_S3x2000x128_2_1_1_2_0_0 : DotDims S3x2000x128 S3x128x128 S3x2000x128 where
  lhsContracting := [2]
  rhsContracting := [1]
  lhsNonContracting := [1]
  rhsNonContracting := [2]
  lhsBatch := [0]
  rhsBatch := [0]
  wf := dot_S3x2000x128_S3x128x128_S3x2000x128_2_1_1_2_0_0_wf
def gather_S3x30000x128_S2048x20x1_S3x2048x20x128_03_1_n_n_1_2_31128 : GatherDims S3x30000x128 S2048x20x1 S3x2048x20x128 where
  offsetDims := [0, 3]
  collapsedSliceDims := [1]
  operandBatchingDims := []
  startIndicesBatchingDims := []
  startIndexMap := [1]
  indexVectorDim := 2
  sliceSizes := ![3, 1, 128]
  wf := gather_S3x30000x128_S2048x20x1_S3x2048x20x128_03_1_n_n_1_2_31128_wf
def gather_S3x100000x128_S2048x1_S3x2048x128_02_1_n_n_1_1_31128 : GatherDims S3x100000x128 S2048x1 S3x2048x128 where
  offsetDims := [0, 2]
  collapsedSliceDims := [1]
  operandBatchingDims := []
  startIndicesBatchingDims := []
  startIndexMap := [1]
  indexVectorDim := 1
  sliceSizes := ![3, 1, 128]
  wf := gather_S3x100000x128_S2048x1_S3x2048x128_02_1_n_n_1_1_31128_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S30000x64_S1000000x1_S1000000x64_1_0_0_1 : ScatterDims S30000x64 S1000000x1 S1000000x64 where
  updateWindowDims := [1]
  insertedWindowDims := [0]
  scatterDimsToOperandDims := [0]
  indexVectorDim := 1
  wf := scatter_S30000x64_S1000000x1_S1000000x64_1_0_0_1_wf
def dot_S5000x64_S64x192_S5000x192_1_0_0_1_n_n : DotDims S5000x64 S64x192 S5000x192 where
  lhsContracting := [1]
  rhsContracting := [0]
  lhsNonContracting := [0]
  rhsNonContracting := [1]
  lhsBatch := []
  rhsBatch := []
  wf := dot_S5000x64_S64x192_S5000x192_1_0_0_1_n_n_wf
def gather_S100000x128_S2048x1_S2048x128_1_0_n_n_0_1_1128 : GatherDims S100000x128 S2048x1 S2048x128 where
  offsetDims := [1]
  collapsedSliceDims := [0]
  operandBatchingDims := []
  startIndicesBatchingDims := []
  startIndexMap := [0]
  indexVectorDim := 1
  sliceSizes := ![1, 128]
  wf := gather_S100000x128_S2048x1_S2048x128_1_0_n_n_0_1_1128_wf
def gather_S30000x128_S2048x20x1_S2048x20x128_2_0_n_n_0_2_1128 : GatherDims S30000x128 S2048x20x1 S2048x20x128 where
  offsetDims := [2]
  collapsedSliceDims := [0]
  operandBatchingDims := []
  startIndicesBatchingDims := []
  startIndexMap := [0]
  indexVectorDim := 2
  sliceSizes := ![1, 128]
  wf := gather_S30000x128_S2048x20x1_S2048x20x128_2_0_n_n_0_2_1128_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def gather_S100000x1_S2048x1_S2048x1_1_0_n_n_0_1_11 : GatherDims S100000x1 S2048x1 S2048x1 where
  offsetDims := [1]
  collapsedSliceDims := [0]
  operandBatchingDims := []
  startIndicesBatchingDims := []
  startIndexMap := [0]
  indexVectorDim := 1
  sliceSizes := ![1, 1]
  wf := gather_S100000x1_S2048x1_S2048x1_1_0_n_n_0_1_11_wf

abbrev win0_0 : Pipeline.Window sig grid0 :=
  Pipeline.Window.ofSpec (Memref.whole main_v54) S3x2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S3x2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S3x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v55) S3x2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v164) S3x2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S3x128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v170) S3x2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v169) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v203) S64x192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v204) S5000x192.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v202) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v209) S64x192.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v210) S5000x192.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v208) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v233) S5000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x64 : Shape := ⟨2, ![100000, 64]⟩
abbrev S30000x64 : Shape := ⟨2, ![30000, 64]⟩
abbrev S100000x3 : Shape := ⟨2, ![100000, 3]⟩
abbrev S3 : Shape := ⟨1, ![3]⟩
abbrev S3x30000x1 : Shape := ⟨3, ![3, 30000, 1]⟩
abbrev S3x128x128 : Shape := ⟨3, ![3, 128, 128]⟩
abbrev S3x64x64 : Shape := ⟨3, ![3, 64, 64]⟩
abbrev S64x64 : Shape := ⟨2, ![64, 64]⟩
abbrev S64x128 : Shape := ⟨2, ![64, 128]⟩
abbrev S128x1 : Shape := ⟨2, ![128, 1]⟩
abbrev S3x500000 : Shape := ⟨2, ![3, 500000]⟩
abbrev S3x400000 : Shape := ⟨2, ![3, 400000]⟩
abbrev S1000000 : Shape := ⟨1, ![1000000]⟩
abbrev S2048x1 : Shape := ⟨2, ![2048, 1]⟩
abbrev S2048x20 : Shape := ⟨2, ![2048, 20]⟩
abbrev S3x1 : Shape := ⟨2, ![3, 1]⟩
abbrev S100000x1 : Shape := ⟨2, ![100000, 1]⟩
abbrev S1x3 : Shape := ⟨2, ![1, 3]⟩
abbrev S_ : Shape := ⟨0, ![]⟩
abbrev S1x400000 : Shape := ⟨2, ![1, 400000]⟩
abbrev S400000 : Shape := ⟨1, ![400000]⟩
abbrev S400000x1 : Shape := ⟨2, ![400000, 1]⟩
abbrev S400000x64 : Shape := ⟨2, ![400000, 64]⟩
abbrev S1x30000x1 : Shape := ⟨3, ![1, 30000, 1]⟩
abbrev S30000x1 : Shape := ⟨2, ![30000, 1]⟩
abbrev S1x64x64 : Shape := ⟨3, ![1, 64, 64]⟩
abbrev S30000x128 : Shape := ⟨2, ![30000, 128]⟩
abbrev S2048x20x1 : Shape := ⟨3, ![2048, 20, 1]⟩
abbrev S2048x20x128 : Shape := ⟨3, ![2048, 20, 128]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩
abbrev S500000x128 : Shape := ⟨2, ![500000, 128]⟩
abbrev S100000x128 : Shape := ⟨2, ![100000, 128]⟩
abbrev S1x128x128 : Shape := ⟨3, ![1, 128, 128]⟩
abbrev S128x128 : Shape := ⟨2, ![128, 128]⟩
abbrev S2048x1x1 : Shape := ⟨3, ![2048, 1, 1]⟩
abbrev S2048x1x128 : Shape := ⟨3, ![2048, 1, 128]⟩
abbrev S1000000x1 : Shape := ⟨2, ![1000000, 1]⟩
abbrev S1000000x64 : Shape := ⟨2, ![1000000, 64]⟩

abbrev nBuf : Space → Nat
  | .hbm => 415
  | .vmem => 0
  | .smem => 0
  | _ => 0

abbrev hbmTy0_0 (i : Nat) : BufTy := match i % 128 with
  | 0 => ⟨S100000x64, .f32⟩
  | 1 => ⟨S30000x64, .f32⟩
  | 2 => ⟨S100000x3, .f32⟩
  | 3 => ⟨S3, .f32⟩
  | 4 => ⟨S3x30000x1, .f32⟩
  | 5 => ⟨S3x128x128, .f32⟩
  | 6 => ⟨S3x64x64, .f32⟩
  | 7 => ⟨S64x64, .f32⟩
  | 8 => ⟨S64x128, .f32⟩
  | 9 => ⟨S64x128, .f32⟩
  | 10 => ⟨S128x1, .f32⟩
  | 11 => ⟨S3x500000, .i32⟩
  | 12 => ⟨S3x500000, .i32⟩
  | 13 => ⟨S3x400000, .i32⟩
  | 14 => ⟨S3x400000, .i32⟩
  | 15 => ⟨S1000000, .i32⟩
  | 16 => ⟨S1000000, .i32⟩
  | 17 => ⟨S2048x1, .i32⟩
  | 18 => ⟨S2048x20, .i32⟩
  | 19 => ⟨S3x1, .f32⟩
  | 20 => ⟨S100000x1, .f32⟩
  | 21 => ⟨S1x3, .f32⟩
  | 22 => ⟨S100000x3, .f32⟩
  | 23 => ⟨S100000x3, .f32⟩
  | 24 => ⟨S_, .f32⟩
  | 25 => ⟨S100000x1, .f32⟩
  | 26 => ⟨S100000x1, .f32⟩
  | 27 => ⟨S100000x3, .f32⟩
  | 28 => ⟨S100000x3, .f32⟩
  | 29 => ⟨S_, .f32⟩
  | 30 => ⟨S100000x64, .f32⟩
  | 31 => ⟨S_, .f32⟩
  | 32 => ⟨S2048x20, .f32⟩
  | 33 => ⟨S1x400000, .i32⟩
  | 34 => ⟨S400000, .i32⟩
  | 35 => ⟨S1x400000, .i32⟩
  | 36 => ⟨S400000, .i32⟩
  | 37 => ⟨S_, .i32⟩
  | 38 => ⟨S400000, .i32⟩
  | 39 => ⟨S400000, .i1⟩
  | 40 => ⟨S_, .i32⟩
  | 41 => ⟨S400000, .i32⟩
  | 42 => ⟨S400000, .i32⟩
  | 43 => ⟨S400000, .i32⟩
  | 44 => ⟨S400000x1, .i32⟩
  | 45 => ⟨S400000x64, .f32⟩
  | 46 => ⟨S_, .f32⟩
  | 47 => ⟨S30000x64, .f32⟩
  | 48 => ⟨S400000x1, .i32⟩
  | 49 => ⟨S30000x64, .f32⟩
  | 50 => ⟨S1x30000x1, .f32⟩
  | 51 => ⟨S30000x1, .f32⟩
  | 52 => ⟨S_, .f32⟩
  | 53 => ⟨S30000x1, .f32⟩
  | 54 => ⟨S30000x1, .f32⟩
  | 55 => ⟨S30000x64, .f32⟩
  | 56 => ⟨S30000x64, .f32⟩
  | 57 => ⟨S1x64x64, .f32⟩
  | 58 => ⟨S64x64, .f32⟩
  | 59 => ⟨S30000x64, .f32⟩
  | 60 => ⟨S30000x128, .f32⟩
  | 61 => ⟨S_, .i32⟩
  | 62 => ⟨S2048x20, .i32⟩
  | 63 => ⟨S2048x20, .i1⟩
  | 64 => ⟨S_, .i32⟩
  | 65 => ⟨S2048x20, .i32⟩
  | 66 => ⟨S2048x20, .i32⟩
  | 67 => ⟨S2048x20, .i32⟩
  | 68 => ⟨S2048x20x1, .i32⟩
  | 69 => ⟨S2048x20x128, .f32⟩
  | 70 => ⟨S100000x1, .f32⟩
  | 71 => ⟨S_, .f32⟩
  | 72 => ⟨S100000x1, .f32⟩
  | 73 => ⟨S100000x1, .f32⟩
  | 74 => ⟨S1x500000, .i32⟩
  | 75 => ⟨S500000, .i32⟩
  | 76 => ⟨S1x500000, .i32⟩
  | 77 => ⟨S500000, .i32⟩
  | 78 => ⟨S_, .i32⟩
  | 79 => ⟨S500000, .i32⟩
  | 80 => ⟨S500000, .i1⟩
  | 81 => ⟨S_, .i32⟩
  | 82 => ⟨S500000, .i32⟩
  | 83 => ⟨S500000, .i32⟩
  | 84 => ⟨S500000, .i32⟩
  | 85 => ⟨S500000x1, .i32⟩
  | 86 => ⟨S500000x64, .f32⟩
  | 87 => ⟨S_, .f32⟩
  | 88 => ⟨S100000x64, .f32⟩
  | 89 => ⟨S500000x1, .i32⟩
  | 90 => ⟨S100000x64, .f32⟩
  | 91 => ⟨S100000x64, .f32⟩
  | 92 => ⟨S100000x64, .f32⟩
  | 93 => ⟨S1x500000, .i32⟩
  | 94 => ⟨S500000, .i32⟩
  | 95 => ⟨S1x500000, .i32⟩
  | 96 => ⟨S500000, .i32⟩
  | 97 => ⟨S_, .i32⟩
  | 98 => ⟨S500000, .i32⟩
  | 99 => ⟨S500000, .i1⟩
  | 100 => ⟨S_, .i32⟩
  | 101 => ⟨S500000, .i32⟩
  | 102 => ⟨S500000, .i32⟩
  | 103 => ⟨S500000, .i32⟩
  | 104 => ⟨S500000x1, .i32⟩
  | 105 => ⟨S500000x128, .f32⟩
  | 106 => ⟨S_, .f32⟩
  | 107 => ⟨S100000x128, .f32⟩
  | 108 => ⟨S500000x1, .i32⟩
  | 109 => ⟨S100000x128, .f32⟩
  | 110 => ⟨S100000x128, .f32⟩
  | 111 => ⟨S100000x128, .f32⟩
  | 112 => ⟨S100000x1, .f32⟩
  | 113 => ⟨S100000x64, .f32⟩
  | 114 => ⟨S100000x64, .f32⟩
  | 115 => ⟨S100000x64, .f32⟩
  | 116 => ⟨S1x128x128, .f32⟩
  | 117 => ⟨S128x128, .f32⟩
  | 118 => ⟨S100000x128, .f32⟩
  | 119 => ⟨S_, .i32⟩
  | 120 => ⟨S2048x1, .i32⟩
  | 121 => ⟨S2048x1, .i1⟩
  | 122 => ⟨S_, .i32⟩
  | 123 => ⟨S2048x1, .i32⟩
  | 124 => ⟨S2048x1, .i32⟩
  | 125 => ⟨S2048x1, .i32⟩
  | 126 => ⟨S2048x1x1, .i32⟩
  | 127 => ⟨S2048x1x128, .f32⟩
  | _ => ⟨S100000x64, .f32⟩

abbrev hbmTy0_1 (i : Nat) : BufTy := match i % 128 with
  | 0 => ⟨S2048x20x128, .f32⟩
  | 1 => ⟨S2048x20x128, .f32⟩
  | 2 => ⟨S_, .f32⟩
  | 3 => ⟨S2048x20, .f32⟩
  | 4 => ⟨S2048x20, .f32⟩
  | 5 => ⟨S1x400000, .i32⟩
  | 6 => ⟨S400000, .i32⟩
  | 7 => ⟨S1x400000, .i32⟩
  | 8 => ⟨S400000, .i32⟩
  | 9 => ⟨S_, .i32⟩
  | 10 => ⟨S400000, .i32⟩
  | 11 => ⟨S400000, .i1⟩
  | 12 => ⟨S_, .i32⟩
  | 13 => ⟨S400000, .i32⟩
  | 14 => ⟨S400000, .i32⟩
  | 15 => ⟨S400000, .i32⟩
  | 16 => ⟨S400000x1, .i32⟩
  | 17 => ⟨S400000x64, .f32⟩
  | 18 => ⟨S_, .f32⟩
  | 19 => ⟨S30000x64, .f32⟩
  | 20 => ⟨S400000x1, .i32⟩
  | 21 => ⟨S30000x64, .f32⟩
  | 22 => ⟨S1x30000x1, .f32⟩
  | 23 => ⟨S30000x1, .f32⟩
  | 24 => ⟨S_, .f32⟩
  | 25 => ⟨S30000x1, .f32⟩
  | 26 => ⟨S30000x1, .f32⟩
  | 27 => ⟨S30000x64, .f32⟩
  | 28 => ⟨S30000x64, .f32⟩
  | 29 => ⟨S1x64x64, .f32⟩
  | 30 => ⟨S64x64, .f32⟩
  | 31 => ⟨S30000x64, .f32⟩
  | 32 => ⟨S30000x128, .f32⟩
  | 33 => ⟨S_, .i32⟩
  | 34 => ⟨S2048x20, .i32⟩
  | 35 => ⟨S2048x20, .i1⟩
  | 36 => ⟨S_, .i32⟩
  | 37 => ⟨S2048x20, .i32⟩
  | 38 => ⟨S2048x20, .i32⟩
  | 39 => ⟨S2048x20, .i32⟩
  | 40 => ⟨S2048x20x1, .i32⟩
  | 41 => ⟨S2048x20x128, .f32⟩
  | 42 => ⟨S100000x1, .f32⟩
  | 43 => ⟨S_, .f32⟩
  | 44 => ⟨S100000x1, .f32⟩
  | 45 => ⟨S100000x1, .f32⟩
  | 46 => ⟨S1x500000, .i32⟩
  | 47 => ⟨S500000, .i32⟩
  | 48 => ⟨S1x500000, .i32⟩
  | 49 => ⟨S500000, .i32⟩
  | 50 => ⟨S_, .i32⟩
  | 51 => ⟨S500000, .i32⟩
  | 52 => ⟨S500000, .i1⟩
  | 53 => ⟨S_, .i32⟩
  | 54 => ⟨S500000, .i32⟩
  | 55 => ⟨S500000, .i32⟩
  | 56 => ⟨S500000, .i32⟩
  | 57 => ⟨S500000x1, .i32⟩
  | 58 => ⟨S500000x64, .f32⟩
  | 59 => ⟨S_, .f32⟩
  | 60 => ⟨S100000x64, .f32⟩
  | 61 => ⟨S500000x1, .i32⟩
  | 62 => ⟨S100000x64, .f32⟩
  | 63 => ⟨S100000x64, .f32⟩
  | 64 => ⟨S100000x64, .f32⟩
  | 65 => ⟨S1x500000, .i32⟩
  | 66 => ⟨S500000, .i32⟩
  | 67 => ⟨S1x500000, .i32⟩
  | 68 => ⟨S500000, .i32⟩
  | 69 => ⟨S_, .i32⟩
  | 70 => ⟨S500000, .i32⟩
  | 71 => ⟨S500000, .i1⟩
  | 72 => ⟨S_, .i32⟩
  | 73 => ⟨S500000, .i32⟩
  | 74 => ⟨S500000, .i32⟩
  | 75 => ⟨S500000, .i32⟩
  | 76 => ⟨S500000x1, .i32⟩
  | 77 => ⟨S500000x128, .f32⟩
  | 78 => ⟨S_, .f32⟩
  | 79 => ⟨S100000x128, .f32⟩
  | 80 => ⟨S500000x1, .i32⟩
  | 81 => ⟨S100000x128, .f32⟩
  | 82 => ⟨S100000x128, .f32⟩
  | 83 => ⟨S100000x128, .f32⟩
  | 84 => ⟨S100000x1, .f32⟩
  | 85 => ⟨S100000x64, .f32⟩
  | 86 => ⟨S100000x64, .f32⟩
  | 87 => ⟨S100000x64, .f32⟩
  | 88 => ⟨S1x128x128, .f32⟩
  | 89 => ⟨S128x128, .f32⟩
  | 90 => ⟨S100000x128, .f32⟩
  | 91 => ⟨S_, .i32⟩
  | 92 => ⟨S2048x1, .i32⟩
  | 93 => ⟨S2048x1, .i1⟩
  | 94 => ⟨S_, .i32⟩
  | 95 => ⟨S2048x1, .i32⟩
  | 96 => ⟨S2048x1, .i32⟩
  | 97 => ⟨S2048x1, .i32⟩
  | 98 => ⟨S2048x1x1, .i32⟩
  | 99 => ⟨S2048x1x128, .f32⟩
  | 100 => ⟨S2048x20x128, .f32⟩
  | 101 => ⟨S2048x20x128, .f32⟩
  | 102 => ⟨S_, .f32⟩
  | 103 => ⟨S2048x20, .f32⟩
  | 104 => ⟨S2048x20, .f32⟩
  | 105 => ⟨S1x400000, .i32⟩
  | 106 => ⟨S400000, .i32⟩
  | 107 => ⟨S1x400000, .i32⟩
  | 108 => ⟨S400000, .i32⟩
  | 109 => ⟨S_, .i32⟩
  | 110 => ⟨S400000, .i32⟩
  | 111 => ⟨S400000, .i1⟩
  | 112 => ⟨S_, .i32⟩
  | 113 => ⟨S400000, .i32⟩
  | 114 => ⟨S400000, .i32⟩
  | 115 => ⟨S400000, .i32⟩
  | 116 => ⟨S400000x1, .i32⟩
  | 117 => ⟨S400000x64, .f32⟩
  | 118 => ⟨S_, .f32⟩
  | 119 => ⟨S30000x64, .f32⟩
  | 120 => ⟨S400000x1, .i32⟩
  | 121 => ⟨S30000x64, .f32⟩
  | 122 => ⟨S1x30000x1, .f32⟩
  | 123 => ⟨S30000x1, .f32⟩
  | 124 => ⟨S_, .f32⟩
  | 125 => ⟨S30000x1, .f32⟩
  | 126 => ⟨S30000x1, .f32⟩
  | 127 => ⟨S30000x64, .f32⟩
  | _ => ⟨S100000x64, .f32⟩

abbrev hbmTy0_2 (i : Nat) : BufTy := match i % 128 with
  | 0 => ⟨S30000x64, .f32⟩
  | 1 => ⟨S1x64x64, .f32⟩
  | 2 => ⟨S64x64, .f32⟩
  | 3 => ⟨S30000x64, .f32⟩
  | 4 => ⟨S30000x128, .f32⟩
  | 5 => ⟨S_, .i32⟩
  | 6 => ⟨S2048x20, .i32⟩
  | 7 => ⟨S2048x20, .i1⟩
  | 8 => ⟨S_, .i32⟩
  | 9 => ⟨S2048x20, .i32⟩
  | 10 => ⟨S2048x20, .i32⟩
  | 11 => ⟨S2048x20, .i32⟩
  | 12 => ⟨S2048x20x1, .i32⟩
  | 13 => ⟨S2048x20x128, .f32⟩
  | 14 => ⟨S100000x1, .f32⟩
  | 15 => ⟨S_, .f32⟩
  | 16 => ⟨S100000x1, .f32⟩
  | 17 => ⟨S100000x1, .f32⟩
  | 18 => ⟨S1x500000, .i32⟩
  | 19 => ⟨S500000, .i32⟩
  | 20 => ⟨S1x500000, .i32⟩
  | 21 => ⟨S500000, .i32⟩
  | 22 => ⟨S_, .i32⟩
  | 23 => ⟨S500000, .i32⟩
  | 24 => ⟨S500000, .i1⟩
  | 25 => ⟨S_, .i32⟩
  | 26 => ⟨S500000, .i32⟩
  | 27 => ⟨S500000, .i32⟩
  | 28 => ⟨S500000, .i32⟩
  | 29 => ⟨S500000x1, .i32⟩
  | 30 => ⟨S500000x64, .f32⟩
  | 31 => ⟨S_, .f32⟩
  | 32 => ⟨S100000x64, .f32⟩
  | 33 => ⟨S500000x1, .i32⟩
  | 34 => ⟨S100000x64, .f32⟩
  | 35 => ⟨S100000x64, .f32⟩
  | 36 => ⟨S100000x64, .f32⟩
  | 37 => ⟨S1x500000, .i32⟩
  | 38 => ⟨S500000, .i32⟩
  | 39 => ⟨S1x500000, .i32⟩
  | 40 => ⟨S500000, .i32⟩
  | 41 => ⟨S_, .i32⟩
  | 42 => ⟨S500000, .i32⟩
  | 43 => ⟨S500000, .i1⟩
  | 44 => ⟨S_, .i32⟩
  | 45 => ⟨S500000, .i32⟩
  | 46 => ⟨S500000, .i32⟩
  | 47 => ⟨S500000, .i32⟩
  | 48 => ⟨S500000x1, .i32⟩
  | 49 => ⟨S500000x128, .f32⟩
  | 50 => ⟨S_, .f32⟩
  | 51 => ⟨S100000x128, .f32⟩
  | 52 => ⟨S500000x1, .i32⟩
  | 53 => ⟨S100000x128, .f32⟩
  | 54 => ⟨S100000x128, .f32⟩
  | 55 => ⟨S100000x128, .f32⟩
  | 56 => ⟨S100000x1, .f32⟩
  | 57 => ⟨S100000x64, .f32⟩
  | 58 => ⟨S100000x64, .f32⟩
  | 59 => ⟨S100000x64, .f32⟩
  | 60 => ⟨S1x128x128, .f32⟩
  | 61 => ⟨S128x128, .f32⟩
  | 62 => ⟨S100000x128, .f32⟩
  | 63 => ⟨S_, .i32⟩
  | 64 => ⟨S2048x1, .i32⟩
  | 65 => ⟨S2048x1, .i1⟩
  | 66 => ⟨S_, .i32⟩
  | 67 => ⟨S2048x1, .i32⟩
  | 68 => ⟨S2048x1, .i32⟩
  | 69 => ⟨S2048x1, .i32⟩
  | 70 => ⟨S2048x1x1, .i32⟩
  | 71 => ⟨S2048x1x128, .f32⟩
  | 72 => ⟨S2048x20x128, .f32⟩
  | 73 => ⟨S2048x20x128, .f32⟩
  | 74 => ⟨S_, .f32⟩
  | 75 => ⟨S2048x20, .f32⟩
  | 76 => ⟨S2048x20, .f32⟩
  | 77 => ⟨S_, .f32⟩
  | 78 => ⟨S2048x20, .f32⟩
  | 79 => ⟨S2048x20, .f32⟩
  | 80 => ⟨S_, .i32⟩
  | 81 => ⟨S1000000, .i32⟩
  | 82 => ⟨S1000000, .i1⟩
  | 83 => ⟨S_, .i32⟩
  | 84 => ⟨S1000000, .i32⟩
  | 85 => ⟨S1000000, .i32⟩
  | 86 => ⟨S1000000, .i32⟩
  | 87 => ⟨S1000000x1, .i32⟩
  | 88 => ⟨S1000000x64, .f32⟩
  | 89 => ⟨S_, .f32⟩
  | 90 => ⟨S30000x64, .f32⟩
  | 91 => ⟨S1000000x1, .i32⟩
  | 92 => ⟨S30000x64, .f32⟩
  | 93 => ⟨S100000x128, .f32⟩
  | 94 => ⟨S30000x128, .f32⟩
  | 95 => ⟨S100000x64, .f32⟩
  | 96 => ⟨S100000x128, .f32⟩
  | 97 => ⟨S100000x128, .f32⟩
  | 98 => ⟨S30000x64, .f32⟩
  | 99 => ⟨S30000x128, .f32⟩
  | 100 => ⟨S30000x128, .f32⟩
  | 101 => ⟨S_, .i32⟩
  | 102 => ⟨S2048x1, .i32⟩
  | 103 => ⟨S2048x1, .i1⟩
  | 104 => ⟨S_, .i32⟩
  | 105 => ⟨S2048x1, .i32⟩
  | 106 => ⟨S2048x1, .i32⟩
  | 107 => ⟨S2048x1, .i32⟩
  | 108 => ⟨S2048x1x1, .i32⟩
  | 109 => ⟨S2048x1x128, .f32⟩
  | 110 => ⟨S2048x20x128, .f32⟩
  | 111 => ⟨S_, .i32⟩
  | 112 => ⟨S2048x20, .i32⟩
  | 113 => ⟨S2048x20, .i1⟩
  | 114 => ⟨S_, .i32⟩
  | 115 => ⟨S2048x20, .i32⟩
  | 116 => ⟨S2048x20, .i32⟩
  | 117 => ⟨S2048x20, .i32⟩
  | 118 => ⟨S2048x20x1, .i32⟩
  | 119 => ⟨S2048x20x128, .f32⟩
  | 120 => ⟨S2048x20x128, .f32⟩
  | 121 => ⟨S_, .f32⟩
  | 122 => ⟨S2048x20, .f32⟩
  | 123 => ⟨S100000x1, .f32⟩
  | 124 => ⟨S_, .i32⟩
  | 125 => ⟨S2048x1, .i32⟩
  | 126 => ⟨S2048x1, .i1⟩
  | 127 => ⟨S_, .i32⟩
  | _ => ⟨S100000x64, .f32⟩

abbrev hbmTy0_3 (i : Nat) : BufTy := match i % 128 with
  | 0 => ⟨S2048x1, .i32⟩
  | 1 => ⟨S2048x1, .i32⟩
  | 2 => ⟨S2048x1, .i32⟩
  | 3 => ⟨S2048x1x1, .i32⟩
  | 4 => ⟨S2048x1x1, .f32⟩
  | 5 => ⟨S2048x1, .f32⟩
  | 6 => ⟨S2048x1, .f32⟩
  | 7 => ⟨S2048x1, .f32⟩
  | 8 => ⟨S_, .f32⟩
  | 9 => ⟨S2048x1, .f32⟩
  | 10 => ⟨S2048x1, .f32⟩
  | 11 => ⟨S_, .f32⟩
  | 12 => ⟨S2048x1, .f32⟩
  | 13 => ⟨S2048x1, .f32⟩
  | 14 => ⟨S2048x20, .f32⟩
  | 15 => ⟨S2048x20, .f32⟩
  | 16 => ⟨S_, .f32⟩
  | 17 => ⟨S2048x1, .f32⟩
  | 18 => ⟨S2048x1, .f32⟩
  | 19 => ⟨S2048x20, .f32⟩
  | 20 => ⟨S2048x20, .f32⟩
  | 21 => ⟨S2048x20, .f32⟩
  | 22 => ⟨S2048x20x128, .f32⟩
  | 23 => ⟨S_, .f32⟩
  | 24 => ⟨S_, .f32⟩
  | 25 => ⟨S2048x20x128, .f32⟩
  | 26 => ⟨S_, .f32⟩
  | 27 => ⟨S_, .f32⟩
  | 28 => ⟨S_, .f32⟩
  | 29 => ⟨S_, .f32⟩
  | 30 => ⟨S_, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_2 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_3 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_4 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_5 : Ref sig .tc := ⟨.hbm, 61, rfl⟩
abbrev main_v35 : Ref sig .tc := ⟨.hbm, 62, rfl⟩
abbrev main_v36 : Ref sig .tc := ⟨.hbm, 63, rfl⟩
abbrev main_c_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_7 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_8 : Ref sig .tc := ⟨.hbm, 78, rfl⟩
abbrev main_v49 : Ref sig .tc := ⟨.hbm, 79, rfl⟩
abbrev main_v50 : Ref sig .tc := ⟨.hbm, 80, rfl⟩
abbrev main_c_9 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_11 : Ref sig .tc := ⟨.hbm, 97, rfl⟩
abbrev main_v65 : Ref sig .tc := ⟨.hbm, 98, rfl⟩
abbrev main_v66 : Ref sig .tc := ⟨.hbm, 99, rfl⟩
abbrev main_c_12 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_13 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_c_14 : Ref sig .tc := ⟨.hbm, 119, rfl⟩
abbrev main_v84 : Ref sig .tc := ⟨.hbm, 120, rfl⟩
abbrev main_v85 : Ref sig .tc := ⟨.hbm, 121, rfl⟩
abbrev main_c_15 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_16 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_c_17 : Ref sig .tc := ⟨.hbm, 137, rfl⟩
abbrev main_v99 : Ref sig .tc := ⟨.hbm, 138, rfl⟩
abbrev main_v100 : Ref sig .tc := ⟨.hbm, 139, rfl⟩
abbrev main_c_18 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_19 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_cst_20 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_c_21 : Ref sig .tc := ⟨.hbm, 161, rfl⟩
abbrev main_v119 : Ref sig .tc := ⟨.hbm, 162, rfl⟩
abbrev main_v120 : Ref sig .tc := ⟨.hbm, 163, rfl⟩
abbrev main_c_22 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_23 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_c_24 : Ref sig .tc := ⟨.hbm, 178, rfl⟩
abbrev main_v133 : Ref sig .tc := ⟨.hbm, 179, rfl⟩
abbrev main_v134 : Ref sig .tc := ⟨.hbm, 180, rfl⟩
abbrev main_c_25 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_cst_26 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_c_27 : Ref sig .tc := ⟨.hbm, 197, rfl⟩
abbrev main_v149 : Ref sig .tc := ⟨.hbm, 198, rfl⟩
abbrev main_v150 : Ref sig .tc := ⟨.hbm, 199, rfl⟩
abbrev main_c_28 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_cst_29 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_c_30 : Ref sig .tc := ⟨.hbm, 219, rfl⟩
abbrev main_v168 : Ref sig .tc := ⟨.hbm, 220, rfl⟩
abbrev main_v169 : Ref sig .tc := ⟨.hbm, 221, rfl⟩
abbrev main_c_31 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_cst_32 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_c_33 : Ref sig .tc := ⟨.hbm, 237, rfl⟩
abbrev main_v183 : Ref sig .tc := ⟨.hbm, 238, rfl⟩
abbrev main_v184 : Ref sig .tc := ⟨.hbm, 239, rfl⟩
abbrev main_c_34 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_cst_35 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_cst_36 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_c_37 : Ref sig .tc := ⟨.hbm, 261, rfl⟩
abbrev main_v203 : Ref sig .tc := ⟨.hbm, 262, rfl⟩
abbrev main_v204 : Ref sig .tc := ⟨.hbm, 263, rfl⟩
abbrev main_c_38 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_cst_39 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_c_40 : Ref sig .tc := ⟨.hbm, 278, rfl⟩
abbrev main_v217 : Ref sig .tc := ⟨.hbm, 279, rfl⟩
abbrev main_v218 : Ref sig .tc := ⟨.hbm, 280, rfl⟩
abbrev main_c_41 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_cst_42 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_v231 : Ref sig .tc := ⟨.hbm, 295, rfl⟩
abbrev main_v232 : Ref sig .tc := ⟨.hbm, 296, rfl⟩
abbrev main_c_43 : Ref sig .tc := ⟨.hbm, 297, rfl⟩
abbrev main_v233 : Ref sig .tc := ⟨.hbm, 298, rfl⟩
abbrev main_v234 : Ref sig .tc := ⟨.hbm, 299, rfl⟩
abbrev main_c_44 : Ref sig .tc := ⟨.hbm, 300, rfl⟩
abbrev main_v235 : Ref sig .tc := ⟨.hbm, 301, rfl⟩
abbrev main_v236 : Ref sig .tc := ⟨.hbm, 302, rfl⟩
abbrev main_v237 : Ref sig .tc := ⟨.hbm, 303, rfl⟩
abbrev main_v238 : Ref sig .tc := ⟨.hbm, 304, rfl⟩
abbrev main_v239 : Ref sig .tc := ⟨.hbm, 305, rfl⟩
abbrev main_cst_45 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩
abbrev main_v245 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_v250 : Ref sig .tc := ⟨.hbm, 317, rfl⟩
abbrev main_v251 : Ref sig .tc := ⟨.hbm, 318, rfl⟩
abbrev main_c_46 : Ref sig .tc := ⟨.hbm, 319, rfl⟩
abbrev main_v252 : Ref sig .tc := ⟨.hbm, 320, rfl⟩
abbrev main_v253 : Ref sig .tc := ⟨.hbm, 321, rfl⟩
abbrev main_c_47 : Ref sig .tc := ⟨.hbm, 322, rfl⟩
abbrev main_v254 : Ref sig .tc := ⟨.hbm, 323, rfl⟩
abbrev main_v255 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_v259 : Ref sig .tc := ⟨.hbm, 328, rfl⟩
abbrev main_v260 : Ref sig .tc := ⟨.hbm, 329, rfl⟩
abbrev main_cst_48 : Ref sig .tc := ⟨.hbm, 330, rfl⟩
abbrev main_v261 : Ref sig .tc := ⟨.hbm, 331, rfl⟩
abbrev main_v262 : Ref sig .tc := ⟨.hbm, 332, rfl⟩
abbrev main_cst_49 : Ref sig .tc := ⟨.hbm, 333, rfl⟩
abbrev main_v263 : Ref sig .tc := ⟨.hbm, 334, rfl⟩
abbrev main_v264 : Ref sig .tc := ⟨.hbm, 335, rfl⟩
abbrev main_c_50 : Ref sig .tc := ⟨.hbm, 336, rfl⟩
abbrev main_v265 : Ref sig .tc := ⟨.hbm, 337, rfl⟩
abbrev main_v266 : Ref sig .tc := ⟨.hbm, 338, rfl⟩
abbrev main_c_51 : Ref sig .tc := ⟨.hbm, 339, rfl⟩
abbrev main_v267 : Ref sig .tc := ⟨.hbm, 340, rfl⟩
abbrev main_v268 : Ref sig .tc := ⟨.hbm, 341, rfl⟩
abbrev main_v269 : Ref sig .tc := ⟨.hbm, 342, rfl⟩
abbrev main_v270 : Ref sig .tc := ⟨.hbm, 343, rfl⟩
abbrev main_v271 : Ref sig .tc := ⟨.hbm, 344, rfl⟩
abbrev main_cst_52 : Ref sig .tc := ⟨.hbm, 345, rfl⟩
abbrev main_v272 : Ref sig .tc := ⟨.hbm, 346, rfl⟩
abbrev main_v273 : Ref sig .tc := ⟨.hbm, 347, rfl⟩
abbrev main_v274 : Ref sig .tc := ⟨.hbm, 348, rfl⟩
abbrev main_v275 : Ref sig .tc := ⟨.hbm, 349, rfl⟩
abbrev main_v276 : Ref sig .tc := ⟨.hbm, 350, rfl⟩
abbrev main_v277 : Ref sig .tc := ⟨.hbm, 351, rfl⟩
abbrev main_v278 : Ref sig .tc := ⟨.hbm, 352, rfl⟩
abbrev main_v279 : Ref sig .tc := ⟨.hbm, 353, rfl⟩
abbrev main_v280 : Ref sig .tc := ⟨.hbm, 354, rfl⟩
abbrev main_v281 : Ref sig .tc := ⟨.hbm, 355, rfl⟩
abbrev main_v282 : Ref sig .tc := ⟨.hbm, 356, rfl⟩
abbrev main_c_53 : Ref sig .tc := ⟨.hbm, 357, rfl⟩
abbrev main_v283 : Ref sig .tc := ⟨.hbm, 358, rfl⟩
abbrev main_v284 : Ref sig .tc := ⟨.hbm, 359, rfl⟩
abbrev main_c_54 : Ref sig .tc := ⟨.hbm, 360, rfl⟩
abbrev main_v285 : Ref sig .tc := ⟨.hbm, 361, rfl⟩
abbrev main_v286 : Ref sig .tc := ⟨.hbm, 362, rfl⟩
abbrev main_v287 : Ref sig .tc := ⟨.hbm, 363, rfl⟩
abbrev main_v288 : Ref sig .tc := ⟨.hbm, 364, rfl⟩
abbrev main_v289 : Ref sig .tc := ⟨.hbm, 365, rfl⟩
abbrev main_v290 : Ref sig .tc := ⟨.hbm, 366, rfl⟩
abbrev main_c_55 : Ref sig .tc := ⟨.hbm, 367, rfl⟩
abbrev main_v291 : Ref sig .tc := ⟨.hbm, 368, rfl⟩
abbrev main_v292 : Ref sig .tc := ⟨.hbm, 369, rfl⟩
abbrev main_c_56 : Ref sig .tc := ⟨.hbm, 370, rfl⟩
abbrev main_v293 : Ref sig .tc := ⟨.hbm, 371, rfl⟩
abbrev main_v294 : Ref sig .tc := ⟨.hbm, 372, rfl⟩
abbrev main_v295 : Ref sig .tc := ⟨.hbm, 373, rfl⟩
abbrev main_v296 : Ref sig .tc := ⟨.hbm, 374, rfl⟩
abbrev main_v297 : Ref sig .tc := ⟨.hbm, 375, rfl⟩
abbrev main_v298 : Ref sig .tc := ⟨.hbm, 376, rfl⟩
abbrev main_cst_57 : Ref sig .tc := ⟨.hbm, 377, rfl⟩
abbrev main_v299 : Ref sig .tc := ⟨.hbm, 378, rfl⟩
abbrev main_v300 : Ref sig .tc := ⟨.hbm, 379, rfl⟩
abbrev main_c_58 : Ref sig .tc := ⟨.hbm, 380, rfl⟩
abbrev main_v301 : Ref sig .tc := ⟨.hbm, 381, rfl⟩
abbrev main_v302 : Ref sig .tc := ⟨.hbm, 382, rfl⟩
abbrev main_c_59 : Ref sig .tc := ⟨.hbm, 383, rfl⟩
abbrev main_v303 : Ref sig .tc := ⟨.hbm, 384, rfl⟩
abbrev main_v304 : Ref sig .tc := ⟨.hbm, 385, rfl⟩
abbrev main_v305 : Ref sig .tc := ⟨.hbm, 386, rfl⟩
abbrev main_v306 : Ref sig .tc := ⟨.hbm, 387, rfl⟩
abbrev main_v307 : Ref sig .tc := ⟨.hbm, 388, rfl⟩
abbrev main_v308 : Ref sig .tc := ⟨.hbm, 389, rfl⟩
abbrev main_v309 : Ref sig .tc := ⟨.hbm, 390, rfl⟩
abbrev main_v310 : Ref sig .tc := ⟨.hbm, 391, rfl⟩
abbrev main_cst_60 : Ref sig .tc := ⟨.hbm, 392, rfl⟩
abbrev main_v311 : Ref sig .tc := ⟨.hbm, 393, rfl⟩
abbrev main_v312 : Ref sig .tc := ⟨.hbm, 394, rfl⟩
abbrev main_cst_61 : Ref sig .tc := ⟨.hbm, 395, rfl⟩
abbrev main_v313 : Ref sig .tc := ⟨.hbm, 396, rfl⟩
abbrev main_v314 : Ref sig .tc := ⟨.hbm, 397, rfl⟩
abbrev main_v315 : Ref sig .tc := ⟨.hbm, 398, rfl⟩
abbrev main_v316 : Ref sig .tc := ⟨.hbm, 399, rfl⟩
abbrev main_cst_62 : Ref sig .tc := ⟨.hbm, 400, rfl⟩
abbrev main_v317 : Ref sig .tc := ⟨.hbm, 401, rfl⟩
abbrev main_v318 : Ref sig .tc := ⟨.hbm, 402, rfl⟩
abbrev main_v319 : Ref sig .tc := ⟨.hbm, 403, rfl⟩
abbrev main_v320 : Ref sig .tc := ⟨.hbm, 404, rfl⟩
abbrev main_v321 : Ref sig .tc := ⟨.hbm, 405, rfl⟩
abbrev main_v322 : Ref sig .tc := ⟨.hbm, 406, rfl⟩
abbrev main_cst_63 : Ref sig .tc := ⟨.hbm, 407, rfl⟩
abbrev main_v323 : Ref sig .tc := ⟨.hbm, 408, rfl⟩
abbrev main_v324 : Ref sig .tc := ⟨.hbm, 409, rfl⟩
abbrev main_cst_64 : Ref sig .tc := ⟨.hbm, 410, rfl⟩
abbrev main_v325 : Ref sig .tc := ⟨.hbm, 411, rfl⟩
abbrev main_v326 : Ref sig .tc := ⟨.hbm, 412, rfl⟩
abbrev main_cst_65 : Ref sig .tc := ⟨.hbm, 413, rfl⟩
abbrev main_v327 : Ref sig .tc := ⟨.hbm, 414, rfl⟩

abbrev nD : Nat := 1
abbrev τ : Topo := Topo.v7x

variable {F : FTy → Type} [FloatOps F]

class Facts₀ : Prop where
  bcast_S3_S3x1_0 : S3.BroadcastsInDim S3x1 (![0] : Fin 1 → Fin S3x1.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  bcast_S_S100000x1 : S_.BroadcastsInDim S100000x1 (![] : Fin 0 → Fin S100000x1.rank)
  bcast_S100000x1_S100000x3_0_1 : S100000x1.BroadcastsInDim S100000x3 (![0, 1] : Fin 2 → Fin S100000x3.rank)
  bcast_S_S100000x64 : S_.BroadcastsInDim S100000x64 (![] : Fin 0 → Fin S100000x64.rank)
  bcast_S_S2048x20 : S_.BroadcastsInDim S2048x20 (![] : Fin 0 → Fin S2048x20.rank)
  slices_S3x400000_S1x400000_0_0 : S3x400000.Slices ![0, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  bcast_S_S30000x64 : S_.BroadcastsInDim S30000x64 (![] : Fin 0 → Fin S30000x64.rank)
  slices_S3x30000x1_S1x30000x1_0_0_0 : S3x30000x1.Slices ![0, 0, 0] S1x30000x1
  shapeCasts_S1x30000x1_S30000x1 : S1x30000x1.ShapeCasts S30000x1
  bcast_S_S30000x1 : S_.BroadcastsInDim S30000x1 (![] : Fin 0 → Fin S30000x1.rank)
  bcast_S30000x1_S30000x64_0_1 : S30000x1.BroadcastsInDim S30000x64 (![0, 1] : Fin 2 → Fin S30000x64.rank)
  slices_S3x64x64_S1x64x64_0_0_0 : S3x64x64.Slices ![0, 0, 0] S1x64x64
  shapeCasts_S1x64x64_S64x64 : S1x64x64.ShapeCasts S64x64
  concatenates_S30000x64_S30000x64_S30000x128_d1 : Shape.Concatenates [S30000x64, S30000x64] S30000x128 1
  bcast_S2048x20_S2048x20x1_0_1 : S2048x20.BroadcastsInDim S2048x20x1 (![0, 1] : Fin 2 → Fin S2048x20x1.rank)
  slices_S100000x3_S100000x1_0_0 : S100000x3.Slices ![0, 0] S100000x1
  slices_S3x500000_S1x500000_0_0 : S3x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  bcast_S100000x1_S100000x64_0_1 : S100000x1.BroadcastsInDim S100000x64 (![0, 1] : Fin 2 → Fin S100000x64.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  bcast_S_S2048x1 : S_.BroadcastsInDim S2048x1 (![] : Fin 0 → Fin S2048x1.rank)
  bcast_S2048x1_S2048x1x1_0_1 : S2048x1.BroadcastsInDim S2048x1x1 (![0, 1] : Fin 2 → Fin S2048x1x1.rank)
  bcast_S2048x1x128_S2048x20x128_0_1_2 : S2048x1x128.BroadcastsInDim S2048x20x128 (![0, 1, 2] : Fin 3 → Fin S2048x20x128.rank)
  reducesTo_S2048x20x128_S2048x20_d2 : S2048x20x128.ReducesTo [2] S2048x20
  h_S_ : 0 < S_.numel
  slices_S3x400000_S1x400000_1_0 : S3x400000.Slices ![1, 0] S1x400000
  slices_S3x30000x1_S1x30000x1_1_0_0 : S3x30000x1.Slices ![1, 0, 0] S1x30000x1
  slices_S3x64x64_S1x64x64_1_0_0 : S3x64x64.Slices ![1, 0, 0] S1x64x64
  slices_S100000x3_S100000x1_0_1 : S100000x3.Slices ![0, 1] S100000x1
  slices_S3x500000_S1x500000_1_0 : S3x500000.Slices ![1, 0] S1x500000
  slices_S3x128x128_S1x128x128_1_0_0 : S3x128x128.Slices ![1, 0, 0] S1x128x128
  slices_S3x400000_S1x400000_2_0 : S3x400000.Slices ![2, 0] S1x400000
  slices_S3x30000x1_S1x30000x1_2_0_0 : S3x30000x1.Slices ![2, 0, 0] S1x30000x1
  slices_S3x64x64_S1x64x64_2_0_0 : S3x64x64.Slices ![2, 0, 0] S1x64x64
  slices_S100000x3_S100000x1_0_2 : S100000x3.Slices ![0, 2] S100000x1
  slices_S3x500000_S1x500000_2_0 : S3x500000.Slices ![2, 0] S1x500000
  slices_S3x128x128_S1x128x128_2_0_0 : S3x128x128.Slices ![2, 0, 0] S1x128x128
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S100000x64_S100000x64_S100000x128_d1 : Shape.Concatenates [S100000x64, S100000x64] S100000x128 1
  shapeCasts_S2048x1x1_S2048x1 : S2048x1x1.ShapeCasts S2048x1
  bcast_S2048x1_S2048x20_0_1 : S2048x1.BroadcastsInDim S2048x20 (![0, 1] : Fin 2 → Fin S2048x20.rank)
  reducesTo_S2048x20x128_S_d0_1_2 : S2048x20x128.ReducesTo [0, 1, 2] S_
  dot_S100000x3_S3x1_S100000x1_1_0_0_1_n_n_wf : DotDims.WF S100000x3 S3x1 S100000x1 [1] [0] [0] [1] [] []
  gather_S30000x64_S400000x1_S400000x64_1_0_n_n_0_1_164_wf : GatherDims.WF S30000x64 S400000x1 S400000x64 [1] [0] [] [0] [] 1 ![1, 64]
  scatter_S30000x64_S400000x1_S400000x64_1_0_0_1_wf : ScatterDims.WF S30000x64 S400000x1 S400000x64 [1] [0] [0] 1
  dot_S30000x64_S64x64_S30000x64_1_0_0_1_n_n_wf : DotDims.WF S30000x64 S64x64 S30000x64 [1] [0] [0] [1] [] []
  gather_S30000x128_S2048x20x1_S2048x20x128_2_0_n_n_0_2_1128_wf : GatherDims.WF S30000x128 S2048x20x1 S2048x20x128 [2] [0] [] [0] [] 2 ![1, 128]
  gather_S30000x64_S500000x1_S500000x64_1_0_n_n_0_1_164_wf : GatherDims.WF S30000x64 S500000x1 S500000x64 [1] [0] [] [0] [] 1 ![1, 64]
  scatter_S100000x64_S500000x1_S500000x64_1_0_0_1_wf : ScatterDims.WF S100000x64 S500000x1 S500000x64 [1] [0] [0] 1
  gather_S30000x128_S500000x1_S500000x128_1_0_n_n_0_1_1128_wf : GatherDims.WF S30000x128 S500000x1 S500000x128 [1] [0] [] [0] [] 1 ![1, 128]
  scatter_S100000x128_S500000x1_S500000x128_1_0_0_1_wf : ScatterDims.WF S100000x128 S500000x1 S500000x128 [1] [0] [0] 1
  dot_S100000x128_S128x128_S100000x128_1_0_0_1_n_n_wf : DotDims.WF S100000x128 S128x128 S100000x128 [1] [0] [0] [1] [] []
  gather_S100000x128_S2048x1x1_S2048x1x128_2_0_n_n_0_2_1128_wf : GatherDims.WF S100000x128 S2048x1x1 S2048x1x128 [2] [0] [] [0] [] 2 ![1, 128]
  gather_S100000x64_S1000000x1_S1000000x64_1_0_n_n_0_1_164_wf : GatherDims.WF S100000x64 S1000000x1 S1000000x64 [1] [0] [] [0] [] 1 ![1, 64]
  scatter_S30000x64_S1000000x1_S1000000x64_1_0_0_1_wf : ScatterDims.WF S30000x64 S1000000x1 S1000000x64 [1] [0] [0] 1
  dot_S100000x64_S64x128_S100000x128_1_0_0_1_n_n_wf : DotDims.WF S100000x64 S64x128 S100000x128 [1] [0] [0] [1] [] []
  dot_S30000x64_S64x128_S30000x128_1_0_0_1_n_n_wf : DotDims.WF S30000x64 S64x128 S30000x128 [1] [0] [0] [1] [] []
  dot_S100000x64_S64x64_S100000x64_1_0_0_1_n_n_wf : DotDims.WF S100000x64 S64x64 S100000x64 [1] [0] [0] [1] [] []
  dot_S100000x128_S128x1_S100000x1_1_0_0_1_n_n_wf : DotDims.WF S100000x128 S128x1 S100000x1 [1] [0] [0] [1] [] []
  gather_S100000x1_S2048x1x1_S2048x1x1_2_0_n_n_0_2_11_wf : GatherDims.WF S100000x1 S2048x1x1 S2048x1x1 [2] [0] [] [0] [] 2 ![1, 1]

variable [Facts₀]

def dot_S100000x3_S3x1_S100000x1_1_0_0_1_n_n : DotDims S100000x3 S3x1 S100000x1 where
  lhsContracting := [1]
  rhsContracting := [0]
  lhsNonContracting := [0]
  rhsNonContracting := [1]
  lhsBatch := []
  rhsBatch := []
  wf := dot_S100000x3_S3x1_S100000x1_1_0_0_1_n_n_wf
def gather_S30000x64_S400000x1_S400000x64_1_0_n_n_0_1_164 : GatherDims S30000x64 S400000x1 S400000x64 where
  offsetDims := [1]
  collapsedSliceDims := [0]
  operandBatchingDims := []
  startIndicesBatchingDims := []
  startIndexMap := [0]
  indexVectorDim := 1
  sliceSizes := ![1, 64]
  wf := gather_S30000x64_S400000x1_S400000x64_1_0_n_n_0_1_164_wf
def scatter_S30000x64_S400000x1_S400000x64_1_0_0_1 : ScatterDims S30000x64 S400000x1 S400000x64 where
  updateWindowDims := [1]
  insertedWindowDims := [0]
  scatterDimsToOperandDims := [0]
  indexVectorDim := 1
  wf := scatter_S30000x64_S400000x1_S400000x64_1_0_0_1_wf
def dot_S30000x64_S64x64_S30000x64_1_0_0_1_n_n : DotDims S30000x64 S64x64 S30000x64 where
  lhsContracting := [1]
  rhsContracting := [0]
  lhsNonContracting := [0]
  rhsNonContracting := [1]
  lhsBatch := []
  rhsBatch := []
  wf := dot_S30000x64_S64x64_S30000x64_1_0_0_1_n_n_wf
def gather_S30000x128_S2048x20x1_S2048x20x128_2_0_n_n_0_2_1128 : GatherDims S30000x128 S2048x20x1 S2048x20x128 where
  offsetDims := [2]
  collapsedSliceDims := [0]
  operandBatchingDims := []
  startIndicesBatchingDims := []
  startIndexMap := [0]
  indexVectorDim := 2
  sliceSizes := ![1, 128]
  wf := gather_S30000x128_S2048x20x1_S2048x20x128_2_0_n_n_0_2_1128_wf
def gather_S30000x64_S500000x1_S500000x64_1_0_n_n_0_1_164 : GatherDims S30000x64 S500000x1 S500000x64 where
  offsetDims := [1]
  collapsedSliceDims := [0]
  operandBatchingDims := []
  startIndicesBatchingDims := []
  startIndexMap := [0]
  indexVectorDim := 1
  sliceSizes := ![1, 64]
  wf := gather_S30000x64_S500000x1_S500000x64_1_0_n_n_0_1_164_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf
def gather_S30000x128_S500000x1_S500000x128_1_0_n_n_0_1_1128 : GatherDims S30000x128 S500000x1 S500000x128 where
  offsetDims := [1]
  collapsedSliceDims := [0]
  operandBatchingDims := []
  startIndicesBatchingDims := []
  startIndexMap := [0]
  indexVectorDim := 1
  sliceSizes := ![1, 128]
  wf := gather_S30000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S2048x1x1_S2048x1x128_2_0_n_n_0_2_1128 : GatherDims S100000x128 S2048x1x1 S2048x1x128 where
  offsetDims := [2]
  collapsedSliceDims := [0]
  operandBatchingDims := []
  startIndicesBatchingDims := []
  startIndexMap := [0]
  indexVectorDim := 2
  sliceSizes := ![1, 128]
  wf := gather_S100000x128_S2048x1x1_S2048x1x128_2_0_n_n_0_2_1128_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S30000x64_S1000000x1_S1000000x64_1_0_0_1 : ScatterDims S30000x64 S1000000x1 S1000000x64 where
  updateWindowDims := [1]
  insertedWindowDims := [0]
  scatterDimsToOperandDims := [0]
  indexVectorDim := 1
  wf := scatter_S30000x64_S1000000x1_S1000000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S30000x64_S64x128_S30000x128_1_0_0_1_n_n : DotDims S30000x64 S64x128 S30000x128 where
  lhsContracting := [1]
  rhsContracting := [0]
  lhsNonContracting := [0]
  rhsNonContracting := [1]
  lhsBatch := []
  rhsBatch := []
  wf := dot_S30000x64_S64x128_S30000x128_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S2048x1x1_S2048x1x1_2_0_n_n_0_2_11 : GatherDims S100000x1 S2048x1x1 S2048x1x1 where
  offsetDims := [2]
  collapsedSliceDims := [0]
  operandBatchingDims := []
  startIndicesBatchingDims := []
  startIndexMap := [0]
  indexVectorDim := 2
  sliceSizes := ![1, 1]
  wf := gather_S100000x1_S2048x1x1_S2048x1x1_2_0_n_n_0_2_11_wf

class Facts : Prop extends Facts₀ where

variable [Facts]
-- ==== Proof.BitsRegion0.lean ====
/-
  Region 0 of the kernel program: the item propagation: a row tile of 2000 items of the three per-behaviour aggregates, each row divided by its degree plus eps, times that behaviour's 64 x 64 propagation matrix (x / (d + eps) · P per behaviour), 15 grid points.

  At every grid point the body reads its input tiles whole, computes one value and stores it over the whole output
  tile. This module says what each window's staging buffer holds around the body at a point, as a function of the
  arrays the region finds at its entry, proves the body's triple, and discharges the pipeline's obligation at every
  point. Everything is stated at a parameter `V`, the contents of the core's buffers when the region is entered, and
  for any float instance.
-/
import proofs.«166662_j47579647705297_2_alg».proof.Proof.Gen.Kernel.Launch
import proofs.«166662_j47579647705297_2_alg».proof.Proof.Gen.Kernel.Skeleton
import proofs.«166662_j47579647705297_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles -/

/-- The tile of window `w` that grid point `t` works on: the window's block there, cut out of the window's array as
    the region finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its tile whenever the body runs, fetched at that point or kept from the point before
    (its block index then has not moved), for any proof data over the entry contents that leave the tile in place. -/
theorem found0_0 {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)

/-- Input window 1 holds its tile whenever the body runs, fetched at that point or kept from the point before
    (its block index then has not moved), for any proof data over the entry contents that leave the tile in place. -/
theorem found0_1 {c : Dev nD} (dat : Dat τ (Elt F) Unit ℕ (UR sig nD τ) ℕ cfg0 c) (hA : dat.A 1 = V c (Pipeline.arrRef spec0 1))
    (hafter : ∀ t, dat.after 1 t = tile0 V c 1 t) (t : Fin cfg0.N) (d) : dat.before 1 t d = tile0 V c 1 t :=
  (dat.before_in_eq_fetched 1 rfl (fun _ => rfl) (fun _ _ _ => rfl) (fun t => by rw [hafter]; unfold Dat.blockOf tile0; rw [hA]; try rfl) t d).trans
    (by unfold Dat.fetched Dat.blockOf tile0; rw [hA]; try rfl)

/-- Input window 2 holds its tile whenever the body runs, fetched at that point or kept from the point before
    (its block index then has not moved), for any proof data over the entry contents that leave the tile in place. -/
theorem found0_2 {c : Dev nD} (dat : Dat τ (Elt F) Unit ℕ (UR sig nD τ) ℕ cfg0 c) (hA : dat.A 2 = V c (Pipeline.arrRef spec0 2))
    (hafter : ∀ t, dat.after 2 t = tile0 V c 2 t) (t : Fin cfg0.N) (d) : dat.before 2 t d = tile0 V c 2 t :=
  (dat.before_in_eq_fetched 2 rfl (fun _ => rfl) (fun _ _ _ => rfl) (fun t => by rw [hafter]; unfold Dat.blockOf tile0; rw [hA]; try rfl) t d).trans
    (by unfold Dat.fetched Dat.blockOf tile0; rw [hA]; try rfl)

/-! ## What the body leaves in the output tile -/

abbrev box0_x : Rect S3x2000x64 := Rect.unit (s := S3x2000x64) ![0, 0, 0] S3x2000x64.size inb_S3x2000x64_S3x2000x64_0_0_0
abbrev box0_d : Rect S3x2000x1 := Rect.unit (s := S3x2000x1) ![0, 0, 0] S3x2000x1.size inb_S3x2000x1_S3x2000x1_0_0_0
abbrev box0_p : Rect S3x64x64 := Rect.unit (s := S3x64x64) ![0, 0, 0] S3x64x64.size inb_S3x64x64_S3x64x64_0_0_0
abbrev box0_out : Rect S3x2000x64 := Rect.unit (s := S3x2000x64) ![0, 0, 0] S3x2000x64.size inb_S3x2000x64_S3x2000x64_0_0_0

/-- The output tile after the body: its one store, over the whole tile, of x / (d + eps) · P per behaviour of the input tiles. -/
def left0 (x : Vec F S3x2000x64 .f32) (d : Vec F S3x2000x1 .f32) (p : Vec F S3x64x64 .f32) : Vec F S3x2000x64 .f32 :=
  View.canon [⟨box0_out, k0_pay1 (View.ld x box0_x) (View.ld d box0_d) (View.ld p box0_p)⟩]

/-- The one store covers the output tile. -/
theorem whole0 (p0 : Vec F S3x2000x64 .f32) (y : S3x2000x64.Idx) :
    ∃ pc ∈ ([⟨box0_out, p0⟩] : List (View.Piece (Elt F) S3x2000x64 .f32)), y ∈ pc.1.set :=
  View.cover_of_tiled [⟨box0_out, p0⟩] S3x2000x64.size (by rfl) y

/-! ## The body's triple -/

set_option maxHeartbeats 1000000 in
/-- The body on whole staging memrefs, the inputs' holding x, d, p and the output's anything, runs to its end
    with the inputs' as they were and the output's at `left0` of them. -/
theorem body0 (c : Dev nD) (E : Set ℕ) (i : grid0.Coords) (a0 : Memref sig .tc .vmem S3x2000x64 .f32) (h0 : a0.IsWhole) (a1 : Memref sig .tc .vmem S3x2000x1 .f32) (h1 : a1.IsWhole) (a2 : Memref sig .tc .vmem S3x64x64 .f32) (h2 : a2.IsWhole) (ao : Memref sig .tc .vmem S3x2000x64 .f32) (ho : ao.IsWhole)
    (x : Vec F S3x2000x64 .f32) (d : Vec F S3x2000x1 .f32) (p : Vec F S3x64x64 .f32) (Q : PUnit → sProp 𝕄) :
    iprop(owns (c : Thread nD τ) a0 fullShare x ∗ owns (c : Thread nD τ) a1 fullShare d ∗ owns (c : Thread nD τ) a2 fullShare p ∗ (∃ o, owns (c : Thread nD τ) ao fullShare o)
        ∗ (iprop(owns (c : Thread nD τ) a0 fullShare x ∗ owns (c : Thread nD τ) a1 fullShare d ∗ owns (c : Thread nD τ) a2 fullShare p ∗ owns (c : Thread nD τ) ao fullShare (left0 x d p)) -∗ Q ⟨⟩))
      ⊢ wp frame (wpE (defs₀ (F := F)) Variants.none c none) E (cc0__propagate_kernel i a0 h0 a1 h1 a2 h2 ao ho) Q := by
  simp only [cc0__propagate_kernel_eq_skeleton]; unfold cc0__propagate_kernel_skel
  unfold owns
  iintro ⟨⟨%f0, %hf0, H0⟩, ⟨%f1, %hf1, H1⟩, ⟨%f2, %hf2, H2⟩, ⟨%o, %fo, -, Ho⟩, Hq⟩
  subst hf0
  subst hf1
  subst hf2
  sl_exec
  sl_step
  iapply Hq
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact Ho
  ipureintro
  exact View.read_writes_eq_canon _ _ _ (whole0 _)

/-! ## The proof data -/

/-- The pipeline's proof data on core `c`: the arrays as the region finds them; after the body at point `t` each
    input's buffer still at its tile and the output's at `left0` of the input tiles; the invariant holds what
    the body never touches; nothing is owed; every share is full. -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => tile0 V c 2 t
    | ⟨3, _⟩ => left0 (tile0 V c 0 t) (tile0 V c 1 t) (tile0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = tile0 V c 0 t := by dsimp only [dat0]
theorem after0_1 (c : Dev nD) (t : Fin cfg0.N) : (dat0 V c).after 1 t = tile0 V c 1 t := by dsimp only [dat0]
theorem after0_2 (c : Dev nD) (t : Fin cfg0.N) : (dat0 V c).after 2 t = tile0 V c 2 t := by dsimp only [dat0]
theorem after0_3 (c : Dev nD) (t : Fin cfg0.N) : (dat0 V c).after 3 t = left0 (tile0 V c 0 t) (tile0 V c 1 t) (tile0 V c 2 t) := by dsimp only [dat0]

theorem holds0_0 (c : Dev nD) (t : Fin cfg0.N) (d) : (dat0 V c).before 0 t d = tile0 V c 0 t :=
  found0_0 V (dat0 V c) (A_eq0 V c 0) (after0_0 V c) t d
theorem holds0_1 (c : Dev nD) (t : Fin cfg0.N) (d) : (dat0 V c).before 1 t d = tile0 V c 1 t :=
  found0_1 V (dat0 V c) (A_eq0 V c 1) (after0_1 V c) t d
theorem holds0_2 (c : Dev nD) (t : Fin cfg0.N) (d) : (dat0 V c).before 2 t d = tile0 V c 2 t :=
  found0_2 V (dat0 V c) (A_eq0 V c 2) (after0_2 V c) t d

/-! ## The obligation at a point -/

/-- What the pipeline hands the body at point `t`, window by window, -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it takes back. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the inputs' memrefs hold their tiles, so the body's triple applies; the invariant and what the core owes
    pass through unread. -/
theorem point0 (c : Dev nD) (t : Fin cfg0.N) :
    handed0 V c t ⊢ wp frame (wpE (defs₀ (F := F)) Variants.none c none) Set.univ (bodyAt0 t) (fun _ => returned0 V c t) := by
  unfold handed0 returned0 bodyAt0
  simp only [holds0_0, holds0_1, holds0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, G0⟩, ⟨%d1, G1⟩, ⟨%d2, G2⟩, ⟨%d3, G3⟩⟩
  iapply (body0 c Set.univ _ _ _ _ _ _ _ _ _ (tile0 V c 0 t) (tile0 V c 1 t) (tile0 V c 2 t) _)
  isplitl [G0]; · iexact G0
  isplitl [G1]; · iexact G1
  isplitl [G2]; · iexact G2
  isplitl [G3]; · iexists _; iexact G3
  iintro ⟨G0, G1, G2, G3⟩
  isplitl [HΦ]; · iexact HΦ
  isplitl [Ho]; · iexact Ho
  isplitl [G0]; · iexact G0
  isplitl [G1]; · iexact G1
  isplitl [G2]; · iexact G2
  iexact G3

/-- The pipeline's obligation, at every point. -/
theorem obligation0 (c : Dev nD) : BodyObligation (dat0 (F := F) V c) (defs₀ (F := F)) Variants.none () Set.univ := fun t => by
  rw [bigSep_W0, bigSep_W0]
  exact point0 V c t

end Cert.Kernel.Hand

end
-- ==== Proof.BitsRegion1.lean ====
/-
  Region 1 of the kernel program: the user projection: a row tile of 2000 users of the three per-behaviour neighbourhood features times that behaviour's 128 x 128 matrix (x · B per behaviour), 50 grid points.

  At every grid point the body reads its input tiles whole, computes one value and stores it over the whole output
  tile. This module says what each window's staging buffer holds around the body at a point, as a function of the
  arrays the region finds at its entry, proves the body's triple, and discharges the pipeline's obligation at every
  point. Everything is stated at a parameter `V`, the contents of the core's buffers when the region is entered, and
  for any float instance.
-/
import proofs.«166662_j47579647705297_2_alg».proof.Proof.Gen.Kernel.Launch
import proofs.«166662_j47579647705297_2_alg».proof.Proof.Gen.Kernel.Skeleton
import proofs.«166662_j47579647705297_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles -/

/-- The tile of window `w` that grid point `t` works on: the window's block there, cut out of the window's array as
    the region finds it. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its tile whenever the body runs, fetched at that point or kept from the point before
    (its block index then has not moved), for any proof data over the entry contents that leave the tile in place. -/
theorem found1_0 {c : Dev nD} (dat : Dat τ (Elt F) Unit ℕ (UR sig nD τ) ℕ cfg1 c) (hA : dat.A 0 = V c (Pipeline.arrRef spec1 0))
    (hafter : ∀ t, dat.after 0 t = tile1 V c 0 t) (t : Fin cfg1.N) (d) : dat.before 0 t d = tile1 V c 0 t :=
  (dat.before_in_eq_fetched 0 rfl (fun _ => rfl) (fun _ _ _ => rfl) (fun t => by rw [hafter]; unfold Dat.blockOf tile1; rw [hA]; try rfl) t d).trans
    (by unfold Dat.fetched Dat.blockOf tile1; rw [hA]; try rfl)

/-- Input window 1 holds its tile whenever the body runs, fetched at that point or kept from the point before
    (its block index then has not moved), for any proof data over the entry contents that leave the tile in place. -/
theorem found1_1 {c : Dev nD} (dat : Dat τ (Elt F) Unit ℕ (UR sig nD τ) ℕ cfg1 c) (hA : dat.A 1 = V c (Pipeline.arrRef spec1 1))
    (hafter : ∀ t, dat.after 1 t = tile1 V c 1 t) (t : Fin cfg1.N) (d) : dat.before 1 t d = tile1 V c 1 t :=
  (dat.before_in_eq_fetched 1 rfl (fun _ => rfl) (fun _ _ _ => rfl) (fun t => by rw [hafter]; unfold Dat.blockOf tile1; rw [hA]; try rfl) t d).trans
    (by unfold Dat.fetched Dat.blockOf tile1; rw [hA]; try rfl)

/-! ## What the body leaves in the output tile -/

abbrev box1_x : Rect S3x2000x128 := Rect.unit (s := S3x2000x128) ![0, 0, 0] S3x2000x128.size inb_S3x2000x128_S3x2000x128_0_0_0
abbrev box1_p : Rect S3x128x128 := Rect.unit (s := S3x128x128) ![0, 0, 0] S3x128x128.size inb_S3x128x128_S3x128x128_0_0_0
abbrev box1_out : Rect S3x2000x128 := Rect.unit (s := S3x2000x128) ![0, 0, 0] S3x2000x128.size inb_S3x2000x128_S3x2000x128_0_0_0

/-- The output tile after the body: its one store, over the whole tile, of x · B per behaviour of the input tiles. -/
def left1 (x : Vec F S3x2000x128 .f32) (p : Vec F S3x128x128 .f32) : Vec F S3x2000x128 .f32 :=
  View.canon [⟨box1_out, k1_pay1 (View.ld x box1_x) (View.ld p box1_p)⟩]

/-- The one store covers the output tile. -/
theorem whole1 (p0 : Vec F S3x2000x128 .f32) (y : S3x2000x128.Idx) :
    ∃ pc ∈ ([⟨box1_out, p0⟩] : List (View.Piece (Elt F) S3x2000x128 .f32)), y ∈ pc.1.set :=
  View.cover_of_tiled [⟨box1_out, p0⟩] S3x2000x128.size (by rfl) y

/-! ## The body's triple -/

set_option maxHeartbeats 1000000 in
/-- The body on whole staging memrefs, the inputs' holding x, p and the output's anything, runs to its end
    with the inputs' as they were and the output's at `left1` of them. -/
theorem body1 (c : Dev nD) (E : Set ℕ) (i : grid1.Coords) (a0 : Memref sig .tc .vmem S3x2000x128 .f32) (h0 : a0.IsWhole) (a1 : Memref sig .tc .vmem S3x128x128 .f32) (h1 : a1.IsWhole) (ao : Memref sig .tc .vmem S3x2000x128 .f32) (ho : ao.IsWhole)
    (x : Vec F S3x2000x128 .f32) (p : Vec F S3x128x128 .f32) (Q : PUnit → sProp 𝕄) :
    iprop(owns (c : Thread nD τ) a0 fullShare x ∗ owns (c : Thread nD τ) a1 fullShare p ∗ (∃ o, owns (c : Thread nD τ) ao fullShare o)
        ∗ (iprop(owns (c : Thread nD τ) a0 fullShare x ∗ owns (c : Thread nD τ) a1 fullShare p ∗ owns (c : Thread nD τ) ao fullShare (left1 x p)) -∗ Q ⟨⟩))
      ⊢ wp frame (wpE (defs₀ (F := F)) Variants.none c none) E (cc1__behaviour_kernel i a0 h0 a1 h1 ao ho) Q := by
  simp only [cc1__behaviour_kernel_eq_skeleton]; unfold cc1__behaviour_kernel_skel
  unfold owns
  iintro ⟨⟨%f0, %hf0, H0⟩, ⟨%f1, %hf1, H1⟩, ⟨%o, %fo, -, Ho⟩, Hq⟩
  subst hf0
  subst hf1
  sl_exec
  sl_step
  iapply Hq
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (whole1 _)

/-! ## The proof data -/

/-- The pipeline's proof data on core `c`: the arrays as the region finds them; after the body at point `t` each
    input's buffer still at its tile and the output's at `left1` of the input tiles; the invariant holds what
    the body never touches; nothing is owed; every share is full. -/
def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => left1 (tile1 V c 0 t) (tile1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = tile1 V c 0 t := by dsimp only [dat1]
theorem after1_1 (c : Dev nD) (t : Fin cfg1.N) : (dat1 V c).after 1 t = tile1 V c 1 t := by dsimp only [dat1]
theorem after1_2 (c : Dev nD) (t : Fin cfg1.N) : (dat1 V c).after 2 t = left1 (tile1 V c 0 t) (tile1 V c 1 t) := by dsimp only [dat1]

theorem holds1_0 (c : Dev nD) (t : Fin cfg1.N) (d) : (dat1 V c).before 0 t d = tile1 V c 0 t :=
  found1_0 V (dat1 V c) (A_eq1 V c 0) (after1_0 V c) t d
theorem holds1_1 (c : Dev nD) (t : Fin cfg1.N) (d) : (dat1 V c).before 1 t d = tile1 V c 1 t :=
  found1_1 V (dat1 V c) (A_eq1 V c 1) (after1_1 V c) t d

/-! ## The obligation at a point -/

/-- What the pipeline hands the body at point `t`, window by window, -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it takes back. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- At any point the inputs' memrefs hold their tiles, so the body's triple applies; the invariant and what the core owes
    pass through unread. -/
theorem point1 (c : Dev nD) (t : Fin cfg1.N) :
    handed1 V c t ⊢ wp frame (wpE (defs₀ (F := F)) Variants.none c none) Set.univ (bodyAt1 t) (fun _ => returned1 V c t) := by
  unfold handed1 returned1 bodyAt1
  simp only [holds1_0, holds1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, G0⟩, ⟨%d1, G1⟩, ⟨%d2, G2⟩⟩
  iapply (body1 c Set.univ _ _ _ _ _ _ _ (tile1 V c 0 t) (tile1 V c 1 t) _)
  isplitl [G0]; · iexact G0
  isplitl [G1]; · iexact G1
  isplitl [G2]; · iexists _; iexact G2
  iintro ⟨G0, G1, G2⟩
  isplitl [HΦ]; · iexact HΦ
  isplitl [Ho]; · iexact Ho
  isplitl [G0]; · iexact G0
  isplitl [G1]; · iexact G1
  iexact G2

/-- The pipeline's obligation, at every point. -/
theorem obligation1 (c : Dev nD) : BodyObligation (dat1 (F := F) V c) (defs₀ (F := F)) Variants.none () Set.univ := fun t => by
  rw [bigSep_W1, bigSep_W1]
  exact point1 V c t

end Cert.Kernel.Hand

end
-- ==== Proof.BitsRegion2.lean ====
/-
  Region 2 of the kernel program: the fused user projection: a row tile of 5000 users of the mixed user feature times the column-concatenated weights [W | user_W] (x · [W | user_W]), 20 grid points.

  At every grid point the body reads its input tiles whole, computes one value and stores it over the whole output
  tile. This module says what each window's staging buffer holds around the body at a point, as a function of the
  arrays the region finds at its entry, proves the body's triple, and discharges the pipeline's obligation at every
  point. Everything is stated at a parameter `V`, the contents of the core's buffers when the region is entered, and
  for any float instance.
-/
import proofs.«166662_j47579647705297_2_alg».proof.Proof.Gen.Kernel.Launch
import proofs.«166662_j47579647705297_2_alg».proof.Proof.Gen.Kernel.Skeleton
import proofs.«166662_j47579647705297_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles -/

/-- The tile of window `w` that grid point `t` works on: the window's block there, cut out of the window's array as
    the region finds it. -/
def tile2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 holds its tile whenever the body runs, fetched at that point or kept from the point before
    (its block index then has not moved), for any proof data over the entry contents that leave the tile in place. -/
theorem found2_0 {c : Dev nD} (dat : Dat τ (Elt F) Unit ℕ (UR sig nD τ) ℕ cfg2 c) (hA : dat.A 0 = V c (Pipeline.arrRef spec2 0))
    (hafter : ∀ t, dat.after 0 t = tile2 V c 0 t) (t : Fin cfg2.N) (d) : dat.before 0 t d = tile2 V c 0 t :=
  (dat.before_in_eq_fetched 0 rfl (fun _ => rfl) (fun _ _ _ => rfl) (fun t => by rw [hafter]; unfold Dat.blockOf tile2; rw [hA]; try rfl) t d).trans
    (by unfold Dat.fetched Dat.blockOf tile2; rw [hA]; try rfl)

/-- Input window 1 holds its tile whenever the body runs, fetched at that point or kept from the point before
    (its block index then has not moved), for any proof data over the entry contents that leave the tile in place. -/
theorem found2_1 {c : Dev nD} (dat : Dat τ (Elt F) Unit ℕ (UR sig nD τ) ℕ cfg2 c) (hA : dat.A 1 = V c (Pipeline.arrRef spec2 1))
    (hafter : ∀ t, dat.after 1 t = tile2 V c 1 t) (t : Fin cfg2.N) (d) : dat.before 1 t d = tile2 V c 1 t :=
  (dat.before_in_eq_fetched 1 rfl (fun _ => rfl) (fun _ _ _ => rfl) (fun t => by rw [hafter]; unfold Dat.blockOf tile2; rw [hA]; try rfl) t d).trans
    (by unfold Dat.fetched Dat.blockOf tile2; rw [hA]; try rfl)

/-! ## What the body leaves in the output tile -/

abbrev box2_x : Rect S5000x64 := Rect.unit (s := S5000x64) ![0, 0] S5000x64.size inb_S5000x64_S5000x64_0_0
abbrev box2_p : Rect S64x192 := Rect.unit (s := S64x192) ![0, 0] S64x192.size inb_S64x192_S64x192_0_0
abbrev box2_out : Rect S5000x192 := Rect.unit (s := S5000x192) ![0, 0] S5000x192.size inb_S5000x192_S5000x192_0_0

/-- The output tile after the body: its one store, over the whole tile, of x · [W | user_W] of the input tiles. -/
def left2 (x : Vec F S5000x64 .f32) (p : Vec F S64x192 .f32) : Vec F S5000x192 .f32 :=
  View.canon [⟨box2_out, k2_pay1 (View.ld x box2_x) (View.ld p box2_p)⟩]

/-- The one store covers the output tile. -/
theorem whole2 (p0 : Vec F S5000x192 .f32) (y : S5000x192.Idx) :
    ∃ pc ∈ ([⟨box2_out, p0⟩] : List (View.Piece (Elt F) S5000x192 .f32)), y ∈ pc.1.set :=
  View.cover_of_tiled [⟨box2_out, p0⟩] S5000x192.size (by rfl) y

/-! ## The body's triple -/

set_option maxHeartbeats 1000000 in
/-- The body on whole staging memrefs, the inputs' holding x, p and the output's anything, runs to its end
    with the inputs' as they were and the output's at `left2` of them. -/
theorem body2 (c : Dev nD) (E : Set ℕ) (i : grid2.Coords) (a0 : Memref sig .tc .vmem S5000x64 .f32) (h0 : a0.IsWhole) (a1 : Memref sig .tc .vmem S64x192 .f32) (h1 : a1.IsWhole) (ao : Memref sig .tc .vmem S5000x192 .f32) (ho : ao.IsWhole)
    (x : Vec F S5000x64 .f32) (p : Vec F S64x192 .f32) (Q : PUnit → sProp 𝕄) :
    iprop(owns (c : Thread nD τ) a0 fullShare x ∗ owns (c : Thread nD τ) a1 fullShare p ∗ (∃ o, owns (c : Thread nD τ) ao fullShare o)
        ∗ (iprop(owns (c : Thread nD τ) a0 fullShare x ∗ owns (c : Thread nD τ) a1 fullShare p ∗ owns (c : Thread nD τ) ao fullShare (left2 x p)) -∗ Q ⟨⟩))
      ⊢ wp frame (wpE (defs₀ (F := F)) Variants.none c none) E (cc2__plain_matmul_kernel i a0 h0 a1 h1 ao ho) Q := by
  simp only [cc2__plain_matmul_kernel_eq_skeleton]; unfold cc2__plain_matmul_kernel_skel
  unfold owns
  iintro ⟨⟨%f0, %hf0, H0⟩, ⟨%f1, %hf1, H1⟩, ⟨%o, %fo, -, Ho⟩, Hq⟩
  subst hf0
  subst hf1
  sl_exec
  sl_step
  iapply Hq
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (whole2 _)

/-! ## The proof data -/

/-- The pipeline's proof data on core `c`: the arrays as the region finds them; after the body at point `t` each
    input's buffer still at its tile and the output's at `left2` of the input tiles; the invariant holds what
    the body never touches; nothing is owed; every share is full. -/
def dat2 (c : Dev nD) : Dat τ (Elt F) Unit ℕ (UR sig nD τ) ℕ cfg2 c where
  A w := V c (Pipeline.arrRef spec2 w)
  after w t := match w with
    | ⟨0, _⟩ => tile2 V c 0 t
    | ⟨1, _⟩ => tile2 V c 1 t
    | ⟨2, _⟩ => left2 (tile2 V c 0 t) (tile2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = tile2 V c 0 t := by dsimp only [dat2]
theorem after2_1 (c : Dev nD) (t : Fin cfg2.N) : (dat2 V c).after 1 t = tile2 V c 1 t := by dsimp only [dat2]
theorem after2_2 (c : Dev nD) (t : Fin cfg2.N) : (dat2 V c).after 2 t = left2 (tile2 V c 0 t) (tile2 V c 1 t) := by dsimp only [dat2]

theorem holds2_0 (c : Dev nD) (t : Fin cfg2.N) (d) : (dat2 V c).before 0 t d = tile2 V c 0 t :=
  found2_0 V (dat2 V c) (A_eq2 V c 0) (after2_0 V c) t d
theorem holds2_1 (c : Dev nD) (t : Fin cfg2.N) (d) : (dat2 V c).before 1 t d = tile2 V c 1 t :=
  found2_1 V (dat2 V c) (A_eq2 V c 1) (after2_1 V c) t d

/-! ## The obligation at a point -/

/-- What the pipeline hands the body at point `t`, window by window, -/
def handed2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it takes back. -/
def returned2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- At any point the inputs' memrefs hold their tiles, so the body's triple applies; the invariant and what the core owes
    pass through unread. -/
theorem point2 (c : Dev nD) (t : Fin cfg2.N) :
    handed2 V c t ⊢ wp frame (wpE (defs₀ (F := F)) Variants.none c none) Set.univ (bodyAt2 t) (fun _ => returned2 V c t) := by
  unfold handed2 returned2 bodyAt2
  simp only [holds2_0, holds2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, G0⟩, ⟨%d1, G1⟩, ⟨%d2, G2⟩⟩
  iapply (body2 c Set.univ _ _ _ _ _ _ _ (tile2 V c 0 t) (tile2 V c 1 t) _)
  isplitl [G0]; · iexact G0
  isplitl [G1]; · iexact G1
  isplitl [G2]; · iexists _; iexact G2
  iintro ⟨G0, G1, G2⟩
  isplitl [HΦ]; · iexact HΦ
  isplitl [Ho]; · iexact Ho
  isplitl [G0]; · iexact G0
  isplitl [G1]; · iexact G1
  iexact G2

/-- The pipeline's obligation, at every point. -/
theorem obligation2 (c : Dev nD) : BodyObligation (dat2 (F := F) V c) (defs₀ (F := F)) Variants.none () Set.univ := fun t => by
  rw [bigSep_W2, bigSep_W2]
  exact point2 V c t

end Cert.Kernel.Hand

end
-- ==== Proof.BitsRegion3.lean ====
/-
  Region 3 of the kernel program: the fused item projection: a row tile of 5000 items of the aggregated item feature times the column-concatenated weights [W | item_W] (x · [W | item_W]), 6 grid points.

  At every grid point the body reads its input tiles whole, computes one value and stores it over the whole output
  tile. This module says what each window's staging buffer holds around the body at a point, as a function of the
  arrays the region finds at its entry, proves the body's triple, and discharges the pipeline's obligation at every
  point. Everything is stated at a parameter `V`, the contents of the core's buffers when the region is entered, and
  for any float instance.
-/
import proofs.«166662_j47579647705297_2_alg».proof.Proof.Gen.Kernel.Launch
import proofs.«166662_j47579647705297_2_alg».proof.Proof.Gen.Kernel.Skeleton
import proofs.«166662_j47579647705297_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles -/

/-- The tile of window `w` that grid point `t` works on: the window's block there, cut out of the window's array as
    the region finds it. -/
def tile3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 holds its tile whenever the body runs, fetched at that point or kept from the point before
    (its block index then has not moved), for any proof data over the entry contents that leave the tile in place. -/
theorem found3_0 {c : Dev nD} (dat : Dat τ (Elt F) Unit ℕ (UR sig nD τ) ℕ cfg3 c) (hA : dat.A 0 = V c (Pipeline.arrRef spec3 0))
    (hafter : ∀ t, dat.after 0 t = tile3 V c 0 t) (t : Fin cfg3.N) (d) : dat.before 0 t d = tile3 V c 0 t :=
  (dat.before_in_eq_fetched 0 rfl (fun _ => rfl) (fun _ _ _ => rfl) (fun t => by rw [hafter]; unfold Dat.blockOf tile3; rw [hA]; try rfl) t d).trans
    (by unfold Dat.fetched Dat.blockOf tile3; rw [hA]; try rfl)

/-- Input window 1 holds its tile whenever the body runs, fetched at that point or kept from the point before
    (its block index then has not moved), for any proof data over the entry contents that leave the tile in place. -/
theorem found3_1 {c : Dev nD} (dat : Dat τ (Elt F) Unit ℕ (UR sig nD τ) ℕ cfg3 c) (hA : dat.A 1 = V c (Pipeline.arrRef spec3 1))
    (hafter : ∀ t, dat.after 1 t = tile3 V c 1 t) (t : Fin cfg3.N) (d) : dat.before 1 t d = tile3 V c 1 t :=
  (dat.before_in_eq_fetched 1 rfl (fun _ => rfl) (fun _ _ _ => rfl) (fun t => by rw [hafter]; unfold Dat.blockOf tile3; rw [hA]; try rfl) t d).trans
    (by unfold Dat.fetched Dat.blockOf tile3; rw [hA]; try rfl)

/-! ## What the body leaves in the output tile -/

abbrev box3_x : Rect S5000x64 := Rect.unit (s := S5000x64) ![0, 0] S5000x64.size inb_S5000x64_S5000x64_0_0
abbrev box3_p : Rect S64x192 := Rect.unit (s := S64x192) ![0, 0] S64x192.size inb_S64x192_S64x192_0_0
abbrev box3_out : Rect S5000x192 := Rect.unit (s := S5000x192) ![0, 0] S5000x192.size inb_S5000x192_S5000x192_0_0

/-- The output tile after the body: its one store, over the whole tile, of x · [W | item_W] of the input tiles. -/
def left3 (x : Vec F S5000x64 .f32) (p : Vec F S64x192 .f32) : Vec F S5000x192 .f32 :=
  View.canon [⟨box3_out, k3_pay1 (View.ld x box3_x) (View.ld p box3_p)⟩]

/-- The one store covers the output tile. -/
theorem whole3 (p0 : Vec F S5000x192 .f32) (y : S5000x192.Idx) :
    ∃ pc ∈ ([⟨box3_out, p0⟩] : List (View.Piece (Elt F) S5000x192 .f32)), y ∈ pc.1.set :=
  View.cover_of_tiled [⟨box3_out, p0⟩] S5000x192.size (by rfl) y

/-! ## The body's triple -/

set_option maxHeartbeats 1000000 in
/-- The body on whole staging memrefs, the inputs' holding x, p and the output's anything, runs to its end
    with the inputs' as they were and the output's at `left3` of them. -/
theorem body3 (c : Dev nD) (E : Set ℕ) (i : grid3.Coords) (a0 : Memref sig .tc .vmem S5000x64 .f32) (h0 : a0.IsWhole) (a1 : Memref sig .tc .vmem S64x192 .f32) (h1 : a1.IsWhole) (ao : Memref sig .tc .vmem S5000x192 .f32) (ho : ao.IsWhole)
    (x : Vec F S5000x64 .f32) (p : Vec F S64x192 .f32) (Q : PUnit → sProp 𝕄) :
    iprop(owns (c : Thread nD τ) a0 fullShare x ∗ owns (c : Thread nD τ) a1 fullShare p ∗ (∃ o, owns (c : Thread nD τ) ao fullShare o)
        ∗ (iprop(owns (c : Thread nD τ) a0 fullShare x ∗ owns (c : Thread nD τ) a1 fullShare p ∗ owns (c : Thread nD τ) ao fullShare (left3 x p)) -∗ Q ⟨⟩))
      ⊢ wp frame (wpE (defs₀ (F := F)) Variants.none c none) E (cc3__plain_matmul_kernel i a0 h0 a1 h1 ao ho) Q := by
  simp only [cc3__plain_matmul_kernel_eq_skeleton]; unfold cc3__plain_matmul_kernel_skel
  unfold owns
  iintro ⟨⟨%f0, %hf0, H0⟩, ⟨%f1, %hf1, H1⟩, ⟨%o, %fo, -, Ho⟩, Hq⟩
  subst hf0
  subst hf1
  sl_exec
  sl_step
  iapply Hq
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (whole3 _)

/-! ## The proof data -/

/-- The pipeline's proof data on core `c`: the arrays as the region finds them; after the body at point `t` each
    input's buffer still at its tile and the output's at `left3` of the input tiles; the invariant holds what
    the body never touches; nothing is owed; every share is full. -/
def dat3 (c : Dev nD) : Dat τ (Elt F) Unit ℕ (UR sig nD τ) ℕ cfg3 c where
  A w := V c (Pipeline.arrRef spec3 w)
  after w t := match w with
    | ⟨0, _⟩ => tile3 V c 0 t
    | ⟨1, _⟩ => tile3 V c 1 t
    | ⟨2, _⟩ => left3 (tile3 V c 0 t) (tile3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = tile3 V c 0 t := by dsimp only [dat3]
theorem after3_1 (c : Dev nD) (t : Fin cfg3.N) : (dat3 V c).after 1 t = tile3 V c 1 t := by dsimp only [dat3]
theorem after3_2 (c : Dev nD) (t : Fin cfg3.N) : (dat3 V c).after 2 t = left3 (tile3 V c 0 t) (tile3 V c 1 t) := by dsimp only [dat3]

theorem holds3_0 (c : Dev nD) (t : Fin cfg3.N) (d) : (dat3 V c).before 0 t d = tile3 V c 0 t :=
  found3_0 V (dat3 V c) (A_eq3 V c 0) (after3_0 V c) t d
theorem holds3_1 (c : Dev nD) (t : Fin cfg3.N) (d) : (dat3 V c).before 1 t d = tile3 V c 1 t :=
  found3_1 V (dat3 V c) (A_eq3 V c 1) (after3_1 V c) t d

/-! ## The obligation at a point -/

/-- What the pipeline hands the body at point `t`, window by window, -/
def handed3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it takes back. -/
def returned3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- At any point the inputs' memrefs hold their tiles, so the body's triple applies; the invariant and what the core owes
    pass through unread. -/
theorem point3 (c : Dev nD) (t : Fin cfg3.N) :
    handed3 V c t ⊢ wp frame (wpE (defs₀ (F := F)) Variants.none c none) Set.univ (bodyAt3 t) (fun _ => returned3 V c t) := by
  unfold handed3 returned3 bodyAt3
  simp only [holds3_0, holds3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, G0⟩, ⟨%d1, G1⟩, ⟨%d2, G2⟩⟩
  iapply (body3 c Set.univ _ _ _ _ _ _ _ (tile3 V c 0 t) (tile3 V c 1 t) _)
  isplitl [G0]; · iexact G0
  isplitl [G1]; · iexact G1
  isplitl [G2]; · iexists _; iexact G2
  iintro ⟨G0, G1, G2⟩
  isplitl [HΦ]; · iexact HΦ
  isplitl [Ho]; · iexact Ho
  isplitl [G0]; · iexact G0
  isplitl [G1]; · iexact G1
  iexact G2

/-- The pipeline's obligation, at every point. -/
theorem obligation3 (c : Dev nD) : BodyObligation (dat3 (F := F) V c) (defs₀ (F := F)) Variants.none () Set.univ := fun t => by
  rw [bigSep_W3, bigSep_W3]
  exact point3 V c t

end Cert.Kernel.Hand

end
-- ==== Proof.BitsRegion4.lean ====
/-
  Region 4 of the kernel program: the gate projection: a row tile of 5000 users of the user representation times the 128 x 1 gate weights (x · sigmoid_W), 20 grid points.

  At every grid point the body reads its input tiles whole, computes one value and stores it over the whole output
  tile. This module says what each window's staging buffer holds around the body at a point, as a function of the
  arrays the region finds at its entry, proves the body's triple, and discharges the pipeline's obligation at every
  point. Everything is stated at a parameter `V`, the contents of the core's buffers when the region is entered, and
  for any float instance.
-/
import proofs.«166662_j47579647705297_2_alg».proof.Proof.Gen.Kernel.Launch
import proofs.«166662_j47579647705297_2_alg».proof.Proof.Gen.Kernel.Skeleton
import proofs.«166662_j47579647705297_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles -/

/-- The tile of window `w` that grid point `t` works on: the window's block there, cut out of the window's array as
    the region finds it. -/
def tile4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 holds its tile whenever the body runs, fetched at that point or kept from the point before
    (its block index then has not moved), for any proof data over the entry contents that leave the tile in place. -/
theorem found4_0 {c : Dev nD} (dat : Dat τ (Elt F) Unit ℕ (UR sig nD τ) ℕ cfg4 c) (hA : dat.A 0 = V c (Pipeline.arrRef spec4 0))
    (hafter : ∀ t, dat.after 0 t = tile4 V c 0 t) (t : Fin cfg4.N) (d) : dat.before 0 t d = tile4 V c 0 t :=
  (dat.before_in_eq_fetched 0 rfl (fun _ => rfl) (fun _ _ _ => rfl) (fun t => by rw [hafter]; unfold Dat.blockOf tile4; rw [hA]; try rfl) t d).trans
    (by unfold Dat.fetched Dat.blockOf tile4; rw [hA]; try rfl)

/-- Input window 1 holds its tile whenever the body runs, fetched at that point or kept from the point before
    (its block index then has not moved), for any proof data over the entry contents that leave the tile in place. -/
theorem found4_1 {c : Dev nD} (dat : Dat τ (Elt F) Unit ℕ (UR sig nD τ) ℕ cfg4 c) (hA : dat.A 1 = V c (Pipeline.arrRef spec4 1))
    (hafter : ∀ t, dat.after 1 t = tile4 V c 1 t) (t : Fin cfg4.N) (d) : dat.before 1 t d = tile4 V c 1 t :=
  (dat.before_in_eq_fetched 1 rfl (fun _ => rfl) (fun _ _ _ => rfl) (fun t => by rw [hafter]; unfold Dat.blockOf tile4; rw [hA]; try rfl) t d).trans
    (by unfold Dat.fetched Dat.blockOf tile4; rw [hA]; try rfl)

/-! ## What the body leaves in the output tile -/

abbrev box4_x : Rect S5000x128 := Rect.unit (s := S5000x128) ![0, 0] S5000x128.size inb_S5000x128_S5000x128_0_0
abbrev box4_p : Rect S128x1 := Rect.unit (s := S128x1) ![0, 0] S128x1.size inb_S128x1_S128x1_0_0
abbrev box4_out : Rect S5000x1 := Rect.unit (s := S5000x1) ![0, 0] S5000x1.size inb_S5000x1_S5000x1_0_0

/-- The output tile after the body: its one store, over the whole tile, of x · sigmoid_W of the input tiles. -/
def left4 (x : Vec F S5000x128 .f32) (p : Vec F S128x1 .f32) : Vec F S5000x1 .f32 :=
  View.canon [⟨box4_out, k4_pay1 (View.ld x box4_x) (View.ld p box4_p)⟩]

/-- The one store covers the output tile. -/
theorem whole4 (p0 : Vec F S5000x1 .f32) (y : S5000x1.Idx) :
    ∃ pc ∈ ([⟨box4_out, p0⟩] : List (View.Piece (Elt F) S5000x1 .f32)), y ∈ pc.1.set :=
  View.cover_of_tiled [⟨box4_out, p0⟩] S5000x1.size (by rfl) y

/-! ## The body's triple -/

set_option maxHeartbeats 1000000 in
/-- The body on whole staging memrefs, the inputs' holding x, p and the output's anything, runs to its end
    with the inputs' as they were and the output's at `left4` of them. -/
theorem body4 (c : Dev nD) (E : Set ℕ) (i : grid4.Coords) (a0 : Memref sig .tc .vmem S5000x128 .f32) (h0 : a0.IsWhole) (a1 : Memref sig .tc .vmem S128x1 .f32) (h1 : a1.IsWhole) (ao : Memref sig .tc .vmem S5000x1 .f32) (ho : ao.IsWhole)
    (x : Vec F S5000x128 .f32) (p : Vec F S128x1 .f32) (Q : PUnit → sProp 𝕄) :
    iprop(owns (c : Thread nD τ) a0 fullShare x ∗ owns (c : Thread nD τ) a1 fullShare p ∗ (∃ o, owns (c : Thread nD τ) ao fullShare o)
        ∗ (iprop(owns (c : Thread nD τ) a0 fullShare x ∗ owns (c : Thread nD τ) a1 fullShare p ∗ owns (c : Thread nD τ) ao fullShare (left4 x p)) -∗ Q ⟨⟩))
      ⊢ wp frame (wpE (defs₀ (F := F)) Variants.none c none) E (cc4__plain_matmul_kernel i a0 h0 a1 h1 ao ho) Q := by
  simp only [cc4__plain_matmul_kernel_eq_skeleton]; unfold cc4__plain_matmul_kernel_skel
  unfold owns
  iintro ⟨⟨%f0, %hf0, H0⟩, ⟨%f1, %hf1, H1⟩, ⟨%o, %fo, -, Ho⟩, Hq⟩
  subst hf0
  subst hf1
  sl_exec
  sl_step
  iapply Hq
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (whole4 _)

/-! ## The proof data -/

/-- The pipeline's proof data on core `c`: the arrays as the region finds them; after the body at point `t` each
    input's buffer still at its tile and the output's at `left4` of the input tiles; the invariant holds what
    the body never touches; nothing is owed; every share is full. -/
def dat4 (c : Dev nD) : Dat τ (Elt F) Unit ℕ (UR sig nD τ) ℕ cfg4 c where
  A w := V c (Pipeline.arrRef spec4 w)
  after w t := match w with
    | ⟨0, _⟩ => tile4 V c 0 t
    | ⟨1, _⟩ => tile4 V c 1 t
    | ⟨2, _⟩ => left4 (tile4 V c 0 t) (tile4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = tile4 V c 0 t := by dsimp only [dat4]
theorem after4_1 (c : Dev nD) (t : Fin cfg4.N) : (dat4 V c).after 1 t = tile4 V c 1 t := by dsimp only [dat4]
theorem after4_2 (c : Dev nD) (t : Fin cfg4.N) : (dat4 V c).after 2 t = left4 (tile4 V c 0 t) (tile4 V c 1 t) := by dsimp only [dat4]

theorem holds4_0 (c : Dev nD) (t : Fin cfg4.N) (d) : (dat4 V c).before 0 t d = tile4 V c 0 t :=
  found4_0 V (dat4 V c) (A_eq4 V c 0) (after4_0 V c) t d
theorem holds4_1 (c : Dev nD) (t : Fin cfg4.N) (d) : (dat4 V c).before 1 t d = tile4 V c 1 t :=
  found4_1 V (dat4 V c) (A_eq4 V c 1) (after4_1 V c) t d

/-! ## The obligation at a point -/

/-- What the pipeline hands the body at point `t`, window by window, -/
def handed4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it takes back. -/
def returned4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- At any point the inputs' memrefs hold their tiles, so the body's triple applies; the invariant and what the core owes
    pass through unread. -/
theorem point4 (c : Dev nD) (t : Fin cfg4.N) :
    handed4 V c t ⊢ wp frame (wpE (defs₀ (F := F)) Variants.none c none) Set.univ (bodyAt4 t) (fun _ => returned4 V c t) := by
  unfold handed4 returned4 bodyAt4
  simp only [holds4_0, holds4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, G0⟩, ⟨%d1, G1⟩, ⟨%d2, G2⟩⟩
  iapply (body4 c Set.univ _ _ _ _ _ _ _ (tile4 V c 0 t) (tile4 V c 1 t) _)
  isplitl [G0]; · iexact G0
  isplitl [G1]; · iexact G1
  isplitl [G2]; · iexists _; iexact G2
  iintro ⟨G0, G1, G2⟩
  isplitl [HΦ]; · iexact HΦ
  isplitl [Ho]; · iexact Ho
  isplitl [G0]; · iexact G0
  isplitl [G1]; · iexact G1
  iexact G2

/-- The pipeline's obligation, at every point. -/
theorem obligation4 (c : Dev nD) : BodyObligation (dat4 (F := F) V c) (defs₀ (F := F)) Variants.none () Set.univ := fun t => by
  rw [bigSep_W4, bigSep_W4]
  exact point4 V c t

end Cert.Kernel.Hand

end
-- ==== Proof.BitsHost.lean ====
/-
  The six stretches of host operations of the kernel program, between and around its five regions: which buffers
  each stretch writes. Every operation writes exactly one buffer, its result; no operation allocates; so a buffer
  outside a stretch's list — in particular every argument of the program — holds after the stretch what it held
  before it.
-/
import proofs.«166662_j47579647705297_2_alg».proof.Proof.Gen.Kernel.Launch
import Idealize.ShloMosaic.Lib.StableHlo.Run

set_option maxRecDepth 16384

noncomputable section

namespace Cert.Kernel.Hand

open Cert.Kernel Cert.Kernel.Gen
open Idealize.ShloMosaic Idealize.ShloMosaic.TcCoe

variable {F : FTy → Type} [FloatOps F]

/-! ## Stretch 0: 65 operations -/

/-- The buffers stretch 0 writes, in order. -/
abbrev wrote0 : List (Ref sig .tc) := [main_v0, main_v1, main_v2, main_v3, main_v4, main_cst, main_v5, main_v6, main_v7, main_v8, main_v9, main_v10, main_c, main_v11, main_v12, main_c_0, main_v13, main_v14, main_v15, main_v16, main_v17, main_v18, main_v19, main_cst_1, main_v20, main_v21, main_v22, main_v23, main_v24, main_c_2, main_v25, main_v26, main_c_3, main_v27, main_v28, main_v29, main_v30, main_v31, main_v32, main_v33, main_cst_4, main_v34, main_v35, main_v36, main_v37, main_v38, main_c_5, main_v39, main_v40, main_c_6, main_v41, main_v42, main_v43, main_v44, main_v45, main_v46, main_v47, main_cst_7, main_v48, main_v49, main_v50, main_v51, main_v52, main_v53, main_v54]

/-- No operation of stretch 0 allocates a buffer. -/
theorem stretch0_fresh : (hostOps0 : List (HloOp τ sig (Elt F))).Forall fun op => op.fresh = ∅ := by
  simp only [List.Forall]; repeat' constructor

set_option maxHeartbeats 40000000 in
/-- Each operation of stretch 0 writes one buffer of the list. -/
theorem stretch0_writes : (hostOps0 : List (HloOp τ sig (Elt F))).Forall fun op => op.writes ⊆ (wrote0.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes,
      StableHlo.reshape_writes, StableHlo.binaryIndexed_writes, StableHlo.nary_writes, StableHlo.unaryIndexed_writes, Finset.singleton_subset_iff, List.mem_toFinset]
    exact List.mem_map_of_mem (by decide)

/-- A buffer stretch 0 does not write holds after it what it held before. -/
theorem kept0 (W : Valuation τ sig (Elt F)) (r : Ref sig .tc) (h : r ∉ wrote0) :
    StableHlo.after hostOps0 W (Proc.devRef .tc r) = W (Proc.devRef .tc r) :=
  StableHlo.after_of_writes_sub hostOps0 _ stretch0_writes h

/-! ## Stretch 1: 134 operations -/

/-- The buffers stretch 1 writes, in order. -/
abbrev wrote1 : List (Ref sig .tc) := [main_v56, main_v57, main_v58, main_v59, main_v60, main_c_8, main_v61, main_v62, main_c_9, main_v63, main_v64, main_v65, main_v66, main_v67, main_v68, main_v69, main_cst_10, main_v70, main_v71, main_v72, main_v73, main_v74, main_c_11, main_v75, main_v76, main_c_12, main_v77, main_v78, main_v79, main_v80, main_v81, main_v82, main_v83, main_cst_13, main_v84, main_v85, main_v86, main_v87, main_v88, main_c_14, main_v89, main_v90, main_c_15, main_v91, main_v92, main_v93, main_v94, main_v95, main_v96, main_v97, main_cst_16, main_v98, main_v99, main_v100, main_v101, main_v102, main_v103, main_v104, main_v105, main_v106, main_v107, main_v108, main_c_17, main_v109, main_v110, main_c_18, main_v111, main_v112, main_v113, main_v114, main_v115, main_v116, main_v117, main_cst_19, main_v118, main_v119, main_v120, main_v121, main_v122, main_v123, main_v124, main_c_20, main_v125, main_v126, main_c_21, main_v127, main_v128, main_v129, main_v130, main_v131, main_v132, main_v133, main_cst_22, main_v134, main_v135, main_v136, main_v137, main_v138, main_v139, main_v140, main_c_23, main_v141, main_v142, main_c_24, main_v143, main_v144, main_v145, main_v146, main_v147, main_v148, main_v149, main_cst_25, main_v150, main_v151, main_v152, main_v153, main_v154, main_v155, main_v156, main_v157, main_v158, main_cst_26, main_v159, main_v160, main_v161, main_v162, main_v163, main_v164, main_v165, main_v166, main_v167, main_v168, main_cst_27, main_v169]

/-- No operation of stretch 1 allocates a buffer. -/
theorem stretch1_fresh : (hostOps1 : List (HloOp τ sig (Elt F))).Forall fun op => op.fresh = ∅ := by
  simp only [List.Forall]; repeat' constructor

set_option maxHeartbeats 40000000 in
/-- Each operation of stretch 1 writes one buffer of the list. -/
theorem stretch1_writes : (hostOps1 : List (HloOp τ sig (Elt F))).Forall fun op => op.writes ⊆ (wrote1.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes,
      StableHlo.reshape_writes, StableHlo.binaryIndexed_writes, StableHlo.nary_writes, StableHlo.unaryIndexed_writes, Finset.singleton_subset_iff, List.mem_toFinset]
    exact List.mem_map_of_mem (by decide)

/-- A buffer stretch 1 does not write holds after it what it held before. -/
theorem kept1 (W : Valuation τ sig (Elt F)) (r : Ref sig .tc) (h : r ∉ wrote1) :
    StableHlo.after hostOps1 W (Proc.devRef .tc r) = W (Proc.devRef .tc r) :=
  StableHlo.after_of_writes_sub hostOps1 _ stretch1_writes h

/-! ## Stretch 2: 43 operations -/

/-- The buffers stretch 2 writes, in order. -/
abbrev wrote2 : List (Ref sig .tc) := [main_c_28, main_v171, main_v172, main_c_29, main_v173, main_v174, main_v175, main_v176, main_v177, main_v178, main_c_30, main_v179, main_v180, main_c_31, main_v181, main_v182, main_v183, main_v184, main_v185, main_v186, main_v187, main_v188, main_cst_32, main_v189, main_cst_33, main_v190, main_cst_34, main_v191, main_v192, main_c_35, main_v193, main_v194, main_c_36, main_v195, main_v196, main_v197, main_v198, main_v199, main_cst_37, main_v200, main_v201, main_v202, main_v203]

/-- No operation of stretch 2 allocates a buffer. -/
theorem stretch2_fresh : (hostOps2 : List (HloOp τ sig (Elt F))).Forall fun op => op.fresh = ∅ := by
  simp only [List.Forall]; repeat' constructor

set_option maxHeartbeats 40000000 in
/-- Each operation of stretch 2 writes one buffer of the list. -/
theorem stretch2_writes : (hostOps2 : List (HloOp τ sig (Elt F))).Forall fun op => op.writes ⊆ (wrote2.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes,
      StableHlo.reshape_writes, StableHlo.binaryIndexed_writes, StableHlo.nary_writes, StableHlo.unaryIndexed_writes, Finset.singleton_subset_iff, List.mem_toFinset]
    exact List.mem_map_of_mem (by decide)

/-- A buffer stretch 2 does not write holds after it what it held before. -/
theorem kept2 (W : Valuation τ sig (Elt F)) (r : Ref sig .tc) (h : r ∉ wrote2) :
    StableHlo.after hostOps2 W (Proc.devRef .tc r) = W (Proc.devRef .tc r) :=
  StableHlo.after_of_writes_sub hostOps2 _ stretch2_writes h

/-! ## Stretch 3: 5 operations -/

/-- The buffers stretch 3 writes, in order. -/
abbrev wrote3 : List (Ref sig .tc) := [main_v205, main_v206, main_v207, main_v208, main_v209]

/-- No operation of stretch 3 allocates a buffer. -/
theorem stretch3_fresh : (hostOps3 : List (HloOp τ sig (Elt F))).Forall fun op => op.fresh = ∅ := by
  simp only [List.Forall]; repeat' constructor

set_option maxHeartbeats 40000000 in
/-- Each operation of stretch 3 writes one buffer of the list. -/
theorem stretch3_writes : (hostOps3 : List (HloOp τ sig (Elt F))).Forall fun op => op.writes ⊆ (wrote3.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes,
      StableHlo.reshape_writes, StableHlo.binaryIndexed_writes, StableHlo.nary_writes, StableHlo.unaryIndexed_writes, Finset.singleton_subset_iff, List.mem_toFinset]
    exact List.mem_map_of_mem (by decide)

/-- A buffer stretch 3 does not write holds after it what it held before. -/
theorem kept3 (W : Valuation τ sig (Elt F)) (r : Ref sig .tc) (h : r ∉ wrote3) :
    StableHlo.after hostOps3 W (Proc.devRef .tc r) = W (Proc.devRef .tc r) :=
  StableHlo.after_of_writes_sub hostOps3 _ stretch3_writes h

/-! ## Stretch 4: 27 operations -/

/-- The buffers stretch 4 writes, in order. -/
abbrev wrote4 : List (Ref sig .tc) := [main_v211, main_v212, main_v213, main_v214, main_c_38, main_v215, main_v216, main_c_39, main_v217, main_v218, main_v219, main_v220, main_v221, main_v222, main_v223, main_c_40, main_v224, main_v225, main_c_41, main_v226, main_v227, main_v228, main_v229, main_v230, main_v231, main_cst_42, main_v232]

/-- No operation of stretch 4 allocates a buffer. -/
theorem stretch4_fresh : (hostOps4 : List (HloOp τ sig (Elt F))).Forall fun op => op.fresh = ∅ := by
  simp only [List.Forall]; repeat' constructor

set_option maxHeartbeats 40000000 in
/-- Each operation of stretch 4 writes one buffer of the list. -/
theorem stretch4_writes : (hostOps4 : List (HloOp τ sig (Elt F))).Forall fun op => op.writes ⊆ (wrote4.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes,
      StableHlo.reshape_writes, StableHlo.binaryIndexed_writes, StableHlo.nary_writes, StableHlo.unaryIndexed_writes, Finset.singleton_subset_iff, List.mem_toFinset]
    exact List.mem_map_of_mem (by decide)

/-- A buffer stretch 4 does not write holds after it what it held before. -/
theorem kept4 (W : Valuation τ sig (Elt F)) (r : Ref sig .tc) (h : r ∉ wrote4) :
    StableHlo.after hostOps4 W (Proc.devRef .tc r) = W (Proc.devRef .tc r) :=
  StableHlo.after_of_writes_sub hostOps4 _ stretch4_writes h

/-! ## Stretch 5: 34 operations -/

/-- The buffers stretch 5 writes, in order. -/
abbrev wrote5 : List (Ref sig .tc) := [main_c_43, main_v234, main_v235, main_c_44, main_v236, main_v237, main_v238, main_v239, main_v240, main_v241, main_v242, main_cst_45, main_v243, main_v244, main_cst_46, main_v245, main_v246, main_v247, main_v248, main_cst_47, main_v249, main_v250, main_v251, main_v252, main_v253, main_v254, main_cst_48, main_v255, main_v256, main_cst_49, main_v257, main_v258, main_cst_50, main_v259]

/-- No operation of stretch 5 allocates a buffer. -/
theorem stretch5_fresh : (hostOps5 : List (HloOp τ sig (Elt F))).Forall fun op => op.fresh = ∅ := by
  simp only [List.Forall]; repeat' constructor

set_option maxHeartbeats 40000000 in
/-- Each operation of stretch 5 writes one buffer of the list. -/
theorem stretch5_writes : (hostOps5 : List (HloOp τ sig (Elt F))).Forall fun op => op.writes ⊆ (wrote5.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes,
      StableHlo.reshape_writes, StableHlo.binaryIndexed_writes, StableHlo.nary_writes, StableHlo.unaryIndexed_writes, Finset.singleton_subset_iff, List.mem_toFinset]
    exact List.mem_map_of_mem (by decide)

/-- A buffer stretch 5 does not write holds after it what it held before. -/
theorem kept5 (W : Valuation τ sig (Elt F)) (r : Ref sig .tc) (h : r ∉ wrote5) :
    StableHlo.after hostOps5 W (Proc.devRef .tc r) = W (Proc.devRef .tc r) :=
  StableHlo.after_of_writes_sub hostOps5 _ stretch5_writes h

end Cert.Kernel.Hand

end
-- ==== Proof.BitsRun.lean ====
/-
  The run of the kernel program: six stretches of host operations around five accelerator regions, as eleven
  segments between twelve thread states. Between two segments a core holds every unscoped buffer whole at that
  boundary's contents — the launch memory, then each stretch's operations applied, then after a region its output array
  at what the tiles' write-backs leave and everything else as entered —, beside its generator register and what it
  owes, which is nothing throughout. Every argument of the program is written by no stretch and is at most an input
  window of a region, so it reaches the end as launched; the two results are read off the last boundary.
-/
import proofs.«166662_j47579647705297_2_alg».proof.Proof.BitsRegion0
import proofs.«166662_j47579647705297_2_alg».proof.Proof.BitsRegion1
import proofs.«166662_j47579647705297_2_alg».proof.Proof.BitsRegion2
import proofs.«166662_j47579647705297_2_alg».proof.Proof.BitsRegion3
import proofs.«166662_j47579647705297_2_alg».proof.Proof.BitsRegion4
import proofs.«166662_j47579647705297_2_alg».proof.Proof.BitsHost

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the twelve boundaries -/

/-- Core `c`'s buffers at launch. -/
abbrev at0 : Dev nD → Valuation τ sig (Elt F) := fun c b => (s₀ m ρ).mem ((c : Dev nD), b)

/-- After stretch 0: what region 0 is entered from. -/
abbrev at1 : Dev nD → Valuation τ sig (Elt F) := fun c => StableHlo.after hostOps0 (at0 m ρ c)
/-- The same, read at the core's references: the entry contents region 0's proof data are stated at. -/
abbrev in0 : (c : Dev nD) → (b : Ref sig .tc) → Buf (Elt F) ((c : Thread nD τ).loc b) := fun c b => at1 m ρ c b
/-- After region 0: its windows' arrays at what the pipeline leaves (an input as entered, the output at its tiles'
    write-backs), every other buffer as entered. -/
def at2 (c : Dev nD) : Valuation τ sig (Elt F) :=
  Pipeline.withArrays spec0 c (at1 m ρ c) fun w => (dat0 (in0 m ρ) c).arrAt w cfg0.N
theorem at2_arr (c : Dev nD) (w : Fin cfg0.W) :
    at2 m ρ c (Proc.devRef .tc (Pipeline.arrRef spec0 w)) = (dat0 (in0 m ρ) c).arrAt w cfg0.N := by
  unfold at2; exact Pipeline.withArrays_arr spec0 launch0.win.arr_inj c _ _ w
theorem at2_else (c : Dev nD) (b : Ref sig .tc) (hb : ∀ w, Pipeline.arrRef spec0 w ≠ b) :
    at2 m ρ c (Proc.devRef .tc b) = at1 m ρ c (Proc.devRef .tc b) := by
  unfold at2; exact Pipeline.withArrays_of_ne spec0 c _ _ b hb
/-- The same, read at the core's references. -/
abbrev out0 : (c : Dev nD) → (b : Ref sig .tc) → Buf (Elt F) ((c : Thread nD τ).loc b) := fun c b => at2 m ρ c b
theorem filled0 (c : Dev nD) (w : Fin cfg0.W) : (dat0 (in0 m ρ) c).arrAt w cfg0.N = out0 m ρ c (Pipeline.arrRef spec0 w) :=
  (at2_arr m ρ c w).symm
theorem others0 (c : Dev nD) : ∀ b, b ∉ Finset.univ.image (Pipeline.arrRef spec0) → out0 m ρ c b = in0 m ρ c b :=
  fun b hb => at2_else m ρ c b fun w e => hb (Finset.mem_image.mpr ⟨w, Finset.mem_univ _, e⟩)

/-- After stretch 1: what region 1 is entered from. -/
abbrev at3 : Dev nD → Valuation τ sig (Elt F) := fun c => StableHlo.after hostOps1 (at2 m ρ c)
/-- The same, read at the core's references: the entry contents region 1's proof data are stated at. -/
abbrev in1 : (c : Dev nD) → (b : Ref sig .tc) → Buf (Elt F) ((c : Thread nD τ).loc b) := fun c b => at3 m ρ c b
/-- After region 1: its windows' arrays at what the pipeline leaves (an input as entered, the output at its tiles'
    write-backs), every other buffer as entered. -/
def at4 (c : Dev nD) : Valuation τ sig (Elt F) :=
  Pipeline.withArrays spec1 c (at3 m ρ c) fun w => (dat1 (in1 m ρ) c).arrAt w cfg1.N
theorem at4_arr (c : Dev nD) (w : Fin cfg1.W) :
    at4 m ρ c (Proc.devRef .tc (Pipeline.arrRef spec1 w)) = (dat1 (in1 m ρ) c).arrAt w cfg1.N := by
  unfold at4; exact Pipeline.withArrays_arr spec1 launch1.win.arr_inj c _ _ w
theorem at4_else (c : Dev nD) (b : Ref sig .tc) (hb : ∀ w, Pipeline.arrRef spec1 w ≠ b) :
    at4 m ρ c (Proc.devRef .tc b) = at3 m ρ c (Proc.devRef .tc b) := by
  unfold at4; exact Pipeline.withArrays_of_ne spec1 c _ _ b hb
/-- The same, read at the core's references. -/
abbrev out1 : (c : Dev nD) → (b : Ref sig .tc) → Buf (Elt F) ((c : Thread nD τ).loc b) := fun c b => at4 m ρ c b
theorem filled1 (c : Dev nD) (w : Fin cfg1.W) : (dat1 (in1 m ρ) c).arrAt w cfg1.N = out1 m ρ c (Pipeline.arrRef spec1 w) :=
  (at4_arr m ρ c w).symm
theorem others1 (c : Dev nD) : ∀ b, b ∉ Finset.univ.image (Pipeline.arrRef spec1) → out1 m ρ c b = in1 m ρ c b :=
  fun b hb => at4_else m ρ c b fun w e => hb (Finset.mem_image.mpr ⟨w, Finset.mem_univ _, e⟩)

/-- After stretch 2: what region 2 is entered from. -/
abbrev at5 : Dev nD → Valuation τ sig (Elt F) := fun c => StableHlo.after hostOps2 (at4 m ρ c)
/-- The same, read at the core's references: the entry contents region 2's proof data are stated at. -/
abbrev in2 : (c : Dev nD) → (b : Ref sig .tc) → Buf (Elt F) ((c : Thread nD τ).loc b) := fun c b => at5 m ρ c b
/-- After region 2: its windows' arrays at what the pipeline leaves (an input as entered, the output at its tiles'
    write-backs), every other buffer as entered. -/
def at6 (c : Dev nD) : Valuation τ sig (Elt F) :=
  Pipeline.withArrays spec2 c (at5 m ρ c) fun w => (dat2 (in2 m ρ) c).arrAt w cfg2.N
theorem at6_arr (c : Dev nD) (w : Fin cfg2.W) :
    at6 m ρ c (Proc.devRef .tc (Pipeline.arrRef spec2 w)) = (dat2 (in2 m ρ) c).arrAt w cfg2.N := by
  unfold at6; exact Pipeline.withArrays_arr spec2 launch2.win.arr_inj c _ _ w
theorem at6_else (c : Dev nD) (b : Ref sig .tc) (hb : ∀ w, Pipeline.arrRef spec2 w ≠ b) :
    at6 m ρ c (Proc.devRef .tc b) = at5 m ρ c (Proc.devRef .tc b) := by
  unfold at6; exact Pipeline.withArrays_of_ne spec2 c _ _ b hb
/-- The same, read at the core's references. -/
abbrev out2 : (c : Dev nD) → (b : Ref sig .tc) → Buf (Elt F) ((c : Thread nD τ).loc b) := fun c b => at6 m ρ c b
theorem filled2 (c : Dev nD) (w : Fin cfg2.W) : (dat2 (in2 m ρ) c).arrAt w cfg2.N = out2 m ρ c (Pipeline.arrRef spec2 w) :=
  (at6_arr m ρ c w).symm
theorem others2 (c : Dev nD) : ∀ b, b ∉ Finset.univ.image (Pipeline.arrRef spec2) → out2 m ρ c b = in2 m ρ c b :=
  fun b hb => at6_else m ρ c b fun w e => hb (Finset.mem_image.mpr ⟨w, Finset.mem_univ _, e⟩)

/-- After stretch 3: what region 3 is entered from. -/
abbrev at7 : Dev nD → Valuation τ sig (Elt F) := fun c => StableHlo.after hostOps3 (at6 m ρ c)
/-- The same, read at the core's references: the entry contents region 3's proof data are stated at. -/
abbrev in3 : (c : Dev nD) → (b : Ref sig .tc) → Buf (Elt F) ((c : Thread nD τ).loc b) := fun c b => at7 m ρ c b
/-- After region 3: its windows' arrays at what the pipeline leaves (an input as entered, the output at its tiles'
    write-backs), every other buffer as entered. -/
def at8 (c : Dev nD) : Valuation τ sig (Elt F) :=
  Pipeline.withArrays spec3 c (at7 m ρ c) fun w => (dat3 (in3 m ρ) c).arrAt w cfg3.N
theorem at8_arr (c : Dev nD) (w : Fin cfg3.W) :
    at8 m ρ c (Proc.devRef .tc (Pipeline.arrRef spec3 w)) = (dat3 (in3 m ρ) c).arrAt w cfg3.N := by
  unfold at8; exact Pipeline.withArrays_arr spec3 launch3.win.arr_inj c _ _ w
theorem at8_else (c : Dev nD) (b : Ref sig .tc) (hb : ∀ w, Pipeline.arrRef spec3 w ≠ b) :
    at8 m ρ c (Proc.devRef .tc b) = at7 m ρ c (Proc.devRef .tc b) := by
  unfold at8; exact Pipeline.withArrays_of_ne spec3 c _ _ b hb
/-- The same, read at the core's references. -/
abbrev out3 : (c : Dev nD) → (b : Ref sig .tc) → Buf (Elt F) ((c : Thread nD τ).loc b) := fun c b => at8 m ρ c b
theorem filled3 (c : Dev nD) (w : Fin cfg3.W) : (dat3 (in3 m ρ) c).arrAt w cfg3.N = out3 m ρ c (Pipeline.arrRef spec3 w) :=
  (at8_arr m ρ c w).symm
theorem others3 (c : Dev nD) : ∀ b, b ∉ Finset.univ.image (Pipeline.arrRef spec3) → out3 m ρ c b = in3 m ρ c b :=
  fun b hb => at8_else m ρ c b fun w e => hb (Finset.mem_image.mpr ⟨w, Finset.mem_univ _, e⟩)

/-- After stretch 4: what region 4 is entered from. -/
abbrev at9 : Dev nD → Valuation τ sig (Elt F) := fun c => StableHlo.after hostOps4 (at8 m ρ c)
/-- The same, read at the core's references: the entry contents region 4's proof data are stated at. -/
abbrev in4 : (c : Dev nD) → (b : Ref sig .tc) → Buf (Elt F) ((c : Thread nD τ).loc b) := fun c b => at9 m ρ c b
/-- After region 4: its windows' arrays at what the pipeline leaves (an input as entered, the output at its tiles'
    write-backs), every other buffer as entered. -/
def at10 (c : Dev nD) : Valuation τ sig (Elt F) :=
  Pipeline.withArrays spec4 c (at9 m ρ c) fun w => (dat4 (in4 m ρ) c).arrAt w cfg4.N
theorem at10_arr (c : Dev nD) (w : Fin cfg4.W) :
    at10 m ρ c (Proc.devRef .tc (Pipeline.arrRef spec4 w)) = (dat4 (in4 m ρ) c).arrAt w cfg4.N := by
  unfold at10; exact Pipeline.withArrays_arr spec4 launch4.win.arr_inj c _ _ w
theorem at10_else (c : Dev nD) (b : Ref sig .tc) (hb : ∀ w, Pipeline.arrRef spec4 w ≠ b) :
    at10 m ρ c (Proc.devRef .tc b) = at9 m ρ c (Proc.devRef .tc b) := by
  unfold at10; exact Pipeline.withArrays_of_ne spec4 c _ _ b hb
/-- The same, read at the core's references. -/
abbrev out4 : (c : Dev nD) → (b : Ref sig .tc) → Buf (Elt F) ((c : Thread nD τ).loc b) := fun c b => at10 m ρ c b
theorem filled4 (c : Dev nD) (w : Fin cfg4.W) : (dat4 (in4 m ρ) c).arrAt w cfg4.N = out4 m ρ c (Pipeline.arrRef spec4 w) :=
  (at10_arr m ρ c w).symm
theorem others4 (c : Dev nD) : ∀ b, b ∉ Finset.univ.image (Pipeline.arrRef spec4) → out4 m ρ c b = in4 m ρ c b :=
  fun b hb => at10_else m ρ c b fun w e => hb (Finset.mem_image.mpr ⟨w, Finset.mem_univ _, e⟩)

/-- After stretch 5: the end of the program. -/
abbrev at11 : Dev nD → Valuation τ sig (Elt F) := fun c => StableHlo.after hostOps5 (at10 m ρ c)

/-! ## Every argument reaches the end as launched -/

theorem at11_main_arg0 (c : Dev nD) : at11 m ρ c (Proc.devRef .tc main_arg0) = m ((c : Thread nD τ).loc main_arg0) :=
  calc at11 m ρ c (Proc.devRef .tc main_arg0)
    _ = at10 m ρ c (Proc.devRef .tc main_arg0) := kept5 _ main_arg0 (by decide)
    _ = at9 m ρ c (Proc.devRef .tc main_arg0) := at10_else m ρ c main_arg0 (by decide)
    _ = at8 m ρ c (Proc.devRef .tc main_arg0) := kept4 _ main_arg0 (by decide)
    _ = at7 m ρ c (Proc.devRef .tc main_arg0) := at8_else m ρ c main_arg0 (by decide)
    _ = at6 m ρ c (Proc.devRef .tc main_arg0) := kept3 _ main_arg0 (by decide)
    _ = at5 m ρ c (Proc.devRef .tc main_arg0) := at6_else m ρ c main_arg0 (by decide)
    _ = at4 m ρ c (Proc.devRef .tc main_arg0) := kept2 _ main_arg0 (by decide)
    _ = at3 m ρ c (Proc.devRef .tc main_arg0) := at4_else m ρ c main_arg0 (by decide)
    _ = at2 m ρ c (Proc.devRef .tc main_arg0) := kept1 _ main_arg0 (by decide)
    _ = at1 m ρ c (Proc.devRef .tc main_arg0) := at2_else m ρ c main_arg0 (by decide)
    _ = at0 m ρ c (Proc.devRef .tc main_arg0) := kept0 _ main_arg0 (by decide)
    _ = m ((c : Thread nD τ).loc main_arg0) := rfl
theorem at11_main_arg1 (c : Dev nD) : at11 m ρ c (Proc.devRef .tc main_arg1) = m ((c : Thread nD τ).loc main_arg1) :=
  calc at11 m ρ c (Proc.devRef .tc main_arg1)
    _ = at10 m ρ c (Proc.devRef .tc main_arg1) := kept5 _ main_arg1 (by decide)
    _ = at9 m ρ c (Proc.devRef .tc main_arg1) := at10_else m ρ c main_arg1 (by decide)
    _ = at8 m ρ c (Proc.devRef .tc main_arg1) := kept4 _ main_arg1 (by decide)
    _ = at7 m ρ c (Proc.devRef .tc main_arg1) := at8_else m ρ c main_arg1 (by decide)
    _ = at6 m ρ c (Proc.devRef .tc main_arg1) := kept3 _ main_arg1 (by decide)
    _ = at5 m ρ c (Proc.devRef .tc main_arg1) := at6_else m ρ c main_arg1 (by decide)
    _ = at4 m ρ c (Proc.devRef .tc main_arg1) := kept2 _ main_arg1 (by decide)
    _ = at3 m ρ c (Proc.devRef .tc main_arg1) := at4_else m ρ c main_arg1 (by decide)
    _ = at2 m ρ c (Proc.devRef .tc main_arg1) := kept1 _ main_arg1 (by decide)
    _ = at1 m ρ c (Proc.devRef .tc main_arg1) := at2_else m ρ c main_arg1 (by decide)
    _ = at0 m ρ c (Proc.devRef .tc main_arg1) := kept0 _ main_arg1 (by decide)
    _ = m ((c : Thread nD τ).loc main_arg1) := rfl
theorem at11_main_arg2 (c : Dev nD) : at11 m ρ c (Proc.devRef .tc main_arg2) = m ((c : Thread nD τ).loc main_arg2) :=
  calc at11 m ρ c (Proc.devRef .tc main_arg2)
    _ = at10 m ρ c (Proc.devRef .tc main_arg2) := kept5 _ main_arg2 (by decide)
    _ = at9 m ρ c (Proc.devRef .tc main_arg2) := at10_else m ρ c main_arg2 (by decide)
    _ = at8 m ρ c (Proc.devRef .tc main_arg2) := kept4 _ main_arg2 (by decide)
    _ = at7 m ρ c (Proc.devRef .tc main_arg2) := at8_else m ρ c main_arg2 (by decide)
    _ = at6 m ρ c (Proc.devRef .tc main_arg2) := kept3 _ main_arg2 (by decide)
    _ = at5 m ρ c (Proc.devRef .tc main_arg2) := at6_else m ρ c main_arg2 (by decide)
    _ = at4 m ρ c (Proc.devRef .tc main_arg2) := kept2 _ main_arg2 (by decide)
    _ = at3 m ρ c (Proc.devRef .tc main_arg2) := at4_else m ρ c main_arg2 (by decide)
    _ = at2 m ρ c (Proc.devRef .tc main_arg2) := kept1 _ main_arg2 (by decide)
    _ = at1 m ρ c (Proc.devRef .tc main_arg2) := at2_else m ρ c main_arg2 (by decide)
    _ = at0 m ρ c (Proc.devRef .tc main_arg2) := kept0 _ main_arg2 (by decide)
    _ = m ((c : Thread nD τ).loc main_arg2) := rfl
theorem at11_main_arg3 (c : Dev nD) : at11 m ρ c (Proc.devRef .tc main_arg3) = m ((c : Thread nD τ).loc main_arg3) :=
  calc at11 m ρ c (Proc.devRef .tc main_arg3)
    _ = at10 m ρ c (Proc.devRef .tc main_arg3) := kept5 _ main_arg3 (by decide)
    _ = at9 m ρ c (Proc.devRef .tc main_arg3) := at10_else m ρ c main_arg3 (by decide)
    _ = at8 m ρ c (Proc.devRef .tc main_arg3) := kept4 _ main_arg3 (by decide)
    _ = at7 m ρ c (Proc.devRef .tc main_arg3) := at8_else m ρ c main_arg3 (by decide)
    _ = at6 m ρ c (Proc.devRef .tc main_arg3) := kept3 _ main_arg3 (by decide)
    _ = at5 m ρ c (Proc.devRef .tc main_arg3) := at6_else m ρ c main_arg3 (by decide)
    _ = at4 m ρ c (Proc.devRef .tc main_arg3) := kept2 _ main_arg3 (by decide)
    _ = at3 m ρ c (Proc.devRef .tc main_arg3) := at4_else m ρ c main_arg3 (by decide)
    _ = at2 m ρ c (Proc.devRef .tc main_arg3) := kept1 _ main_arg3 (by decide)
    _ = at1 m ρ c (Proc.devRef .tc main_arg3) := at2_else m ρ c main_arg3 (by decide)
    _ = at0 m ρ c (Proc.devRef .tc main_arg3) := kept0 _ main_arg3 (by decide)
    _ = m ((c : Thread nD τ).loc main_arg3) := rfl
theorem at11_main_arg4 (c : Dev nD) : at11 m ρ c (Proc.devRef .tc main_arg4) = m ((c : Thread nD τ).loc main_arg4) :=
  calc at11 m ρ c (Proc.devRef .tc main_arg4)
    _ = at10 m ρ c (Proc.devRef .tc main_arg4) := kept5 _ main_arg4 (by decide)
    _ = at9 m ρ c (Proc.devRef .tc main_arg4) := at10_else m ρ c main_arg4 (by decide)
    _ = at8 m ρ c (Proc.devRef .tc main_arg4) := kept4 _ main_arg4 (by decide)
    _ = at7 m ρ c (Proc.devRef .tc main_arg4) := at8_else m ρ c main_arg4 (by decide)
    _ = at6 m ρ c (Proc.devRef .tc main_arg4) := kept3 _ main_arg4 (by decide)
    _ = at5 m ρ c (Proc.devRef .tc main_arg4) := at6_else m ρ c main_arg4 (by decide)
    _ = at4 m ρ c (Proc.devRef .tc main_arg4) := kept2 _ main_arg4 (by decide)
    _ = at3 m ρ c (Proc.devRef .tc main_arg4) := at4_else m ρ c main_arg4 (by decide)
    _ = at2 m ρ c (Proc.devRef .tc main_arg4) := kept1 _ main_arg4 (by decide)
    _ = at1 m ρ c (Proc.devRef .tc main_arg4) := (at2_arr m ρ c 1).trans (((dat0 (in0 m ρ) c).arrAt_in 1 rfl _).trans (A_eq0 (in0 m ρ) c 1))
    _ = at0 m ρ c (Proc.devRef .tc main_arg4) := kept0 _ main_arg4 (by decide)
    _ = m ((c : Thread nD τ).loc main_arg4) := rfl
theorem at11_main_arg5 (c : Dev nD) : at11 m ρ c (Proc.devRef .tc main_arg5) = m ((c : Thread nD τ).loc main_arg5) :=
  calc at11 m ρ c (Proc.devRef .tc main_arg5)
    _ = at10 m ρ c (Proc.devRef .tc main_arg5) := kept5 _ main_arg5 (by decide)
    _ = at9 m ρ c (Proc.devRef .tc main_arg5) := at10_else m ρ c main_arg5 (by decide)
    _ = at8 m ρ c (Proc.devRef .tc main_arg5) := kept4 _ main_arg5 (by decide)
    _ = at7 m ρ c (Proc.devRef .tc main_arg5) := at8_else m ρ c main_arg5 (by decide)
    _ = at6 m ρ c (Proc.devRef .tc main_arg5) := kept3 _ main_arg5 (by decide)
    _ = at5 m ρ c (Proc.devRef .tc main_arg5) := at6_else m ρ c main_arg5 (by decide)
    _ = at4 m ρ c (Proc.devRef .tc main_arg5) := kept2 _ main_arg5 (by decide)
    _ = at3 m ρ c (Proc.devRef .tc main_arg5) := (at4_arr m ρ c 1).trans (((dat1 (in1 m ρ) c).arrAt_in 1 rfl _).trans (A_eq1 (in1 m ρ) c 1))
    _ = at2 m ρ c (Proc.devRef .tc main_arg5) := kept1 _ main_arg5 (by decide)
    _ = at1 m ρ c (Proc.devRef .tc main_arg5) := at2_else m ρ c main_arg5 (by decide)
    _ = at0 m ρ c (Proc.devRef .tc main_arg5) := kept0 _ main_arg5 (by decide)
    _ = m ((c : Thread nD τ).loc main_arg5) := rfl
theorem at11_main_arg6 (c : Dev nD) : at11 m ρ c (Proc.devRef .tc main_arg6) = m ((c : Thread nD τ).loc main_arg6) :=
  calc at11 m ρ c (Proc.devRef .tc main_arg6)
    _ = at10 m ρ c (Proc.devRef .tc main_arg6) := kept5 _ main_arg6 (by decide)
    _ = at9 m ρ c (Proc.devRef .tc main_arg6) := at10_else m ρ c main_arg6 (by decide)
    _ = at8 m ρ c (Proc.devRef .tc main_arg6) := kept4 _ main_arg6 (by decide)
    _ = at7 m ρ c (Proc.devRef .tc main_arg6) := at8_else m ρ c main_arg6 (by decide)
    _ = at6 m ρ c (Proc.devRef .tc main_arg6) := kept3 _ main_arg6 (by decide)
    _ = at5 m ρ c (Proc.devRef .tc main_arg6) := at6_else m ρ c main_arg6 (by decide)
    _ = at4 m ρ c (Proc.devRef .tc main_arg6) := kept2 _ main_arg6 (by decide)
    _ = at3 m ρ c (Proc.devRef .tc main_arg6) := at4_else m ρ c main_arg6 (by decide)
    _ = at2 m ρ c (Proc.devRef .tc main_arg6) := kept1 _ main_arg6 (by decide)
    _ = at1 m ρ c (Proc.devRef .tc main_arg6) := (at2_arr m ρ c 2).trans (((dat0 (in0 m ρ) c).arrAt_in 2 rfl _).trans (A_eq0 (in0 m ρ) c 2))
    _ = at0 m ρ c (Proc.devRef .tc main_arg6) := kept0 _ main_arg6 (by decide)
    _ = m ((c : Thread nD τ).loc main_arg6) := rfl
theorem at11_main_arg7 (c : Dev nD) : at11 m ρ c (Proc.devRef .tc main_arg7) = m ((c : Thread nD τ).loc main_arg7) :=
  calc at11 m ρ c (Proc.devRef .tc main_arg7)
    _ = at10 m ρ c (Proc.devRef .tc main_arg7) := kept5 _ main_arg7 (by decide)
    _ = at9 m ρ c (Proc.devRef .tc main_arg7) := at10_else m ρ c main_arg7 (by decide)
    _ = at8 m ρ c (Proc.devRef .tc main_arg7) := kept4 _ main_arg7 (by decide)
    _ = at7 m ρ c (Proc.devRef .tc main_arg7) := at8_else m ρ c main_arg7 (by decide)
    _ = at6 m ρ c (Proc.devRef .tc main_arg7) := kept3 _ main_arg7 (by decide)
    _ = at5 m ρ c (Proc.devRef .tc main_arg7) := at6_else m ρ c main_arg7 (by decide)
    _ = at4 m ρ c (Proc.devRef .tc main_arg7) := kept2 _ main_arg7 (by decide)
    _ = at3 m ρ c (Proc.devRef .tc main_arg7) := at4_else m ρ c main_arg7 (by decide)
    _ = at2 m ρ c (Proc.devRef .tc main_arg7) := kept1 _ main_arg7 (by decide)
    _ = at1 m ρ c (Proc.devRef .tc main_arg7) := at2_else m ρ c main_arg7 (by decide)
    _ = at0 m ρ c (Proc.devRef .tc main_arg7) := kept0 _ main_arg7 (by decide)
    _ = m ((c : Thread nD τ).loc main_arg7) := rfl
theorem at11_main_arg8 (c : Dev nD) : at11 m ρ c (Proc.devRef .tc main_arg8) = m ((c : Thread nD τ).loc main_arg8) :=
  calc at11 m ρ c (Proc.devRef .tc main_arg8)
    _ = at10 m ρ c (Proc.devRef .tc main_arg8) := kept5 _ main_arg8 (by decide)
    _ = at9 m ρ c (Proc.devRef .tc main_arg8) := at10_else m ρ c main_arg8 (by decide)
    _ = at8 m ρ c (Proc.devRef .tc main_arg8) := kept4 _ main_arg8 (by decide)
    _ = at7 m ρ c (Proc.devRef .tc main_arg8) := at8_else m ρ c main_arg8 (by decide)
    _ = at6 m ρ c (Proc.devRef .tc main_arg8) := kept3 _ main_arg8 (by decide)
    _ = at5 m ρ c (Proc.devRef .tc main_arg8) := at6_else m ρ c main_arg8 (by decide)
    _ = at4 m ρ c (Proc.devRef .tc main_arg8) := kept2 _ main_arg8 (by decide)
    _ = at3 m ρ c (Proc.devRef .tc main_arg8) := at4_else m ρ c main_arg8 (by decide)
    _ = at2 m ρ c (Proc.devRef .tc main_arg8) := kept1 _ main_arg8 (by decide)
    _ = at1 m ρ c (Proc.devRef .tc main_arg8) := at2_else m ρ c main_arg8 (by decide)
    _ = at0 m ρ c (Proc.devRef .tc main_arg8) := kept0 _ main_arg8 (by decide)
    _ = m ((c : Thread nD τ).loc main_arg8) := rfl
theorem at11_main_arg9 (c : Dev nD) : at11 m ρ c (Proc.devRef .tc main_arg9) = m ((c : Thread nD τ).loc main_arg9) :=
  calc at11 m ρ c (Proc.devRef .tc main_arg9)
    _ = at10 m ρ c (Proc.devRef .tc main_arg9) := kept5 _ main_arg9 (by decide)
    _ = at9 m ρ c (Proc.devRef .tc main_arg9) := at10_else m ρ c main_arg9 (by decide)
    _ = at8 m ρ c (Proc.devRef .tc main_arg9) := kept4 _ main_arg9 (by decide)
    _ = at7 m ρ c (Proc.devRef .tc main_arg9) := at8_else m ρ c main_arg9 (by decide)
    _ = at6 m ρ c (Proc.devRef .tc main_arg9) := kept3 _ main_arg9 (by decide)
    _ = at5 m ρ c (Proc.devRef .tc main_arg9) := at6_else m ρ c main_arg9 (by decide)
    _ = at4 m ρ c (Proc.devRef .tc main_arg9) := kept2 _ main_arg9 (by decide)
    _ = at3 m ρ c (Proc.devRef .tc main_arg9) := at4_else m ρ c main_arg9 (by decide)
    _ = at2 m ρ c (Proc.devRef .tc main_arg9) := kept1 _ main_arg9 (by decide)
    _ = at1 m ρ c (Proc.devRef .tc main_arg9) := at2_else m ρ c main_arg9 (by decide)
    _ = at0 m ρ c (Proc.devRef .tc main_arg9) := kept0 _ main_arg9 (by decide)
    _ = m ((c : Thread nD τ).loc main_arg9) := rfl
theorem at11_main_arg10 (c : Dev nD) : at11 m ρ c (Proc.devRef .tc main_arg10) = m ((c : Thread nD τ).loc main_arg10) :=
  calc at11 m ρ c (Proc.devRef .tc main_arg10)
    _ = at10 m ρ c (Proc.devRef .tc main_arg10) := kept5 _ main_arg10 (by decide)
    _ = at9 m ρ c (Proc.devRef .tc main_arg10) := (at10_arr m ρ c 1).trans (((dat4 (in4 m ρ) c).arrAt_in 1 rfl _).trans (A_eq4 (in4 m ρ) c 1))
    _ = at8 m ρ c (Proc.devRef .tc main_arg10) := kept4 _ main_arg10 (by decide)
    _ = at7 m ρ c (Proc.devRef .tc main_arg10) := at8_else m ρ c main_arg10 (by decide)
    _ = at6 m ρ c (Proc.devRef .tc main_arg10) := kept3 _ main_arg10 (by decide)
    _ = at5 m ρ c (Proc.devRef .tc main_arg10) := at6_else m ρ c main_arg10 (by decide)
    _ = at4 m ρ c (Proc.devRef .tc main_arg10) := kept2 _ main_arg10 (by decide)
    _ = at3 m ρ c (Proc.devRef .tc main_arg10) := at4_else m ρ c main_arg10 (by decide)
    _ = at2 m ρ c (Proc.devRef .tc main_arg10) := kept1 _ main_arg10 (by decide)
    _ = at1 m ρ c (Proc.devRef .tc main_arg10) := at2_else m ρ c main_arg10 (by decide)
    _ = at0 m ρ c (Proc.devRef .tc main_arg10) := kept0 _ main_arg10 (by decide)
    _ = m ((c : Thread nD τ).loc main_arg10) := rfl
theorem at11_main_arg11 (c : Dev nD) : at11 m ρ c (Proc.devRef .tc main_arg11) = m ((c : Thread nD τ).loc main_arg11) :=
  calc at11 m ρ c (Proc.devRef .tc main_arg11)
    _ = at10 m ρ c (Proc.devRef .tc main_arg11) := kept5 _ main_arg11 (by decide)
    _ = at9 m ρ c (Proc.devRef .tc main_arg11) := at10_else m ρ c main_arg11 (by decide)
    _ = at8 m ρ c (Proc.devRef .tc main_arg11) := kept4 _ main_arg11 (by decide)
    _ = at7 m ρ c (Proc.devRef .tc main_arg11) := at8_else m ρ c main_arg11 (by decide)
    _ = at6 m ρ c (Proc.devRef .tc main_arg11) := kept3 _ main_arg11 (by decide)
    _ = at5 m ρ c (Proc.devRef .tc main_arg11) := at6_else m ρ c main_arg11 (by decide)
    _ = at4 m ρ c (Proc.devRef .tc main_arg11) := kept2 _ main_arg11 (by decide)
    _ = at3 m ρ c (Proc.devRef .tc main_arg11) := at4_else m ρ c main_arg11 (by decide)
    _ = at2 m ρ c (Proc.devRef .tc main_arg11) := kept1 _ main_arg11 (by decide)
    _ = at1 m ρ c (Proc.devRef .tc main_arg11) := at2_else m ρ c main_arg11 (by decide)
    _ = at0 m ρ c (Proc.devRef .tc main_arg11) := kept0 _ main_arg11 (by decide)
    _ = m ((c : Thread nD τ).loc main_arg11) := rfl
theorem at11_main_arg12 (c : Dev nD) : at11 m ρ c (Proc.devRef .tc main_arg12) = m ((c : Thread nD τ).loc main_arg12) :=
  calc at11 m ρ c (Proc.devRef .tc main_arg12)
    _ = at10 m ρ c (Proc.devRef .tc main_arg12) := kept5 _ main_arg12 (by decide)
    _ = at9 m ρ c (Proc.devRef .tc main_arg12) := at10_else m ρ c main_arg12 (by decide)
    _ = at8 m ρ c (Proc.devRef .tc main_arg12) := kept4 _ main_arg12 (by decide)
    _ = at7 m ρ c (Proc.devRef .tc main_arg12) := at8_else m ρ c main_arg12 (by decide)
    _ = at6 m ρ c (Proc.devRef .tc main_arg12) := kept3 _ main_arg12 (by decide)
    _ = at5 m ρ c (Proc.devRef .tc main_arg12) := at6_else m ρ c main_arg12 (by decide)
    _ = at4 m ρ c (Proc.devRef .tc main_arg12) := kept2 _ main_arg12 (by decide)
    _ = at3 m ρ c (Proc.devRef .tc main_arg12) := at4_else m ρ c main_arg12 (by decide)
    _ = at2 m ρ c (Proc.devRef .tc main_arg12) := kept1 _ main_arg12 (by decide)
    _ = at1 m ρ c (Proc.devRef .tc main_arg12) := at2_else m ρ c main_arg12 (by decide)
    _ = at0 m ρ c (Proc.devRef .tc main_arg12) := kept0 _ main_arg12 (by decide)
    _ = m ((c : Thread nD τ).loc main_arg12) := rfl
theorem at11_main_arg13 (c : Dev nD) : at11 m ρ c (Proc.devRef .tc main_arg13) = m ((c : Thread nD τ).loc main_arg13) :=
  calc at11 m ρ c (Proc.devRef .tc main_arg13)
    _ = at10 m ρ c (Proc.devRef .tc main_arg13) := kept5 _ main_arg13 (by decide)
    _ = at9 m ρ c (Proc.devRef .tc main_arg13) := at10_else m ρ c main_arg13 (by decide)
    _ = at8 m ρ c (Proc.devRef .tc main_arg13) := kept4 _ main_arg13 (by decide)
    _ = at7 m ρ c (Proc.devRef .tc main_arg13) := at8_else m ρ c main_arg13 (by decide)
    _ = at6 m ρ c (Proc.devRef .tc main_arg13) := kept3 _ main_arg13 (by decide)
    _ = at5 m ρ c (Proc.devRef .tc main_arg13) := at6_else m ρ c main_arg13 (by decide)
    _ = at4 m ρ c (Proc.devRef .tc main_arg13) := kept2 _ main_arg13 (by decide)
    _ = at3 m ρ c (Proc.devRef .tc main_arg13) := at4_else m ρ c main_arg13 (by decide)
    _ = at2 m ρ c (Proc.devRef .tc main_arg13) := kept1 _ main_arg13 (by decide)
    _ = at1 m ρ c (Proc.devRef .tc main_arg13) := at2_else m ρ c main_arg13 (by decide)
    _ = at0 m ρ c (Proc.devRef .tc main_arg13) := kept0 _ main_arg13 (by decide)
    _ = m ((c : Thread nD τ).loc main_arg13) := rfl
theorem at11_main_arg14 (c : Dev nD) : at11 m ρ c (Proc.devRef .tc main_arg14) = m ((c : Thread nD τ).loc main_arg14) :=
  calc at11 m ρ c (Proc.devRef .tc main_arg14)
    _ = at10 m ρ c (Proc.devRef .tc main_arg14) := kept5 _ main_arg14 (by decide)
    _ = at9 m ρ c (Proc.devRef .tc main_arg14) := at10_else m ρ c main_arg14 (by decide)
    _ = at8 m ρ c (Proc.devRef .tc main_arg14) := kept4 _ main_arg14 (by decide)
    _ = at7 m ρ c (Proc.devRef .tc main_arg14) := at8_else m ρ c main_arg14 (by decide)
    _ = at6 m ρ c (Proc.devRef .tc main_arg14) := kept3 _ main_arg14 (by decide)
    _ = at5 m ρ c (Proc.devRef .tc main_arg14) := at6_else m ρ c main_arg14 (by decide)
    _ = at4 m ρ c (Proc.devRef .tc main_arg14) := kept2 _ main_arg14 (by decide)
    _ = at3 m ρ c (Proc.devRef .tc main_arg14) := at4_else m ρ c main_arg14 (by decide)
    _ = at2 m ρ c (Proc.devRef .tc main_arg14) := kept1 _ main_arg14 (by decide)
    _ = at1 m ρ c (Proc.devRef .tc main_arg14) := at2_else m ρ c main_arg14 (by decide)
    _ = at0 m ρ c (Proc.devRef .tc main_arg14) := kept0 _ main_arg14 (by decide)
    _ = m ((c : Thread nD τ).loc main_arg14) := rfl
theorem at11_main_arg15 (c : Dev nD) : at11 m ρ c (Proc.devRef .tc main_arg15) = m ((c : Thread nD τ).loc main_arg15) :=
  calc at11 m ρ c (Proc.devRef .tc main_arg15)
    _ = at10 m ρ c (Proc.devRef .tc main_arg15) := kept5 _ main_arg15 (by decide)
    _ = at9 m ρ c (Proc.devRef .tc main_arg15) := at10_else m ρ c main_arg15 (by decide)
    _ = at8 m ρ c (Proc.devRef .tc main_arg15) := kept4 _ main_arg15 (by decide)
    _ = at7 m ρ c (Proc.devRef .tc main_arg15) := at8_else m ρ c main_arg15 (by decide)
    _ = at6 m ρ c (Proc.devRef .tc main_arg15) := kept3 _ main_arg15 (by decide)
    _ = at5 m ρ c (Proc.devRef .tc main_arg15) := at6_else m ρ c main_arg15 (by decide)
    _ = at4 m ρ c (Proc.devRef .tc main_arg15) := kept2 _ main_arg15 (by decide)
    _ = at3 m ρ c (Proc.devRef .tc main_arg15) := at4_else m ρ c main_arg15 (by decide)
    _ = at2 m ρ c (Proc.devRef .tc main_arg15) := kept1 _ main_arg15 (by decide)
    _ = at1 m ρ c (Proc.devRef .tc main_arg15) := at2_else m ρ c main_arg15 (by decide)
    _ = at0 m ρ c (Proc.devRef .tc main_arg15) := kept0 _ main_arg15 (by decide)
    _ = m ((c : Thread nD τ).loc main_arg15) := rfl
theorem at11_main_arg16 (c : Dev nD) : at11 m ρ c (Proc.devRef .tc main_arg16) = m ((c : Thread nD τ).loc main_arg16) :=
  calc at11 m ρ c (Proc.devRef .tc main_arg16)
    _ = at10 m ρ c (Proc.devRef .tc main_arg16) := kept5 _ main_arg16 (by decide)
    _ = at9 m ρ c (Proc.devRef .tc main_arg16) := at10_else m ρ c main_arg16 (by decide)
    _ = at8 m ρ c (Proc.devRef .tc main_arg16) := kept4 _ main_arg16 (by decide)
    _ = at7 m ρ c (Proc.devRef .tc main_arg16) := at8_else m ρ c main_arg16 (by decide)
    _ = at6 m ρ c (Proc.devRef .tc main_arg16) := kept3 _ main_arg16 (by decide)
    _ = at5 m ρ c (Proc.devRef .tc main_arg16) := at6_else m ρ c main_arg16 (by decide)
    _ = at4 m ρ c (Proc.devRef .tc main_arg16) := kept2 _ main_arg16 (by decide)
    _ = at3 m ρ c (Proc.devRef .tc main_arg16) := at4_else m ρ c main_arg16 (by decide)
    _ = at2 m ρ c (Proc.devRef .tc main_arg16) := kept1 _ main_arg16 (by decide)
    _ = at1 m ρ c (Proc.devRef .tc main_arg16) := at2_else m ρ c main_arg16 (by decide)
    _ = at0 m ρ c (Proc.devRef .tc main_arg16) := kept0 _ main_arg16 (by decide)
    _ = m ((c : Thread nD τ).loc main_arg16) := rfl
theorem at11_main_arg17 (c : Dev nD) : at11 m ρ c (Proc.devRef .tc main_arg17) = m ((c : Thread nD τ).loc main_arg17) :=
  calc at11 m ρ c (Proc.devRef .tc main_arg17)
    _ = at10 m ρ c (Proc.devRef .tc main_arg17) := kept5 _ main_arg17 (by decide)
    _ = at9 m ρ c (Proc.devRef .tc main_arg17) := at10_else m ρ c main_arg17 (by decide)
    _ = at8 m ρ c (Proc.devRef .tc main_arg17) := kept4 _ main_arg17 (by decide)
    _ = at7 m ρ c (Proc.devRef .tc main_arg17) := at8_else m ρ c main_arg17 (by decide)
    _ = at6 m ρ c (Proc.devRef .tc main_arg17) := kept3 _ main_arg17 (by decide)
    _ = at5 m ρ c (Proc.devRef .tc main_arg17) := at6_else m ρ c main_arg17 (by decide)
    _ = at4 m ρ c (Proc.devRef .tc main_arg17) := kept2 _ main_arg17 (by decide)
    _ = at3 m ρ c (Proc.devRef .tc main_arg17) := at4_else m ρ c main_arg17 (by decide)
    _ = at2 m ρ c (Proc.devRef .tc main_arg17) := kept1 _ main_arg17 (by decide)
    _ = at1 m ρ c (Proc.devRef .tc main_arg17) := at2_else m ρ c main_arg17 (by decide)
    _ = at0 m ρ c (Proc.devRef .tc main_arg17) := kept0 _ main_arg17 (by decide)
    _ = m ((c : Thread nD τ).loc main_arg17) := rfl
theorem at11_main_arg18 (c : Dev nD) : at11 m ρ c (Proc.devRef .tc main_arg18) = m ((c : Thread nD τ).loc main_arg18) :=
  calc at11 m ρ c (Proc.devRef .tc main_arg18)
    _ = at10 m ρ c (Proc.devRef .tc main_arg18) := kept5 _ main_arg18 (by decide)
    _ = at9 m ρ c (Proc.devRef .tc main_arg18) := at10_else m ρ c main_arg18 (by decide)
    _ = at8 m ρ c (Proc.devRef .tc main_arg18) := kept4 _ main_arg18 (by decide)
    _ = at7 m ρ c (Proc.devRef .tc main_arg18) := at8_else m ρ c main_arg18 (by decide)
    _ = at6 m ρ c (Proc.devRef .tc main_arg18) := kept3 _ main_arg18 (by decide)
    _ = at5 m ρ c (Proc.devRef .tc main_arg18) := at6_else m ρ c main_arg18 (by decide)
    _ = at4 m ρ c (Proc.devRef .tc main_arg18) := kept2 _ main_arg18 (by decide)
    _ = at3 m ρ c (Proc.devRef .tc main_arg18) := at4_else m ρ c main_arg18 (by decide)
    _ = at2 m ρ c (Proc.devRef .tc main_arg18) := kept1 _ main_arg18 (by decide)
    _ = at1 m ρ c (Proc.devRef .tc main_arg18) := at2_else m ρ c main_arg18 (by decide)
    _ = at0 m ρ c (Proc.devRef .tc main_arg18) := kept0 _ main_arg18 (by decide)
    _ = m ((c : Thread nD τ).loc main_arg18) := rfl

/-! ## The proof data, and what rides beside the buffers -/

/-- No pipeline has a prefetched table. -/
abbrev adm : (p : Fin 5) → (pcfgs (F := F) p).Adm := fun p => (cfgs p).toPCfg_adm
/-- Each pipeline's proof data, at its region's entry contents. -/
def pdats : (p : Fin 5) → (c : Dev nD) → Dat τ (Elt F) Unit ℕ (UR sig nD τ) ℕ (Pipeline.pin (pcfgs (F := F)) adm p) c
  | ⟨0, _⟩ => fun c => dat0 (in0 m ρ) c
  | ⟨1, _⟩ => fun c => dat1 (in1 m ρ) c
  | ⟨2, _⟩ => fun c => dat2 (in2 m ρ) c
  | ⟨3, _⟩ => fun c => dat3 (in3 m ρ) c
  | ⟨4, _⟩ => fun c => dat4 (in4 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers a core carries its generator register, at some state, and what it owes: nothing. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without what the core owes. -/
abbrev Tend (c : Dev nD) : sProp 𝕄 := iprop(StableHlo.held (c : Thread nD τ) (Pipeline.ucRefs τ sig) (at11 m ρ c) ∗ ∃ r, prngReg c r)

/-! ## The regions as segments -/

set_option backward.isDefEq.respectTransparency.types false in
/-- Region 0 between the thread states: entered with every unscoped buffer at `at1`, left with them at `at2`.
    At the entry the windows' arrays are taken out of the unscoped buffers and the generator register goes into the
    invariant; at the exit the arrays come back at what the pipeline left and the register comes out again. The kernel
    has no semaphore of its own and owes nothing. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (in0 m ρ) c).loose
  hwaits := Pipeline.hwaits_of_owed_zero _ _ _ _ L lv 0 fun _ _ => rfl
  pre c := iprop(StableHlo.held (c : Thread nD τ) (Pipeline.ucRefs τ sig) (at1 m ρ c) ∗ R c)
  post c := iprop(StableHlo.held (c : Thread nD τ) (Pipeline.ucRefs τ sig) (at2 m ρ c) ∗ R c)
  X c := iprop(∃ r, prngReg c r)
  Y c := iprop(∃ r, prngReg c r)
  Z c := Pipeline.unscopedRest (Ix := Unit) (Name := ℕ) (U := UR sig nD τ) (Lvl := ℕ) spec0 c (in0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (in0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (in0 m ρ c) (out0 m ρ c) ((pdats m ρ 0 c).arrAt · cfg0.N) (filled0 m ρ c) (others0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the thread states: entered with every unscoped buffer at `at3`, left with them at `at4`.
    At the entry the windows' arrays are taken out of the unscoped buffers and the generator register goes into the
    invariant; at the exit the arrays come back at what the pipeline left and the register comes out again. The kernel
    has no semaphore of its own and owes nothing. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (in1 m ρ) c).loose
  hwaits := Pipeline.hwaits_of_owed_zero _ _ _ _ L lv 1 fun _ _ => rfl
  pre c := iprop(StableHlo.held (c : Thread nD τ) (Pipeline.ucRefs τ sig) (at3 m ρ c) ∗ R c)
  post c := iprop(StableHlo.held (c : Thread nD τ) (Pipeline.ucRefs τ sig) (at4 m ρ c) ∗ R c)
  X c := iprop(∃ r, prngReg c r)
  Y c := iprop(∃ r, prngReg c r)
  Z c := Pipeline.unscopedRest (Ix := Unit) (Name := ℕ) (U := UR sig nD τ) (Lvl := ℕ) spec1 c (in1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (in1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (in1 m ρ c) (out1 m ρ c) ((pdats m ρ 1 c).arrAt · cfg1.N) (filled1 m ρ c) (others1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between the thread states: entered with every unscoped buffer at `at5`, left with them at `at6`.
    At the entry the windows' arrays are taken out of the unscoped buffers and the generator register goes into the
    invariant; at the exit the arrays come back at what the pipeline left and the register comes out again. The kernel
    has no semaphore of its own and owes nothing. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (obligation2 (in2 m ρ) c).loose
  hwaits := Pipeline.hwaits_of_owed_zero _ _ _ _ L lv 2 fun _ _ => rfl
  pre c := iprop(StableHlo.held (c : Thread nD τ) (Pipeline.ucRefs τ sig) (at5 m ρ c) ∗ R c)
  post c := iprop(StableHlo.held (c : Thread nD τ) (Pipeline.ucRefs τ sig) (at6 m ρ c) ∗ R c)
  X c := iprop(∃ r, prngReg c r)
  Y c := iprop(∃ r, prngReg c r)
  Z c := Pipeline.unscopedRest (Ix := Unit) (Name := ℕ) (U := UR sig nD τ) (Lvl := ℕ) spec2 c (in2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (in2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (in2 m ρ c) (out2 m ρ c) ((pdats m ρ 2 c).arrAt · cfg2.N) (filled2 m ρ c) (others2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 between the thread states: entered with every unscoped buffer at `at7`, left with them at `at8`.
    At the entry the windows' arrays are taken out of the unscoped buffers and the generator register goes into the
    invariant; at the exit the arrays come back at what the pipeline left and the register comes out again. The kernel
    has no semaphore of its own and owes nothing. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (obligation3 (in3 m ρ) c).loose
  hwaits := Pipeline.hwaits_of_owed_zero _ _ _ _ L lv 3 fun _ _ => rfl
  pre c := iprop(StableHlo.held (c : Thread nD τ) (Pipeline.ucRefs τ sig) (at7 m ρ c) ∗ R c)
  post c := iprop(StableHlo.held (c : Thread nD τ) (Pipeline.ucRefs τ sig) (at8 m ρ c) ∗ R c)
  X c := iprop(∃ r, prngReg c r)
  Y c := iprop(∃ r, prngReg c r)
  Z c := Pipeline.unscopedRest (Ix := Unit) (Name := ℕ) (U := UR sig nD τ) (Lvl := ℕ) spec3 c (in3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (in3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (in3 m ρ c) (out3 m ρ c) ((pdats m ρ 3 c).arrAt · cfg3.N) (filled3 m ρ c) (others3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 between the thread states: entered with every unscoped buffer at `at9`, left with them at `at10`.
    At the entry the windows' arrays are taken out of the unscoped buffers and the generator register goes into the
    invariant; at the exit the arrays come back at what the pipeline left and the register comes out again. The kernel
    has no semaphore of its own and owes nothing. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (obligation4 (in4 m ρ) c).loose
  hwaits := Pipeline.hwaits_of_owed_zero _ _ _ _ L lv 4 fun _ _ => rfl
  pre c := iprop(StableHlo.held (c : Thread nD τ) (Pipeline.ucRefs τ sig) (at9 m ρ c) ∗ R c)
  post c := iprop(StableHlo.held (c : Thread nD τ) (Pipeline.ucRefs τ sig) (at10 m ρ c) ∗ R c)
  X c := iprop(∃ r, prngReg c r)
  Y c := iprop(∃ r, prngReg c r)
  Z c := Pipeline.unscopedRest (Ix := Unit) (Name := ℕ) (U := UR sig nD τ) (Lvl := ℕ) spec4 c (in4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (in4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (in4 m ρ c) (out4 m ρ c) ((pdats m ρ 4 c).arrAt · cfg4.N) (filled4 m ρ c) (others4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

/-- The eleven segments in the program's order. -/
abbrev segs : List (Pipeline.Seg (pcfgs (F := F)) adm (pdats m ρ) () defs₀ 𝒱₀ L lv) :=
  [
    .host (hseg hostOps0 hostOps0_sub stretch0_fresh (at0 m ρ)),
    .region (reg0 m ρ),
    .host (hseg hostOps1 hostOps1_sub stretch1_fresh (at2 m ρ)),
    .region (reg1 m ρ),
    .host (hseg hostOps2 hostOps2_sub stretch2_fresh (at4 m ρ)),
    .region (reg2 m ρ),
    .host (hseg hostOps3 hostOps3_sub stretch3_fresh (at6 m ρ)),
    .region (reg3 m ρ),
    .host (hseg hostOps4 hostOps4_sub stretch4_fresh (at8 m ρ)),
    .region (reg4 m ρ),
    .host (hseg hostOps5 hostOps5_sub stretch5_fresh (at10 m ρ)) ]

set_option maxHeartbeats 4000000 in
/-- The program is the run of its segments. -/
theorem main_run (c : Dev nD) : main (F := F) c = Pipeline.Seg.run (segs m ρ) := by
  rw [main_chain c, Pipeline.Seg.run_eq_chain]; rfl

set_option backward.isDefEq.respectTransparency.types false in
set_option maxHeartbeats 4000000 in
/-- At the compiled mesh, from any memory with zero counters, every weakly fair execution of the program terminates,
    nothing faulting, and every final memory holds each unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = at11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m ρ c) ∗ R c)) (Tₙ := Tend m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (at11 m ρ c) ∗ R c)
          ⊢ iprop(Tend m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (at0 m ρ c)
        from Pipeline.unscopedBufs_held c (at0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at11 m ρ c b)
    (hfin := fun c s' => by
      iintro ⟨⟨Hh, -⟩, HSI⟩
      unfold StableHlo.held
      imodintro
      iapply (pointsTo_read_all (Pipeline.ucRefs τ sig) (fun b => (((c : Thread nD τ)).1, b)) (at11 m ρ c) s')
      isplitl [Hh] <;> iassumption)
    (hQ := fun s h => h)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16) ∧
      r.2.mem ((c.tc : Thread nD τ).loc main_arg17) = m ((c.tc : Thread nD τ).loc main_arg17) ∧
      r.2.mem ((c.tc : Thread nD τ).loc main_arg18) = m ((c.tc : Thread nD τ).loc main_arg18)) :=
  (θ_run defs _ _).mono (fun _ h c => ⟨(h c _ (mem_uc main_arg0 (by decide))).trans (at11_main_arg0 m ρ c),
    (h c _ (mem_uc main_arg1 (by decide))).trans (at11_main_arg1 m ρ c),
    (h c _ (mem_uc main_arg2 (by decide))).trans (at11_main_arg2 m ρ c),
    (h c _ (mem_uc main_arg3 (by decide))).trans (at11_main_arg3 m ρ c),
    (h c _ (mem_uc main_arg4 (by decide))).trans (at11_main_arg4 m ρ c),
    (h c _ (mem_uc main_arg5 (by decide))).trans (at11_main_arg5 m ρ c),
    (h c _ (mem_uc main_arg6 (by decide))).trans (at11_main_arg6 m ρ c),
    (h c _ (mem_uc main_arg7 (by decide))).trans (at11_main_arg7 m ρ c),
    (h c _ (mem_uc main_arg8 (by decide))).trans (at11_main_arg8 m ρ c),
    (h c _ (mem_uc main_arg9 (by decide))).trans (at11_main_arg9 m ρ c),
    (h c _ (mem_uc main_arg10 (by decide))).trans (at11_main_arg10 m ρ c),
    (h c _ (mem_uc main_arg11 (by decide))).trans (at11_main_arg11 m ρ c),
    (h c _ (mem_uc main_arg12 (by decide))).trans (at11_main_arg12 m ρ c),
    (h c _ (mem_uc main_arg13 (by decide))).trans (at11_main_arg13 m ρ c),
    (h c _ (mem_uc main_arg14 (by decide))).trans (at11_main_arg14 m ρ c),
    (h c _ (mem_uc main_arg15 (by decide))).trans (at11_main_arg15 m ρ c),
    (h c _ (mem_uc main_arg16 (by decide))).trans (at11_main_arg16 m ρ c),
    (h c _ (mem_uc main_arg17 (by decide))).trans (at11_main_arg17 m ρ c),
    (h c _ (mem_uc main_arg18 (by decide))).trans (at11_main_arg18 m ρ c)⟩) (run_all m ρ)

end Cert.Kernel.Hand

end
-- ==== Proof.IdealRegion0.lean ====
/-
  Region 0 of the kernel program: the item propagation: a row tile of 2000 items of the three per-behaviour aggregates, each row divided by its degree plus eps, times that behaviour's 64 x 64 propagation matrix (x / (d + eps) · P per behaviour), 15 grid points.

  At every grid point the body reads its input tiles whole, computes one value and stores it over the whole output
  tile. This module says what each window's staging buffer holds around the body at a point, as a function of the
  arrays the region finds at its entry, proves the body's triple, and discharges the pipeline's obligation at every
  point. Everything is stated at a parameter `V`, the contents of the core's buffers when the region is entered, and
  for any float instance.
-/
import proofs.«166662_j47579647705297_2_alg».proof.Proof.Gen.KernelIdeal.Launch
import proofs.«166662_j47579647705297_2_alg».proof.Proof.Gen.KernelIdeal.Skeleton
import proofs.«166662_j47579647705297_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles -/

/-- The tile of window `w` that grid point `t` works on: the window's block there, cut out of the window's array as
    the region finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its tile whenever the body runs, fetched at that point or kept from the point before
    (its block index then has not moved), for any proof data over the entry contents that leave the tile in place. -/
theorem found0_0 {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)

/-- Input window 1 holds its tile whenever the body runs, fetched at that point or kept from the point before
    (its block index then has not moved), for any proof data over the entry contents that leave the tile in place. -/
theorem found0_1 {c : Dev nD} (dat : Dat τ (Elt F) Unit ℕ (UR sig nD τ) ℕ cfg0 c) (hA : dat.A 1 = V c (Pipeline.arrRef spec0 1))
    (hafter : ∀ t, dat.after 1 t = tile0 V c 1 t) (t : Fin cfg0.N) (d) : dat.before 1 t d = tile0 V c 1 t :=
  (dat.before_in_eq_fetched 1 rfl (fun _ => rfl) (fun _ _ _ => rfl) (fun t => by rw [hafter]; unfold Dat.blockOf tile0; rw [hA]; try rfl) t d).trans
    (by unfold Dat.fetched Dat.blockOf tile0; rw [hA]; try rfl)

/-- Input window 2 holds its tile whenever the body runs, fetched at that point or kept from the point before
    (its block index then has not moved), for any proof data over the entry contents that leave the tile in place. -/
theorem found0_2 {c : Dev nD} (dat : Dat τ (Elt F) Unit ℕ (UR sig nD τ) ℕ cfg0 c) (hA : dat.A 2 = V c (Pipeline.arrRef spec0 2))
    (hafter : ∀ t, dat.after 2 t = tile0 V c 2 t) (t : Fin cfg0.N) (d) : dat.before 2 t d = tile0 V c 2 t :=
  (dat.before_in_eq_fetched 2 rfl (fun _ => rfl) (fun _ _ _ => rfl) (fun t => by rw [hafter]; unfold Dat.blockOf tile0; rw [hA]; try rfl) t d).trans
    (by unfold Dat.fetched Dat.blockOf tile0; rw [hA]; try rfl)

/-! ## What the body leaves in the output tile -/

abbrev box0_x : Rect S3x2000x64 := Rect.unit (s := S3x2000x64) ![0, 0, 0] S3x2000x64.size inb_S3x2000x64_S3x2000x64_0_0_0
abbrev box0_d : Rect S3x2000x1 := Rect.unit (s := S3x2000x1) ![0, 0, 0] S3x2000x1.size inb_S3x2000x1_S3x2000x1_0_0_0
abbrev box0_p : Rect S3x64x64 := Rect.unit (s := S3x64x64) ![0, 0, 0] S3x64x64.size inb_S3x64x64_S3x64x64_0_0_0
abbrev box0_out : Rect S3x2000x64 := Rect.unit (s := S3x2000x64) ![0, 0, 0] S3x2000x64.size inb_S3x2000x64_S3x2000x64_0_0_0

/-- The output tile after the body: its one store, over the whole tile, of x / (d + eps) · P per behaviour of the input tiles. -/
def left0 (x : Vec F S3x2000x64 .f32) (d : Vec F S3x2000x1 .f32) (p : Vec F S3x64x64 .f32) : Vec F S3x2000x64 .f32 :=
  View.canon [⟨box0_out, k0_pay1 (View.ld x box0_x) (View.ld d box0_d) (View.ld p box0_p)⟩]

/-- The one store covers the output tile. -/
theorem whole0 (p0 : Vec F S3x2000x64 .f32) (y : S3x2000x64.Idx) :
    ∃ pc ∈ ([⟨box0_out, p0⟩] : List (View.Piece (Elt F) S3x2000x64 .f32)), y ∈ pc.1.set :=
  View.cover_of_tiled [⟨box0_out, p0⟩] S3x2000x64.size (by rfl) y

/-! ## The body's triple -/

set_option maxHeartbeats 1000000 in
/-- The body on whole staging memrefs, the inputs' holding x, d, p and the output's anything, runs to its end
    with the inputs' as they were and the output's at `left0` of them. -/
theorem body0 (c : Dev nD) (E : Set ℕ) (i : grid0.Coords) (a0 : Memref sig .tc .vmem S3x2000x64 .f32) (h0 : a0.IsWhole) (a1 : Memref sig .tc .vmem S3x2000x1 .f32) (h1 : a1.IsWhole) (a2 : Memref sig .tc .vmem S3x64x64 .f32) (h2 : a2.IsWhole) (ao : Memref sig .tc .vmem S3x2000x64 .f32) (ho : ao.IsWhole)
    (x : Vec F S3x2000x64 .f32) (d : Vec F S3x2000x1 .f32) (p : Vec F S3x64x64 .f32) (Q : PUnit → sProp 𝕄) :
    iprop(owns (c : Thread nD τ) a0 fullShare x ∗ owns (c : Thread nD τ) a1 fullShare d ∗ owns (c : Thread nD τ) a2 fullShare p ∗ (∃ o, owns (c : Thread nD τ) ao fullShare o)
        ∗ (iprop(owns (c : Thread nD τ) a0 fullShare x ∗ owns (c : Thread nD τ) a1 fullShare d ∗ owns (c : Thread nD τ) a2 fullShare p ∗ owns (c : Thread nD τ) ao fullShare (left0 x d p)) -∗ Q ⟨⟩))
      ⊢ wp frame (wpE (defs₀ (F := F)) Variants.none c none) E (cc0__propagate_kernel i a0 h0 a1 h1 a2 h2 ao ho) Q := by
  simp only [cc0__propagate_kernel_eq_skeleton]; unfold cc0__propagate_kernel_skel
  unfold owns
  iintro ⟨⟨%f0, %hf0, H0⟩, ⟨%f1, %hf1, H1⟩, ⟨%f2, %hf2, H2⟩, ⟨%o, %fo, -, Ho⟩, Hq⟩
  subst hf0
  subst hf1
  subst hf2
  sl_exec
  sl_step
  iapply Hq
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact Ho
  ipureintro
  exact View.read_writes_eq_canon _ _ _ (whole0 _)

/-! ## The proof data -/

/-- The pipeline's proof data on core `c`: the arrays as the region finds them; after the body at point `t` each
    input's buffer still at its tile and the output's at `left0` of the input tiles; the invariant holds what
    the body never touches; nothing is owed; every share is full. -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => tile0 V c 2 t
    | ⟨3, _⟩ => left0 (tile0 V c 0 t) (tile0 V c 1 t) (tile0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = tile0 V c 0 t := by dsimp only [dat0]
theorem after0_1 (c : Dev nD) (t : Fin cfg0.N) : (dat0 V c).after 1 t = tile0 V c 1 t := by dsimp only [dat0]
theorem after0_2 (c : Dev nD) (t : Fin cfg0.N) : (dat0 V c).after 2 t = tile0 V c 2 t := by dsimp only [dat0]
theorem after0_3 (c : Dev nD) (t : Fin cfg0.N) : (dat0 V c).after 3 t = left0 (tile0 V c 0 t) (tile0 V c 1 t) (tile0 V c 2 t) := by dsimp only [dat0]

theorem holds0_0 (c : Dev nD) (t : Fin cfg0.N) (d) : (dat0 V c).before 0 t d = tile0 V c 0 t :=
  found0_0 V (dat0 V c) (A_eq0 V c 0) (after0_0 V c) t d
theorem holds0_1 (c : Dev nD) (t : Fin cfg0.N) (d) : (dat0 V c).before 1 t d = tile0 V c 1 t :=
  found0_1 V (dat0 V c) (A_eq0 V c 1) (after0_1 V c) t d
theorem holds0_2 (c : Dev nD) (t : Fin cfg0.N) (d) : (dat0 V c).before 2 t d = tile0 V c 2 t :=
  found0_2 V (dat0 V c) (A_eq0 V c 2) (after0_2 V c) t d

/-! ## The obligation at a point -/

/-- What the pipeline hands the body at point `t`, window by window, -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it takes back. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the inputs' memrefs hold their tiles, so the body's triple applies; the invariant and what the core owes
    pass through unread. -/
theorem point0 (c : Dev nD) (t : Fin cfg0.N) :
    handed0 V c t ⊢ wp frame (wpE (defs₀ (F := F)) Variants.none c none) Set.univ (bodyAt0 t) (fun _ => returned0 V c t) := by
  unfold handed0 returned0 bodyAt0
  simp only [holds0_0, holds0_1, holds0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, G0⟩, ⟨%d1, G1⟩, ⟨%d2, G2⟩, ⟨%d3, G3⟩⟩
  iapply (body0 c Set.univ _ _ _ _ _ _ _ _ _ (tile0 V c 0 t) (tile0 V c 1 t) (tile0 V c 2 t) _)
  isplitl [G0]; · iexact G0
  isplitl [G1]; · iexact G1
  isplitl [G2]; · iexact G2
  isplitl [G3]; · iexists _; iexact G3
  iintro ⟨G0, G1, G2, G3⟩
  isplitl [HΦ]; · iexact HΦ
  isplitl [Ho]; · iexact Ho
  isplitl [G0]; · iexact G0
  isplitl [G1]; · iexact G1
  isplitl [G2]; · iexact G2
  iexact G3

/-- The pipeline's obligation, at every point. -/
theorem obligation0 (c : Dev nD) : BodyObligation (dat0 (F := F) V c) (defs₀ (F := F)) Variants.none () Set.univ := fun t => by
  rw [bigSep_W0, bigSep_W0]
  exact point0 V c t

end Cert.KernelIdeal.Hand

end
-- ==== Proof.IdealRegion1.lean ====
/-
  Region 1 of the kernel program: the user projection: a row tile of 2000 users of the three per-behaviour neighbourhood features times that behaviour's 128 x 128 matrix (x · B per behaviour), 50 grid points.

  At every grid point the body reads its input tiles whole, computes one value and stores it over the whole output
  tile. This module says what each window's staging buffer holds around the body at a point, as a function of the
  arrays the region finds at its entry, proves the body's triple, and discharges the pipeline's obligation at every
  point. Everything is stated at a parameter `V`, the contents of the core's buffers when the region is entered, and
  for any float instance.
-/
import proofs.«166662_j47579647705297_2_alg».proof.Proof.Gen.KernelIdeal.Launch
import proofs.«166662_j47579647705297_2_alg».proof.Proof.Gen.KernelIdeal.Skeleton
import proofs.«166662_j47579647705297_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles -/

/-- The tile of window `w` that grid point `t` works on: the window's block there, cut out of the window's array as
    the region finds it. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its tile whenever the body runs, fetched at that point or kept from the point before
    (its block index then has not moved), for any proof data over the entry contents that leave the tile in place. -/
theorem found1_0 {c : Dev nD} (dat : Dat τ (Elt F) Unit ℕ (UR sig nD τ) ℕ cfg1 c) (hA : dat.A 0 = V c (Pipeline.arrRef spec1 0))
    (hafter : ∀ t, dat.after 0 t = tile1 V c 0 t) (t : Fin cfg1.N) (d) : dat.before 0 t d = tile1 V c 0 t :=
  (dat.before_in_eq_fetched 0 rfl (fun _ => rfl) (fun _ _ _ => rfl) (fun t => by rw [hafter]; unfold Dat.blockOf tile1; rw [hA]; try rfl) t d).trans
    (by unfold Dat.fetched Dat.blockOf tile1; rw [hA]; try rfl)

/-- Input window 1 holds its tile whenever the body runs, fetched at that point or kept from the point before
    (its block index then has not moved), for any proof data over the entry contents that leave the tile in place. -/
theorem found1_1 {c : Dev nD} (dat : Dat τ (Elt F) Unit ℕ (UR sig nD τ) ℕ cfg1 c) (hA : dat.A 1 = V c (Pipeline.arrRef spec1 1))
    (hafter : ∀ t, dat.after 1 t = tile1 V c 1 t) (t : Fin cfg1.N) (d) : dat.before 1 t d = tile1 V c 1 t :=
  (dat.before_in_eq_fetched 1 rfl (fun _ => rfl) (fun _ _ _ => rfl) (fun t => by rw [hafter]; unfold Dat.blockOf tile1; rw [hA]; try rfl) t d).trans
    (by unfold Dat.fetched Dat.blockOf tile1; rw [hA]; try rfl)

/-! ## What the body leaves in the output tile -/

abbrev box1_x : Rect S3x2000x128 := Rect.unit (s := S3x2000x128) ![0, 0, 0] S3x2000x128.size inb_S3x2000x128_S3x2000x128_0_0_0
abbrev box1_p : Rect S3x128x128 := Rect.unit (s := S3x128x128) ![0, 0, 0] S3x128x128.size inb_S3x128x128_S3x128x128_0_0_0
abbrev box1_out : Rect S3x2000x128 := Rect.unit (s := S3x2000x128) ![0, 0, 0] S3x2000x128.size inb_S3x2000x128_S3x2000x128_0_0_0

/-- The output tile after the body: its one store, over the whole tile, of x · B per behaviour of the input tiles. -/
def left1 (x : Vec F S3x2000x128 .f32) (p : Vec F S3x128x128 .f32) : Vec F S3x2000x128 .f32 :=
  View.canon [⟨box1_out, k1_pay1 (View.ld x box1_x) (View.ld p box1_p)⟩]

/-- The one store covers the output tile. -/
theorem whole1 (p0 : Vec F S3x2000x128 .f32) (y : S3x2000x128.Idx) :
    ∃ pc ∈ ([⟨box1_out, p0⟩] : List (View.Piece (Elt F) S3x2000x128 .f32)), y ∈ pc.1.set :=
  View.cover_of_tiled [⟨box1_out, p0⟩] S3x2000x128.size (by rfl) y

/-! ## The body's triple -/

set_option maxHeartbeats 1000000 in
/-- The body on whole staging memrefs, the inputs' holding x, p and the output's anything, runs to its end
    with the inputs' as they were and the output's at `left1` of them. -/
theorem body1 (c : Dev nD) (E : Set ℕ) (i : grid1.Coords) (a0 : Memref sig .tc .vmem S3x2000x128 .f32) (h0 : a0.IsWhole) (a1 : Memref sig .tc .vmem S3x128x128 .f32) (h1 : a1.IsWhole) (ao : Memref sig .tc .vmem S3x2000x128 .f32) (ho : ao.IsWhole)
    (x : Vec F S3x2000x128 .f32) (p : Vec F S3x128x128 .f32) (Q : PUnit → sProp 𝕄) :
    iprop(owns (c : Thread nD τ) a0 fullShare x ∗ owns (c : Thread nD τ) a1 fullShare p ∗ (∃ o, owns (c : Thread nD τ) ao fullShare o)
        ∗ (iprop(owns (c : Thread nD τ) a0 fullShare x ∗ owns (c : Thread nD τ) a1 fullShare p ∗ owns (c : Thread nD τ) ao fullShare (left1 x p)) -∗ Q ⟨⟩))
      ⊢ wp frame (wpE (defs₀ (F := F)) Variants.none c none) E (cc1__behaviour_kernel i a0 h0 a1 h1 ao ho) Q := by
  simp only [cc1__behaviour_kernel_eq_skeleton]; unfold cc1__behaviour_kernel_skel
  unfold owns
  iintro ⟨⟨%f0, %hf0, H0⟩, ⟨%f1, %hf1, H1⟩, ⟨%o, %fo, -, Ho⟩, Hq⟩
  subst hf0
  subst hf1
  sl_exec
  sl_step
  iapply Hq
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (whole1 _)

/-! ## The proof data -/

/-- The pipeline's proof data on core `c`: the arrays as the region finds them; after the body at point `t` each
    input's buffer still at its tile and the output's at `left1` of the input tiles; the invariant holds what
    the body never touches; nothing is owed; every share is full. -/
def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => left1 (tile1 V c 0 t) (tile1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = tile1 V c 0 t := by dsimp only [dat1]
theorem after1_1 (c : Dev nD) (t : Fin cfg1.N) : (dat1 V c).after 1 t = tile1 V c 1 t := by dsimp only [dat1]
theorem after1_2 (c : Dev nD) (t : Fin cfg1.N) : (dat1 V c).after 2 t = left1 (tile1 V c 0 t) (tile1 V c 1 t) := by dsimp only [dat1]

theorem holds1_0 (c : Dev nD) (t : Fin cfg1.N) (d) : (dat1 V c).before 0 t d = tile1 V c 0 t :=
  found1_0 V (dat1 V c) (A_eq1 V c 0) (after1_0 V c) t d
theorem holds1_1 (c : Dev nD) (t : Fin cfg1.N) (d) : (dat1 V c).before 1 t d = tile1 V c 1 t :=
  found1_1 V (dat1 V c) (A_eq1 V c 1) (after1_1 V c) t d

/-! ## The obligation at a point -/

/-- What the pipeline hands the body at point `t`, window by window, -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it takes back. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- At any point the inputs' memrefs hold their tiles, so the body's triple applies; the invariant and what the core owes
    pass through unread. -/
theorem point1 (c : Dev nD) (t : Fin cfg1.N) :
    handed1 V c t ⊢ wp frame (wpE (defs₀ (F := F)) Variants.none c none) Set.univ (bodyAt1 t) (fun _ => returned1 V c t) := by
  unfold handed1 returned1 bodyAt1
  simp only [holds1_0, holds1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, G0⟩, ⟨%d1, G1⟩, ⟨%d2, G2⟩⟩
  iapply (body1 c Set.univ _ _ _ _ _ _ _ (tile1 V c 0 t) (tile1 V c 1 t) _)
  isplitl [G0]; · iexact G0
  isplitl [G1]; · iexact G1
  isplitl [G2]; · iexists _; iexact G2
  iintro ⟨G0, G1, G2⟩
  isplitl [HΦ]; · iexact HΦ
  isplitl [Ho]; · iexact Ho
  isplitl [G0]; · iexact G0
  isplitl [G1]; · iexact G1
  iexact G2

/-- The pipeline's obligation, at every point. -/
theorem obligation1 (c : Dev nD) : BodyObligation (dat1 (F := F) V c) (defs₀ (F := F)) Variants.none () Set.univ := fun t => by
  rw [bigSep_W1, bigSep_W1]
  exact point1 V c t

end Cert.KernelIdeal.Hand

end
-- ==== Proof.IdealRegion2.lean ====
/-
  Region 2 of the kernel program: the fused user projection: a row tile of 5000 users of the mixed user feature times the column-concatenated weights [W | user_W] (x · [W | user_W]), 20 grid points.

  At every grid point the body reads its input tiles whole, computes one value and stores it over the whole output
  tile. This module says what each window's staging buffer holds around the body at a point, as a function of the
  arrays the region finds at its entry, proves the body's triple, and discharges the pipeline's obligation at every
  point. Everything is stated at a parameter `V`, the contents of the core's buffers when the region is entered, and
  for any float instance.
-/
import proofs.«166662_j47579647705297_2_alg».proof.Proof.Gen.KernelIdeal.Launch
import proofs.«166662_j47579647705297_2_alg».proof.Proof.Gen.KernelIdeal.Skeleton
import proofs.«166662_j47579647705297_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles -/

/-- The tile of window `w` that grid point `t` works on: the window's block there, cut out of the window's array as
    the region finds it. -/
def tile2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 holds its tile whenever the body runs, fetched at that point or kept from the point before
    (its block index then has not moved), for any proof data over the entry contents that leave the tile in place. -/
theorem found2_0 {c : Dev nD} (dat : Dat τ (Elt F) Unit ℕ (UR sig nD τ) ℕ cfg2 c) (hA : dat.A 0 = V c (Pipeline.arrRef spec2 0))
    (hafter : ∀ t, dat.after 0 t = tile2 V c 0 t) (t : Fin cfg2.N) (d) : dat.before 0 t d = tile2 V c 0 t :=
  (dat.before_in_eq_fetched 0 rfl (fun _ => rfl) (fun _ _ _ => rfl) (fun t => by rw [hafter]; unfold Dat.blockOf tile2; rw [hA]; try rfl) t d).trans
    (by unfold Dat.fetched Dat.blockOf tile2; rw [hA]; try rfl)

/-- Input window 1 holds its tile whenever the body runs, fetched at that point or kept from the point before
    (its block index then has not moved), for any proof data over the entry contents that leave the tile in place. -/
theorem found2_1 {c : Dev nD} (dat : Dat τ (Elt F) Unit ℕ (UR sig nD τ) ℕ cfg2 c) (hA : dat.A 1 = V c (Pipeline.arrRef spec2 1))
    (hafter : ∀ t, dat.after 1 t = tile2 V c 1 t) (t : Fin cfg2.N) (d) : dat.before 1 t d = tile2 V c 1 t :=
  (dat.before_in_eq_fetched 1 rfl (fun _ => rfl) (fun _ _ _ => rfl) (fun t => by rw [hafter]; unfold Dat.blockOf tile2; rw [hA]; try rfl) t d).trans
    (by unfold Dat.fetched Dat.blockOf tile2; rw [hA]; try rfl)

/-! ## What the body leaves in the output tile -/

abbrev box2_x : Rect S5000x64 := Rect.unit (s := S5000x64) ![0, 0] S5000x64.size inb_S5000x64_S5000x64_0_0
abbrev box2_p : Rect S64x192 := Rect.unit (s := S64x192) ![0, 0] S64x192.size inb_S64x192_S64x192_0_0
abbrev box2_out : Rect S5000x192 := Rect.unit (s := S5000x192) ![0, 0] S5000x192.size inb_S5000x192_S5000x192_0_0

/-- The output tile after the body: its one store, over the whole tile, of x · [W | user_W] of the input tiles. -/
def left2 (x : Vec F S5000x64 .f32) (p : Vec F S64x192 .f32) : Vec F S5000x192 .f32 :=
  View.canon [⟨box2_out, k2_pay1 (View.ld x box2_x) (View.ld p box2_p)⟩]

/-- The one store covers the output tile. -/
theorem whole2 (p0 : Vec F S5000x192 .f32) (y : S5000x192.Idx) :
    ∃ pc ∈ ([⟨box2_out, p0⟩] : List (View.Piece (Elt F) S5000x192 .f32)), y ∈ pc.1.set :=
  View.cover_of_tiled [⟨box2_out, p0⟩] S5000x192.size (by rfl) y

/-! ## The body's triple -/

set_option maxHeartbeats 1000000 in
/-- The body on whole staging memrefs, the inputs' holding x, p and the output's anything, runs to its end
    with the inputs' as they were and the output's at `left2` of them. -/
theorem body2 (c : Dev nD) (E : Set ℕ) (i : grid2.Coords) (a0 : Memref sig .tc .vmem S5000x64 .f32) (h0 : a0.IsWhole) (a1 : Memref sig .tc .vmem S64x192 .f32) (h1 : a1.IsWhole) (ao : Memref sig .tc .vmem S5000x192 .f32) (ho : ao.IsWhole)
    (x : Vec F S5000x64 .f32) (p : Vec F S64x192 .f32) (Q : PUnit → sProp 𝕄) :
    iprop(owns (c : Thread nD τ) a0 fullShare x ∗ owns (c : Thread nD τ) a1 fullShare p ∗ (∃ o, owns (c : Thread nD τ) ao fullShare o)
        ∗ (iprop(owns (c : Thread nD τ) a0 fullShare x ∗ owns (c : Thread nD τ) a1 fullShare p ∗ owns (c : Thread nD τ) ao fullShare (left2 x p)) -∗ Q ⟨⟩))
      ⊢ wp frame (wpE (defs₀ (F := F)) Variants.none c none) E (cc2__plain_matmul_kernel i a0 h0 a1 h1 ao ho) Q := by
  simp only [cc2__plain_matmul_kernel_eq_skeleton]; unfold cc2__plain_matmul_kernel_skel
  unfold owns
  iintro ⟨⟨%f0, %hf0, H0⟩, ⟨%f1, %hf1, H1⟩, ⟨%o, %fo, -, Ho⟩, Hq⟩
  subst hf0
  subst hf1
  sl_exec
  sl_step
  iapply Hq
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (whole2 _)

/-! ## The proof data -/

/-- The pipeline's proof data on core `c`: the arrays as the region finds them; after the body at point `t` each
    input's buffer still at its tile and the output's at `left2` of the input tiles; the invariant holds what
    the body never touches; nothing is owed; every share is full. -/
def dat2 (c : Dev nD) : Dat τ (Elt F) Unit ℕ (UR sig nD τ) ℕ cfg2 c where
  A w := V c (Pipeline.arrRef spec2 w)
  after w t := match w with
    | ⟨0, _⟩ => tile2 V c 0 t
    | ⟨1, _⟩ => tile2 V c 1 t
    | ⟨2, _⟩ => left2 (tile2 V c 0 t) (tile2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = tile2 V c 0 t := by dsimp only [dat2]
theorem after2_1 (c : Dev nD) (t : Fin cfg2.N) : (dat2 V c).after 1 t = tile2 V c 1 t := by dsimp only [dat2]
theorem after2_2 (c : Dev nD) (t : Fin cfg2.N) : (dat2 V c).after 2 t = left2 (tile2 V c 0 t) (tile2 V c 1 t) := by dsimp only [dat2]

theorem holds2_0 (c : Dev nD) (t : Fin cfg2.N) (d) : (dat2 V c).before 0 t d = tile2 V c 0 t :=
  found2_0 V (dat2 V c) (A_eq2 V c 0) (after2_0 V c) t d
theorem holds2_1 (c : Dev nD) (t : Fin cfg2.N) (d) : (dat2 V c).before 1 t d = tile2 V c 1 t :=
  found2_1 V (dat2 V c) (A_eq2 V c 1) (after2_1 V c) t d

/-! ## The obligation at a point -/

/-- What the pipeline hands the body at point `t`, window by window, -/
def handed2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it takes back. -/
def returned2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- At any point the inputs' memrefs hold their tiles, so the body's triple applies; the invariant and what the core owes
    pass through unread. -/
theorem point2 (c : Dev nD) (t : Fin cfg2.N) :
    handed2 V c t ⊢ wp frame (wpE (defs₀ (F := F)) Variants.none c none) Set.univ (bodyAt2 t) (fun _ => returned2 V c t) := by
  unfold handed2 returned2 bodyAt2
  simp only [holds2_0, holds2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, G0⟩, ⟨%d1, G1⟩, ⟨%d2, G2⟩⟩
  iapply (body2 c Set.univ _ _ _ _ _ _ _ (tile2 V c 0 t) (tile2 V c 1 t) _)
  isplitl [G0]; · iexact G0
  isplitl [G1]; · iexact G1
  isplitl [G2]; · iexists _; iexact G2
  iintro ⟨G0, G1, G2⟩
  isplitl [HΦ]; · iexact HΦ
  isplitl [Ho]; · iexact Ho
  isplitl [G0]; · iexact G0
  isplitl [G1]; · iexact G1
  iexact G2

/-- The pipeline's obligation, at every point. -/
theorem obligation2 (c : Dev nD) : BodyObligation (dat2 (F := F) V c) (defs₀ (F := F)) Variants.none () Set.univ := fun t => by
  rw [bigSep_W2, bigSep_W2]
  exact point2 V c t

end Cert.KernelIdeal.Hand

end
-- ==== Proof.IdealRegion3.lean ====
/-
  Region 3 of the kernel program: the fused item projection: a row tile of 5000 items of the aggregated item feature times the column-concatenated weights [W | item_W] (x · [W | item_W]), 6 grid points.

  At every grid point the body reads its input tiles whole, computes one value and stores it over the whole output
  tile. This module says what each window's staging buffer holds around the body at a point, as a function of the
  arrays the region finds at its entry, proves the body's triple, and discharges the pipeline's obligation at every
  point. Everything is stated at a parameter `V`, the contents of the core's buffers when the region is entered, and
  for any float instance.
-/
import proofs.«166662_j47579647705297_2_alg».proof.Proof.Gen.KernelIdeal.Launch
import proofs.«166662_j47579647705297_2_alg».proof.Proof.Gen.KernelIdeal.Skeleton
import proofs.«166662_j47579647705297_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles -/

/-- The tile of window `w` that grid point `t` works on: the window's block there, cut out of the window's array as
    the region finds it. -/
def tile3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 holds its tile whenever the body runs, fetched at that point or kept from the point before
    (its block index then has not moved), for any proof data over the entry contents that leave the tile in place. -/
theorem found3_0 {c : Dev nD} (dat : Dat τ (Elt F) Unit ℕ (UR sig nD τ) ℕ cfg3 c) (hA : dat.A 0 = V c (Pipeline.arrRef spec3 0))
    (hafter : ∀ t, dat.after 0 t = tile3 V c 0 t) (t : Fin cfg3.N) (d) : dat.before 0 t d = tile3 V c 0 t :=
  (dat.before_in_eq_fetched 0 rfl (fun _ => rfl) (fun _ _ _ => rfl) (fun t => by rw [hafter]; unfold Dat.blockOf tile3; rw [hA]; try rfl) t d).trans
    (by unfold Dat.fetched Dat.blockOf tile3; rw [hA]; try rfl)

/-- Input window 1 holds its tile whenever the body runs, fetched at that point or kept from the point before
    (its block index then has not moved), for any proof data over the entry contents that leave the tile in place. -/
theorem found3_1 {c : Dev nD} (dat : Dat τ (Elt F) Unit ℕ (UR sig nD τ) ℕ cfg3 c) (hA : dat.A 1 = V c (Pipeline.arrRef spec3 1))
    (hafter : ∀ t, dat.after 1 t = tile3 V c 1 t) (t : Fin cfg3.N) (d) : dat.before 1 t d = tile3 V c 1 t :=
  (dat.before_in_eq_fetched 1 rfl (fun _ => rfl) (fun _ _ _ => rfl) (fun t => by rw [hafter]; unfold Dat.blockOf tile3; rw [hA]; try rfl) t d).trans
    (by unfold Dat.fetched Dat.blockOf tile3; rw [hA]; try rfl)

/-! ## What the body leaves in the output tile -/

abbrev box3_x : Rect S5000x64 := Rect.unit (s := S5000x64) ![0, 0] S5000x64.size inb_S5000x64_S5000x64_0_0
abbrev box3_p : Rect S64x192 := Rect.unit (s := S64x192) ![0, 0] S64x192.size inb_S64x192_S64x192_0_0
abbrev box3_out : Rect S5000x192 := Rect.unit (s := S5000x192) ![0, 0] S5000x192.size inb_S5000x192_S5000x192_0_0

/-- The output tile after the body: its one store, over the whole tile, of x · [W | item_W] of the input tiles. -/
def left3 (x : Vec F S5000x64 .f32) (p : Vec F S64x192 .f32) : Vec F S5000x192 .f32 :=
  View.canon [⟨box3_out, k3_pay1 (View.ld x box3_x) (View.ld p box3_p)⟩]

/-- The one store covers the output tile. -/
theorem whole3 (p0 : Vec F S5000x192 .f32) (y : S5000x192.Idx) :
    ∃ pc ∈ ([⟨box3_out, p0⟩] : List (View.Piece (Elt F) S5000x192 .f32)), y ∈ pc.1.set :=
  View.cover_of_tiled [⟨box3_out, p0⟩] S5000x192.size (by rfl) y

/-! ## The body's triple -/

set_option maxHeartbeats 1000000 in
/-- The body on whole staging memrefs, the inputs' holding x, p and the output's anything, runs to its end
    with the inputs' as they were and the output's at `left3` of them. -/
theorem body3 (c : Dev nD) (E : Set ℕ) (i : grid3.Coords) (a0 : Memref sig .tc .vmem S5000x64 .f32) (h0 : a0.IsWhole) (a1 : Memref sig .tc .vmem S64x192 .f32) (h1 : a1.IsWhole) (ao : Memref sig .tc .vmem S5000x192 .f32) (ho : ao.IsWhole)
    (x : Vec F S5000x64 .f32) (p : Vec F S64x192 .f32) (Q : PUnit → sProp 𝕄) :
    iprop(owns (c : Thread nD τ) a0 fullShare x ∗ owns (c : Thread nD τ) a1 fullShare p ∗ (∃ o, owns (c : Thread nD τ) ao fullShare o)
        ∗ (iprop(owns (c : Thread nD τ) a0 fullShare x ∗ owns (c : Thread nD τ) a1 fullShare p ∗ owns (c : Thread nD τ) ao fullShare (left3 x p)) -∗ Q ⟨⟩))
      ⊢ wp frame (wpE (defs₀ (F := F)) Variants.none c none) E (cc3__plain_matmul_kernel i a0 h0 a1 h1 ao ho) Q := by
  simp only [cc3__plain_matmul_kernel_eq_skeleton]; unfold cc3__plain_matmul_kernel_skel
  unfold owns
  iintro ⟨⟨%f0, %hf0, H0⟩, ⟨%f1, %hf1, H1⟩, ⟨%o, %fo, -, Ho⟩, Hq⟩
  subst hf0
  subst hf1
  sl_exec
  sl_step
  iapply Hq
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (whole3 _)

/-! ## The proof data -/

/-- The pipeline's proof data on core `c`: the arrays as the region finds them; after the body at point `t` each
    input's buffer still at its tile and the output's at `left3` of the input tiles; the invariant holds what
    the body never touches; nothing is owed; every share is full. -/
def dat3 (c : Dev nD) : Dat τ (Elt F) Unit ℕ (UR sig nD τ) ℕ cfg3 c where
  A w := V c (Pipeline.arrRef spec3 w)
  after w t := match w with
    | ⟨0, _⟩ => tile3 V c 0 t
    | ⟨1, _⟩ => tile3 V c 1 t
    | ⟨2, _⟩ => left3 (tile3 V c 0 t) (tile3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = tile3 V c 0 t := by dsimp only [dat3]
theorem after3_1 (c : Dev nD) (t : Fin cfg3.N) : (dat3 V c).after 1 t = tile3 V c 1 t := by dsimp only [dat3]
theorem after3_2 (c : Dev nD) (t : Fin cfg3.N) : (dat3 V c).after 2 t = left3 (tile3 V c 0 t) (tile3 V c 1 t) := by dsimp only [dat3]

theorem holds3_0 (c : Dev nD) (t : Fin cfg3.N) (d) : (dat3 V c).before 0 t d = tile3 V c 0 t :=
  found3_0 V (dat3 V c) (A_eq3 V c 0) (after3_0 V c) t d
theorem holds3_1 (c : Dev nD) (t : Fin cfg3.N) (d) : (dat3 V c).before 1 t d = tile3 V c 1 t :=
  found3_1 V (dat3 V c) (A_eq3 V c 1) (after3_1 V c) t d

/-! ## The obligation at a point -/

/-- What the pipeline hands the body at point `t`, window by window, -/
def handed3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it takes back. -/
def returned3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- At any point the inputs' memrefs hold their tiles, so the body's triple applies; the invariant and what the core owes
    pass through unread. -/
theorem point3 (c : Dev nD) (t : Fin cfg3.N) :
    handed3 V c t ⊢ wp frame (wpE (defs₀ (F := F)) Variants.none c none) Set.univ (bodyAt3 t) (fun _ => returned3 V c t) := by
  unfold handed3 returned3 bodyAt3
  simp only [holds3_0, holds3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, G0⟩, ⟨%d1, G1⟩, ⟨%d2, G2⟩⟩
  iapply (body3 c Set.univ _ _ _ _ _ _ _ (tile3 V c 0 t) (tile3 V c 1 t) _)
  isplitl [G0]; · iexact G0
  isplitl [G1]; · iexact G1
  isplitl [G2]; · iexists _; iexact G2
  iintro ⟨G0, G1, G2⟩
  isplitl [HΦ]; · iexact HΦ
  isplitl [Ho]; · iexact Ho
  isplitl [G0]; · iexact G0
  isplitl [G1]; · iexact G1
  iexact G2

/-- The pipeline's obligation, at every point. -/
theorem obligation3 (c : Dev nD) : BodyObligation (dat3 (F := F) V c) (defs₀ (F := F)) Variants.none () Set.univ := fun t => by
  rw [bigSep_W3, bigSep_W3]
  exact point3 V c t

end Cert.KernelIdeal.Hand

end
-- ==== Proof.IdealRegion4.lean ====
/-
  Region 4 of the kernel program: the gate projection: a row tile of 5000 users of the user representation times the 128 x 1 gate weights (x · sigmoid_W), 20 grid points.

  At every grid point the body reads its input tiles whole, computes one value and stores it over the whole output
  tile. This module says what each window's staging buffer holds around the body at a point, as a function of the
  arrays the region finds at its entry, proves the body's triple, and discharges the pipeline's obligation at every
  point. Everything is stated at a parameter `V`, the contents of the core's buffers when the region is entered, and
  for any float instance.
-/
import proofs.«166662_j47579647705297_2_alg».proof.Proof.Gen.KernelIdeal.Launch
import proofs.«166662_j47579647705297_2_alg».proof.Proof.Gen.KernelIdeal.Skeleton
import proofs.«166662_j47579647705297_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles -/

/-- The tile of window `w` that grid point `t` works on: the window's block there, cut out of the window's array as
    the region finds it. -/
def tile4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 holds its tile whenever the body runs, fetched at that point or kept from the point before
    (its block index then has not moved), for any proof data over the entry contents that leave the tile in place. -/
theorem found4_0 {c : Dev nD} (dat : Dat τ (Elt F) Unit ℕ (UR sig nD τ) ℕ cfg4 c) (hA : dat.A 0 = V c (Pipeline.arrRef spec4 0))
    (hafter : ∀ t, dat.after 0 t = tile4 V c 0 t) (t : Fin cfg4.N) (d) : dat.before 0 t d = tile4 V c 0 t :=
  (dat.before_in_eq_fetched 0 rfl (fun _ => rfl) (fun _ _ _ => rfl) (fun t => by rw [hafter]; unfold Dat.blockOf tile4; rw [hA]; try rfl) t d).trans
    (by unfold Dat.fetched Dat.blockOf tile4; rw [hA]; try rfl)

/-- Input window 1 holds its tile whenever the body runs, fetched at that point or kept from the point before
    (its block index then has not moved), for any proof data over the entry contents that leave the tile in place. -/
theorem found4_1 {c : Dev nD} (dat : Dat τ (Elt F) Unit ℕ (UR sig nD τ) ℕ cfg4 c) (hA : dat.A 1 = V c (Pipeline.arrRef spec4 1))
    (hafter : ∀ t, dat.after 1 t = tile4 V c 1 t) (t : Fin cfg4.N) (d) : dat.before 1 t d = tile4 V c 1 t :=
  (dat.before_in_eq_fetched 1 rfl (fun _ => rfl) (fun _ _ _ => rfl) (fun t => by rw [hafter]; unfold Dat.blockOf tile4; rw [hA]; try rfl) t d).trans
    (by unfold Dat.fetched Dat.blockOf tile4; rw [hA]; try rfl)

/-! ## What the body leaves in the output tile -/

abbrev box4_x : Rect S5000x128 := Rect.unit (s := S5000x128) ![0, 0] S5000x128.size inb_S5000x128_S5000x128_0_0
abbrev box4_p : Rect S128x1 := Rect.unit (s := S128x1) ![0, 0] S128x1.size inb_S128x1_S128x1_0_0
abbrev box4_out : Rect S5000x1 := Rect.unit (s := S5000x1) ![0, 0] S5000x1.size inb_S5000x1_S5000x1_0_0

/-- The output tile after the body: its one store, over the whole tile, of x · sigmoid_W of the input tiles. -/
def left4 (x : Vec F S5000x128 .f32) (p : Vec F S128x1 .f32) : Vec F S5000x1 .f32 :=
  View.canon [⟨box4_out, k4_pay1 (View.ld x box4_x) (View.ld p box4_p)⟩]

/-- The one store covers the output tile. -/
theorem whole4 (p0 : Vec F S5000x1 .f32) (y : S5000x1.Idx) :
    ∃ pc ∈ ([⟨box4_out, p0⟩] : List (View.Piece (Elt F) S5000x1 .f32)), y ∈ pc.1.set :=
  View.cover_of_tiled [⟨box4_out, p0⟩] S5000x1.size (by rfl) y

/-! ## The body's triple -/

set_option maxHeartbeats 1000000 in
/-- The body on whole staging memrefs, the inputs' holding x, p and the output's anything, runs to its end
    with the inputs' as they were and the output's at `left4` of them. -/
theorem body4 (c : Dev nD) (E : Set ℕ) (i : grid4.Coords) (a0 : Memref sig .tc .vmem S5000x128 .f32) (h0 : a0.IsWhole) (a1 : Memref sig .tc .vmem S128x1 .f32) (h1 : a1.IsWhole) (ao : Memref sig .tc .vmem S5000x1 .f32) (ho : ao.IsWhole)
    (x : Vec F S5000x128 .f32) (p : Vec F S128x1 .f32) (Q : PUnit → sProp 𝕄) :
    iprop(owns (c : Thread nD τ) a0 fullShare x ∗ owns (c : Thread nD τ) a1 fullShare p ∗ (∃ o, owns (c : Thread nD τ) ao fullShare o)
        ∗ (iprop(owns (c : Thread nD τ) a0 fullShare x ∗ owns (c : Thread nD τ) a1 fullShare p ∗ owns (c : Thread nD τ) ao fullShare (left4 x p)) -∗ Q ⟨⟩))
      ⊢ wp frame (wpE (defs₀ (F := F)) Variants.none c none) E (cc4__plain_matmul_kernel i a0 h0 a1 h1 ao ho) Q := by
  simp only [cc4__plain_matmul_kernel_eq_skeleton]; unfold cc4__plain_matmul_kernel_skel
  unfold owns
  iintro ⟨⟨%f0, %hf0, H0⟩, ⟨%f1, %hf1, H1⟩, ⟨%o, %fo, -, Ho⟩, Hq⟩
  subst hf0
  subst hf1
  sl_exec
  sl_step
  iapply Hq
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (whole4 _)

/-! ## The proof data -/

/-- The pipeline's proof data on core `c`: the arrays as the region finds them; after the body at point `t` each
    input's buffer still at its tile and the output's at `left4` of the input tiles; the invariant holds what
    the body never touches; nothing is owed; every share is full. -/
def dat4 (c : Dev nD) : Dat τ (Elt F) Unit ℕ (UR sig nD τ) ℕ cfg4 c where
  A w := V c (Pipeline.arrRef spec4 w)
  after w t := match w with
    | ⟨0, _⟩ => tile4 V c 0 t
    | ⟨1, _⟩ => tile4 V c 1 t
    | ⟨2, _⟩ => left4 (tile4 V c 0 t) (tile4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = tile4 V c 0 t := by dsimp only [dat4]
theorem after4_1 (c : Dev nD) (t : Fin cfg4.N) : (dat4 V c).after 1 t = tile4 V c 1 t := by dsimp only [dat4]
theorem after4_2 (c : Dev nD) (t : Fin cfg4.N) : (dat4 V c).after 2 t = left4 (tile4 V c 0 t) (tile4 V c 1 t) := by dsimp only [dat4]

theorem holds4_0 (c : Dev nD) (t : Fin cfg4.N) (d) : (dat4 V c).before 0 t d = tile4 V c 0 t :=
  found4_0 V (dat4 V c) (A_eq4 V c 0) (after4_0 V c) t d
theorem holds4_1 (c : Dev nD) (t : Fin cfg4.N) (d) : (dat4 V c).before 1 t d = tile4 V c 1 t :=
  found4_1 V (dat4 V c) (A_eq4 V c 1) (after4_1 V c) t d

/-! ## The obligation at a point -/

/-- What the pipeline hands the body at point `t`, window by window, -/
def handed4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it takes back. -/
def returned4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- At any point the inputs' memrefs hold their tiles, so the body's triple applies; the invariant and what the core owes
    pass through unread. -/
theorem point4 (c : Dev nD) (t : Fin cfg4.N) :
    handed4 V c t ⊢ wp frame (wpE (defs₀ (F := F)) Variants.none c none) Set.univ (bodyAt4 t) (fun _ => returned4 V c t) := by
  unfold handed4 returned4 bodyAt4
  simp only [holds4_0, holds4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, G0⟩, ⟨%d1, G1⟩, ⟨%d2, G2⟩⟩
  iapply (body4 c Set.univ _ _ _ _ _ _ _ (tile4 V c 0 t) (tile4 V c 1 t) _)
  isplitl [G0]; · iexact G0
  isplitl [G1]; · iexact G1
  isplitl [G2]; · iexists _; iexact G2
  iintro ⟨G0, G1, G2⟩
  isplitl [HΦ]; · iexact HΦ
  isplitl [Ho]; · iexact Ho
  isplitl [G0]; · iexact G0
  isplitl [G1]; · iexact G1
  iexact G2

/-- The pipeline's obligation, at every point. -/
theorem obligation4 (c : Dev nD) : BodyObligation (dat4 (F := F) V c) (defs₀ (F := F)) Variants.none () Set.univ := fun t => by
  rw [bigSep_W4, bigSep_W4]
  exact point4 V c t

end Cert.KernelIdeal.Hand

end
-- ==== Proof.IdealHost.lean ====
/-
  The six stretches of host operations of the kernel program, between and around its five regions: which buffers
  each stretch writes. Every operation writes exactly one buffer, its result; no operation allocates; so a buffer
  outside a stretch's list — in particular every argument of the program — holds after the stretch what it held
  before it.
-/
import proofs.«166662_j47579647705297_2_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! ## Stretch 0: 65 operations -/

/-- The buffers stretch 0 writes, in order. -/
abbrev wrote0 : List (Ref sig .tc) := [main_v0, main_v1, main_v2, main_v3, main_v4, main_cst, main_v5, main_v6, main_v7, main_v8, main_v9, main_v10, main_c, main_v11, main_v12, main_c_0, main_v13, main_v14, main_v15, main_v16, main_v17, main_v18, main_v19, main_cst_1, main_v20, main_v21, main_v22, main_v23, main_v24, main_c_2, main_v25, main_v26, main_c_3, main_v27, main_v28, main_v29, main_v30, main_v31, main_v32, main_v33, main_cst_4, main_v34, main_v35, main_v36, main_v37, main_v38, main_c_5, main_v39, main_v40, main_c_6, main_v41, main_v42, main_v43, main_v44, main_v45, main_v46, main_v47, main_cst_7, main_v48, main_v49, main_v50, main_v51, main_v52, main_v53, main_v54]

/-- No operation of stretch 0 allocates a buffer. -/
theorem stretch0_fresh : (hostOps0 : List (HloOp τ sig (Elt F))).Forall fun op => op.fresh = ∅ := by
  simp only [List.Forall]; repeat' constructor

set_option maxHeartbeats 40000000 in
/-- Each operation of stretch 0 writes one buffer of the list. -/
theorem stretch0_writes : (hostOps0 : List (HloOp τ sig (Elt F))).Forall fun op => op.writes ⊆ (wrote0.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes,
      StableHlo.reshape_writes, StableHlo.binaryIndexed_writes, StableHlo.nary_writes, StableHlo.unaryIndexed_writes, Finset.singleton_subset_iff, List.mem_toFinset]
    exact List.mem_map_of_mem (by decide)

/-- A buffer stretch 0 does not write holds after it what it held before. -/
theorem kept0 (W : Valuation τ sig (Elt F)) (r : Ref sig .tc) (h : r ∉ wrote0) :
    StableHlo.after hostOps0 W (Proc.devRef .tc r) = W (Proc.devRef .tc r) :=
  StableHlo.after_of_writes_sub hostOps0 _ stretch0_writes h

/-! ## Stretch 1: 134 operations -/

/-- The buffers stretch 1 writes, in order. -/
abbrev wrote1 : List (Ref sig .tc) := [main_v56, main_v57, main_v58, main_v59, main_v60, main_c_8, main_v61, main_v62, main_c_9, main_v63, main_v64, main_v65, main_v66, main_v67, main_v68, main_v69, main_cst_10, main_v70, main_v71, main_v72, main_v73, main_v74, main_c_11, main_v75, main_v76, main_c_12, main_v77, main_v78, main_v79, main_v80, main_v81, main_v82, main_v83, main_cst_13, main_v84, main_v85, main_v86, main_v87, main_v88, main_c_14, main_v89, main_v90, main_c_15, main_v91, main_v92, main_v93, main_v94, main_v95, main_v96, main_v97, main_cst_16, main_v98, main_v99, main_v100, main_v101, main_v102, main_v103, main_v104, main_v105, main_v106, main_v107, main_v108, main_c_17, main_v109, main_v110, main_c_18, main_v111, main_v112, main_v113, main_v114, main_v115, main_v116, main_v117, main_cst_19, main_v118, main_v119, main_v120, main_v121, main_v122, main_v123, main_v124, main_c_20, main_v125, main_v126, main_c_21, main_v127, main_v128, main_v129, main_v130, main_v131, main_v132, main_v133, main_cst_22, main_v134, main_v135, main_v136, main_v137, main_v138, main_v139, main_v140, main_c_23, main_v141, main_v142, main_c_24, main_v143, main_v144, main_v145, main_v146, main_v147, main_v148, main_v149, main_cst_25, main_v150, main_v151, main_v152, main_v153, main_v154, main_v155, main_v156, main_v157, main_v158, main_cst_26, main_v159, main_v160, main_v161, main_v162, main_v163, main_v164, main_v165, main_v166, main_v167, main_v168, main_cst_27, main_v169]

/-- No operation of stretch 1 allocates a buffer. -/
theorem stretch1_fresh : (hostOps1 : List (HloOp τ sig (Elt F))).Forall fun op => op.fresh = ∅ := by
  simp only [List.Forall]; repeat' constructor

set_option maxHeartbeats 40000000 in
/-- Each operation of stretch 1 writes one buffer of the list. -/
theorem stretch1_writes : (hostOps1 : List (HloOp τ sig (Elt F))).Forall fun op => op.writes ⊆ (wrote1.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes,
      StableHlo.reshape_writes, StableHlo.binaryIndexed_writes, StableHlo.nary_writes, StableHlo.unaryIndexed_writes, Finset.singleton_subset_iff, List.mem_toFinset]
    exact List.mem_map_of_mem (by decide)

/-- A buffer stretch 1 does not write holds after it what it held before. -/
theorem kept1 (W : Valuation τ sig (Elt F)) (r : Ref sig .tc) (h : r ∉ wrote1) :
    StableHlo.after hostOps1 W (Proc.devRef .tc r) = W (Proc.devRef .tc r) :=
  StableHlo.after_of_writes_sub hostOps1 _ stretch1_writes h

/-! ## Stretch 2: 43 operations -/

/-- The buffers stretch 2 writes, in order. -/
abbrev wrote2 : List (Ref sig .tc) := [main_c_28, main_v171, main_v172, main_c_29, main_v173, main_v174, main_v175, main_v176, main_v177, main_v178, main_c_30, main_v179, main_v180, main_c_31, main_v181, main_v182, main_v183, main_v184, main_v185, main_v186, main_v187, main_v188, main_cst_32, main_v189, main_cst_33, main_v190, main_cst_34, main_v191, main_v192, main_c_35, main_v193, main_v194, main_c_36, main_v195, main_v196, main_v197, main_v198, main_v199, main_cst_37, main_v200, main_v201, main_v202, main_v203]

/-- No operation of stretch 2 allocates a buffer. -/
theorem stretch2_fresh : (hostOps2 : List (HloOp τ sig (Elt F))).Forall fun op => op.fresh = ∅ := by
  simp only [List.Forall]; repeat' constructor

set_option maxHeartbeats 40000000 in
/-- Each operation of stretch 2 writes one buffer of the list. -/
theorem stretch2_writes : (hostOps2 : List (HloOp τ sig (Elt F))).Forall fun op => op.writes ⊆ (wrote2.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes,
      StableHlo.reshape_writes, StableHlo.binaryIndexed_writes, StableHlo.nary_writes, StableHlo.unaryIndexed_writes, Finset.singleton_subset_iff, List.mem_toFinset]
    exact List.mem_map_of_mem (by decide)

/-- A buffer stretch 2 does not write holds after it what it held before. -/
theorem kept2 (W : Valuation τ sig (Elt F)) (r : Ref sig .tc) (h : r ∉ wrote2) :
    StableHlo.after hostOps2 W (Proc.devRef .tc r) = W (Proc.devRef .tc r) :=
  StableHlo.after_of_writes_sub hostOps2 _ stretch2_writes h

/-! ## Stretch 3: 5 operations -/

/-- The buffers stretch 3 writes, in order. -/
abbrev wrote3 : List (Ref sig .tc) := [main_v205, main_v206, main_v207, main_v208, main_v209]

/-- No operation of stretch 3 allocates a buffer. -/
theorem stretch3_fresh : (hostOps3 : List (HloOp τ sig (Elt F))).Forall fun op => op.fresh = ∅ := by
  simp only [List.Forall]; repeat' constructor

set_option maxHeartbeats 40000000 in
/-- Each operation of stretch 3 writes one buffer of the list. -/
theorem stretch3_writes : (hostOps3 : List (HloOp τ sig (Elt F))).Forall fun op => op.writes ⊆ (wrote3.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes,
      StableHlo.reshape_writes, StableHlo.binaryIndexed_writes, StableHlo.nary_writes, StableHlo.unaryIndexed_writes, Finset.singleton_subset_iff, List.mem_toFinset]
    exact List.mem_map_of_mem (by decide)

/-- A buffer stretch 3 does not write holds after it what it held before. -/
theorem kept3 (W : Valuation τ sig (Elt F)) (r : Ref sig .tc) (h : r ∉ wrote3) :
    StableHlo.after hostOps3 W (Proc.devRef .tc r) = W (Proc.devRef .tc r) :=
  StableHlo.after_of_writes_sub hostOps3 _ stretch3_writes h

/-! ## Stretch 4: 27 operations -/

/-- The buffers stretch 4 writes, in order. -/
abbrev wrote4 : List (Ref sig .tc) := [main_v211, main_v212, main_v213, main_v214, main_c_38, main_v215, main_v216, main_c_39, main_v217, main_v218, main_v219, main_v220, main_v221, main_v222, main_v223, main_c_40, main_v224, main_v225, main_c_41, main_v226, main_v227, main_v228, main_v229, main_v230, main_v231, main_cst_42, main_v232]

/-- No operation of stretch 4 allocates a buffer. -/
theorem stretch4_fresh : (hostOps4 : List (HloOp τ sig (Elt F))).Forall fun op => op.fresh = ∅ := by
  simp only [List.Forall]; repeat' constructor

set_option maxHeartbeats 40000000 in
/-- Each operation of stretch 4 writes one buffer of the list. -/
theorem stretch4_writes : (hostOps4 : List (HloOp τ sig (Elt F))).Forall fun op => op.writes ⊆ (wrote4.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes,
      StableHlo.reshape_writes, StableHlo.binaryIndexed_writes, StableHlo.nary_writes, StableHlo.unaryIndexed_writes, Finset.singleton_subset_iff, List.mem_toFinset]
    exact List.mem_map_of_mem (by decide)

/-- A buffer stretch 4 does not write holds after it what it held before. -/
theorem kept4 (W : Valuation τ sig (Elt F)) (r : Ref sig .tc) (h : r ∉ wrote4) :
    StableHlo.after hostOps4 W (Proc.devRef .tc r) = W (Proc.devRef .tc r) :=
  StableHlo.after_of_writes_sub hostOps4 _ stretch4_writes h

/-! ## Stretch 5: 34 operations -/

/-- The buffers stretch 5 writes, in order. -/
abbrev wrote5 : List (Ref sig .tc) := [main_c_43, main_v234, main_v235, main_c_44, main_v236, main_v237, main_v238, main_v239, main_v240, main_v241, main_v242, main_cst_45, main_v243, main_v244, main_cst_46, main_v245, main_v246, main_v247, main_v248, main_cst_47, main_v249, main_v250, main_v251, main_v252, main_v253, main_v254, main_cst_48, main_v255, main_v256, main_cst_49, main_v257, main_v258, main_cst_50, main_v259]

/-- No operation of stretch 5 allocates a buffer. -/
theorem stretch5_fresh : (hostOps5 : List (HloOp τ sig (Elt F))).Forall fun op => op.fresh = ∅ := by
  simp only [List.Forall]; repeat' constructor

set_option maxHeartbeats 40000000 in
/-- Each operation of stretch 5 writes one buffer of the list. -/
theorem stretch5_writes : (hostOps5 : List (HloOp τ sig (Elt F))).Forall fun op => op.writes ⊆ (wrote5.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes,
      StableHlo.reshape_writes, StableHlo.binaryIndexed_writes, StableHlo.nary_writes, StableHlo.unaryIndexed_writes, Finset.singleton_subset_iff, List.mem_toFinset]
    exact List.mem_map_of_mem (by decide)

/-- A buffer stretch 5 does not write holds after it what it held before. -/
theorem kept5 (W : Valuation τ sig (Elt F)) (r : Ref sig .tc) (h : r ∉ wrote5) :
    StableHlo.after hostOps5 W (Proc.devRef .tc r) = W (Proc.devRef .tc r) :=
  StableHlo.after_of_writes_sub hostOps5 _ stretch5_writes h

end Cert.KernelIdeal.Hand

end
-- ==== Proof.IdealRun.lean ====
/-
  The run of the kernel program: six stretches of host operations around five accelerator regions, as eleven
  segments between twelve thread states. Between two segments a core holds every unscoped buffer whole at that
  boundary's contents — the launch memory, then each stretch's operations applied, then after a region its output array
  at what the tiles' write-backs leave and everything else as entered —, beside its generator register and what it
  owes, which is nothing throughout. Every argument of the program is written by no stretch and is at most an input
  window of a region, so it reaches the end as launched; the two results are read off the last boundary.
-/
import proofs.«166662_j47579647705297_2_alg».proof.Proof.IdealRegion0
import proofs.«166662_j47579647705297_2_alg».proof.Proof.IdealRegion1
import proofs.«166662_j47579647705297_2_alg».proof.Proof.IdealRegion2
import proofs.«166662_j47579647705297_2_alg».proof.Proof.IdealRegion3
import proofs.«166662_j47579647705297_2_alg».proof.Proof.IdealRegion4
import proofs.«166662_j47579647705297_2_alg».proof.Proof.IdealHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the twelve boundaries -/

/-- Core `c`'s buffers at launch. -/
abbrev at0 : Dev nD → Valuation τ sig (Elt F) := fun c b => (s₀ m ρ).mem ((c : Dev nD), b)

/-- After stretch 0: what region 0 is entered from. -/
abbrev at1 : Dev nD → Valuation τ sig (Elt F) := fun c => StableHlo.after hostOps0 (at0 m ρ c)
/-- The same, read at the core's references: the entry contents region 0's proof data are stated at. -/
abbrev in0 : (c : Dev nD) → (b : Ref sig .tc) → Buf (Elt F) ((c : Thread nD τ).loc b) := fun c b => at1 m ρ c b
/-- After region 0: its windows' arrays at what the pipeline leaves (an input as entered, the output at its tiles'
    write-backs), every other buffer as entered. -/
def at2 (c : Dev nD) : Valuation τ sig (Elt F) :=
  Pipeline.withArrays spec0 c (at1 m ρ c) fun w => (dat0 (in0 m ρ) c).arrAt w cfg0.N
theorem at2_arr (c : Dev nD) (w : Fin cfg0.W) :
    at2 m ρ c (Proc.devRef .tc (Pipeline.arrRef spec0 w)) = (dat0 (in0 m ρ) c).arrAt w cfg0.N := by
  unfold at2; exact Pipeline.withArrays_arr spec0 launch0.win.arr_inj c _ _ w
theorem at2_else (c : Dev nD) (b : Ref sig .tc) (hb : ∀ w, Pipeline.arrRef spec0 w ≠ b) :
    at2 m ρ c (Proc.devRef .tc b) = at1 m ρ c (Proc.devRef .tc b) := by
  unfold at2; exact Pipeline.withArrays_of_ne spec0 c _ _ b hb
/-- The same, read at the core's references. -/
abbrev out0 : (c : Dev nD) → (b : Ref sig .tc) → Buf (Elt F) ((c : Thread nD τ).loc b) := fun c b => at2 m ρ c b
theorem filled0 (c : Dev nD) (w : Fin cfg0.W) : (dat0 (in0 m ρ) c).arrAt w cfg0.N = out0 m ρ c (Pipeline.arrRef spec0 w) :=
  (at2_arr m ρ c w).symm
theorem others0 (c : Dev nD) : ∀ b, b ∉ Finset.univ.image (Pipeline.arrRef spec0) → out0 m ρ c b = in0 m ρ c b :=
  fun b hb => at2_else m ρ c b fun w e => hb (Finset.mem_image.mpr ⟨w, Finset.mem_univ _, e⟩)

/-- After stretch 1: what region 1 is entered from. -/
abbrev at3 : Dev nD → Valuation τ sig (Elt F) := fun c => StableHlo.after hostOps1 (at2 m ρ c)
/-- The same, read at the core's references: the entry contents region 1's proof data are stated at. -/
abbrev in1 : (c : Dev nD) → (b : Ref sig .tc) → Buf (Elt F) ((c : Thread nD τ).loc b) := fun c b => at3 m ρ c b
/-- After region 1: its windows' arrays at what the pipeline leaves (an input as entered, the output at its tiles'
    write-backs), every other buffer as entered. -/
def at4 (c : Dev nD) : Valuation τ sig (Elt F) :=
  Pipeline.withArrays spec1 c (at3 m ρ c) fun w => (dat1 (in1 m ρ) c).arrAt w cfg1.N
theorem at4_arr (c : Dev nD) (w : Fin cfg1.W) :
    at4 m ρ c (Proc.devRef .tc (Pipeline.arrRef spec1 w)) = (dat1 (in1 m ρ) c).arrAt w cfg1.N := by
  unfold at4; exact Pipeline.withArrays_arr spec1 launch1.win.arr_inj c _ _ w
theorem at4_else (c : Dev nD) (b : Ref sig .tc) (hb : ∀ w, Pipeline.arrRef spec1 w ≠ b) :
    at4 m ρ c (Proc.devRef .tc b) = at3 m ρ c (Proc.devRef .tc b) := by
  unfold at4; exact Pipeline.withArrays_of_ne spec1 c _ _ b hb
/-- The same, read at the core's references. -/
abbrev out1 : (c : Dev nD) → (b : Ref sig .tc) → Buf (Elt F) ((c : Thread nD τ).loc b) := fun c b => at4 m ρ c b
theorem filled1 (c : Dev nD) (w : Fin cfg1.W) : (dat1 (in1 m ρ) c).arrAt w cfg1.N = out1 m ρ c (Pipeline.arrRef spec1 w) :=
  (at4_arr m ρ c w).symm
theorem others1 (c : Dev nD) : ∀ b, b ∉ Finset.univ.image (Pipeline.arrRef spec1) → out1 m ρ c b = in1 m ρ c b :=
  fun b hb => at4_else m ρ c b fun w e => hb (Finset.mem_image.mpr ⟨w, Finset.mem_univ _, e⟩)

/-- After stretch 2: what region 2 is entered from. -/
abbrev at5 : Dev nD → Valuation τ sig (Elt F) := fun c => StableHlo.after hostOps2 (at4 m ρ c)
/-- The same, read at the core's references: the entry contents region 2's proof data are stated at. -/
abbrev in2 : (c : Dev nD) → (b : Ref sig .tc) → Buf (Elt F) ((c : Thread nD τ).loc b) := fun c b => at5 m ρ c b
/-- After region 2: its windows' arrays at what the pipeline leaves (an input as entered, the output at its tiles'
    write-backs), every other buffer as entered. -/
def at6 (c : Dev nD) : Valuation τ sig (Elt F) :=
  Pipeline.withArrays spec2 c (at5 m ρ c) fun w => (dat2 (in2 m ρ) c).arrAt w cfg2.N
theorem at6_arr (c : Dev nD) (w : Fin cfg2.W) :
    at6 m ρ c (Proc.devRef .tc (Pipeline.arrRef spec2 w)) = (dat2 (in2 m ρ) c).arrAt w cfg2.N := by
  unfold at6; exact Pipeline.withArrays_arr spec2 launch2.win.arr_inj c _ _ w
theorem at6_else (c : Dev nD) (b : Ref sig .tc) (hb : ∀ w, Pipeline.arrRef spec2 w ≠ b) :
    at6 m ρ c (Proc.devRef .tc b) = at5 m ρ c (Proc.devRef .tc b) := by
  unfold at6; exact Pipeline.withArrays_of_ne spec2 c _ _ b hb
/-- The same, read at the core's references. -/
abbrev out2 : (c : Dev nD) → (b : Ref sig .tc) → Buf (Elt F) ((c : Thread nD τ).loc b) := fun c b => at6 m ρ c b
theorem filled2 (c : Dev nD) (w : Fin cfg2.W) : (dat2 (in2 m ρ) c).arrAt w cfg2.N = out2 m ρ c (Pipeline.arrRef spec2 w) :=
  (at6_arr m ρ c w).symm
theorem others2 (c : Dev nD) : ∀ b, b ∉ Finset.univ.image (Pipeline.arrRef spec2) → out2 m ρ c b = in2 m ρ c b :=
  fun b hb => at6_else m ρ c b fun w e => hb (Finset.mem_image.mpr ⟨w, Finset.mem_univ _, e⟩)

/-- After stretch 3: what region 3 is entered from. -/
abbrev at7 : Dev nD → Valuation τ sig (Elt F) := fun c => StableHlo.after hostOps3 (at6 m ρ c)
/-- The same, read at the core's references: the entry contents region 3's proof data are stated at. -/
abbrev in3 : (c : Dev nD) → (b : Ref sig .tc) → Buf (Elt F) ((c : Thread nD τ).loc b) := fun c b => at7 m ρ c b
/-- After region 3: its windows' arrays at what the pipeline leaves (an input as entered, the output at its tiles'
    write-backs), every other buffer as entered. -/
def at8 (c : Dev nD) : Valuation τ sig (Elt F) :=
  Pipeline.withArrays spec3 c (at7 m ρ c) fun w => (dat3 (in3 m ρ) c).arrAt w cfg3.N
theorem at8_arr (c : Dev nD) (w : Fin cfg3.W) :
    at8 m ρ c (Proc.devRef .tc (Pipeline.arrRef spec3 w)) = (dat3 (in3 m ρ) c).arrAt w cfg3.N := by
  unfold at8; exact Pipeline.withArrays_arr spec3 launch3.win.arr_inj c _ _ w
theorem at8_else (c : Dev nD) (b : Ref sig .tc) (hb : ∀ w, Pipeline.arrRef spec3 w ≠ b) :
    at8 m ρ c (Proc.devRef .tc b) = at7 m ρ c (Proc.devRef .tc b) := by
  unfold at8; exact Pipeline.withArrays_of_ne spec3 c _ _ b hb
/-- The same, read at the core's references. -/
abbrev out3 : (c : Dev nD) → (b : Ref sig .tc) → Buf (Elt F) ((c : Thread nD τ).loc b) := fun c b => at8 m ρ c b
theorem filled3 (c : Dev nD) (w : Fin cfg3.W) : (dat3 (in3 m ρ) c).arrAt w cfg3.N = out3 m ρ c (Pipeline.arrRef spec3 w) :=
  (at8_arr m ρ c w).symm
theorem others3 (c : Dev nD) : ∀ b, b ∉ Finset.univ.image (Pipeline.arrRef spec3) → out3 m ρ c b = in3 m ρ c b :=
  fun b hb => at8_else m ρ c b fun w e => hb (Finset.mem_image.mpr ⟨w, Finset.mem_univ _, e⟩)

/-- After stretch 4: what region 4 is entered from. -/
abbrev at9 : Dev nD → Valuation τ sig (Elt F) := fun c => StableHlo.after hostOps4 (at8 m ρ c)
/-- The same, read at the core's references: the entry contents region 4's proof data are stated at. -/
abbrev in4 : (c : Dev nD) → (b : Ref sig .tc) → Buf (Elt F) ((c : Thread nD τ).loc b) := fun c b => at9 m ρ c b
/-- After region 4: its windows' arrays at what the pipeline leaves (an input as entered, the output at its tiles'
    write-backs), every other buffer as entered. -/
def at10 (c : Dev nD) : Valuation τ sig (Elt F) :=
  Pipeline.withArrays spec4 c (at9 m ρ c) fun w => (dat4 (in4 m ρ) c).arrAt w cfg4.N
theorem at10_arr (c : Dev nD) (w : Fin cfg4.W) :
    at10 m ρ c (Proc.devRef .tc (Pipeline.arrRef spec4 w)) = (dat4 (in4 m ρ) c).arrAt w cfg4.N := by
  unfold at10; exact Pipeline.withArrays_arr spec4 launch4.win.arr_inj c _ _ w
theorem at10_else (c : Dev nD) (b : Ref sig .tc) (hb : ∀ w, Pipeline.arrRef spec4 w ≠ b) :
    at10 m ρ c (Proc.devRef .tc b) = at9 m ρ c (Proc.devRef .tc b) := by
  unfold at10; exact Pipeline.withArrays_of_ne spec4 c _ _ b hb
/-- The same, read at the core's references. -/
abbrev out4 : (c : Dev nD) → (b : Ref sig .tc) → Buf (Elt F) ((c : Thread nD τ).loc b) := fun c b => at10 m ρ c b
theorem filled4 (c : Dev nD) (w : Fin cfg4.W) : (dat4 (in4 m ρ) c).arrAt w cfg4.N = out4 m ρ c (Pipeline.arrRef spec4 w) :=
  (at10_arr m ρ c w).symm
theorem others4 (c : Dev nD) : ∀ b, b ∉ Finset.univ.image (Pipeline.arrRef spec4) → out4 m ρ c b = in4 m ρ c b :=
  fun b hb => at10_else m ρ c b fun w e => hb (Finset.mem_image.mpr ⟨w, Finset.mem_univ _, e⟩)

/-- After stretch 5: the end of the program. -/
abbrev at11 : Dev nD → Valuation τ sig (Elt F) := fun c => StableHlo.after hostOps5 (at10 m ρ c)

/-! ## Every argument reaches the end as launched -/

theorem at11_main_arg0 (c : Dev nD) : at11 m ρ c (Proc.devRef .tc main_arg0) = m ((c : Thread nD τ).loc main_arg0) :=
  calc at11 m ρ c (Proc.devRef .tc main_arg0)
    _ = at10 m ρ c (Proc.devRef .tc main_arg0) := kept5 _ main_arg0 (by decide)
    _ = at9 m ρ c (Proc.devRef .tc main_arg0) := at10_else m ρ c main_arg0 (by decide)
    _ = at8 m ρ c (Proc.devRef .tc main_arg0) := kept4 _ main_arg0 (by decide)
    _ = at7 m ρ c (Proc.devRef .tc main_arg0) := at8_else m ρ c main_arg0 (by decide)
    _ = at6 m ρ c (Proc.devRef .tc main_arg0) := kept3 _ main_arg0 (by decide)
    _ = at5 m ρ c (Proc.devRef .tc main_arg0) := at6_else m ρ c main_arg0 (by decide)
    _ = at4 m ρ c (Proc.devRef .tc main_arg0) := kept2 _ main_arg0 (by decide)
    _ = at3 m ρ c (Proc.devRef .tc main_arg0) := at4_else m ρ c main_arg0 (by decide)
    _ = at2 m ρ c (Proc.devRef .tc main_arg0) := kept1 _ main_arg0 (by decide)
    _ = at1 m ρ c (Proc.devRef .tc main_arg0) := at2_else m ρ c main_arg0 (by decide)
    _ = at0 m ρ c (Proc.devRef .tc main_arg0) := kept0 _ main_arg0 (by decide)
    _ = m ((c : Thread nD τ).loc main_arg0) := rfl
theorem at11_main_arg1 (c : Dev nD) : at11 m ρ c (Proc.devRef .tc main_arg1) = m ((c : Thread nD τ).loc main_arg1) :=
  calc at11 m ρ c (Proc.devRef .tc main_arg1)
    _ = at10 m ρ c (Proc.devRef .tc main_arg1) := kept5 _ main_arg1 (by decide)
    _ = at9 m ρ c (Proc.devRef .tc main_arg1) := at10_else m ρ c main_arg1 (by decide)
    _ = at8 m ρ c (Proc.devRef .tc main_arg1) := kept4 _ main_arg1 (by decide)
    _ = at7 m ρ c (Proc.devRef .tc main_arg1) := at8_else m ρ c main_arg1 (by decide)
    _ = at6 m ρ c (Proc.devRef .tc main_arg1) := kept3 _ main_arg1 (by decide)
    _ = at5 m ρ c (Proc.devRef .tc main_arg1) := at6_else m ρ c main_arg1 (by decide)
    _ = at4 m ρ c (Proc.devRef .tc main_arg1) := kept2 _ main_arg1 (by decide)
    _ = at3 m ρ c (Proc.devRef .tc main_arg1) := at4_else m ρ c main_arg1 (by decide)
    _ = at2 m ρ c (Proc.devRef .tc main_arg1) := kept1 _ main_arg1 (by decide)
    _ = at1 m ρ c (Proc.devRef .tc main_arg1) := at2_else m ρ c main_arg1 (by decide)
    _ = at0 m ρ c (Proc.devRef .tc main_arg1) := kept0 _ main_arg1 (by decide)
    _ = m ((c : Thread nD τ).loc main_arg1) := rfl
theorem at11_main_arg2 (c : Dev nD) : at11 m ρ c (Proc.devRef .tc main_arg2) = m ((c : Thread nD τ).loc main_arg2) :=
  calc at11 m ρ c (Proc.devRef .tc main_arg2)
    _ = at10 m ρ c (Proc.devRef .tc main_arg2) := kept5 _ main_arg2 (by decide)
    _ = at9 m ρ c (Proc.devRef .tc main_arg2) := at10_else m ρ c main_arg2 (by decide)
    _ = at8 m ρ c (Proc.devRef .tc main_arg2) := kept4 _ main_arg2 (by decide)
    _ = at7 m ρ c (Proc.devRef .tc main_arg2) := at8_else m ρ c main_arg2 (by decide)
    _ = at6 m ρ c (Proc.devRef .tc main_arg2) := kept3 _ main_arg2 (by decide)
    _ = at5 m ρ c (Proc.devRef .tc main_arg2) := at6_else m ρ c main_arg2 (by decide)
    _ = at4 m ρ c (Proc.devRef .tc main_arg2) := kept2 _ main_arg2 (by decide)
    _ = at3 m ρ c (Proc.devRef .tc main_arg2) := at4_else m ρ c main_arg2 (by decide)
    _ = at2 m ρ c (Proc.devRef .tc main_arg2) := kept1 _ main_arg2 (by decide)
    _ = at1 m ρ c (Proc.devRef .tc main_arg2) := at2_else m ρ c main_arg2 (by decide)
    _ = at0 m ρ c (Proc.devRef .tc main_arg2) := kept0 _ main_arg2 (by decide)
    _ = m ((c : Thread nD τ).loc main_arg2) := rfl
theorem at11_main_arg3 (c : Dev nD) : at11 m ρ c (Proc.devRef .tc main_arg3) = m ((c : Thread nD τ).loc main_arg3) :=
  calc at11 m ρ c (Proc.devRef .tc main_arg3)
    _ = at10 m ρ c (Proc.devRef .tc main_arg3) := kept5 _ main_arg3 (by decide)
    _ = at9 m ρ c (Proc.devRef .tc main_arg3) := at10_else m ρ c main_arg3 (by decide)
    _ = at8 m ρ c (Proc.devRef .tc main_arg3) := kept4 _ main_arg3 (by decide)
    _ = at7 m ρ c (Proc.devRef .tc main_arg3) := at8_else m ρ c main_arg3 (by decide)
    _ = at6 m ρ c (Proc.devRef .tc main_arg3) := kept3 _ main_arg3 (by decide)
    _ = at5 m ρ c (Proc.devRef .tc main_arg3) := at6_else m ρ c main_arg3 (by decide)
    _ = at4 m ρ c (Proc.devRef .tc main_arg3) := kept2 _ main_arg3 (by decide)
    _ = at3 m ρ c (Proc.devRef .tc main_arg3) := at4_else m ρ c main_arg3 (by decide)
    _ = at2 m ρ c (Proc.devRef .tc main_arg3) := kept1 _ main_arg3 (by decide)
    _ = at1 m ρ c (Proc.devRef .tc main_arg3) := at2_else m ρ c main_arg3 (by decide)
    _ = at0 m ρ c (Proc.devRef .tc main_arg3) := kept0 _ main_arg3 (by decide)
    _ = m ((c : Thread nD τ).loc main_arg3) := rfl
theorem at11_main_arg4 (c : Dev nD) : at11 m ρ c (Proc.devRef .tc main_arg4) = m ((c : Thread nD τ).loc main_arg4) :=
  calc at11 m ρ c (Proc.devRef .tc main_arg4)
    _ = at10 m ρ c (Proc.devRef .tc main_arg4) := kept5 _ main_arg4 (by decide)
    _ = at9 m ρ c (Proc.devRef .tc main_arg4) := at10_else m ρ c main_arg4 (by decide)
    _ = at8 m ρ c (Proc.devRef .tc main_arg4) := kept4 _ main_arg4 (by decide)
    _ = at7 m ρ c (Proc.devRef .tc main_arg4) := at8_else m ρ c main_arg4 (by decide)
    _ = at6 m ρ c (Proc.devRef .tc main_arg4) := kept3 _ main_arg4 (by decide)
    _ = at5 m ρ c (Proc.devRef .tc main_arg4) := at6_else m ρ c main_arg4 (by decide)
    _ = at4 m ρ c (Proc.devRef .tc main_arg4) := kept2 _ main_arg4 (by decide)
    _ = at3 m ρ c (Proc.devRef .tc main_arg4) := at4_else m ρ c main_arg4 (by decide)
    _ = at2 m ρ c (Proc.devRef .tc main_arg4) := kept1 _ main_arg4 (by decide)
    _ = at1 m ρ c (Proc.devRef .tc main_arg4) := (at2_arr m ρ c 1).trans (((dat0 (in0 m ρ) c).arrAt_in 1 rfl _).trans (A_eq0 (in0 m ρ) c 1))
    _ = at0 m ρ c (Proc.devRef .tc main_arg4) := kept0 _ main_arg4 (by decide)
    _ = m ((c : Thread nD τ).loc main_arg4) := rfl
theorem at11_main_arg5 (c : Dev nD) : at11 m ρ c (Proc.devRef .tc main_arg5) = m ((c : Thread nD τ).loc main_arg5) :=
  calc at11 m ρ c (Proc.devRef .tc main_arg5)
    _ = at10 m ρ c (Proc.devRef .tc main_arg5) := kept5 _ main_arg5 (by decide)
    _ = at9 m ρ c (Proc.devRef .tc main_arg5) := at10_else m ρ c main_arg5 (by decide)
    _ = at8 m ρ c (Proc.devRef .tc main_arg5) := kept4 _ main_arg5 (by decide)
    _ = at7 m ρ c (Proc.devRef .tc main_arg5) := at8_else m ρ c main_arg5 (by decide)
    _ = at6 m ρ c (Proc.devRef .tc main_arg5) := kept3 _ main_arg5 (by decide)
    _ = at5 m ρ c (Proc.devRef .tc main_arg5) := at6_else m ρ c main_arg5 (by decide)
    _ = at4 m ρ c (Proc.devRef .tc main_arg5) := kept2 _ main_arg5 (by decide)
    _ = at3 m ρ c (Proc.devRef .tc main_arg5) := (at4_arr m ρ c 1).trans (((dat1 (in1 m ρ) c).arrAt_in 1 rfl _).trans (A_eq1 (in1 m ρ) c 1))
    _ = at2 m ρ c (Proc.devRef .tc main_arg5) := kept1 _ main_arg5 (by decide)
    _ = at1 m ρ c (Proc.devRef .tc main_arg5) := at2_else m ρ c main_arg5 (by decide)
    _ = at0 m ρ c (Proc.devRef .tc main_arg5) := kept0 _ main_arg5 (by decide)
    _ = m ((c : Thread nD τ).loc main_arg5) := rfl
theorem at11_main_arg6 (c : Dev nD) : at11 m ρ c (Proc.devRef .tc main_arg6) = m ((c : Thread nD τ).loc main_arg6) :=
  calc at11 m ρ c (Proc.devRef .tc main_arg6)
    _ = at10 m ρ c (Proc.devRef .tc main_arg6) := kept5 _ main_arg6 (by decide)
    _ = at9 m ρ c (Proc.devRef .tc main_arg6) := at10_else m ρ c main_arg6 (by decide)
    _ = at8 m ρ c (Proc.devRef .tc main_arg6) := kept4 _ main_arg6 (by decide)
    _ = at7 m ρ c (Proc.devRef .tc main_arg6) := at8_else m ρ c main_arg6 (by decide)
    _ = at6 m ρ c (Proc.devRef .tc main_arg6) := kept3 _ main_arg6 (by decide)
    _ = at5 m ρ c (Proc.devRef .tc main_arg6) := at6_else m ρ c main_arg6 (by decide)
    _ = at4 m ρ c (Proc.devRef .tc main_arg6) := kept2 _ main_arg6 (by decide)
    _ = at3 m ρ c (Proc.devRef .tc main_arg6) := at4_else m ρ c main_arg6 (by decide)
    _ = at2 m ρ c (Proc.devRef .tc main_arg6) := kept1 _ main_arg6 (by decide)
    _ = at1 m ρ c (Proc.devRef .tc main_arg6) := (at2_arr m ρ c 2).trans (((dat0 (in0 m ρ) c).arrAt_in 2 rfl _).trans (A_eq0 (in0 m ρ) c 2))
    _ = at0 m ρ c (Proc.devRef .tc main_arg6) := kept0 _ main_arg6 (by decide)
    _ = m ((c : Thread nD τ).loc main_arg6) := rfl
theorem at11_main_arg7 (c : Dev nD) : at11 m ρ c (Proc.devRef .tc main_arg7) = m ((c : Thread nD τ).loc main_arg7) :=
  calc at11 m ρ c (Proc.devRef .tc main_arg7)
    _ = at10 m ρ c (Proc.devRef .tc main_arg7) := kept5 _ main_arg7 (by decide)
    _ = at9 m ρ c (Proc.devRef .tc main_arg7) := at10_else m ρ c main_arg7 (by decide)
    _ = at8 m ρ c (Proc.devRef .tc main_arg7) := kept4 _ main_arg7 (by decide)
    _ = at7 m ρ c (Proc.devRef .tc main_arg7) := at8_else m ρ c main_arg7 (by decide)
    _ = at6 m ρ c (Proc.devRef .tc main_arg7) := kept3 _ main_arg7 (by decide)
    _ = at5 m ρ c (Proc.devRef .tc main_arg7) := at6_else m ρ c main_arg7 (by decide)
    _ = at4 m ρ c (Proc.devRef .tc main_arg7) := kept2 _ main_arg7 (by decide)
    _ = at3 m ρ c (Proc.devRef .tc main_arg7) := at4_else m ρ c main_arg7 (by decide)
    _ = at2 m ρ c (Proc.devRef .tc main_arg7) := kept1 _ main_arg7 (by decide)
    _ = at1 m ρ c (Proc.devRef .tc main_arg7) := at2_else m ρ c main_arg7 (by decide)
    _ = at0 m ρ c (Proc.devRef .tc main_arg7) := kept0 _ main_arg7 (by decide)
    _ = m ((c : Thread nD τ).loc main_arg7) := rfl
theorem at11_main_arg8 (c : Dev nD) : at11 m ρ c (Proc.devRef .tc main_arg8) = m ((c : Thread nD τ).loc main_arg8) :=
  calc at11 m ρ c (Proc.devRef .tc main_arg8)
    _ = at10 m ρ c (Proc.devRef .tc main_arg8) := kept5 _ main_arg8 (by decide)
    _ = at9 m ρ c (Proc.devRef .tc main_arg8) := at10_else m ρ c main_arg8 (by decide)
    _ = at8 m ρ c (Proc.devRef .tc main_arg8) := kept4 _ main_arg8 (by decide)
    _ = at7 m ρ c (Proc.devRef .tc main_arg8) := at8_else m ρ c main_arg8 (by decide)
    _ = at6 m ρ c (Proc.devRef .tc main_arg8) := kept3 _ main_arg8 (by decide)
    _ = at5 m ρ c (Proc.devRef .tc main_arg8) := at6_else m ρ c main_arg8 (by decide)
    _ = at4 m ρ c (Proc.devRef .tc main_arg8) := kept2 _ main_arg8 (by decide)
    _ = at3 m ρ c (Proc.devRef .tc main_arg8) := at4_else m ρ c main_arg8 (by decide)
    _ = at2 m ρ c (Proc.devRef .tc main_arg8) := kept1 _ main_arg8 (by decide)
    _ = at1 m ρ c (Proc.devRef .tc main_arg8) := at2_else m ρ c main_arg8 (by decide)
    _ = at0 m ρ c (Proc.devRef .tc main_arg8) := kept0 _ main_arg8 (by decide)
    _ = m ((c : Thread nD τ).loc main_arg8) := rfl
theorem at11_main_arg9 (c : Dev nD) : at11 m ρ c (Proc.devRef .tc main_arg9) = m ((c : Thread nD τ).loc main_arg9) :=
  calc at11 m ρ c (Proc.devRef .tc main_arg9)
    _ = at10 m ρ c (Proc.devRef .tc main_arg9) := kept5 _ main_arg9 (by decide)
    _ = at9 m ρ c (Proc.devRef .tc main_arg9) := at10_else m ρ c main_arg9 (by decide)
    _ = at8 m ρ c (Proc.devRef .tc main_arg9) := kept4 _ main_arg9 (by decide)
    _ = at7 m ρ c (Proc.devRef .tc main_arg9) := at8_else m ρ c main_arg9 (by decide)
    _ = at6 m ρ c (Proc.devRef .tc main_arg9) := kept3 _ main_arg9 (by decide)
    _ = at5 m ρ c (Proc.devRef .tc main_arg9) := at6_else m ρ c main_arg9 (by decide)
    _ = at4 m ρ c (Proc.devRef .tc main_arg9) := kept2 _ main_arg9 (by decide)
    _ = at3 m ρ c (Proc.devRef .tc main_arg9) := at4_else m ρ c main_arg9 (by decide)
    _ = at2 m ρ c (Proc.devRef .tc main_arg9) := kept1 _ main_arg9 (by decide)
    _ = at1 m ρ c (Proc.devRef .tc main_arg9) := at2_else m ρ c main_arg9 (by decide)
    _ = at0 m ρ c (Proc.devRef .tc main_arg9) := kept0 _ main_arg9 (by decide)
    _ = m ((c : Thread nD τ).loc main_arg9) := rfl
theorem at11_main_arg10 (c : Dev nD) : at11 m ρ c (Proc.devRef .tc main_arg10) = m ((c : Thread nD τ).loc main_arg10) :=
  calc at11 m ρ c (Proc.devRef .tc main_arg10)
    _ = at10 m ρ c (Proc.devRef .tc main_arg10) := kept5 _ main_arg10 (by decide)
    _ = at9 m ρ c (Proc.devRef .tc main_arg10) := (at10_arr m ρ c 1).trans (((dat4 (in4 m ρ) c).arrAt_in 1 rfl _).trans (A_eq4 (in4 m ρ) c 1))
    _ = at8 m ρ c (Proc.devRef .tc main_arg10) := kept4 _ main_arg10 (by decide)
    _ = at7 m ρ c (Proc.devRef .tc main_arg10) := at8_else m ρ c main_arg10 (by decide)
    _ = at6 m ρ c (Proc.devRef .tc main_arg10) := kept3 _ main_arg10 (by decide)
    _ = at5 m ρ c (Proc.devRef .tc main_arg10) := at6_else m ρ c main_arg10 (by decide)
    _ = at4 m ρ c (Proc.devRef .tc main_arg10) := kept2 _ main_arg10 (by decide)
    _ = at3 m ρ c (Proc.devRef .tc main_arg10) := at4_else m ρ c main_arg10 (by decide)
    _ = at2 m ρ c (Proc.devRef .tc main_arg10) := kept1 _ main_arg10 (by decide)
    _ = at1 m ρ c (Proc.devRef .tc main_arg10) := at2_else m ρ c main_arg10 (by decide)
    _ = at0 m ρ c (Proc.devRef .tc main_arg10) := kept0 _ main_arg10 (by decide)
    _ = m ((c : Thread nD τ).loc main_arg10) := rfl
theorem at11_main_arg11 (c : Dev nD) : at11 m ρ c (Proc.devRef .tc main_arg11) = m ((c : Thread nD τ).loc main_arg11) :=
  calc at11 m ρ c (Proc.devRef .tc main_arg11)
    _ = at10 m ρ c (Proc.devRef .tc main_arg11) := kept5 _ main_arg11 (by decide)
    _ = at9 m ρ c (Proc.devRef .tc main_arg11) := at10_else m ρ c main_arg11 (by decide)
    _ = at8 m ρ c (Proc.devRef .tc main_arg11) := kept4 _ main_arg11 (by decide)
    _ = at7 m ρ c (Proc.devRef .tc main_arg11) := at8_else m ρ c main_arg11 (by decide)
    _ = at6 m ρ c (Proc.devRef .tc main_arg11) := kept3 _ main_arg11 (by decide)
    _ = at5 m ρ c (Proc.devRef .tc main_arg11) := at6_else m ρ c main_arg11 (by decide)
    _ = at4 m ρ c (Proc.devRef .tc main_arg11) := kept2 _ main_arg11 (by decide)
    _ = at3 m ρ c (Proc.devRef .tc main_arg11) := at4_else m ρ c main_arg11 (by decide)
    _ = at2 m ρ c (Proc.devRef .tc main_arg11) := kept1 _ main_arg11 (by decide)
    _ = at1 m ρ c (Proc.devRef .tc main_arg11) := at2_else m ρ c main_arg11 (by decide)
    _ = at0 m ρ c (Proc.devRef .tc main_arg11) := kept0 _ main_arg11 (by decide)
    _ = m ((c : Thread nD τ).loc main_arg11) := rfl
theorem at11_main_arg12 (c : Dev nD) : at11 m ρ c (Proc.devRef .tc main_arg12) = m ((c : Thread nD τ).loc main_arg12) :=
  calc at11 m ρ c (Proc.devRef .tc main_arg12)
    _ = at10 m ρ c (Proc.devRef .tc main_arg12) := kept5 _ main_arg12 (by decide)
    _ = at9 m ρ c (Proc.devRef .tc main_arg12) := at10_else m ρ c main_arg12 (by decide)
    _ = at8 m ρ c (Proc.devRef .tc main_arg12) := kept4 _ main_arg12 (by decide)
    _ = at7 m ρ c (Proc.devRef .tc main_arg12) := at8_else m ρ c main_arg12 (by decide)
    _ = at6 m ρ c (Proc.devRef .tc main_arg12) := kept3 _ main_arg12 (by decide)
    _ = at5 m ρ c (Proc.devRef .tc main_arg12) := at6_else m ρ c main_arg12 (by decide)
    _ = at4 m ρ c (Proc.devRef .tc main_arg12) := kept2 _ main_arg12 (by decide)
    _ = at3 m ρ c (Proc.devRef .tc main_arg12) := at4_else m ρ c main_arg12 (by decide)
    _ = at2 m ρ c (Proc.devRef .tc main_arg12) := kept1 _ main_arg12 (by decide)
    _ = at1 m ρ c (Proc.devRef .tc main_arg12) := at2_else m ρ c main_arg12 (by decide)
    _ = at0 m ρ c (Proc.devRef .tc main_arg12) := kept0 _ main_arg12 (by decide)
    _ = m ((c : Thread nD τ).loc main_arg12) := rfl
theorem at11_main_arg13 (c : Dev nD) : at11 m ρ c (Proc.devRef .tc main_arg13) = m ((c : Thread nD τ).loc main_arg13) :=
  calc at11 m ρ c (Proc.devRef .tc main_arg13)
    _ = at10 m ρ c (Proc.devRef .tc main_arg13) := kept5 _ main_arg13 (by decide)
    _ = at9 m ρ c (Proc.devRef .tc main_arg13) := at10_else m ρ c main_arg13 (by decide)
    _ = at8 m ρ c (Proc.devRef .tc main_arg13) := kept4 _ main_arg13 (by decide)
    _ = at7 m ρ c (Proc.devRef .tc main_arg13) := at8_else m ρ c main_arg13 (by decide)
    _ = at6 m ρ c (Proc.devRef .tc main_arg13) := kept3 _ main_arg13 (by decide)
    _ = at5 m ρ c (Proc.devRef .tc main_arg13) := at6_else m ρ c main_arg13 (by decide)
    _ = at4 m ρ c (Proc.devRef .tc main_arg13) := kept2 _ main_arg13 (by decide)
    _ = at3 m ρ c (Proc.devRef .tc main_arg13) := at4_else m ρ c main_arg13 (by decide)
    _ = at2 m ρ c (Proc.devRef .tc main_arg13) := kept1 _ main_arg13 (by decide)
    _ = at1 m ρ c (Proc.devRef .tc main_arg13) := at2_else m ρ c main_arg13 (by decide)
    _ = at0 m ρ c (Proc.devRef .tc main_arg13) := kept0 _ main_arg13 (by decide)
    _ = m ((c : Thread nD τ).loc main_arg13) := rfl
theorem at11_main_arg14 (c : Dev nD) : at11 m ρ c (Proc.devRef .tc main_arg14) = m ((c : Thread nD τ).loc main_arg14) :=
  calc at11 m ρ c (Proc.devRef .tc main_arg14)
    _ = at10 m ρ c (Proc.devRef .tc main_arg14) := kept5 _ main_arg14 (by decide)
    _ = at9 m ρ c (Proc.devRef .tc main_arg14) := at10_else m ρ c main_arg14 (by decide)
    _ = at8 m ρ c (Proc.devRef .tc main_arg14) := kept4 _ main_arg14 (by decide)
    _ = at7 m ρ c (Proc.devRef .tc main_arg14) := at8_else m ρ c main_arg14 (by decide)
    _ = at6 m ρ c (Proc.devRef .tc main_arg14) := kept3 _ main_arg14 (by decide)
    _ = at5 m ρ c (Proc.devRef .tc main_arg14) := at6_else m ρ c main_arg14 (by decide)
    _ = at4 m ρ c (Proc.devRef .tc main_arg14) := kept2 _ main_arg14 (by decide)
    _ = at3 m ρ c (Proc.devRef .tc main_arg14) := at4_else m ρ c main_arg14 (by decide)
    _ = at2 m ρ c (Proc.devRef .tc main_arg14) := kept1 _ main_arg14 (by decide)
    _ = at1 m ρ c (Proc.devRef .tc main_arg14) := at2_else m ρ c main_arg14 (by decide)
    _ = at0 m ρ c (Proc.devRef .tc main_arg14) := kept0 _ main_arg14 (by decide)
    _ = m ((c : Thread nD τ).loc main_arg14) := rfl
theorem at11_main_arg15 (c : Dev nD) : at11 m ρ c (Proc.devRef .tc main_arg15) = m ((c : Thread nD τ).loc main_arg15) :=
  calc at11 m ρ c (Proc.devRef .tc main_arg15)
    _ = at10 m ρ c (Proc.devRef .tc main_arg15) := kept5 _ main_arg15 (by decide)
    _ = at9 m ρ c (Proc.devRef .tc main_arg15) := at10_else m ρ c main_arg15 (by decide)
    _ = at8 m ρ c (Proc.devRef .tc main_arg15) := kept4 _ main_arg15 (by decide)
    _ = at7 m ρ c (Proc.devRef .tc main_arg15) := at8_else m ρ c main_arg15 (by decide)
    _ = at6 m ρ c (Proc.devRef .tc main_arg15) := kept3 _ main_arg15 (by decide)
    _ = at5 m ρ c (Proc.devRef .tc main_arg15) := at6_else m ρ c main_arg15 (by decide)
    _ = at4 m ρ c (Proc.devRef .tc main_arg15) := kept2 _ main_arg15 (by decide)
    _ = at3 m ρ c (Proc.devRef .tc main_arg15) := at4_else m ρ c main_arg15 (by decide)
    _ = at2 m ρ c (Proc.devRef .tc main_arg15) := kept1 _ main_arg15 (by decide)
    _ = at1 m ρ c (Proc.devRef .tc main_arg15) := at2_else m ρ c main_arg15 (by decide)
    _ = at0 m ρ c (Proc.devRef .tc main_arg15) := kept0 _ main_arg15 (by decide)
    _ = m ((c : Thread nD τ).loc main_arg15) := rfl
theorem at11_main_arg16 (c : Dev nD) : at11 m ρ c (Proc.devRef .tc main_arg16) = m ((c : Thread nD τ).loc main_arg16) :=
  calc at11 m ρ c (Proc.devRef .tc main_arg16)
    _ = at10 m ρ c (Proc.devRef .tc main_arg16) := kept5 _ main_arg16 (by decide)
    _ = at9 m ρ c (Proc.devRef .tc main_arg16) := at10_else m ρ c main_arg16 (by decide)
    _ = at8 m ρ c (Proc.devRef .tc main_arg16) := kept4 _ main_arg16 (by decide)
    _ = at7 m ρ c (Proc.devRef .tc main_arg16) := at8_else m ρ c main_arg16 (by decide)
    _ = at6 m ρ c (Proc.devRef .tc main_arg16) := kept3 _ main_arg16 (by decide)
    _ = at5 m ρ c (Proc.devRef .tc main_arg16) := at6_else m ρ c main_arg16 (by decide)
    _ = at4 m ρ c (Proc.devRef .tc main_arg16) := kept2 _ main_arg16 (by decide)
    _ = at3 m ρ c (Proc.devRef .tc main_arg16) := at4_else m ρ c main_arg16 (by decide)
    _ = at2 m ρ c (Proc.devRef .tc main_arg16) := kept1 _ main_arg16 (by decide)
    _ = at1 m ρ c (Proc.devRef .tc main_arg16) := at2_else m ρ c main_arg16 (by decide)
    _ = at0 m ρ c (Proc.devRef .tc main_arg16) := kept0 _ main_arg16 (by decide)
    _ = m ((c : Thread nD τ).loc main_arg16) := rfl
theorem at11_main_arg17 (c : Dev nD) : at11 m ρ c (Proc.devRef .tc main_arg17) = m ((c : Thread nD τ).loc main_arg17) :=
  calc at11 m ρ c (Proc.devRef .tc main_arg17)
    _ = at10 m ρ c (Proc.devRef .tc main_arg17) := kept5 _ main_arg17 (by decide)
    _ = at9 m ρ c (Proc.devRef .tc main_arg17) := at10_else m ρ c main_arg17 (by decide)
    _ = at8 m ρ c (Proc.devRef .tc main_arg17) := kept4 _ main_arg17 (by decide)
    _ = at7 m ρ c (Proc.devRef .tc main_arg17) := at8_else m ρ c main_arg17 (by decide)
    _ = at6 m ρ c (Proc.devRef .tc main_arg17) := kept3 _ main_arg17 (by decide)
    _ = at5 m ρ c (Proc.devRef .tc main_arg17) := at6_else m ρ c main_arg17 (by decide)
    _ = at4 m ρ c (Proc.devRef .tc main_arg17) := kept2 _ main_arg17 (by decide)
    _ = at3 m ρ c (Proc.devRef .tc main_arg17) := at4_else m ρ c main_arg17 (by decide)
    _ = at2 m ρ c (Proc.devRef .tc main_arg17) := kept1 _ main_arg17 (by decide)
    _ = at1 m ρ c (Proc.devRef .tc main_arg17) := at2_else m ρ c main_arg17 (by decide)
    _ = at0 m ρ c (Proc.devRef .tc main_arg17) := kept0 _ main_arg17 (by decide)
    _ = m ((c : Thread nD τ).loc main_arg17) := rfl
theorem at11_main_arg18 (c : Dev nD) : at11 m ρ c (Proc.devRef .tc main_arg18) = m ((c : Thread nD τ).loc main_arg18) :=
  calc at11 m ρ c (Proc.devRef .tc main_arg18)
    _ = at10 m ρ c (Proc.devRef .tc main_arg18) := kept5 _ main_arg18 (by decide)
    _ = at9 m ρ c (Proc.devRef .tc main_arg18) := at10_else m ρ c main_arg18 (by decide)
    _ = at8 m ρ c (Proc.devRef .tc main_arg18) := kept4 _ main_arg18 (by decide)
    _ = at7 m ρ c (Proc.devRef .tc main_arg18) := at8_else m ρ c main_arg18 (by decide)
    _ = at6 m ρ c (Proc.devRef .tc main_arg18) := kept3 _ main_arg18 (by decide)
    _ = at5 m ρ c (Proc.devRef .tc main_arg18) := at6_else m ρ c main_arg18 (by decide)
    _ = at4 m ρ c (Proc.devRef .tc main_arg18) := kept2 _ main_arg18 (by decide)
    _ = at3 m ρ c (Proc.devRef .tc main_arg18) := at4_else m ρ c main_arg18 (by decide)
    _ = at2 m ρ c (Proc.devRef .tc main_arg18) := kept1 _ main_arg18 (by decide)
    _ = at1 m ρ c (Proc.devRef .tc main_arg18) := at2_else m ρ c main_arg18 (by decide)
    _ = at0 m ρ c (Proc.devRef .tc main_arg18) := kept0 _ main_arg18 (by decide)
    _ = m ((c : Thread nD τ).loc main_arg18) := rfl

/-! ## The proof data, and what rides beside the buffers -/

/-- No pipeline has a prefetched table. -/
abbrev adm : (p : Fin 5) → (pcfgs (F := F) p).Adm := fun p => (cfgs p).toPCfg_adm
/-- Each pipeline's proof data, at its region's entry contents. -/
def pdats : (p : Fin 5) → (c : Dev nD) → Dat τ (Elt F) Unit ℕ (UR sig nD τ) ℕ (Pipeline.pin (pcfgs (F := F)) adm p) c
  | ⟨0, _⟩ => fun c => dat0 (in0 m ρ) c
  | ⟨1, _⟩ => fun c => dat1 (in1 m ρ) c
  | ⟨2, _⟩ => fun c => dat2 (in2 m ρ) c
  | ⟨3, _⟩ => fun c => dat3 (in3 m ρ) c
  | ⟨4, _⟩ => fun c => dat4 (in4 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers a core carries its generator register, at some state, and what it owes: nothing. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without what the core owes. -/
abbrev Tend (c : Dev nD) : sProp 𝕄 := iprop(StableHlo.held (c : Thread nD τ) (Pipeline.ucRefs τ sig) (at11 m ρ c) ∗ ∃ r, prngReg c r)

/-! ## The regions as segments -/

set_option backward.isDefEq.respectTransparency.types false in
/-- Region 0 between the thread states: entered with every unscoped buffer at `at1`, left with them at `at2`.
    At the entry the windows' arrays are taken out of the unscoped buffers and the generator register goes into the
    invariant; at the exit the arrays come back at what the pipeline left and the register comes out again. The kernel
    has no semaphore of its own and owes nothing. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (in0 m ρ) c).loose
  hwaits := Pipeline.hwaits_of_owed_zero _ _ _ _ L lv 0 fun _ _ => rfl
  pre c := iprop(StableHlo.held (c : Thread nD τ) (Pipeline.ucRefs τ sig) (at1 m ρ c) ∗ R c)
  post c := iprop(StableHlo.held (c : Thread nD τ) (Pipeline.ucRefs τ sig) (at2 m ρ c) ∗ R c)
  X c := iprop(∃ r, prngReg c r)
  Y c := iprop(∃ r, prngReg c r)
  Z c := Pipeline.unscopedRest (Ix := Unit) (Name := ℕ) (U := UR sig nD τ) (Lvl := ℕ) spec0 c (in0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (in0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (in0 m ρ c) (out0 m ρ c) ((pdats m ρ 0 c).arrAt · cfg0.N) (filled0 m ρ c) (others0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the thread states: entered with every unscoped buffer at `at3`, left with them at `at4`.
    At the entry the windows' arrays are taken out of the unscoped buffers and the generator register goes into the
    invariant; at the exit the arrays come back at what the pipeline left and the register comes out again. The kernel
    has no semaphore of its own and owes nothing. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (in1 m ρ) c).loose
  hwaits := Pipeline.hwaits_of_owed_zero _ _ _ _ L lv 1 fun _ _ => rfl
  pre c := iprop(StableHlo.held (c : Thread nD τ) (Pipeline.ucRefs τ sig) (at3 m ρ c) ∗ R c)
  post c := iprop(StableHlo.held (c : Thread nD τ) (Pipeline.ucRefs τ sig) (at4 m ρ c) ∗ R c)
  X c := iprop(∃ r, prngReg c r)
  Y c := iprop(∃ r, prngReg c r)
  Z c := Pipeline.unscopedRest (Ix := Unit) (Name := ℕ) (U := UR sig nD τ) (Lvl := ℕ) spec1 c (in1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (in1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (in1 m ρ c) (out1 m ρ c) ((pdats m ρ 1 c).arrAt · cfg1.N) (filled1 m ρ c) (others1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between the thread states: entered with every unscoped buffer at `at5`, left with them at `at6`.
    At the entry the windows' arrays are taken out of the unscoped buffers and the generator register goes into the
    invariant; at the exit the arrays come back at what the pipeline left and the register comes out again. The kernel
    has no semaphore of its own and owes nothing. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (obligation2 (in2 m ρ) c).loose
  hwaits := Pipeline.hwaits_of_owed_zero _ _ _ _ L lv 2 fun _ _ => rfl
  pre c := iprop(StableHlo.held (c : Thread nD τ) (Pipeline.ucRefs τ sig) (at5 m ρ c) ∗ R c)
  post c := iprop(StableHlo.held (c : Thread nD τ) (Pipeline.ucRefs τ sig) (at6 m ρ c) ∗ R c)
  X c := iprop(∃ r, prngReg c r)
  Y c := iprop(∃ r, prngReg c r)
  Z c := Pipeline.unscopedRest (Ix := Unit) (Name := ℕ) (U := UR sig nD τ) (Lvl := ℕ) spec2 c (in2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (in2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (in2 m ρ c) (out2 m ρ c) ((pdats m ρ 2 c).arrAt · cfg2.N) (filled2 m ρ c) (others2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 between the thread states: entered with every unscoped buffer at `at7`, left with them at `at8`.
    At the entry the windows' arrays are taken out of the unscoped buffers and the generator register goes into the
    invariant; at the exit the arrays come back at what the pipeline left and the register comes out again. The kernel
    has no semaphore of its own and owes nothing. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (obligation3 (in3 m ρ) c).loose
  hwaits := Pipeline.hwaits_of_owed_zero _ _ _ _ L lv 3 fun _ _ => rfl
  pre c := iprop(StableHlo.held (c : Thread nD τ) (Pipeline.ucRefs τ sig) (at7 m ρ c) ∗ R c)
  post c := iprop(StableHlo.held (c : Thread nD τ) (Pipeline.ucRefs τ sig) (at8 m ρ c) ∗ R c)
  X c := iprop(∃ r, prngReg c r)
  Y c := iprop(∃ r, prngReg c r)
  Z c := Pipeline.unscopedRest (Ix := Unit) (Name := ℕ) (U := UR sig nD τ) (Lvl := ℕ) spec3 c (in3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (in3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (in3 m ρ c) (out3 m ρ c) ((pdats m ρ 3 c).arrAt · cfg3.N) (filled3 m ρ c) (others3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 between the thread states: entered with every unscoped buffer at `at9`, left with them at `at10`.
    At the entry the windows' arrays are taken out of the unscoped buffers and the generator register goes into the
    invariant; at the exit the arrays come back at what the pipeline left and the register comes out again. The kernel
    has no semaphore of its own and owes nothing. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (obligation4 (in4 m ρ) c).loose
  hwaits := Pipeline.hwaits_of_owed_zero _ _ _ _ L lv 4 fun _ _ => rfl
  pre c := iprop(StableHlo.held (c : Thread nD τ) (Pipeline.ucRefs τ sig) (at9 m ρ c) ∗ R c)
  post c := iprop(StableHlo.held (c : Thread nD τ) (Pipeline.ucRefs τ sig) (at10 m ρ c) ∗ R c)
  X c := iprop(∃ r, prngReg c r)
  Y c := iprop(∃ r, prngReg c r)
  Z c := Pipeline.unscopedRest (Ix := Unit) (Name := ℕ) (U := UR sig nD τ) (Lvl := ℕ) spec4 c (in4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (in4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (in4 m ρ c) (out4 m ρ c) ((pdats m ρ 4 c).arrAt · cfg4.N) (filled4 m ρ c) (others4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

/-- The eleven segments in the program's order. -/
abbrev segs : List (Pipeline.Seg (pcfgs (F := F)) adm (pdats m ρ) () defs₀ 𝒱₀ L lv) :=
  [
    .host (hseg hostOps0 hostOps0_sub stretch0_fresh (at0 m ρ)),
    .region (reg0 m ρ),
    .host (hseg hostOps1 hostOps1_sub stretch1_fresh (at2 m ρ)),
    .region (reg1 m ρ),
    .host (hseg hostOps2 hostOps2_sub stretch2_fresh (at4 m ρ)),
    .region (reg2 m ρ),
    .host (hseg hostOps3 hostOps3_sub stretch3_fresh (at6 m ρ)),
    .region (reg3 m ρ),
    .host (hseg hostOps4 hostOps4_sub stretch4_fresh (at8 m ρ)),
    .region (reg4 m ρ),
    .host (hseg hostOps5 hostOps5_sub stretch5_fresh (at10 m ρ)) ]

set_option maxHeartbeats 4000000 in
/-- The program is the run of its segments. -/
theorem main_run (c : Dev nD) : main (F := F) c = Pipeline.Seg.run (segs m ρ) := by
  rw [main_chain c, Pipeline.Seg.run_eq_chain]; rfl

set_option backward.isDefEq.respectTransparency.types false in
set_option maxHeartbeats 4000000 in
/-- At the compiled mesh, from any memory with zero counters, every weakly fair execution of the program terminates,
    nothing faulting, and every final memory holds each unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = at11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m ρ c) ∗ R c)) (Tₙ := Tend m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (at11 m ρ c) ∗ R c)
          ⊢ iprop(Tend m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (at0 m ρ c)
        from Pipeline.unscopedBufs_held c (at0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at11 m ρ c b)
    (hfin := fun c s' => by
      iintro ⟨⟨Hh, -⟩, HSI⟩
      unfold StableHlo.held
      imodintro
      iapply (pointsTo_read_all (Pipeline.ucRefs τ sig) (fun b => (((c : Thread nD τ)).1, b)) (at11 m ρ c) s')
      isplitl [Hh] <;> iassumption)
    (hQ := fun s h => h)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16) ∧
      r.2.mem ((c.tc : Thread nD τ).loc main_arg17) = m ((c.tc : Thread nD τ).loc main_arg17) ∧
      r.2.mem ((c.tc : Thread nD τ).loc main_arg18) = m ((c.tc : Thread nD τ).loc main_arg18)) :=
  (θ_run defs _ _).mono (fun _ h c => ⟨(h c _ (mem_uc main_arg0 (by decide))).trans (at11_main_arg0 m ρ c),
    (h c _ (mem_uc main_arg1 (by decide))).trans (at11_main_arg1 m ρ c),
    (h c _ (mem_uc main_arg2 (by decide))).trans (at11_main_arg2 m ρ c),
    (h c _ (mem_uc main_arg3 (by decide))).trans (at11_main_arg3 m ρ c),
    (h c _ (mem_uc main_arg4 (by decide))).trans (at11_main_arg4 m ρ c),
    (h c _ (mem_uc main_arg5 (by decide))).trans (at11_main_arg5 m ρ c),
    (h c _ (mem_uc main_arg6 (by decide))).trans (at11_main_arg6 m ρ c),
    (h c _ (mem_uc main_arg7 (by decide))).trans (at11_main_arg7 m ρ c),
    (h c _ (mem_uc main_arg8 (by decide))).trans (at11_main_arg8 m ρ c),
    (h c _ (mem_uc main_arg9 (by decide))).trans (at11_main_arg9 m ρ c),
    (h c _ (mem_uc main_arg10 (by decide))).trans (at11_main_arg10 m ρ c),
    (h c _ (mem_uc main_arg11 (by decide))).trans (at11_main_arg11 m ρ c),
    (h c _ (mem_uc main_arg12 (by decide))).trans (at11_main_arg12 m ρ c),
    (h c _ (mem_uc main_arg13 (by decide))).trans (at11_main_arg13 m ρ c),
    (h c _ (mem_uc main_arg14 (by decide))).trans (at11_main_arg14 m ρ c),
    (h c _ (mem_uc main_arg15 (by decide))).trans (at11_main_arg15 m ρ c),
    (h c _ (mem_uc main_arg16 (by decide))).trans (at11_main_arg16 m ρ c),
    (h c _ (mem_uc main_arg17 (by decide))).trans (at11_main_arg17 m ρ c),
    (h c _ (mem_uc main_arg18 (by decide))).trans (at11_main_arg18 m ρ c)⟩) (run_all m ρ)

end Cert.KernelIdeal.Hand

end
-- ==== Proof.IdealFlow.lean ====
/-
  Buffers the kernel program writes once: between the step that writes a buffer and any later boundary, no host stretch
  writes it and no region changes it (a region changes only its output array), so it holds at the later boundary what it
  held right after it was written; an argument holds its launch contents at every boundary.
-/
import proofs.«166662_j47579647705297_2_alg».proof.Proof.IdealRun

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

theorem hold_arg1_0_2 (c : Dev nD) : at2 m ρ c (Proc.devRef .tc main_arg1) = at0 m ρ c (Proc.devRef .tc main_arg1) :=
  calc at2 m ρ c (Proc.devRef .tc main_arg1)
    _ = at1 m ρ c (Proc.devRef .tc main_arg1) := at2_else m ρ c main_arg1 (by decide)
    _ = at0 m ρ c (Proc.devRef .tc main_arg1) := kept0 _ main_arg1 (by decide)

theorem hold_arg11_0_2 (c : Dev nD) : at2 m ρ c (Proc.devRef .tc main_arg11) = at0 m ρ c (Proc.devRef .tc main_arg11) :=
  calc at2 m ρ c (Proc.devRef .tc main_arg11)
    _ = at1 m ρ c (Proc.devRef .tc main_arg11) := at2_else m ρ c main_arg11 (by decide)
    _ = at0 m ρ c (Proc.devRef .tc main_arg11) := kept0 _ main_arg11 (by decide)

theorem hold_arg12_0_2 (c : Dev nD) : at2 m ρ c (Proc.devRef .tc main_arg12) = at0 m ρ c (Proc.devRef .tc main_arg12) :=
  calc at2 m ρ c (Proc.devRef .tc main_arg12)
    _ = at1 m ρ c (Proc.devRef .tc main_arg12) := at2_else m ρ c main_arg12 (by decide)
    _ = at0 m ρ c (Proc.devRef .tc main_arg12) := kept0 _ main_arg12 (by decide)

theorem hold_arg2_0_2 (c : Dev nD) : at2 m ρ c (Proc.devRef .tc main_arg2) = at0 m ρ c (Proc.devRef .tc main_arg2) :=
  calc at2 m ρ c (Proc.devRef .tc main_arg2)
    _ = at1 m ρ c (Proc.devRef .tc main_arg2) := at2_else m ρ c main_arg2 (by decide)
    _ = at0 m ρ c (Proc.devRef .tc main_arg2) := kept0 _ main_arg2 (by decide)

theorem hold_v8_1_2 (c : Dev nD) : at2 m ρ c (Proc.devRef .tc main_v8) = at1 m ρ c (Proc.devRef .tc main_v8) :=
  calc at2 m ρ c (Proc.devRef .tc main_v8)
    _ = at1 m ρ c (Proc.devRef .tc main_v8) := at2_else m ρ c main_v8 (by decide)

theorem hold_v58_3_4 (c : Dev nD) : at4 m ρ c (Proc.devRef .tc main_v58) = at3 m ρ c (Proc.devRef .tc main_v58) :=
  calc at4 m ρ c (Proc.devRef .tc main_v58)
    _ = at3 m ρ c (Proc.devRef .tc main_v58) := at4_else m ρ c main_v58 (by decide)

theorem hold_arg18_0_4 (c : Dev nD) : at4 m ρ c (Proc.devRef .tc main_arg18) = at0 m ρ c (Proc.devRef .tc main_arg18) :=
  calc at4 m ρ c (Proc.devRef .tc main_arg18)
    _ = at3 m ρ c (Proc.devRef .tc main_arg18) := at4_else m ρ c main_arg18 (by decide)
    _ = at2 m ρ c (Proc.devRef .tc main_arg18) := kept1 _ main_arg18 (by decide)
    _ = at1 m ρ c (Proc.devRef .tc main_arg18) := at2_else m ρ c main_arg18 (by decide)
    _ = at0 m ρ c (Proc.devRef .tc main_arg18) := kept0 _ main_arg18 (by decide)

theorem hold_arg17_0_4 (c : Dev nD) : at4 m ρ c (Proc.devRef .tc main_arg17) = at0 m ρ c (Proc.devRef .tc main_arg17) :=
  calc at4 m ρ c (Proc.devRef .tc main_arg17)
    _ = at3 m ρ c (Proc.devRef .tc main_arg17) := at4_else m ρ c main_arg17 (by decide)
    _ = at2 m ρ c (Proc.devRef .tc main_arg17) := kept1 _ main_arg17 (by decide)
    _ = at1 m ρ c (Proc.devRef .tc main_arg17) := at2_else m ρ c main_arg17 (by decide)
    _ = at0 m ρ c (Proc.devRef .tc main_arg17) := kept0 _ main_arg17 (by decide)

theorem hold_arg16_0_4 (c : Dev nD) : at4 m ρ c (Proc.devRef .tc main_arg16) = at0 m ρ c (Proc.devRef .tc main_arg16) :=
  calc at4 m ρ c (Proc.devRef .tc main_arg16)
    _ = at3 m ρ c (Proc.devRef .tc main_arg16) := at4_else m ρ c main_arg16 (by decide)
    _ = at2 m ρ c (Proc.devRef .tc main_arg16) := kept1 _ main_arg16 (by decide)
    _ = at1 m ρ c (Proc.devRef .tc main_arg16) := at2_else m ρ c main_arg16 (by decide)
    _ = at0 m ρ c (Proc.devRef .tc main_arg16) := kept0 _ main_arg16 (by decide)

theorem hold_arg0_0_4 (c : Dev nD) : at4 m ρ c (Proc.devRef .tc main_arg0) = at0 m ρ c (Proc.devRef .tc main_arg0) :=
  calc at4 m ρ c (Proc.devRef .tc main_arg0)
    _ = at3 m ρ c (Proc.devRef .tc main_arg0) := at4_else m ρ c main_arg0 (by decide)
    _ = at2 m ρ c (Proc.devRef .tc main_arg0) := kept1 _ main_arg0 (by decide)
    _ = at1 m ρ c (Proc.devRef .tc main_arg0) := at2_else m ρ c main_arg0 (by decide)
    _ = at0 m ρ c (Proc.devRef .tc main_arg0) := kept0 _ main_arg0 (by decide)

theorem hold_arg15_0_4 (c : Dev nD) : at4 m ρ c (Proc.devRef .tc main_arg15) = at0 m ρ c (Proc.devRef .tc main_arg15) :=
  calc at4 m ρ c (Proc.devRef .tc main_arg15)
    _ = at3 m ρ c (Proc.devRef .tc main_arg15) := at4_else m ρ c main_arg15 (by decide)
    _ = at2 m ρ c (Proc.devRef .tc main_arg15) := kept1 _ main_arg15 (by decide)
    _ = at1 m ρ c (Proc.devRef .tc main_arg15) := at2_else m ρ c main_arg15 (by decide)
    _ = at0 m ρ c (Proc.devRef .tc main_arg15) := kept0 _ main_arg15 (by decide)

theorem hold_arg7_0_4 (c : Dev nD) : at4 m ρ c (Proc.devRef .tc main_arg7) = at0 m ρ c (Proc.devRef .tc main_arg7) :=
  calc at4 m ρ c (Proc.devRef .tc main_arg7)
    _ = at3 m ρ c (Proc.devRef .tc main_arg7) := at4_else m ρ c main_arg7 (by decide)
    _ = at2 m ρ c (Proc.devRef .tc main_arg7) := kept1 _ main_arg7 (by decide)
    _ = at1 m ρ c (Proc.devRef .tc main_arg7) := at2_else m ρ c main_arg7 (by decide)
    _ = at0 m ρ c (Proc.devRef .tc main_arg7) := kept0 _ main_arg7 (by decide)

theorem hold_arg8_0_4 (c : Dev nD) : at4 m ρ c (Proc.devRef .tc main_arg8) = at0 m ρ c (Proc.devRef .tc main_arg8) :=
  calc at4 m ρ c (Proc.devRef .tc main_arg8)
    _ = at3 m ρ c (Proc.devRef .tc main_arg8) := at4_else m ρ c main_arg8 (by decide)
    _ = at2 m ρ c (Proc.devRef .tc main_arg8) := kept1 _ main_arg8 (by decide)
    _ = at1 m ρ c (Proc.devRef .tc main_arg8) := at2_else m ρ c main_arg8 (by decide)
    _ = at0 m ρ c (Proc.devRef .tc main_arg8) := kept0 _ main_arg8 (by decide)

theorem hold_arg0_0_6 (c : Dev nD) : at6 m ρ c (Proc.devRef .tc main_arg0) = at0 m ρ c (Proc.devRef .tc main_arg0) :=
  calc at6 m ρ c (Proc.devRef .tc main_arg0)
    _ = at5 m ρ c (Proc.devRef .tc main_arg0) := at6_else m ρ c main_arg0 (by decide)
    _ = at4 m ρ c (Proc.devRef .tc main_arg0) := kept2 _ main_arg0 (by decide)
    _ = at3 m ρ c (Proc.devRef .tc main_arg0) := at4_else m ρ c main_arg0 (by decide)
    _ = at2 m ρ c (Proc.devRef .tc main_arg0) := kept1 _ main_arg0 (by decide)
    _ = at1 m ρ c (Proc.devRef .tc main_arg0) := at2_else m ρ c main_arg0 (by decide)
    _ = at0 m ρ c (Proc.devRef .tc main_arg0) := kept0 _ main_arg0 (by decide)

theorem hold_arg7_0_6 (c : Dev nD) : at6 m ρ c (Proc.devRef .tc main_arg7) = at0 m ρ c (Proc.devRef .tc main_arg7) :=
  calc at6 m ρ c (Proc.devRef .tc main_arg7)
    _ = at5 m ρ c (Proc.devRef .tc main_arg7) := at6_else m ρ c main_arg7 (by decide)
    _ = at4 m ρ c (Proc.devRef .tc main_arg7) := kept2 _ main_arg7 (by decide)
    _ = at3 m ρ c (Proc.devRef .tc main_arg7) := at4_else m ρ c main_arg7 (by decide)
    _ = at2 m ρ c (Proc.devRef .tc main_arg7) := kept1 _ main_arg7 (by decide)
    _ = at1 m ρ c (Proc.devRef .tc main_arg7) := at2_else m ρ c main_arg7 (by decide)
    _ = at0 m ρ c (Proc.devRef .tc main_arg7) := kept0 _ main_arg7 (by decide)

theorem hold_arg9_0_6 (c : Dev nD) : at6 m ρ c (Proc.devRef .tc main_arg9) = at0 m ρ c (Proc.devRef .tc main_arg9) :=
  calc at6 m ρ c (Proc.devRef .tc main_arg9)
    _ = at5 m ρ c (Proc.devRef .tc main_arg9) := at6_else m ρ c main_arg9 (by decide)
    _ = at4 m ρ c (Proc.devRef .tc main_arg9) := kept2 _ main_arg9 (by decide)
    _ = at3 m ρ c (Proc.devRef .tc main_arg9) := at4_else m ρ c main_arg9 (by decide)
    _ = at2 m ρ c (Proc.devRef .tc main_arg9) := kept1 _ main_arg9 (by decide)
    _ = at1 m ρ c (Proc.devRef .tc main_arg9) := at2_else m ρ c main_arg9 (by decide)
    _ = at0 m ρ c (Proc.devRef .tc main_arg9) := kept0 _ main_arg9 (by decide)

theorem hold_arg1_0_8 (c : Dev nD) : at8 m ρ c (Proc.devRef .tc main_arg1) = at0 m ρ c (Proc.devRef .tc main_arg1) :=
  calc at8 m ρ c (Proc.devRef .tc main_arg1)
    _ = at7 m ρ c (Proc.devRef .tc main_arg1) := at8_else m ρ c main_arg1 (by decide)
    _ = at6 m ρ c (Proc.devRef .tc main_arg1) := kept3 _ main_arg1 (by decide)
    _ = at5 m ρ c (Proc.devRef .tc main_arg1) := at6_else m ρ c main_arg1 (by decide)
    _ = at4 m ρ c (Proc.devRef .tc main_arg1) := kept2 _ main_arg1 (by decide)
    _ = at3 m ρ c (Proc.devRef .tc main_arg1) := at4_else m ρ c main_arg1 (by decide)
    _ = at2 m ρ c (Proc.devRef .tc main_arg1) := kept1 _ main_arg1 (by decide)
    _ = at1 m ρ c (Proc.devRef .tc main_arg1) := at2_else m ρ c main_arg1 (by decide)
    _ = at0 m ρ c (Proc.devRef .tc main_arg1) := kept0 _ main_arg1 (by decide)

theorem hold_v208_7_8 (c : Dev nD) : at8 m ρ c (Proc.devRef .tc main_v208) = at7 m ρ c (Proc.devRef .tc main_v208) :=
  calc at8 m ρ c (Proc.devRef .tc main_v208)
    _ = at7 m ρ c (Proc.devRef .tc main_v208) := at8_else m ρ c main_v208 (by decide)

theorem hold_v178_5_8 (c : Dev nD) : at8 m ρ c (Proc.devRef .tc main_v178) = at5 m ρ c (Proc.devRef .tc main_v178) :=
  calc at8 m ρ c (Proc.devRef .tc main_v178)
    _ = at7 m ρ c (Proc.devRef .tc main_v178) := at8_else m ρ c main_v178 (by decide)
    _ = at6 m ρ c (Proc.devRef .tc main_v178) := kept3 _ main_v178 (by decide)
    _ = at5 m ρ c (Proc.devRef .tc main_v178) := at6_else m ρ c main_v178 (by decide)

theorem hold_arg18_0_8 (c : Dev nD) : at8 m ρ c (Proc.devRef .tc main_arg18) = at0 m ρ c (Proc.devRef .tc main_arg18) :=
  calc at8 m ρ c (Proc.devRef .tc main_arg18)
    _ = at7 m ρ c (Proc.devRef .tc main_arg18) := at8_else m ρ c main_arg18 (by decide)
    _ = at6 m ρ c (Proc.devRef .tc main_arg18) := kept3 _ main_arg18 (by decide)
    _ = at5 m ρ c (Proc.devRef .tc main_arg18) := at6_else m ρ c main_arg18 (by decide)
    _ = at4 m ρ c (Proc.devRef .tc main_arg18) := kept2 _ main_arg18 (by decide)
    _ = at3 m ρ c (Proc.devRef .tc main_arg18) := at4_else m ρ c main_arg18 (by decide)
    _ = at2 m ρ c (Proc.devRef .tc main_arg18) := kept1 _ main_arg18 (by decide)
    _ = at1 m ρ c (Proc.devRef .tc main_arg18) := at2_else m ρ c main_arg18 (by decide)
    _ = at0 m ρ c (Proc.devRef .tc main_arg18) := kept0 _ main_arg18 (by decide)

theorem hold_v178_5_10 (c : Dev nD) : at10 m ρ c (Proc.devRef .tc main_v178) = at5 m ρ c (Proc.devRef .tc main_v178) :=
  calc at10 m ρ c (Proc.devRef .tc main_v178)
    _ = at9 m ρ c (Proc.devRef .tc main_v178) := at10_else m ρ c main_v178 (by decide)
    _ = at8 m ρ c (Proc.devRef .tc main_v178) := kept4 _ main_v178 (by decide)
    _ = at7 m ρ c (Proc.devRef .tc main_v178) := at8_else m ρ c main_v178 (by decide)
    _ = at6 m ρ c (Proc.devRef .tc main_v178) := kept3 _ main_v178 (by decide)
    _ = at5 m ρ c (Proc.devRef .tc main_v178) := at6_else m ρ c main_v178 (by decide)

theorem hold_v232_9_10 (c : Dev nD) : at10 m ρ c (Proc.devRef .tc main_v232) = at9 m ρ c (Proc.devRef .tc main_v232) :=
  calc at10 m ρ c (Proc.devRef .tc main_v232)
    _ = at9 m ρ c (Proc.devRef .tc main_v232) := at10_else m ρ c main_v232 (by decide)

theorem hold_v192_5_10 (c : Dev nD) : at10 m ρ c (Proc.devRef .tc main_v192) = at5 m ρ c (Proc.devRef .tc main_v192) :=
  calc at10 m ρ c (Proc.devRef .tc main_v192)
    _ = at9 m ρ c (Proc.devRef .tc main_v192) := at10_else m ρ c main_v192 (by decide)
    _ = at8 m ρ c (Proc.devRef .tc main_v192) := kept4 _ main_v192 (by decide)
    _ = at7 m ρ c (Proc.devRef .tc main_v192) := at8_else m ρ c main_v192 (by decide)
    _ = at6 m ρ c (Proc.devRef .tc main_v192) := kept3 _ main_v192 (by decide)
    _ = at5 m ρ c (Proc.devRef .tc main_v192) := at6_else m ρ c main_v192 (by decide)

theorem hold_v223_9_10 (c : Dev nD) : at10 m ρ c (Proc.devRef .tc main_v223) = at9 m ρ c (Proc.devRef .tc main_v223) :=
  calc at10 m ρ c (Proc.devRef .tc main_v223)
    _ = at9 m ρ c (Proc.devRef .tc main_v223) := at10_else m ρ c main_v223 (by decide)

theorem hold_v230_9_10 (c : Dev nD) : at10 m ρ c (Proc.devRef .tc main_v230) = at9 m ρ c (Proc.devRef .tc main_v230) :=
  calc at10 m ρ c (Proc.devRef .tc main_v230)
    _ = at9 m ρ c (Proc.devRef .tc main_v230) := at10_else m ρ c main_v230 (by decide)

theorem hold_arg4_0_1 (c : Dev nD) : at1 m ρ c (Proc.devRef .tc main_arg4) = at0 m ρ c (Proc.devRef .tc main_arg4) :=
  calc at1 m ρ c (Proc.devRef .tc main_arg4)
    _ = at0 m ρ c (Proc.devRef .tc main_arg4) := kept0 _ main_arg4 (by decide)

theorem hold_arg6_0_1 (c : Dev nD) : at1 m ρ c (Proc.devRef .tc main_arg6) = at0 m ρ c (Proc.devRef .tc main_arg6) :=
  calc at1 m ρ c (Proc.devRef .tc main_arg6)
    _ = at0 m ρ c (Proc.devRef .tc main_arg6) := kept0 _ main_arg6 (by decide)

theorem hold_arg5_0_3 (c : Dev nD) : at3 m ρ c (Proc.devRef .tc main_arg5) = at0 m ρ c (Proc.devRef .tc main_arg5) :=
  calc at3 m ρ c (Proc.devRef .tc main_arg5)
    _ = at2 m ρ c (Proc.devRef .tc main_arg5) := kept1 _ main_arg5 (by decide)
    _ = at1 m ρ c (Proc.devRef .tc main_arg5) := at2_else m ρ c main_arg5 (by decide)
    _ = at0 m ρ c (Proc.devRef .tc main_arg5) := kept0 _ main_arg5 (by decide)

theorem hold_v169_3_5 (c : Dev nD) : at5 m ρ c (Proc.devRef .tc main_v169) = at3 m ρ c (Proc.devRef .tc main_v169) :=
  calc at5 m ρ c (Proc.devRef .tc main_v169)
    _ = at4 m ρ c (Proc.devRef .tc main_v169) := kept2 _ main_v169 (by decide)
    _ = at3 m ρ c (Proc.devRef .tc main_v169) := at4_else m ρ c main_v169 (by decide)

theorem hold_v202_5_7 (c : Dev nD) : at7 m ρ c (Proc.devRef .tc main_v202) = at5 m ρ c (Proc.devRef .tc main_v202) :=
  calc at7 m ρ c (Proc.devRef .tc main_v202)
    _ = at6 m ρ c (Proc.devRef .tc main_v202) := kept3 _ main_v202 (by decide)
    _ = at5 m ρ c (Proc.devRef .tc main_v202) := at6_else m ρ c main_v202 (by decide)

theorem hold_v208_7_9 (c : Dev nD) : at9 m ρ c (Proc.devRef .tc main_v208) = at7 m ρ c (Proc.devRef .tc main_v208) :=
  calc at9 m ρ c (Proc.devRef .tc main_v208)
    _ = at8 m ρ c (Proc.devRef .tc main_v208) := kept4 _ main_v208 (by decide)
    _ = at7 m ρ c (Proc.devRef .tc main_v208) := at8_else m ρ c main_v208 (by decide)

theorem hold_arg10_0_9 (c : Dev nD) : at9 m ρ c (Proc.devRef .tc main_arg10) = at0 m ρ c (Proc.devRef .tc main_arg10) :=
  calc at9 m ρ c (Proc.devRef .tc main_arg10)
    _ = at8 m ρ c (Proc.devRef .tc main_arg10) := kept4 _ main_arg10 (by decide)
    _ = at7 m ρ c (Proc.devRef .tc main_arg10) := at8_else m ρ c main_arg10 (by decide)
    _ = at6 m ρ c (Proc.devRef .tc main_arg10) := kept3 _ main_arg10 (by decide)
    _ = at5 m ρ c (Proc.devRef .tc main_arg10) := at6_else m ρ c main_arg10 (by decide)
    _ = at4 m ρ c (Proc.devRef .tc main_arg10) := kept2 _ main_arg10 (by decide)
    _ = at3 m ρ c (Proc.devRef .tc main_arg10) := at4_else m ρ c main_arg10 (by decide)
    _ = at2 m ρ c (Proc.devRef .tc main_arg10) := kept1 _ main_arg10 (by decide)
    _ = at1 m ρ c (Proc.devRef .tc main_arg10) := at2_else m ρ c main_arg10 (by decide)
    _ = at0 m ρ c (Proc.devRef .tc main_arg10) := kept0 _ main_arg10 (by decide)

end Cert.KernelIdeal.Hand

end
-- ==== Proof.IdealStages.lean ====
/-
  What the kernel program's host stretches compute, buffer by buffer: the contents of the buffers the later steps read,
  as the operations' terms of the stretch's entry contents `W` (and, where a term would grow long, of other buffers of
  the same stretch). Each statement is the stretch's operations read back in order.
-/
import proofs.«166662_j47579647705297_2_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

set_option maxHeartbeats 8000000 in
theorem st0_v8 (W : Valuation τ sig (Elt F)) :
    after (hostOps0 (F := F)) W (Proc.devRef .tc main_v8)
      = Host.divf (mulf (W (Proc.devRef .tc main_arg2)) (broadcastInDim S100000x3 ![0, 1] bcast_S1x3_S100000x3_0_1 (broadcastInDim S1x3 ![1] bcast_S3_S1x3_1 (W (Proc.devRef .tc main_arg3))))) (broadcastInDim S100000x3 ![0, 1] bcast_S100000x1_S100000x3_0_1 (addf (Host.dotGeneral dot_S100000x3_S3x1_S100000x1_1_0_0_1_n_n none (W (Proc.devRef .tc main_arg2)) (broadcastInDim S3x1 ![0] bcast_S3_S3x1_0 (W (Proc.devRef .tc main_arg3)))) (broadcastInDim S100000x1 ![] bcast_S_S100000x1 (constant S_ .f32 0x322BCC77#32)))) := by
  simp only [hostOps0]
  after_results_simp <;> rfl

set_option maxHeartbeats 8000000 in
theorem st0_v22 (W : Valuation τ sig (Elt F)) :
    after (hostOps0 (F := F)) W (Proc.devRef .tc main_v22)
      = Host.scatterAdd scatter_S30000x64_S400000x1_S400000x64_1_0_0_1 (broadcastInDim S30000x64 ![] bcast_S_S30000x64 (constant S_ .f32 0x00000000#32)) (broadcastInDim S400000x1 ![0] bcast_S400000_S400000x1_0 (shapeCast _ (extractStridedSlice S1x400000 ![0, 0] (W (Proc.devRef .tc main_arg13)) slices_S3x400000_S1x400000_0_0) shapeCasts_S1x400000_S400000)) (Host.gather gather_S30000x64_S400000x1_S400000x64_1_0_n_n_0_1_164 (W (Proc.devRef .tc main_arg1)) (broadcastInDim S400000x1 ![0] bcast_S400000_S400000x1_0 (select (cmpi .slt (shapeCast _ (extractStridedSlice S1x400000 ![0, 0] (W (Proc.devRef .tc main_arg14)) slices_S3x400000_S1x400000_0_0) shapeCasts_S1x400000_S400000) (broadcastInDim S400000 ![] bcast_S_S400000 (constantI S_ 32 0#32))) (addi (shapeCast _ (extractStridedSlice S1x400000 ![0, 0] (W (Proc.devRef .tc main_arg14)) slices_S3x400000_S1x400000_0_0) shapeCasts_S1x400000_S400000) (broadcastInDim S400000 ![] bcast_S_S400000 (constantI S_ 32 30000#32))) (shapeCast _ (extractStridedSlice S1x400000 ![0, 0] (W (Proc.devRef .tc main_arg14)) slices_S3x400000_S1x400000_0_0) shapeCasts_S1x400000_S400000)))) := by
  simp only [hostOps0]
  after_results_simp <;> rfl

set_option maxHeartbeats 8000000 in
theorem st0_v36 (W : Valuation τ sig (Elt F)) :
    after (hostOps0 (F := F)) W (Proc.devRef .tc main_v36)
      = Host.scatterAdd scatter_S30000x64_S400000x1_S400000x64_1_0_0_1 (broadcastInDim S30000x64 ![] bcast_S_S30000x64 (constant S_ .f32 0x00000000#32)) (broadcastInDim S400000x1 ![0] bcast_S400000_S400000x1_0 (shapeCast _ (extractStridedSlice S1x400000 ![1, 0] (W (Proc.devRef .tc main_arg13)) slices_S3x400000_S1x400000_1_0) shapeCasts_S1x400000_S400000)) (Host.gather gather_S30000x64_S400000x1_S400000x64_1_0_n_n_0_1_164 (W (Proc.devRef .tc main_arg1)) (broadcastInDim S400000x1 ![0] bcast_S400000_S400000x1_0 (select (cmpi .slt (shapeCast _ (extractStridedSlice S1x400000 ![1, 0] (W (Proc.devRef .tc main_arg14)) slices_S3x400000_S1x400000_1_0) shapeCasts_S1x400000_S400000) (broadcastInDim S400000 ![] bcast_S_S400000 (constantI S_ 32 0#32))) (addi (shapeCast _ (extractStridedSlice S1x400000 ![1, 0] (W (Proc.devRef .tc main_arg14)) slices_S3x400000_S1x400000_1_0) shapeCasts_S1x400000_S400000) (broadcastInDim S400000 ![] bcast_S_S400000 (constantI S_ 32 30000#32))) (shapeCast _ (extractStridedSlice S1x400000 ![1, 0] (W (Proc.devRef .tc main_arg14)) slices_S3x400000_S1x400000_1_0) shapeCasts_S1x400000_S400000)))) := by
  simp only [hostOps0]
  after_results_simp <;> rfl

set_option maxHeartbeats 8000000 in
theorem st0_v50 (W : Valuation τ sig (Elt F)) :
    after (hostOps0 (F := F)) W (Proc.devRef .tc main_v50)
      = Host.scatterAdd scatter_S30000x64_S400000x1_S400000x64_1_0_0_1 (broadcastInDim S30000x64 ![] bcast_S_S30000x64 (constant S_ .f32 0x00000000#32)) (broadcastInDim S400000x1 ![0] bcast_S400000_S400000x1_0 (shapeCast _ (extractStridedSlice S1x400000 ![2, 0] (W (Proc.devRef .tc main_arg13)) slices_S3x400000_S1x400000_2_0) shapeCasts_S1x400000_S400000)) (Host.gather gather_S30000x64_S400000x1_S400000x64_1_0_n_n_0_1_164 (W (Proc.devRef .tc main_arg1)) (broadcastInDim S400000x1 ![0] bcast_S400000_S400000x1_0 (select (cmpi .slt (shapeCast _ (extractStridedSlice S1x400000 ![2, 0] (W (Proc.devRef .tc main_arg14)) slices_S3x400000_S1x400000_2_0) shapeCasts_S1x400000_S400000) (broadcastInDim S400000 ![] bcast_S_S400000 (constantI S_ 32 0#32))) (addi (shapeCast _ (extractStridedSlice S1x400000 ![2, 0] (W (Proc.devRef .tc main_arg14)) slices_S3x400000_S1x400000_2_0) shapeCasts_S1x400000_S400000) (broadcastInDim S400000 ![] bcast_S_S400000 (constantI S_ 32 30000#32))) (shapeCast _ (extractStridedSlice S1x400000 ![2, 0] (W (Proc.devRef .tc main_arg14)) slices_S3x400000_S1x400000_2_0) shapeCasts_S1x400000_S400000)))) := by
  simp only [hostOps0]
  after_results_simp <;> rfl

set_option maxHeartbeats 8000000 in
theorem st0_v54 (W : Valuation τ sig (Elt F)) :
    after (hostOps0 (F := F)) W (Proc.devRef .tc main_v54)
      = concatenate S3x30000x64 0 [⟨S1x30000x64, (broadcastInDim S1x30000x64 ![1, 2] bcast_S30000x64_S1x30000x64_1_2 (after (hostOps0 (F := F)) W (Proc.devRef .tc main_v22)))⟩, ⟨S1x30000x64, (broadcastInDim S1x30000x64 ![1, 2] bcast_S30000x64_S1x30000x64_1_2 (after (hostOps0 (F := F)) W (Proc.devRef .tc main_v36)))⟩, ⟨S1x30000x64, (broadcastInDim S1x30000x64 ![1, 2] bcast_S30000x64_S1x30000x64_1_2 (after (hostOps0 (F := F)) W (Proc.devRef .tc main_v50)))⟩] concatenates_S1x30000x64_S1x30000x64_S1x30000x64_S3x30000x64_d0 := by
  simp only [hostOps0]
  after_results_simp <;> rfl

set_option maxHeartbeats 8000000 in
theorem st1_v58 (W : Valuation τ sig (Elt F)) :
    after (hostOps1 (F := F)) W (Proc.devRef .tc main_v58)
      = concatenate S3x30000x128 2 [⟨S3x30000x64, (broadcastInDim S3x30000x64 ![0, 1, 2] bcast_S1x30000x64_S3x30000x64_0_1_2 (broadcastInDim S1x30000x64 ![1, 2] bcast_S30000x64_S1x30000x64_1_2 (W (Proc.devRef .tc main_arg1))))⟩, ⟨S3x30000x64, (W (Proc.devRef .tc main_v55))⟩] concatenates_S3x30000x64_S3x30000x64_S3x30000x128_d2 := by
  simp only [hostOps1]
  after_results_simp <;> rfl

set_option maxHeartbeats 8000000 in
theorem st1_v106 (W : Valuation τ sig (Elt F)) :
    after (hostOps1 (F := F)) W (Proc.devRef .tc main_v106)
      = shapeCast _ (extractStridedSlice S1x30000x128 ![0, 0, 0] (after (hostOps1 (F := F)) W (Proc.devRef .tc main_v58)) slices_S3x30000x128_S1x30000x128_0_0_0) shapeCasts_S1x30000x128_S30000x128 := by
  simp only [hostOps1]
  after_results_simp <;> rfl

set_option maxHeartbeats 8000000 in
theorem st1_v122 (W : Valuation τ sig (Elt F)) :
    after (hostOps1 (F := F)) W (Proc.devRef .tc main_v122)
      = shapeCast _ (extractStridedSlice S1x30000x128 ![1, 0, 0] (after (hostOps1 (F := F)) W (Proc.devRef .tc main_v58)) slices_S3x30000x128_S1x30000x128_1_0_0) shapeCasts_S1x30000x128_S30000x128 := by
  simp only [hostOps1]
  after_results_simp <;> rfl

set_option maxHeartbeats 8000000 in
theorem st1_v138 (W : Valuation τ sig (Elt F)) :
    after (hostOps1 (F := F)) W (Proc.devRef .tc main_v138)
      = shapeCast _ (extractStridedSlice S1x30000x128 ![2, 0, 0] (after (hostOps1 (F := F)) W (Proc.devRef .tc main_v58)) slices_S3x30000x128_S1x30000x128_2_0_0) shapeCasts_S1x30000x128_S30000x128 := by
  simp only [hostOps1]
  after_results_simp <;> rfl

set_option maxHeartbeats 8000000 in
theorem st1_v72 (W : Valuation τ sig (Elt F)) :
    after (hostOps1 (F := F)) W (Proc.devRef .tc main_v72)
      = Host.scatterAdd scatter_S100000x64_S500000x1_S500000x64_1_0_0_1 (broadcastInDim S100000x64 ![] bcast_S_S100000x64 (constant S_ .f32 0x00000000#32)) (broadcastInDim S500000x1 ![0] bcast_S500000_S500000x1_0 (shapeCast _ (extractStridedSlice S1x500000 ![0, 0] (W (Proc.devRef .tc main_arg11)) slices_S3x500000_S1x500000_0_0) shapeCasts_S1x500000_S500000)) (Host.gather gather_S30000x64_S500000x1_S500000x64_1_0_n_n_0_1_164 (W (Proc.devRef .tc main_arg1)) (broadcastInDim S500000x1 ![0] bcast_S500000_S500000x1_0 (select (cmpi .slt (shapeCast _ (extractStridedSlice S1x500000 ![0, 0] (W (Proc.devRef .tc main_arg12)) slices_S3x500000_S1x500000_0_0) shapeCasts_S1x500000_S500000) (broadcastInDim S500000 ![] bcast_S_S500000 (constantI S_ 32 0#32))) (addi (shapeCast _ (extractStridedSlice S1x500000 ![0, 0] (W (Proc.devRef .tc main_arg12)) slices_S3x500000_S1x500000_0_0) shapeCasts_S1x500000_S500000) (broadcastInDim S500000 ![] bcast_S_S500000 (constantI S_ 32 30000#32))) (shapeCast _ (extractStridedSlice S1x500000 ![0, 0] (W (Proc.devRef .tc main_arg12)) slices_S3x500000_S1x500000_0_0) shapeCasts_S1x500000_S500000)))) := by
  simp only [hostOps1]
  after_results_simp <;> rfl

set_option maxHeartbeats 8000000 in
theorem st1_v86 (W : Valuation τ sig (Elt F)) :
    after (hostOps1 (F := F)) W (Proc.devRef .tc main_v86)
      = Host.scatterAdd scatter_S100000x64_S500000x1_S500000x64_1_0_0_1 (broadcastInDim S100000x64 ![] bcast_S_S100000x64 (constant S_ .f32 0x00000000#32)) (broadcastInDim S500000x1 ![0] bcast_S500000_S500000x1_0 (shapeCast _ (extractStridedSlice S1x500000 ![1, 0] (W (Proc.devRef .tc main_arg11)) slices_S3x500000_S1x500000_1_0) shapeCasts_S1x500000_S500000)) (Host.gather gather_S30000x64_S500000x1_S500000x64_1_0_n_n_0_1_164 (W (Proc.devRef .tc main_arg1)) (broadcastInDim S500000x1 ![0] bcast_S500000_S500000x1_0 (select (cmpi .slt (shapeCast _ (extractStridedSlice S1x500000 ![1, 0] (W (Proc.devRef .tc main_arg12)) slices_S3x500000_S1x500000_1_0) shapeCasts_S1x500000_S500000) (broadcastInDim S500000 ![] bcast_S_S500000 (constantI S_ 32 0#32))) (addi (shapeCast _ (extractStridedSlice S1x500000 ![1, 0] (W (Proc.devRef .tc main_arg12)) slices_S3x500000_S1x500000_1_0) shapeCasts_S1x500000_S500000) (broadcastInDim S500000 ![] bcast_S_S500000 (constantI S_ 32 30000#32))) (shapeCast _ (extractStridedSlice S1x500000 ![1, 0] (W (Proc.devRef .tc main_arg12)) slices_S3x500000_S1x500000_1_0) shapeCasts_S1x500000_S500000)))) := by
  simp only [hostOps1]
  after_results_simp <;> rfl

set_option maxHeartbeats 8000000 in
theorem st1_v100 (W : Valuation τ sig (Elt F)) :
    after (hostOps1 (F := F)) W (Proc.devRef .tc main_v100)
      = Host.scatterAdd scatter_S100000x64_S500000x1_S500000x64_1_0_0_1 (broadcastInDim S100000x64 ![] bcast_S_S100000x64 (constant S_ .f32 0x00000000#32)) (broadcastInDim S500000x1 ![0] bcast_S500000_S500000x1_0 (shapeCast _ (extractStridedSlice S1x500000 ![2, 0] (W (Proc.devRef .tc main_arg11)) slices_S3x500000_S1x500000_2_0) shapeCasts_S1x500000_S500000)) (Host.gather gather_S30000x64_S500000x1_S500000x64_1_0_n_n_0_1_164 (W (Proc.devRef .tc main_arg1)) (broadcastInDim S500000x1 ![0] bcast_S500000_S500000x1_0 (select (cmpi .slt (shapeCast _ (extractStridedSlice S1x500000 ![2, 0] (W (Proc.devRef .tc main_arg12)) slices_S3x500000_S1x500000_2_0) shapeCasts_S1x500000_S500000) (broadcastInDim S500000 ![] bcast_S_S500000 (constantI S_ 32 0#32))) (addi (shapeCast _ (extractStridedSlice S1x500000 ![2, 0] (W (Proc.devRef .tc main_arg12)) slices_S3x500000_S1x500000_2_0) shapeCasts_S1x500000_S500000) (broadcastInDim S500000 ![] bcast_S_S500000 (constantI S_ 32 30000#32))) (shapeCast _ (extractStridedSlice S1x500000 ![2, 0] (W (Proc.devRef .tc main_arg12)) slices_S3x500000_S1x500000_2_0) shapeCasts_S1x500000_S500000)))) := by
  simp only [hostOps1]
  after_results_simp <;> rfl

set_option maxHeartbeats 8000000 in
theorem st1_v120 (W : Valuation τ sig (Elt F)) :
    after (hostOps1 (F := F)) W (Proc.devRef .tc main_v120)
      = Host.scatterAdd scatter_S100000x128_S500000x1_S500000x128_1_0_0_1 (broadcastInDim S100000x128 ![] bcast_S_S100000x128 (constant S_ .f32 0x00000000#32)) (broadcastInDim S500000x1 ![0] bcast_S500000_S500000x1_0 (shapeCast _ (extractStridedSlice S1x500000 ![0, 0] (W (Proc.devRef .tc main_arg11)) slices_S3x500000_S1x500000_0_0) shapeCasts_S1x500000_S500000)) (Host.gather gather_S30000x128_S500000x1_S500000x128_1_0_n_n_0_1_1128 (after (hostOps1 (F := F)) W (Proc.devRef .tc main_v106)) (broadcastInDim S500000x1 ![0] bcast_S500000_S500000x1_0 (select (cmpi .slt (shapeCast _ (extractStridedSlice S1x500000 ![0, 0] (W (Proc.devRef .tc main_arg12)) slices_S3x500000_S1x500000_0_0) shapeCasts_S1x500000_S500000) (broadcastInDim S500000 ![] bcast_S_S500000 (constantI S_ 32 0#32))) (addi (shapeCast _ (extractStridedSlice S1x500000 ![0, 0] (W (Proc.devRef .tc main_arg12)) slices_S3x500000_S1x500000_0_0) shapeCasts_S1x500000_S500000) (broadcastInDim S500000 ![] bcast_S_S500000 (constantI S_ 32 30000#32))) (shapeCast _ (extractStridedSlice S1x500000 ![0, 0] (W (Proc.devRef .tc main_arg12)) slices_S3x500000_S1x500000_0_0) shapeCasts_S1x500000_S500000)))) := by
  simp only [hostOps1]
  after_results_simp <;> rfl

set_option maxHeartbeats 8000000 in
theorem st1_v136 (W : Valuation τ sig (Elt F)) :
    after (hostOps1 (F := F)) W (Proc.devRef .tc main_v136)
      = Host.scatterAdd scatter_S100000x128_S500000x1_S500000x128_1_0_0_1 (broadcastInDim S100000x128 ![] bcast_S_S100000x128 (constant S_ .f32 0x00000000#32)) (broadcastInDim S500000x1 ![0] bcast_S500000_S500000x1_0 (shapeCast _ (extractStridedSlice S1x500000 ![1, 0] (W (Proc.devRef .tc main_arg11)) slices_S3x500000_S1x500000_1_0) shapeCasts_S1x500000_S500000)) (Host.gather gather_S30000x128_S500000x1_S500000x128_1_0_n_n_0_1_1128 (after (hostOps1 (F := F)) W (Proc.devRef .tc main_v122)) (broadcastInDim S500000x1 ![0] bcast_S500000_S500000x1_0 (select (cmpi .slt (shapeCast _ (extractStridedSlice S1x500000 ![1, 0] (W (Proc.devRef .tc main_arg12)) slices_S3x500000_S1x500000_1_0) shapeCasts_S1x500000_S500000) (broadcastInDim S500000 ![] bcast_S_S500000 (constantI S_ 32 0#32))) (addi (shapeCast _ (extractStridedSlice S1x500000 ![1, 0] (W (Proc.devRef .tc main_arg12)) slices_S3x500000_S1x500000_1_0) shapeCasts_S1x500000_S500000) (broadcastInDim S500000 ![] bcast_S_S500000 (constantI S_ 32 30000#32))) (shapeCast _ (extractStridedSlice S1x500000 ![1, 0] (W (Proc.devRef .tc main_arg12)) slices_S3x500000_S1x500000_1_0) shapeCasts_S1x500000_S500000)))) := by
  simp only [hostOps1]
  after_results_simp <;> rfl

set_option maxHeartbeats 8000000 in
theorem st1_v152 (W : Valuation τ sig (Elt F)) :
    after (hostOps1 (F := F)) W (Proc.devRef .tc main_v152)
      = Host.scatterAdd scatter_S100000x128_S500000x1_S500000x128_1_0_0_1 (broadcastInDim S100000x128 ![] bcast_S_S100000x128 (constant S_ .f32 0x00000000#32)) (broadcastInDim S500000x1 ![0] bcast_S500000_S500000x1_0 (shapeCast _ (extractStridedSlice S1x500000 ![2, 0] (W (Proc.devRef .tc main_arg11)) slices_S3x500000_S1x500000_2_0) shapeCasts_S1x500000_S500000)) (Host.gather gather_S30000x128_S500000x1_S500000x128_1_0_n_n_0_1_1128 (after (hostOps1 (F := F)) W (Proc.devRef .tc main_v138)) (broadcastInDim S500000x1 ![0] bcast_S500000_S500000x1_0 (select (cmpi .slt (shapeCast _ (extractStridedSlice S1x500000 ![2, 0] (W (Proc.devRef .tc main_arg12)) slices_S3x500000_S1x500000_2_0) shapeCasts_S1x500000_S500000) (broadcastInDim S500000 ![] bcast_S_S500000 (constantI S_ 32 0#32))) (addi (shapeCast _ (extractStridedSlice S1x500000 ![2, 0] (W (Proc.devRef .tc main_arg12)) slices_S3x500000_S1x500000_2_0) shapeCasts_S1x500000_S500000) (broadcastInDim S500000 ![] bcast_S_S500000 (constantI S_ 32 30000#32))) (shapeCast _ (extractStridedSlice S1x500000 ![2, 0] (W (Proc.devRef .tc main_arg12)) slices_S3x500000_S1x500000_2_0) shapeCasts_S1x500000_S500000)))) := by
  simp only [hostOps1]
  after_results_simp <;> rfl

set_option maxHeartbeats 8000000 in
theorem st1_v160 (W : Valuation τ sig (Elt F)) :
    after (hostOps1 (F := F)) W (Proc.devRef .tc main_v160)
      = addf (broadcastInDim S3x100000x1 ![0, 1] bcast_S3x100000_S3x100000x1_0_1 (transpose S3x100000 [1, 0] (W (Proc.devRef .tc main_arg2)) transposes_S100000x3_S3x100000_1_0)) (broadcastInDim S3x100000x1 ![] bcast_S_S3x100000x1 (constant S_ .f32 0x322BCC77#32)) := by
  simp only [hostOps1]
  after_results_simp <;> rfl

set_option maxHeartbeats 8000000 in
theorem st1_v162 (W : Valuation τ sig (Elt F)) :
    after (hostOps1 (F := F)) W (Proc.devRef .tc main_v162)
      = Host.divf (concatenate S3x100000x64 0 [⟨S1x100000x64, (broadcastInDim S1x100000x64 ![1, 2] bcast_S100000x64_S1x100000x64_1_2 (after (hostOps1 (F := F)) W (Proc.devRef .tc main_v72)))⟩, ⟨S1x100000x64, (broadcastInDim S1x100000x64 ![1, 2] bcast_S100000x64_S1x100000x64_1_2 (after (hostOps1 (F := F)) W (Proc.devRef .tc main_v86)))⟩, ⟨S1x100000x64, (broadcastInDim S1x100000x64 ![1, 2] bcast_S100000x64_S1x100000x64_1_2 (after (hostOps1 (F := F)) W (Proc.devRef .tc main_v100)))⟩] concatenates_S1x100000x64_S1x100000x64_S1x100000x64_S3x100000x64_d0) (broadcastInDim S3x100000x64 ![0, 1, 2] bcast_S3x100000x1_S3x100000x64_0_1_2 (after (hostOps1 (F := F)) W (Proc.devRef .tc main_v160))) := by
  simp only [hostOps1]
  after_results_simp <;> rfl

set_option maxHeartbeats 8000000 in
theorem st1_v164 (W : Valuation τ sig (Elt F)) :
    after (hostOps1 (F := F)) W (Proc.devRef .tc main_v164)
      = Host.divf (concatenate S3x100000x128 0 [⟨S1x100000x128, (broadcastInDim S1x100000x128 ![1, 2] bcast_S100000x128_S1x100000x128_1_2 (after (hostOps1 (F := F)) W (Proc.devRef .tc main_v120)))⟩, ⟨S1x100000x128, (broadcastInDim S1x100000x128 ![1, 2] bcast_S100000x128_S1x100000x128_1_2 (after (hostOps1 (F := F)) W (Proc.devRef .tc main_v136)))⟩, ⟨S1x100000x128, (broadcastInDim S1x100000x128 ![1, 2] bcast_S100000x128_S1x100000x128_1_2 (after (hostOps1 (F := F)) W (Proc.devRef .tc main_v152)))⟩] concatenates_S1x100000x128_S1x100000x128_S1x100000x128_S3x100000x128_d0) (broadcastInDim S3x100000x128 ![0, 1, 2] bcast_S3x100000x1_S3x100000x128_0_1_2 (after (hostOps1 (F := F)) W (Proc.devRef .tc main_v160))) := by
  simp only [hostOps1]
  after_results_simp <;> rfl

set_option maxHeartbeats 8000000 in
theorem st1_v169 (W : Valuation τ sig (Elt F)) :
    after (hostOps1 (F := F)) W (Proc.devRef .tc main_v169)
      = Host.reduceAdd (mulf (broadcastInDim S3x100000x64 ![0, 1, 2] bcast_S3x100000x1_S3x100000x64_0_1_2 (broadcastInDim S3x100000x1 ![0, 1] bcast_S3x100000_S3x100000x1_0_1 (transpose S3x100000 [1, 0] (W (Proc.devRef .tc main_v8)) transposes_S100000x3_S3x100000_1_0))) (after (hostOps1 (F := F)) W (Proc.devRef .tc main_v162))) (constant S_ .f32 0x00000000#32) reducesTo_S3x100000x64_S100000x64_d0 h_S_ := by
  simp only [hostOps1]
  after_results_simp <;> rfl

set_option maxHeartbeats 8000000 in
theorem st2_v177 (W : Valuation τ sig (Elt F)) :
    after (hostOps2 (F := F)) W (Proc.devRef .tc main_v177)
      = Host.gather gather_S3x30000x128_S2048x20x1_S3x2048x20x128_03_1_n_n_1_2_31128 (W (Proc.devRef .tc main_v58)) (broadcastInDim S2048x20x1 ![0, 1] bcast_S2048x20_S2048x20x1_0_1 (select (cmpi .slt (W (Proc.devRef .tc main_arg18)) (broadcastInDim S2048x20 ![] bcast_S_S2048x20 (constantI S_ 32 0#32))) (addi (W (Proc.devRef .tc main_arg18)) (broadcastInDim S2048x20 ![] bcast_S_S2048x20 (constantI S_ 32 30000#32))) (W (Proc.devRef .tc main_arg18)))) := by
  simp only [hostOps2]
  after_results_simp <;> rfl

set_option maxHeartbeats 8000000 in
theorem st2_v178 (W : Valuation τ sig (Elt F)) :
    after (hostOps2 (F := F)) W (Proc.devRef .tc main_v178)
      = shapeCast _ (W (Proc.devRef .tc main_arg17)) shapeCasts_S2048x1_S2048 := by
  simp only [hostOps2]
  after_results_simp <;> rfl

set_option maxHeartbeats 8000000 in
theorem st2_v185 (W : Valuation τ sig (Elt F)) :
    after (hostOps2 (F := F)) W (Proc.devRef .tc main_v185)
      = Host.gather gather_S3x100000x128_S2048x1_S3x2048x128_02_1_n_n_1_1_31128 (W (Proc.devRef .tc main_v170)) (broadcastInDim S2048x1 ![0] bcast_S2048_S2048x1_0 (select (cmpi .slt (after (hostOps2 (F := F)) W (Proc.devRef .tc main_v178)) (broadcastInDim S2048 ![] bcast_S_S2048 (constantI S_ 32 0#32))) (addi (after (hostOps2 (F := F)) W (Proc.devRef .tc main_v178)) (broadcastInDim S2048 ![] bcast_S_S2048 (constantI S_ 32 100000#32))) (after (hostOps2 (F := F)) W (Proc.devRef .tc main_v178)))) := by
  simp only [hostOps2]
  after_results_simp <;> rfl

set_option maxHeartbeats 8000000 in
theorem st2_v190 (W : Valuation τ sig (Elt F)) :
    after (hostOps2 (F := F)) W (Proc.devRef .tc main_v190)
      = Host.reduceAdd (Host.reduceAdd (mulf (broadcastInDim S3x2048x20x128 ![0, 1, 2, 3] bcast_S3x2048x1x128_S3x2048x20x128_0_1_2_3 (broadcastInDim S3x2048x1x128 ![0, 1, 3] bcast_S3x2048x128_S3x2048x1x128_0_1_3 (after (hostOps2 (F := F)) W (Proc.devRef .tc main_v185)))) (after (hostOps2 (F := F)) W (Proc.devRef .tc main_v177))) (constant S_ .f32 0x00000000#32) reducesTo_S3x2048x20x128_S3x2048x20_d3 h_S_) (constant S_ .f32 0x00000000#32) reducesTo_S3x2048x20_S2048x20_d0 h_S_ := by
  simp only [hostOps2]
  after_results_simp <;> rfl

set_option maxHeartbeats 8000000 in
theorem st2_v192 (W : Valuation τ sig (Elt F)) :
    after (hostOps2 (F := F)) W (Proc.devRef .tc main_v192)
      = Host.divf (after (hostOps2 (F := F)) W (Proc.devRef .tc main_v190)) (broadcastInDim S2048x20 ![] bcast_S_S2048x20 (constant S_ .f32 0x40400000#32)) := by
  simp only [hostOps2]
  after_results_simp <;> rfl

set_option maxHeartbeats 8000000 in
theorem st2_v202 (W : Valuation τ sig (Elt F)) :
    after (hostOps2 (F := F)) W (Proc.devRef .tc main_v202)
      = Host.scatterAdd scatter_S30000x64_S1000000x1_S1000000x64_1_0_0_1 (broadcastInDim S30000x64 ![] bcast_S_S30000x64 (constant S_ .f32 0x00000000#32)) (broadcastInDim S1000000x1 ![0] bcast_S1000000_S1000000x1_0 (W (Proc.devRef .tc main_arg16))) (Host.gather gather_S100000x64_S1000000x1_S1000000x64_1_0_n_n_0_1_164 (W (Proc.devRef .tc main_arg0)) (broadcastInDim S1000000x1 ![0] bcast_S1000000_S1000000x1_0 (select (cmpi .slt (W (Proc.devRef .tc main_arg15)) (broadcastInDim S1000000 ![] bcast_S_S1000000 (constantI S_ 32 0#32))) (addi (W (Proc.devRef .tc main_arg15)) (broadcastInDim S1000000 ![] bcast_S_S1000000 (constantI S_ 32 100000#32))) (W (Proc.devRef .tc main_arg15))))) := by
  simp only [hostOps2]
  after_results_simp <;> rfl

set_option maxHeartbeats 8000000 in
theorem st2_v203 (W : Valuation τ sig (Elt F)) :
    after (hostOps2 (F := F)) W (Proc.devRef .tc main_v203)
      = concatenate S64x192 1 [⟨S64x64, (W (Proc.devRef .tc main_arg7))⟩, ⟨S64x128, (W (Proc.devRef .tc main_arg8))⟩] concatenates_S64x64_S64x128_S64x192_d1 := by
  simp only [hostOps2]
  after_results_simp <;> rfl

set_option maxHeartbeats 8000000 in
theorem st3_v208 (W : Valuation τ sig (Elt F)) :
    after (hostOps3 (F := F)) W (Proc.devRef .tc main_v208)
      = addf (concatenate S100000x128 1 [⟨S100000x64, (W (Proc.devRef .tc main_arg0))⟩, ⟨S100000x64, (extractStridedSlice S100000x64 ![0, 0] (W (Proc.devRef .tc main_v204)) slices_S100000x192_S100000x64_0_0)⟩] concatenates_S100000x64_S100000x64_S100000x128_d1) (extractStridedSlice S100000x128 ![0, 64] (W (Proc.devRef .tc main_v204)) slices_S100000x192_S100000x128_0_64) := by
  simp only [hostOps3]
  after_results_simp <;> rfl

set_option maxHeartbeats 8000000 in
theorem st3_v209 (W : Valuation τ sig (Elt F)) :
    after (hostOps3 (F := F)) W (Proc.devRef .tc main_v209)
      = concatenate S64x192 1 [⟨S64x64, (W (Proc.devRef .tc main_arg7))⟩, ⟨S64x128, (W (Proc.devRef .tc main_arg9))⟩] concatenates_S64x64_S64x128_S64x192_d1 := by
  simp only [hostOps3]
  after_results_simp <;> rfl

set_option maxHeartbeats 8000000 in
theorem st4_v214 (W : Valuation τ sig (Elt F)) :
    after (hostOps4 (F := F)) W (Proc.devRef .tc main_v214)
      = addf (concatenate S30000x128 1 [⟨S30000x64, (W (Proc.devRef .tc main_arg1))⟩, ⟨S30000x64, (extractStridedSlice S30000x64 ![0, 0] (W (Proc.devRef .tc main_v210)) slices_S30000x192_S30000x64_0_0)⟩] concatenates_S30000x64_S30000x64_S30000x128_d1) (extractStridedSlice S30000x128 ![0, 64] (W (Proc.devRef .tc main_v210)) slices_S30000x192_S30000x128_0_64) := by
  simp only [hostOps4]
  after_results_simp <;> rfl

set_option maxHeartbeats 8000000 in
theorem st4_v221 (W : Valuation τ sig (Elt F)) :
    after (hostOps4 (F := F)) W (Proc.devRef .tc main_v221)
      = Host.gather gather_S100000x128_S2048x1_S2048x128_1_0_n_n_0_1_1128 (W (Proc.devRef .tc main_v208)) (broadcastInDim S2048x1 ![0] bcast_S2048_S2048x1_0 (select (cmpi .slt (W (Proc.devRef .tc main_v178)) (broadcastInDim S2048 ![] bcast_S_S2048 (constantI S_ 32 0#32))) (addi (W (Proc.devRef .tc main_v178)) (broadcastInDim S2048 ![] bcast_S_S2048 (constantI S_ 32 100000#32))) (W (Proc.devRef .tc main_v178)))) := by
  simp only [hostOps4]
  after_results_simp <;> rfl

set_option maxHeartbeats 8000000 in
theorem st4_v223 (W : Valuation τ sig (Elt F)) :
    after (hostOps4 (F := F)) W (Proc.devRef .tc main_v223)
      = broadcastInDim S2048x20x128 ![0, 1, 2] bcast_S2048x1x128_S2048x20x128_0_1_2 (broadcastInDim S2048x1x128 ![0, 2] bcast_S2048x128_S2048x1x128_0_2 (after (hostOps4 (F := F)) W (Proc.devRef .tc main_v221))) := by
  simp only [hostOps4]
  after_results_simp <;> rfl

set_option maxHeartbeats 8000000 in
theorem st4_v230 (W : Valuation τ sig (Elt F)) :
    after (hostOps4 (F := F)) W (Proc.devRef .tc main_v230)
      = Host.gather gather_S30000x128_S2048x20x1_S2048x20x128_2_0_n_n_0_2_1128 (after (hostOps4 (F := F)) W (Proc.devRef .tc main_v214)) (broadcastInDim S2048x20x1 ![0, 1] bcast_S2048x20_S2048x20x1_0_1 (select (cmpi .slt (W (Proc.devRef .tc main_arg18)) (broadcastInDim S2048x20 ![] bcast_S_S2048x20 (constantI S_ 32 0#32))) (addi (W (Proc.devRef .tc main_arg18)) (broadcastInDim S2048x20 ![] bcast_S_S2048x20 (constantI S_ 32 30000#32))) (W (Proc.devRef .tc main_arg18)))) := by
  simp only [hostOps4]
  after_results_simp <;> rfl

set_option maxHeartbeats 8000000 in
theorem st4_v232 (W : Valuation τ sig (Elt F)) :
    after (hostOps4 (F := F)) W (Proc.devRef .tc main_v232)
      = Host.reduceAdd (mulf (after (hostOps4 (F := F)) W (Proc.devRef .tc main_v223)) (after (hostOps4 (F := F)) W (Proc.devRef .tc main_v230))) (constant S_ .f32 0x00000000#32) reducesTo_S2048x20x128_S2048x20_d2 h_S_ := by
  simp only [hostOps4]
  after_results_simp <;> rfl

set_option maxHeartbeats 8000000 in
theorem st5_v240 (W : Valuation τ sig (Elt F)) :
    after (hostOps5 (F := F)) W (Proc.devRef .tc main_v240)
      = Host.gather gather_S100000x1_S2048x1_S2048x1_1_0_n_n_0_1_11 (W (Proc.devRef .tc main_v233)) (broadcastInDim S2048x1 ![0] bcast_S2048_S2048x1_0 (select (cmpi .slt (W (Proc.devRef .tc main_v178)) (broadcastInDim S2048 ![] bcast_S_S2048 (constantI S_ 32 0#32))) (addi (W (Proc.devRef .tc main_v178)) (broadcastInDim S2048 ![] bcast_S_S2048 (constantI S_ 32 100000#32))) (W (Proc.devRef .tc main_v178)))) := by
  simp only [hostOps5]
  after_results_simp <;> rfl

set_option maxHeartbeats 8000000 in
theorem st5_v246 (W : Valuation τ sig (Elt F)) :
    after (hostOps5 (F := F)) W (Proc.devRef .tc main_v246)
      = Host.divf (broadcastInDim S2048x1 ![] bcast_S_S2048x1 (constant S_ .f32 0x3F800000#32)) (addf (broadcastInDim S2048x1 ![] bcast_S_S2048x1 (constant S_ .f32 0x3F800000#32)) (Host.exp (Host.negf (after (hostOps5 (F := F)) W (Proc.devRef .tc main_v240))))) := by
  simp only [hostOps5]
  after_results_simp <;> rfl

set_option maxHeartbeats 8000000 in
theorem st5_v253 (W : Valuation τ sig (Elt F)) :
    after (hostOps5 (F := F)) W (Proc.devRef .tc main_v253)
      = addf (mulf (W (Proc.devRef .tc main_v232)) (broadcastInDim S2048x20 ![0, 1] bcast_S2048x1_S2048x20_0_1 (after (hostOps5 (F := F)) W (Proc.devRef .tc main_v246)))) (mulf (W (Proc.devRef .tc main_v192)) (broadcastInDim S2048x20 ![0, 1] bcast_S2048x1_S2048x20_0_1 (subf (broadcastInDim S2048x1 ![] bcast_S_S2048x1 (constant S_ .f32 0x3F800000#32)) (after (hostOps5 (F := F)) W (Proc.devRef .tc main_v246))))) := by
  simp only [hostOps5]
  after_results_simp <;> rfl

set_option maxHeartbeats 8000000 in
theorem st5_v259 (W : Valuation τ sig (Elt F)) :
    after (hostOps5 (F := F)) W (Proc.devRef .tc main_v259)
      = mulf (constant S_ .f32 0x38D1B717#32) (addf (Host.reduceAdd (mulf (W (Proc.devRef .tc main_v223)) (W (Proc.devRef .tc main_v223))) (constant S_ .f32 0x00000000#32) reducesTo_S2048x20x128_S_d0_1_2 h_S_) (Host.reduceAdd (mulf (W (Proc.devRef .tc main_v230)) (W (Proc.devRef .tc main_v230))) (constant S_ .f32 0x00000000#32) reducesTo_S2048x20x128_S_d0_1_2 h_S_)) := by
  simp only [hostOps5]
  after_results_simp <;> rfl

end Cert.KernelIdeal.Hand

end
-- ==== Proof.LibDot2.lean ====
/-
  Two matrix products read at an index, at the ideal values, for any extents and any well-formedness witness of the
  dimension numbers: an accelerator matrix product into a zero accumulator of an [M,K] by a [K,N] array, and a host
  `dot_general` of an [M,K] by an [N,K] array contracted on both last axes, are both the plain sum over the contracted
  coordinate of the products of the entries.
-/
import Idealize.ShloMosaic.PureOps.Ideal.Laws
import Idealize.ShloMosaic.Lib.ValueIdx

noncomputable section

open scoped BigOperators

namespace Cert.LibDot2

open Idealize.ShloMosaic Idealize.ShloMosaic.ValueIdx

variable {M K N : Nat} {φ₁ φ₂ : FTy}

/-- An [M,K] by [K,N] matrix product accumulated into zeros: entry (a, b) is `∑ c, A (a, c) · B (c, b)`. -/
theorem matmul_zero_apply (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims ⟨2, ![M, K]⟩ ⟨2, ![K, N]⟩ ⟨2, ![M, N]⟩) prec A B
        (constant ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A host `dot_general` of an [M,K] by an [N,K] array, both contracted on their last axis: entry (a, b) is
    `∑ c, A (a, c) · B (b, c)`. -/
theorem dotGeneral_nt_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    Host.dotGeneral (⟨[1], [1], [0], [0], [], [], w⟩ : DotDims ⟨2, ![M, K]⟩ ⟨2, ![N, K]⟩ ⟨2, ![M, N]⟩) prec A B (ix2 a b)
      = ∑ c : Fin K, A (ix2 a c) * B (ix2 b c) := by
  show FloatOps.dotGeneral _ prec _ A B (ix2 a b) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun c _ => ?_
  have c2 := contrEquiv1_symm_val (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.LibDot2

end
-- ==== Proof.LibDotNN.lean ====
/-
  The host's plain matrix product read at an index, and its agreement with the accelerator's at the ideal values.
  For an [M,K] array A and a [K,N] array B (any extents, any well-formedness witness of the dimension numbers):
  the host `dot_general` contracting A's second axis with B's first has entry (a, b) = ∑ c, A (a, c) · B (c, b);
  the accelerator product of the two operands, each first rounded to a narrower float format, accumulated into
  zeros, is the same array — a change of float format is the identity on the extended reals, a zero accumulator
  adds nothing, and both products are the one finite sum over the contracted coordinate.
-/
import Idealize.ShloMosaic.PureOps.Ideal.Laws
import Idealize.ShloMosaic.Lib.ValueIdx
import proofs.«166662_j47579647705297_2_alg».proof.Proof.LibDot2

noncomputable section

open scoped BigOperators

namespace Cert.LibDotNN

open Idealize.ShloMosaic Idealize.ShloMosaic.ValueIdx

variable {M K N : Nat} {φ₁ φ₂ : FTy}

/-- A host `dot_general` of an [M,K] by a [K,N] array, the first contracted on its last axis and the second on its
    first: entry (a, b) is `∑ c, A (a, c) · B (c, b)`. -/
theorem dotGeneral_nn_apply (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (⟨[1], [0], [0], [1], [], [], w⟩ : DotDims ⟨2, ![M, K]⟩ ⟨2, ![K, N]⟩ ⟨2, ![M, N]⟩) prec A B (ix2 a b)
      = ∑ c : Fin K, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The same at any index `j` of the result: the row is `j`'s first coordinate, the column its second. -/
theorem dotGeneral_nn_apply_idx (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (j : (⟨2, ![M, N]⟩ : Shape).Idx) :
    Host.dotGeneral (⟨[1], [0], [0], [1], [], [], w⟩ : DotDims ⟨2, ![M, K]⟩ ⟨2, ![K, N]⟩ ⟨2, ![M, N]⟩) prec A B j
      = ∑ c : Fin K, A (ix2 (j 0) c) * B (ix2 c (j 1)) := by
  have h := dotGeneral_nn_apply w prec A B (j 0) (j 1)
  have e : j = ix2 (j 0) (j 1) := eq_ix2 j
  conv_lhs => rw [e]
  exact h

/-- The accelerator product of the two operands rounded to a narrower format, into a zero accumulator, read at
    (a, b): the sum of the products of the UNROUNDED entries. -/
theorem matmul_rounded_apply (w : DotDims.WF ⟨2, ![M, K]⟩ ⟨2, ![K, N]⟩ ⟨2, ![M, N]⟩ [1] [0] [0] [1] [] [])
    (prec : Option ContractPrecision) (ψ : FTy) (h₁ : ψ.bits < φ₁.bits) (h₂ : ψ.bits < φ₂.bits)
    (A : FVec Ideal ⟨2, ![M, K]⟩ φ₁) (B : FVec Ideal ⟨2, ![K, N]⟩ φ₂) (a : Fin M) (b : Fin N) :
    matmul (⟨[1], [0], [0], [1], [], [], w⟩ : DotDims ⟨2, ![M, K]⟩ ⟨2, ![K, N]⟩ ⟨2, ![M, N]⟩) prec
        (truncf ψ A h₁) (truncf ψ B h₂) (constant ⟨2, ![M, N]⟩ .f32 0x00000000#32) (ix2 a b)
      = ∑ c : Fin K, A (ix2 a c) * B (ix2 c b) :=
  Cert.LibDot2.matmul_zero_apply w prec (truncf ψ A h₁) (truncf ψ B h₂) a b

end Cert.LibDotNN

end
-- ==== Proof.IdealWhole2.lean ====
/-
  Region 2's output array as one function of the arrays the region finds: row r, column q of the [100000, 192] result is
  the sum over c of X (r, c) · P (c, q), X the mixed user feature and P the column-concatenated weights [W | user_W]. Each grid point writes back the row tile of 5000 rows it computed from
  the same rows of X and the whole of P; the 20 tiles cover the array.
-/
import proofs.«166662_j47579647705297_2_alg».proof.Proof.IdealRegion2
import proofs.«166662_j47579647705297_2_alg».proof.Proof.LibDotNN
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The plain product of a [100000, 64] by a [64, 192] array, index by index. -/
def rows2 (X : S100000x64.Idx → EReal) (P : S64x192.Idx → EReal) : S100000x192.Idx → EReal :=
  fun i => ∑ c : Fin 64, X (ix2 (n0 := 100000) (n1 := 64) (i 0) c) * P (ix2 (n0 := 64) (n1 := 192) c (i 1))

theorem zero2 : (![0, 0] : Fin 2 → Nat) = fun _ => 0 := funext fun a => by fin_cases a <;> rfl

/-- The payload at an index of the tile: the row of the input tile against the column of the weights. -/
theorem pay2_at (x : Vec Ideal S5000x64 .f32) (p : Vec Ideal S64x192 .f32) (a : Fin 5000) (q : Fin 192) :
    k2_pay1 x p (ix2 a q) = ∑ c : Fin 64, x (ix2 a c) * p (ix2 c q) := by
  unfold k2_pay1
  refine (Cert.LibDotNN.matmul_rounded_apply dot_S5000x64_S64x192_S5000x192_1_0_0_1_n_n.wf none .bf16 bitsLt_bf16_f32 bitsLt_bf16_f32 _ _ a q).trans ?_
  simp only [shapeCast_self]

/-- The windows' block indices over the grid: the input rows move with the output rows, the weights stay, and the
    output's row-tile index stays below 20. -/
theorem steps2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 19 :=
  (by decide +kernel : ∀ t : Fin grid2.N, _)

/-- Every row tile is some point's. -/
theorem onto2 : ∀ q0 : Fin 20, ∃ t : Fin cfg2.N, win2_2.index t = ![q0.val, 0] :=
  (by decide +kernel : ∀ q0 : Fin 20, ∃ t : Fin grid2.N, win2_2.index t = ![q0.val, 0])

/-- Over variables of the arrays' own types: the row of tile `t` of X against the column of P is the product's entry at
    the tile's place in the output array — the input's row tile sits at the output's rows, the weights are read whole. -/
theorem tile_rows2 (X : S100000x64.Idx → EReal) (P : S64x192.Idx → EReal) (t : Fin cfg2.N) (a : Fin 5000) (q : Fin 192) :
    (∑ k : Fin 64, X (((cfg2.win 0).blk t).view.emb (ix2 a k)) * P (((cfg2.win 1).blk t).view.emb (ix2 k q)))
      = rows2 X P (((cfg2.win 2).blk t).view.emb (ix2 a q)) := by
  obtain ⟨e0, e1, e2, e3, e4, e5⟩ := steps2 t
  unfold rows2
  refine Finset.sum_congr rfl fun k _ => ?_
  have hx : ((cfg2.win 0).blk t).view.emb (ix2 a k) = ix2 (n0 := 100000) (n1 := 64) ((((cfg2.win 2).blk t).view.emb (ix2 a q)) 0) k := by
    funext ax; apply Fin.ext
    match ax with
    | ⟨0, _⟩ => show win2_0.index t (0 : Fin 2) * 5000 + 1 * a.val = win2_2.index t (0 : Fin 2) * 5000 + 1 * a.val; omega
    | ⟨1, _⟩ => show win2_0.index t (1 : Fin 2) * 64 + 1 * k.val = k.val; omega
  have hp : ((cfg2.win 1).blk t).view.emb (ix2 k q) = ix2 (n0 := 64) (n1 := 192) k ((((cfg2.win 2).blk t).view.emb (ix2 a q)) 1) := by
    funext ax; apply Fin.ext
    match ax with
    | ⟨0, _⟩ => show win2_1.index t (0 : Fin 2) * 64 + 1 * k.val = k.val; omega
    | ⟨1, _⟩ => show win2_1.index t (1 : Fin 2) * 192 + 1 * q.val = win2_2.index t (1 : Fin 2) * 192 + 1 * q.val; omega
  rw [hx, hp]

/-- What point `t` writes back is tile `t` of the product of the arrays as the region finds them. -/
theorem tileback2 (c : Dev nD) (t : Fin cfg2.N) :
    (dat2 V c).flushed 2 t = ((cfg2.win 2).blk t).view.read (Elt Ideal) (rows2 (V c main_v169) (V c main_v203)) := by
  show (cfg2.win 2).cut (grid2.coords t) ((dat2 V c).after 2 t) = _
  rw [after2_2]
  unfold left2
  rw [View.canon_unit_zero zero2]
  simp only [View.ld_unit_zero (S := S5000x64) zero2, View.ld_unit_zero (S := S64x192) zero2]
  funext j
  obtain ⟨a, q, rfl⟩ : ∃ (a : Fin 5000) (q : Fin 192), j = ix2 a q := ⟨j 0, j 1, eq_ix2 j⟩
  show k2_pay1 (tile2 V c 0 t) (tile2 V c 1 t) (ix2 a q) = _
  refine (pay2_at (tile2 V c 0 t) (tile2 V c 1 t) a q).trans ?_
  exact tile_rows2 (V c main_v169) (V c main_v203) t a q

/-- An index of the output array lies in point `t`'s tile iff each coordinate is in the tile's range on its axis. -/
theorem in_tile2 (t : Fin cfg2.N) (i : S100000x192.Idx) :
    i ∈ ((cfg2.win 2).blk t).view.set ↔ ∀ a : Fin 2, win2_2.index t a * S5000x192.size a ≤ (i a).val ∧ (i a).val < win2_2.index t a * S5000x192.size a + S5000x192.size a := by
  show i ∈ ((View.whole main_v204).slice (win2_2.rect t)).set ↔ _
  rw [View.set_slice_whole, Rect.mem_set_unit]
  exact Iff.rfl

/-- The 20 tiles cover the output array. -/
theorem covered2 (i : S100000x192.Idx) : ∃ t : Fin cfg2.N, (cfg2.win 2).flush t = true ∧ i ∈ ((cfg2.win 2).blk t).view.set := by
  have hi0 : (i 0).val < 100000 := (i 0).isLt
  have hi1 : (i 1).val < 192 := (i 1).isLt
  obtain ⟨t, ht⟩ := onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [in_tile2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 192 ≤ (i 1).val ∧ (i 1).val < win2_2.index t (1 : Fin 2) * 192 + 192; omega

/-- The output array after the region: the product of the two input arrays as the region finds them. -/
theorem array2 (c : Dev nD) : (dat2 V c).arrAt 2 cfg2.N = rows2 (V c main_v169) (V c main_v203) :=
  (dat2 V c).arrAt_eq_of_cover 2 (rows2 (V c main_v169) (V c main_v203)) (fun t _ => tileback2 V c t) covered2

end Cert.KernelIdeal.Hand

end
-- ==== Proof.IdealArgs.lean ====
/-
  The kernel program's nineteen arguments on a core, each at its array type: the launch contents of the argument's buffer.
-/
import proofs.«166662_j47579647705297_2_alg».proof.Proof.Gen.KernelIdeal
import Idealize.ShloMosaic.PureOps.Ideal.Laws

noncomputable section

namespace Cert.KernelIdeal.Hand

open Cert.KernelIdeal
open Idealize.ShloMosaic Idealize.ShloMosaic.TcCoe
open Idealize.SL Idealize.SL.Sem

variable (m : (ℓ : Loc nD τ sig) → Buf (Elt Ideal) ℓ)

abbrev kA0 (c : Dev nD) : FVec Ideal S100000x64 .f32 := m ((c : Thread nD τ).loc main_arg0)
abbrev kA1 (c : Dev nD) : FVec Ideal S30000x64 .f32 := m ((c : Thread nD τ).loc main_arg1)
abbrev kA2 (c : Dev nD) : FVec Ideal S100000x3 .f32 := m ((c : Thread nD τ).loc main_arg2)
abbrev kA3 (c : Dev nD) : FVec Ideal S3 .f32 := m ((c : Thread nD τ).loc main_arg3)
abbrev kA4 (c : Dev nD) : FVec Ideal S3x30000x1 .f32 := m ((c : Thread nD τ).loc main_arg4)
abbrev kA5 (c : Dev nD) : FVec Ideal S3x128x128 .f32 := m ((c : Thread nD τ).loc main_arg5)
abbrev kA6 (c : Dev nD) : FVec Ideal S3x64x64 .f32 := m ((c : Thread nD τ).loc main_arg6)
abbrev kA7 (c : Dev nD) : FVec Ideal S64x64 .f32 := m ((c : Thread nD τ).loc main_arg7)
abbrev kA8 (c : Dev nD) : FVec Ideal S64x128 .f32 := m ((c : Thread nD τ).loc main_arg8)
abbrev kA9 (c : Dev nD) : FVec Ideal S64x128 .f32 := m ((c : Thread nD τ).loc main_arg9)
abbrev kA10 (c : Dev nD) : FVec Ideal S128x1 .f32 := m ((c : Thread nD τ).loc main_arg10)
abbrev kA11 (c : Dev nD) : IVec S3x500000 32 := m ((c : Thread nD τ).loc main_arg11)
abbrev kA12 (c : Dev nD) : IVec S3x500000 32 := m ((c : Thread nD τ).loc main_arg12)
abbrev kA13 (c : Dev nD) : IVec S3x400000 32 := m ((c : Thread nD τ).loc main_arg13)
abbrev kA14 (c : Dev nD) : IVec S3x400000 32 := m ((c : Thread nD τ).loc main_arg14)
abbrev kA15 (c : Dev nD) : IVec S1000000 32 := m ((c : Thread nD τ).loc main_arg15)
abbrev kA16 (c : Dev nD) : IVec S1000000 32 := m ((c : Thread nD τ).loc main_arg16)
abbrev kA17 (c : Dev nD) : IVec S2048x1 32 := m ((c : Thread nD τ).loc main_arg17)
abbrev kA18 (c : Dev nD) : IVec S2048x20 32 := m ((c : Thread nD τ).loc main_arg18)

end Cert.KernelIdeal.Hand

end
-- ==== Proof.LibGrid.lean ====
/-
  Two-dimensional arrays glued from pieces, read at explicit coordinates, over any element type and any extents:
  pieces side by side (joined along the columns) and pieces one over the other (joined along the rows) — the entry at
  (a, j) is the entry of the piece whose span holds the joined coordinate, at that coordinate less the extents of the
  pieces before it — and a 3 x 3 grid of [r, c] pieces (three rows of three pieces side by side, one over the other)
  read at (r * b + k, c * b' + n) as piece (b, b') at (k, n).
-/
import Idealize.ShloMosaic.Lib.Pipeline.Value
import Idealize.ShloMosaic.Lib.ValueIdx

noncomputable section

namespace Cert.LibGrid

open Idealize.ShloMosaic Idealize.ShloMosaic.ValueIdx Idealize.ShloMosaic.Pipeline

variable {α : Type}

/-- Pieces side by side: the entry at (a, j) with `j = pre + n`, `pre` the total width of the pieces before piece `k`
    and `n` a column of piece `k`, is piece `k`'s entry at (a, n). -/
theorem cols_apply {r C : Nat} (xs : List ((s : Shape) × (s.Idx → α)))
    (h : Shape.Concatenates (xs.map (·.1)) ⟨2, ![r, C]⟩ 1) (a : Fin r) (j : Fin C)
    (k : Nat) (hk : k < xs.length) (c : Nat) (x₁ : (⟨2, ![r, c]⟩ : Shape).Idx → α) (hxk : xs[k] = ⟨⟨2, ![r, c]⟩, x₁⟩)
    (pre : Nat)
    (hpre : (((xs.take k).map (·.1)).map fun s : Shape =>
      if h : s.rank = (⟨2, ![r, C]⟩ : Shape).rank then s.size ((1 : Fin (⟨2, ![r, C]⟩ : Shape).rank).cast h.symm) else 0).sum = pre)
    (n : Fin c) (hj : pre + n.val = j.val) :
    concatenate ⟨2, ![r, C]⟩ 1 xs h (ix2 a j) = x₁ (ix2 a n) :=
  concatenate_apply_piece (t := ⟨2, ![r, C]⟩) 1 xs h (ix2 a j) k hk ⟨2, ![r, c]⟩ x₁ hxk rfl pre hpre (ix2 a n)
    (fun b hb => by
      match b with
      | ⟨0, _⟩ => rfl
      | ⟨1, _⟩ => exact absurd rfl hb)
    hj

/-- Pieces one over the other: the entry at (j, b) with `j = pre + k'`, `pre` the total height of the pieces before piece
    `k` and `k'` a row of piece `k`, is piece `k`'s entry at (k', b). -/
theorem rows_apply {R c : Nat} (xs : List ((s : Shape) × (s.Idx → α)))
    (h : Shape.Concatenates (xs.map (·.1)) ⟨2, ![R, c]⟩ 0) (j : Fin R) (b : Fin c)
    (k : Nat) (hk : k < xs.length) (r : Nat) (x₁ : (⟨2, ![r, c]⟩ : Shape).Idx → α) (hxk : xs[k] = ⟨⟨2, ![r, c]⟩, x₁⟩)
    (pre : Nat)
    (hpre : (((xs.take k).map (·.1)).map fun s : Shape =>
      if h : s.rank = (⟨2, ![R, c]⟩ : Shape).rank then s.size ((0 : Fin (⟨2, ![R, c]⟩ : Shape).rank).cast h.symm) else 0).sum = pre)
    (k' : Fin r) (hj : pre + k'.val = j.val) :
    concatenate ⟨2, ![R, c]⟩ 0 xs h (ix2 j b) = x₁ (ix2 k' b) :=
  concatenate_apply_piece (t := ⟨2, ![R, c]⟩) 0 xs h (ix2 j b) k hk ⟨2, ![r, c]⟩ x₁ hxk rfl pre hpre (ix2 k' b)
    (fun d hd => by
      match d with
      | ⟨0, _⟩ => exact absurd rfl hd
      | ⟨1, _⟩ => rfl)
    hj

/-- A 3 x 3 grid of [r, c] pieces — three rows, each three pieces side by side, one over the other — read at
    (r * b + k, c * b' + n): piece (b, b') at (k, n). -/
theorem grid3_apply {r c R C : Nat} (P : Fin 3 → Fin 3 → ((⟨2, ![r, c]⟩ : Shape).Idx → α))
    (h0 h1 h2 : Shape.Concatenates [(⟨2, ![r, c]⟩ : Shape), ⟨2, ![r, c]⟩, ⟨2, ![r, c]⟩] ⟨2, ![r, C]⟩ 1)
    (h : Shape.Concatenates [(⟨2, ![r, C]⟩ : Shape), ⟨2, ![r, C]⟩, ⟨2, ![r, C]⟩] ⟨2, ![R, C]⟩ 0)
    (b b' : Fin 3) (k : Fin r) (n : Fin c) (j : Fin R) (n' : Fin C)
    (hj : r * b.val + k.val = j.val) (hn : c * b'.val + n.val = n'.val) :
    concatenate ⟨2, ![R, C]⟩ 0
      [⟨⟨2, ![r, C]⟩, concatenate ⟨2, ![r, C]⟩ 1 [⟨⟨2, ![r, c]⟩, P 0 0⟩, ⟨⟨2, ![r, c]⟩, P 0 1⟩, ⟨⟨2, ![r, c]⟩, P 0 2⟩] h0⟩,
       ⟨⟨2, ![r, C]⟩, concatenate ⟨2, ![r, C]⟩ 1 [⟨⟨2, ![r, c]⟩, P 1 0⟩, ⟨⟨2, ![r, c]⟩, P 1 1⟩, ⟨⟨2, ![r, c]⟩, P 1 2⟩] h1⟩,
       ⟨⟨2, ![r, C]⟩, concatenate ⟨2, ![r, C]⟩ 1 [⟨⟨2, ![r, c]⟩, P 2 0⟩, ⟨⟨2, ![r, c]⟩, P 2 1⟩, ⟨⟨2, ![r, c]⟩, P 2 2⟩] h2⟩] h (ix2 j n')
    = P b b' (ix2 k n) := by
  have colsOf : ∀ (Q : Fin 3 → ((⟨2, ![r, c]⟩ : Shape).Idx → α)) (hh : Shape.Concatenates [(⟨2, ![r, c]⟩ : Shape), ⟨2, ![r, c]⟩, ⟨2, ![r, c]⟩] ⟨2, ![r, C]⟩ 1),
      concatenate ⟨2, ![r, C]⟩ 1 [⟨⟨2, ![r, c]⟩, Q 0⟩, ⟨⟨2, ![r, c]⟩, Q 1⟩, ⟨⟨2, ![r, c]⟩, Q 2⟩] hh (ix2 k n') = Q b' (ix2 k n) := by
    intro Q hh
    fin_cases b'
    · exact cols_apply [⟨⟨2, ![r, c]⟩, Q 0⟩, ⟨⟨2, ![r, c]⟩, Q 1⟩, ⟨⟨2, ![r, c]⟩, Q 2⟩] hh k n' 0 (by simp) c (Q 0) rfl 0 (by simp) n (by simpa using hn)
    · exact cols_apply [⟨⟨2, ![r, c]⟩, Q 0⟩, ⟨⟨2, ![r, c]⟩, Q 1⟩, ⟨⟨2, ![r, c]⟩, Q 2⟩] hh k n' 1 (by simp) c (Q 1) rfl c (by simp) n (by simpa using hn)
    · exact cols_apply [⟨⟨2, ![r, c]⟩, Q 0⟩, ⟨⟨2, ![r, c]⟩, Q 1⟩, ⟨⟨2, ![r, c]⟩, Q 2⟩] hh k n' 2 (by simp) c (Q 2) rfl (c + c) (by simp) n (by simp at hn; omega)
  fin_cases b
  · exact (rows_apply [⟨⟨2, ![r, C]⟩, concatenate ⟨2, ![r, C]⟩ 1 [⟨⟨2, ![r, c]⟩, P 0 0⟩, ⟨⟨2, ![r, c]⟩, P 0 1⟩, ⟨⟨2, ![r, c]⟩, P 0 2⟩] h0⟩,
       ⟨⟨2, ![r, C]⟩, concatenate ⟨2, ![r, C]⟩ 1 [⟨⟨2, ![r, c]⟩, P 1 0⟩, ⟨⟨2, ![r, c]⟩, P 1 1⟩, ⟨⟨2, ![r, c]⟩, P 1 2⟩] h1⟩,
       ⟨⟨2, ![r, C]⟩, concatenate ⟨2, ![r, C]⟩ 1 [⟨⟨2, ![r, c]⟩, P 2 0⟩, ⟨⟨2, ![r, c]⟩, P 2 1⟩, ⟨⟨2, ![r, c]⟩, P 2 2⟩] h2⟩]
      h j n' 0 (by simp) r _ rfl 0 (by simp) k (by simpa using hj)).trans (colsOf (P 0) h0)
  · exact (rows_apply [⟨⟨2, ![r, C]⟩, concatenate ⟨2, ![r, C]⟩ 1 [⟨⟨2, ![r, c]⟩, P 0 0⟩, ⟨⟨2, ![r, c]⟩, P 0 1⟩, ⟨⟨2, ![r, c]⟩, P 0 2⟩] h0⟩,
       ⟨⟨2, ![r, C]⟩, concatenate ⟨2, ![r, C]⟩ 1 [⟨⟨2, ![r, c]⟩, P 1 0⟩, ⟨⟨2, ![r, c]⟩, P 1 1⟩, ⟨⟨2, ![r, c]⟩, P 1 2⟩] h1⟩,
       ⟨⟨2, ![r, C]⟩, concatenate ⟨2, ![r, C]⟩ 1 [⟨⟨2, ![r, c]⟩, P 2 0⟩, ⟨⟨2, ![r, c]⟩, P 2 1⟩, ⟨⟨2, ![r, c]⟩, P 2 2⟩] h2⟩]
      h j n' 1 (by simp) r _ rfl r (by simp) k (by simpa using hj)).trans (colsOf (P 1) h1)
  · exact (rows_apply [⟨⟨2, ![r, C]⟩, concatenate ⟨2, ![r, C]⟩ 1 [⟨⟨2, ![r, c]⟩, P 0 0⟩, ⟨⟨2, ![r, c]⟩, P 0 1⟩, ⟨⟨2, ![r, c]⟩, P 0 2⟩] h0⟩,
       ⟨⟨2, ![r, C]⟩, concatenate ⟨2, ![r, C]⟩ 1 [⟨⟨2, ![r, c]⟩, P 1 0⟩, ⟨⟨2, ![r, c]⟩, P 1 1⟩, ⟨⟨2, ![r, c]⟩, P 1 2⟩] h1⟩,
       ⟨⟨2, ![r, C]⟩, concatenate ⟨2, ![r, C]⟩ 1 [⟨⟨2, ![r, c]⟩, P 2 0⟩, ⟨⟨2, ![r, c]⟩, P 2 1⟩, ⟨⟨2, ![r, c]⟩, P 2 2⟩] h2⟩]
      h j n' 2 (by simp) r _ rfl (r + r) (by simp) k (by simp at hj; omega)).trans (colsOf (P 2) h2)

end Cert.LibGrid

end
-- ==== Proof.LibSplitWeights.lean ====
/-
  A matrix product by column-concatenated weights, cut back into its column blocks, at the ideal values and for any
  extents: for X of shape [M,K], A of shape [K,N1] and B of shape [K,N2], the array whose entry (a, q) is the sum over c
  of X (a, c) · [A | B] (c, q) has, as its first N1 columns, the host product X · A, and as its last N2 columns the host
  product X · B — column q of [A | B] is column q of A when q < N1 and column q − N1 of B otherwise, and the sum over c
  does not see which.
-/
import Idealize.ShloMosaic.PureOps.Ideal.Laws
import Idealize.ShloMosaic.Lib.ValueIdx
import Idealize.ShloMosaic.Lib.Pipeline.Value
import proofs.«166662_j47579647705297_2_alg».proof.Proof.LibDotNN
import proofs.«166662_j47579647705297_2_alg».proof.Proof.LibGrid

noncomputable section

open scoped BigOperators

namespace Cert.LibSplitWeights

open Idealize.ShloMosaic Idealize.ShloMosaic.ValueIdx

variable {M K N1 N2 N : Nat}

/-- The plain product of an [M,K] by a [K,N] array of extended reals, index by index. -/
def prod (X : FVec Ideal ⟨2, ![M, K]⟩ .f32) (P : FVec Ideal ⟨2, ![K, N]⟩ .f32) : FVec Ideal ⟨2, ![M, N]⟩ .f32 :=
  fun i => ∑ c : Fin K, X (ix2 (i 0) c) * P (ix2 c (i 1))

/-- The first N1 columns of X · [A | B] are X · A. -/
theorem left_block (hN : N1 + N2 = N) (X : FVec Ideal ⟨2, ![M, K]⟩ .f32) (A : FVec Ideal ⟨2, ![K, N1]⟩ .f32) (B : FVec Ideal ⟨2, ![K, N2]⟩ .f32)
    (hc : Shape.Concatenates [(⟨2, ![K, N1]⟩ : Shape), ⟨2, ![K, N2]⟩] ⟨2, ![K, N]⟩ 1)
    (hs : (⟨2, ![M, N]⟩ : Shape).Slices ![0, 0] ⟨2, ![M, N1]⟩)
    (w : DotDims.WF ⟨2, ![M, K]⟩ ⟨2, ![K, N1]⟩ ⟨2, ![M, N1]⟩ [1] [0] [0] [1] [] []) (prec : Option ContractPrecision) :
    extractStridedSlice ⟨2, ![M, N1]⟩ ![0, 0] (prod X (concatenate ⟨2, ![K, N]⟩ 1 [⟨⟨2, ![K, N1]⟩, A⟩, ⟨⟨2, ![K, N2]⟩, B⟩] hc)) hs
      = Host.dotGeneral (⟨[1], [0], [0], [1], [], [], w⟩ : DotDims ⟨2, ![M, K]⟩ ⟨2, ![K, N1]⟩ ⟨2, ![M, N1]⟩) prec X A := by
  funext j
  obtain ⟨a, q, rfl⟩ : ∃ (a : Fin M) (q : Fin N1), j = ix2 a q := ⟨j 0, j 1, eq_ix2 j⟩
  rw [Cert.LibDotNN.dotGeneral_nn_apply w prec X A a q,
    extractStridedSlice_apply ![0, 0] _ hs (ix2 a q) (ix2 a (⟨q.val, by omega⟩ : Fin N))
      (fun ax => by match ax with | ⟨0, _⟩ => simp | ⟨1, _⟩ => simp)]
  unfold prod
  refine Finset.sum_congr rfl fun c _ => ?_
  congr 1
  exact Cert.LibGrid.cols_apply [⟨⟨2, ![K, N1]⟩, A⟩, ⟨⟨2, ![K, N2]⟩, B⟩] hc c ⟨q.val, by omega⟩ 0 (by simp) N1 A rfl 0 (by simp) q (by simp)

/-- The last N2 columns of X · [A | B] are X · B. -/
theorem right_block (hN : N1 + N2 = N) (X : FVec Ideal ⟨2, ![M, K]⟩ .f32) (A : FVec Ideal ⟨2, ![K, N1]⟩ .f32) (B : FVec Ideal ⟨2, ![K, N2]⟩ .f32)
    (hc : Shape.Concatenates [(⟨2, ![K, N1]⟩ : Shape), ⟨2, ![K, N2]⟩] ⟨2, ![K, N]⟩ 1)
    (hs : (⟨2, ![M, N]⟩ : Shape).Slices ![0, N1] ⟨2, ![M, N2]⟩)
    (w : DotDims.WF ⟨2, ![M, K]⟩ ⟨2, ![K, N2]⟩ ⟨2, ![M, N2]⟩ [1] [0] [0] [1] [] []) (prec : Option ContractPrecision) :
    extractStridedSlice ⟨2, ![M, N2]⟩ ![0, N1] (prod X (concatenate ⟨2, ![K, N]⟩ 1 [⟨⟨2, ![K, N1]⟩, A⟩, ⟨⟨2, ![K, N2]⟩, B⟩] hc)) hs
      = Host.dotGeneral (⟨[1], [0], [0], [1], [], [], w⟩ : DotDims ⟨2, ![M, K]⟩ ⟨2, ![K, N2]⟩ ⟨2, ![M, N2]⟩) prec X B := by
  funext j
  obtain ⟨a, q, rfl⟩ : ∃ (a : Fin M) (q : Fin N2), j = ix2 a q := ⟨j 0, j 1, eq_ix2 j⟩
  rw [Cert.LibDotNN.dotGeneral_nn_apply w prec X B a q,
    extractStridedSlice_apply ![0, N1] _ hs (ix2 a q) (ix2 a (⟨N1 + q.val, by omega⟩ : Fin N))
      (fun ax => by match ax with | ⟨0, _⟩ => simp | ⟨1, _⟩ => simp)]
  unfold prod
  refine Finset.sum_congr rfl fun c _ => ?_
  congr 1
  exact Cert.LibGrid.cols_apply [⟨⟨2, ![K, N1]⟩, A⟩, ⟨⟨2, ![K, N2]⟩, B⟩] hc c ⟨N1 + q.val, by omega⟩ 1 (by simp) N2 B rfl N1 (by simp) q (by simp)

end Cert.LibSplitWeights

end
-- ==== Proof.LibStack3.lean ====
/-
  Arrays stacked along a leading axis, read at explicit coordinates, for any extents and over any element type:
  * a [U,G] array transposed to [G,U], set as [G,U,1] and repeated along a last axis of extent D: entry (g, u, d) is the
    array's entry (u, g) (`tcol_apply`);
  * three [U,D] arrays, each set as [1,U,D], joined along the leading axis: entry (g, u, d) of the [3,U,D] stack is the
    g-th array's entry (u, d) (`stack3_apply`);
  * one column of a [U,G] array cut out as [U,1] (`col_apply`), and a [U,1] column repeated along D columns (`cols_apply`);
  * a [U,D] array set as [1,U,D] (`lead_apply`).
-/
import Idealize.ShloMosaic.Lib.Pipeline.Value
import Idealize.ShloMosaic.Lib.ValueIdx

noncomputable section

namespace Cert.LibStack3

open Idealize.ShloMosaic Idealize.ShloMosaic.ValueIdx Idealize.ShloMosaic.Pipeline

variable {α : Type} {G U D : Nat}

/-- A [U,G] array transposed, set as a stack of columns [G,U,1] and repeated along D: entry (g, u, d) is x (u, g). -/
theorem tcol_apply (x : (⟨2, ![U, G]⟩ : Shape).Idx → α)
    (ht : (⟨2, ![U, G]⟩ : Shape).Transposes [1, 0] ⟨2, ![G, U]⟩)
    (h2 : (⟨2, ![G, U]⟩ : Shape).BroadcastsInDim ⟨3, ![G, U, 1]⟩ ![0, 1])
    (h3 : (⟨3, ![G, U, 1]⟩ : Shape).BroadcastsInDim ⟨3, ![G, U, D]⟩ ![0, 1, 2])
    (g : Fin G) (u : Fin U) (d : Fin D) :
    broadcastInDim ⟨3, ![G, U, D]⟩ ![0, 1, 2] h3 (broadcastInDim ⟨3, ![G, U, 1]⟩ ![0, 1] h2 (transpose ⟨2, ![G, U]⟩ [1, 0] x ht)) (ix3 g u d)
      = x (ix2 u g) := by
  have hg : g.val < G := g.isLt
  have hu : u.val < U := u.isLt
  have e3 := broadcastInDim_apply ![0, 1, 2] h3 (broadcastInDim ⟨3, ![G, U, 1]⟩ ![0, 1] h2 (transpose ⟨2, ![G, U]⟩ [1, 0] x ht)) (ix3 g u d) (ix3 g u (0 : Fin 1)) (by
    intro c
    match c with
    | ⟨0, _⟩ => show g.val = if G = 1 then 0 else g.val; split <;> omega
    | ⟨1, _⟩ => show u.val = if U = 1 then 0 else u.val; split <;> omega
    | ⟨2, _⟩ => rfl)
  have e2 := broadcastInDim_apply ![0, 1] h2 (transpose ⟨2, ![G, U]⟩ [1, 0] x ht) (ix3 g u (0 : Fin 1)) (ix2 g u) (by
    intro c
    match c with
    | ⟨0, _⟩ => show g.val = if G = 1 then 0 else g.val; split <;> omega
    | ⟨1, _⟩ => show u.val = if U = 1 then 0 else u.val; split <;> omega)
  have e1 := transpose_apply [1, 0] x ht (ix2 g u) (ix2 u g) (by
    intro b
    match b with
    | ⟨0, _⟩ => rfl
    | ⟨1, _⟩ => rfl)
  exact e3.trans (e2.trans e1)

/-- A [G,U,1] stack of columns repeated along a last axis of extent D: entry (g, u, d) is y (g, u, 0). -/
theorem last_apply (y : (⟨3, ![G, U, 1]⟩ : Shape).Idx → α)
    (h3 : (⟨3, ![G, U, 1]⟩ : Shape).BroadcastsInDim ⟨3, ![G, U, D]⟩ ![0, 1, 2]) (g : Fin G) (u : Fin U) (d : Fin D) :
    broadcastInDim ⟨3, ![G, U, D]⟩ ![0, 1, 2] h3 y (ix3 g u d) = y (ix3 g u (0 : Fin 1)) := by
  have hg : g.val < G := g.isLt
  have hu : u.val < U := u.isLt
  exact broadcastInDim_apply ![0, 1, 2] h3 y (ix3 g u d) (ix3 g u (0 : Fin 1)) (by
    intro c
    match c with
    | ⟨0, _⟩ => show g.val = if G = 1 then 0 else g.val; split <;> omega
    | ⟨1, _⟩ => show u.val = if U = 1 then 0 else u.val; split <;> omega
    | ⟨2, _⟩ => rfl)

/-- A [U,G] array transposed and set as a stack of columns [G,U,1]: entry (g, u, 0) is x (u, g). -/
theorem tcol1_apply (x : (⟨2, ![U, G]⟩ : Shape).Idx → α)
    (ht : (⟨2, ![U, G]⟩ : Shape).Transposes [1, 0] ⟨2, ![G, U]⟩)
    (h2 : (⟨2, ![G, U]⟩ : Shape).BroadcastsInDim ⟨3, ![G, U, 1]⟩ ![0, 1]) (g : Fin G) (u : Fin U) (z : Fin 1) :
    broadcastInDim ⟨3, ![G, U, 1]⟩ ![0, 1] h2 (transpose ⟨2, ![G, U]⟩ [1, 0] x ht) (ix3 g u z) = x (ix2 u g) := by
  have hg : g.val < G := g.isLt
  have hu : u.val < U := u.isLt
  have e2 := broadcastInDim_apply ![0, 1] h2 (transpose ⟨2, ![G, U]⟩ [1, 0] x ht) (ix3 g u z) (ix2 g u) (by
    intro c
    match c with
    | ⟨0, _⟩ => show g.val = if G = 1 then 0 else g.val; split <;> omega
    | ⟨1, _⟩ => show u.val = if U = 1 then 0 else u.val; split <;> omega)
  have e1 := transpose_apply [1, 0] x ht (ix2 g u) (ix2 u g) (by
    intro b
    match b with
    | ⟨0, _⟩ => rfl
    | ⟨1, _⟩ => rfl)
  exact e2.trans e1

/-- A [U,D] array set as [1,U,D]: entry (0, u, d) is x (u, d). -/
theorem lead_apply (x : (⟨2, ![U, D]⟩ : Shape).Idx → α)
    (h : (⟨2, ![U, D]⟩ : Shape).BroadcastsInDim ⟨3, ![1, U, D]⟩ ![1, 2]) (z : Fin 1) (u : Fin U) (d : Fin D) :
    broadcastInDim ⟨3, ![1, U, D]⟩ ![1, 2] h x (ix3 z u d) = x (ix2 u d) := by
  have hu : u.val < U := u.isLt
  have hd : d.val < D := d.isLt
  exact broadcastInDim_apply ![1, 2] h x (ix3 z u d) (ix2 u d) (by
    intro c
    match c with
    | ⟨0, _⟩ => show u.val = if U = 1 then 0 else u.val; split <;> omega
    | ⟨1, _⟩ => show d.val = if D = 1 then 0 else d.val; split <;> omega)

/-- Three [U,D] arrays, each set as [1,U,D], joined along the leading axis: entry (g, u, d) is the g-th array's (u, d). -/
theorem stack3_apply (x : Fin 3 → ((⟨2, ![U, D]⟩ : Shape).Idx → α))
    (h : (⟨2, ![U, D]⟩ : Shape).BroadcastsInDim ⟨3, ![1, U, D]⟩ ![1, 2])
    (hc : Shape.Concatenates [(⟨3, ![1, U, D]⟩ : Shape), ⟨3, ![1, U, D]⟩, ⟨3, ![1, U, D]⟩] ⟨3, ![3, U, D]⟩ 0)
    (g : Fin 3) (u : Fin U) (d : Fin D) :
    concatenate ⟨3, ![3, U, D]⟩ 0
      [⟨⟨3, ![1, U, D]⟩, broadcastInDim ⟨3, ![1, U, D]⟩ ![1, 2] h (x 0)⟩,
       ⟨⟨3, ![1, U, D]⟩, broadcastInDim ⟨3, ![1, U, D]⟩ ![1, 2] h (x 1)⟩,
       ⟨⟨3, ![1, U, D]⟩, broadcastInDim ⟨3, ![1, U, D]⟩ ![1, 2] h (x 2)⟩] hc (ix3 g u d)
      = x g (ix2 u d) := by
  have tail : ∀ b : Fin (⟨3, ![1, U, D]⟩ : Shape).rank, b.cast rfl ≠ (0 : Fin (⟨3, ![3, U, D]⟩ : Shape).rank) →
      ((ix3 (0 : Fin 1) u d : (⟨3, ![1, U, D]⟩ : Shape).Idx) b).val = ((ix3 g u d : (⟨3, ![3, U, D]⟩ : Shape).Idx) (b.cast rfl)).val := by
    intro b hb
    match b with
    | ⟨0, _⟩ => exact absurd rfl hb
    | ⟨1, _⟩ => rfl
    | ⟨2, _⟩ => rfl
  fin_cases g
  · exact (concatenate_apply_piece (t := ⟨3, ![3, U, D]⟩) 0
      [⟨⟨3, ![1, U, D]⟩, broadcastInDim ⟨3, ![1, U, D]⟩ ![1, 2] h (x 0)⟩,
       ⟨⟨3, ![1, U, D]⟩, broadcastInDim ⟨3, ![1, U, D]⟩ ![1, 2] h (x 1)⟩,
       ⟨⟨3, ![1, U, D]⟩, broadcastInDim ⟨3, ![1, U, D]⟩ ![1, 2] h (x 2)⟩] hc _ 0 (by simp) ⟨3, ![1, U, D]⟩ _ rfl rfl 0 (by simp)
      (ix3 (0 : Fin 1) u d) (tail) (by rfl)).trans (lead_apply (x 0) h 0 u d)
  · exact (concatenate_apply_piece (t := ⟨3, ![3, U, D]⟩) 0
      [⟨⟨3, ![1, U, D]⟩, broadcastInDim ⟨3, ![1, U, D]⟩ ![1, 2] h (x 0)⟩,
       ⟨⟨3, ![1, U, D]⟩, broadcastInDim ⟨3, ![1, U, D]⟩ ![1, 2] h (x 1)⟩,
       ⟨⟨3, ![1, U, D]⟩, broadcastInDim ⟨3, ![1, U, D]⟩ ![1, 2] h (x 2)⟩] hc _ 1 (by simp) ⟨3, ![1, U, D]⟩ _ rfl rfl 1 (by simp)
      (ix3 (0 : Fin 1) u d) (tail) (by rfl)).trans (lead_apply (x 1) h 0 u d)
  · exact (concatenate_apply_piece (t := ⟨3, ![3, U, D]⟩) 0
      [⟨⟨3, ![1, U, D]⟩, broadcastInDim ⟨3, ![1, U, D]⟩ ![1, 2] h (x 0)⟩,
       ⟨⟨3, ![1, U, D]⟩, broadcastInDim ⟨3, ![1, U, D]⟩ ![1, 2] h (x 1)⟩,
       ⟨⟨3, ![1, U, D]⟩, broadcastInDim ⟨3, ![1, U, D]⟩ ![1, 2] h (x 2)⟩] hc _ 2 (by simp) ⟨3, ![1, U, D]⟩ _ rfl rfl 2 (by simp)
      (ix3 (0 : Fin 1) u d) (tail) (by rfl)).trans (lead_apply (x 2) h 0 u d)

/-- Column g of a [U,G] array cut out as [U,1]: entry (u, 0) is x (u, g). -/
theorem col_apply (x : (⟨2, ![U, G]⟩ : Shape).Idx → α) (g : Fin G)
    (hs : (⟨2, ![U, G]⟩ : Shape).Slices ![0, g.val] ⟨2, ![U, 1]⟩) (u : Fin U) (z : Fin 1) :
    extractStridedSlice ⟨2, ![U, 1]⟩ ![0, g.val] x hs (ix2 u z) = x (ix2 u g) :=
  extractStridedSlice_apply ![0, g.val] x hs (ix2 u z) (ix2 u g) (by
    intro a
    match a with
    | ⟨0, _⟩ => simp
    | ⟨1, _⟩ => simp)

/-- A [U,1] column repeated along D columns: entry (u, d) is x (u, 0). -/
theorem cols_apply (x : (⟨2, ![U, 1]⟩ : Shape).Idx → α)
    (h : (⟨2, ![U, 1]⟩ : Shape).BroadcastsInDim ⟨2, ![U, D]⟩ ![0, 1]) (u : Fin U) (d : Fin D) :
    broadcastInDim ⟨2, ![U, D]⟩ ![0, 1] h x (ix2 u d) = x (ix2 u (0 : Fin 1)) := by
  have hu : u.val < U := u.isLt
  exact broadcastInDim_apply ![0, 1] h x (ix2 u d) (ix2 u (0 : Fin 1)) (by
    intro c
    match c with
    | ⟨0, _⟩ => show u.val = if U = 1 then 0 else u.val; split <;> omega
    | ⟨1, _⟩ => rfl)

end Cert.LibStack3

end
-- ==== Proof.LibMix3.lean ====
/-
  Three behaviours mixed, two arrangements, at the ideal values and for any extents U (rows) and D (columns).
  Given per-row mixing weights w [U,3], per-row degrees deg [U,3] and three arrays x 0, x 1, x 2 of shape [U,D]:
  * STACKED: the three arrays joined into [3,U,D], divided entry by entry by (deg transposed, set as [3,U,1], plus eps)
    repeated along D, multiplied by (w transposed, set as [3,U,1]) repeated along D, and summed over the leading axis
    from zero;
  * ONE BY ONE: zero, plus, for g = 0, 1, 2 in turn, (column g of w repeated along D) times (x g divided by (column g of
    deg plus eps) repeated along D).
  Both have entry (u, d) equal to the sum over g of w (u, g) · (x g (u, d) / (deg (u, g) + eps)); addition of extended reals
  is associative, so the two arrays are equal (`mix3_eq`). The entry-by-entry readings of each arrangement are lemmas of
  their own (`stackdiv_at`, `stackshare_at`, `share_at`).
-/
import Idealize.ShloMosaic.PureOps.Ideal.Laws
import Idealize.ShloMosaic.Lib.IdealHost
import Idealize.ShloMosaic.Lib.Pipeline.Value
import Idealize.ShloMosaic.Lib.ValueIdx
import proofs.«166662_j47579647705297_2_alg».proof.Proof.LibStack3

noncomputable section

open scoped BigOperators

namespace Cert.LibMix3

open Idealize.ShloMosaic Idealize.ShloMosaic.ValueIdx Idealize.ShloMosaic.Pipeline

variable {U D : Nat}

/-- The stacked quotient at (g, u, d): x g (u, d) / (deg (u, g) + eps). -/
theorem stackdiv_at (e : BitVec 32) (deg : FVec Ideal ⟨2, ![U, 3]⟩ .f32) (x : Fin 3 → FVec Ideal ⟨2, ![U, D]⟩ .f32)
    (ht : (⟨2, ![U, 3]⟩ : Shape).Transposes [1, 0] ⟨2, ![3, U]⟩)
    (h2 : (⟨2, ![3, U]⟩ : Shape).BroadcastsInDim ⟨3, ![3, U, 1]⟩ ![0, 1])
    (h3 : (⟨3, ![3, U, 1]⟩ : Shape).BroadcastsInDim ⟨3, ![3, U, D]⟩ ![0, 1, 2])
    (hs3 : (⟨0, ![]⟩ : Shape).BroadcastsInDim ⟨3, ![3, U, 1]⟩ ![])
    (hl : (⟨2, ![U, D]⟩ : Shape).BroadcastsInDim ⟨3, ![1, U, D]⟩ ![1, 2])
    (hc : Shape.Concatenates [(⟨3, ![1, U, D]⟩ : Shape), ⟨3, ![1, U, D]⟩, ⟨3, ![1, U, D]⟩] ⟨3, ![3, U, D]⟩ 0)
    (g : Fin 3) (u : Fin U) (d : Fin D) :
    Host.divf (F := Ideal) (concatenate ⟨3, ![3, U, D]⟩ 0
        [⟨⟨3, ![1, U, D]⟩, broadcastInDim ⟨3, ![1, U, D]⟩ ![1, 2] hl (x 0)⟩,
         ⟨⟨3, ![1, U, D]⟩, broadcastInDim ⟨3, ![1, U, D]⟩ ![1, 2] hl (x 1)⟩,
         ⟨⟨3, ![1, U, D]⟩, broadcastInDim ⟨3, ![1, U, D]⟩ ![1, 2] hl (x 2)⟩] hc)
      (broadcastInDim ⟨3, ![3, U, D]⟩ ![0, 1, 2] h3
        (addf (broadcastInDim ⟨3, ![3, U, 1]⟩ ![0, 1] h2 (transpose ⟨2, ![3, U]⟩ [1, 0] deg ht))
          (broadcastInDim ⟨3, ![3, U, 1]⟩ ![] hs3 (constant (F := Ideal) ⟨0, ![]⟩ .f32 e)))) (ix3 g u d)
      = Ideal.div (x g (ix2 u d)) (deg (ix2 u g) + Ideal.ofBits .f32 e) := by
  rw [hostDivf_apply, Cert.LibStack3.stack3_apply x hl hc g u d, Cert.LibStack3.last_apply _ h3 g u d, addf_apply,
    Cert.LibStack3.tcol1_apply deg ht h2 g u 0, broadcastInDim_scalar_apply]
  rfl

/-- The stacked share at (g, u, d): w (u, g) · (x g (u, d) / (deg (u, g) + eps)). -/
theorem stackshare_at (e : BitVec 32) (w deg : FVec Ideal ⟨2, ![U, 3]⟩ .f32) (x : Fin 3 → FVec Ideal ⟨2, ![U, D]⟩ .f32)
    (ht : (⟨2, ![U, 3]⟩ : Shape).Transposes [1, 0] ⟨2, ![3, U]⟩)
    (h2 : (⟨2, ![3, U]⟩ : Shape).BroadcastsInDim ⟨3, ![3, U, 1]⟩ ![0, 1])
    (h3 : (⟨3, ![3, U, 1]⟩ : Shape).BroadcastsInDim ⟨3, ![3, U, D]⟩ ![0, 1, 2])
    (hs3 : (⟨0, ![]⟩ : Shape).BroadcastsInDim ⟨3, ![3, U, 1]⟩ ![])
    (hl : (⟨2, ![U, D]⟩ : Shape).BroadcastsInDim ⟨3, ![1, U, D]⟩ ![1, 2])
    (hc : Shape.Concatenates [(⟨3, ![1, U, D]⟩ : Shape), ⟨3, ![1, U, D]⟩, ⟨3, ![1, U, D]⟩] ⟨3, ![3, U, D]⟩ 0)
    (g : Fin 3) (u : Fin U) (d : Fin D) :
    mulf (broadcastInDim ⟨3, ![3, U, D]⟩ ![0, 1, 2] h3 (broadcastInDim ⟨3, ![3, U, 1]⟩ ![0, 1] h2 (transpose ⟨2, ![3, U]⟩ [1, 0] w ht)))
      (Host.divf (F := Ideal) (concatenate ⟨3, ![3, U, D]⟩ 0
          [⟨⟨3, ![1, U, D]⟩, broadcastInDim ⟨3, ![1, U, D]⟩ ![1, 2] hl (x 0)⟩,
           ⟨⟨3, ![1, U, D]⟩, broadcastInDim ⟨3, ![1, U, D]⟩ ![1, 2] hl (x 1)⟩,
           ⟨⟨3, ![1, U, D]⟩, broadcastInDim ⟨3, ![1, U, D]⟩ ![1, 2] hl (x 2)⟩] hc)
        (broadcastInDim ⟨3, ![3, U, D]⟩ ![0, 1, 2] h3
          (addf (broadcastInDim ⟨3, ![3, U, 1]⟩ ![0, 1] h2 (transpose ⟨2, ![3, U]⟩ [1, 0] deg ht))
            (broadcastInDim ⟨3, ![3, U, 1]⟩ ![] hs3 (constant (F := Ideal) ⟨0, ![]⟩ .f32 e))))) (ix3 g u d)
      = w (ix2 u g) * Ideal.div (x g (ix2 u d)) (deg (ix2 u g) + Ideal.ofBits .f32 e) := by
  rw [mulf_apply, Cert.LibStack3.tcol_apply w ht h2 h3 g u d, stackdiv_at e deg x ht h2 h3 hs3 hl hc g u d]

/-- One behaviour's share, taken by itself, at (u, d): w (u, g) · (y (u, d) / (deg (u, g) + eps)). -/
theorem share_at (e : BitVec 32) (w deg : FVec Ideal ⟨2, ![U, 3]⟩ .f32) (y : FVec Ideal ⟨2, ![U, D]⟩ .f32) (g : Fin 3)
    (hs : (⟨2, ![U, 3]⟩ : Shape).Slices ![0, g.val] ⟨2, ![U, 1]⟩)
    (hb : (⟨2, ![U, 1]⟩ : Shape).BroadcastsInDim ⟨2, ![U, D]⟩ ![0, 1])
    (hs1 : (⟨0, ![]⟩ : Shape).BroadcastsInDim ⟨2, ![U, 1]⟩ ![]) (u : Fin U) (d : Fin D) :
    mulf (broadcastInDim ⟨2, ![U, D]⟩ ![0, 1] hb (extractStridedSlice ⟨2, ![U, 1]⟩ ![0, g.val] w hs))
      (Host.divf (F := Ideal) y (broadcastInDim ⟨2, ![U, D]⟩ ![0, 1] hb
        (addf (extractStridedSlice ⟨2, ![U, 1]⟩ ![0, g.val] deg hs)
          (broadcastInDim ⟨2, ![U, 1]⟩ ![] hs1 (constant (F := Ideal) ⟨0, ![]⟩ .f32 e))))) (ix2 u d)
      = w (ix2 u g) * Ideal.div (y (ix2 u d)) (deg (ix2 u g) + Ideal.ofBits .f32 e) := by
  rw [mulf_apply, Cert.LibStack3.cols_apply _ hb u d, Cert.LibStack3.col_apply w g hs u 0, hostDivf_apply,
    Cert.LibStack3.cols_apply _ hb u d, addf_apply, Cert.LibStack3.col_apply deg g hs u 0, broadcastInDim_scalar_apply]
  rfl

/-- The sum over the leading axis of a [3,U,D] stack, from an initial value, at (u, d): the initial value plus the three
    members' entries at (u, d). -/
theorem sum3_at (X : FVec Ideal ⟨3, ![3, U, D]⟩ .f32) (init : (⟨0, ![]⟩ : Shape).Idx → Ideal .f32)
    (hred : (⟨3, ![3, U, D]⟩ : Shape).ReducesTo [0] ⟨2, ![U, D]⟩) (hS : 0 < (⟨0, ![]⟩ : Shape).numel) (u : Fin U) (d : Fin D) :
    Host.reduceAdd X init hred hS (ix2 u d)
      = init (Shape.Idx.first hS) + (X (ix3 (0 : Fin 3) u d) + X (ix3 (1 : Fin 3) u d) + X (ix3 (2 : Fin 3) u d)) := by
  have h : (⟨3, ![3, U, D]⟩ : Shape).Reduces [0] ⟨2, ![U, D]⟩ := ⟨hred.1, Nat.two_pos, hred.2⟩
  have hlift : ∀ k : Fin 3, h.lift (ix2 u d) k = ix3 k u d := fun k => funext fun a => Fin.ext (by
    match a with
    | ⟨0, _⟩ => rfl
    | ⟨1, _⟩ => rfl
    | ⟨2, _⟩ => rfl)
  rw [hostReduceAdd_apply, Ideal.hostReduceAdd_single hred h]
  refine congrArg (init (Shape.Idx.first hS) + ·) ?_
  refine (Fin.sum_univ_three (fun k : Fin 3 => X (h.lift (ix2 u d) k))).trans ?_
  rw [hlift, hlift, hlift]

/-- The two arrangements are one array. -/
theorem mix3_eq (e : BitVec 32) (w deg : FVec Ideal ⟨2, ![U, 3]⟩ .f32) (x : Fin 3 → FVec Ideal ⟨2, ![U, D]⟩ .f32)
    (ht : (⟨2, ![U, 3]⟩ : Shape).Transposes [1, 0] ⟨2, ![3, U]⟩)
    (h2 : (⟨2, ![3, U]⟩ : Shape).BroadcastsInDim ⟨3, ![3, U, 1]⟩ ![0, 1])
    (h3 : (⟨3, ![3, U, 1]⟩ : Shape).BroadcastsInDim ⟨3, ![3, U, D]⟩ ![0, 1, 2])
    (hs3 : (⟨0, ![]⟩ : Shape).BroadcastsInDim ⟨3, ![3, U, 1]⟩ ![])
    (hl : (⟨2, ![U, D]⟩ : Shape).BroadcastsInDim ⟨3, ![1, U, D]⟩ ![1, 2])
    (hc : Shape.Concatenates [(⟨3, ![1, U, D]⟩ : Shape), ⟨3, ![1, U, D]⟩, ⟨3, ![1, U, D]⟩] ⟨3, ![3, U, D]⟩ 0)
    (hred : (⟨3, ![3, U, D]⟩ : Shape).ReducesTo [0] ⟨2, ![U, D]⟩) (hS : 0 < (⟨0, ![]⟩ : Shape).numel)
    (hz : (⟨0, ![]⟩ : Shape).BroadcastsInDim ⟨2, ![U, D]⟩ ![])
    (hb : (⟨2, ![U, 1]⟩ : Shape).BroadcastsInDim ⟨2, ![U, D]⟩ ![0, 1])
    (hs1 : (⟨0, ![]⟩ : Shape).BroadcastsInDim ⟨2, ![U, 1]⟩ ![])
    (hsl0 : (⟨2, ![U, 3]⟩ : Shape).Slices ![0, 0] ⟨2, ![U, 1]⟩)
    (hsl1 : (⟨2, ![U, 3]⟩ : Shape).Slices ![0, 1] ⟨2, ![U, 1]⟩)
    (hsl2 : (⟨2, ![U, 3]⟩ : Shape).Slices ![0, 2] ⟨2, ![U, 1]⟩) :
    Host.reduceAdd (F := Ideal)
      (mulf (broadcastInDim ⟨3, ![3, U, D]⟩ ![0, 1, 2] h3 (broadcastInDim ⟨3, ![3, U, 1]⟩ ![0, 1] h2 (transpose ⟨2, ![3, U]⟩ [1, 0] w ht)))
        (Host.divf (F := Ideal) (concatenate ⟨3, ![3, U, D]⟩ 0
            [⟨⟨3, ![1, U, D]⟩, broadcastInDim ⟨3, ![1, U, D]⟩ ![1, 2] hl (x 0)⟩,
             ⟨⟨3, ![1, U, D]⟩, broadcastInDim ⟨3, ![1, U, D]⟩ ![1, 2] hl (x 1)⟩,
             ⟨⟨3, ![1, U, D]⟩, broadcastInDim ⟨3, ![1, U, D]⟩ ![1, 2] hl (x 2)⟩] hc)
          (broadcastInDim ⟨3, ![3, U, D]⟩ ![0, 1, 2] h3
            (addf (broadcastInDim ⟨3, ![3, U, 1]⟩ ![0, 1] h2 (transpose ⟨2, ![3, U]⟩ [1, 0] deg ht))
              (broadcastInDim ⟨3, ![3, U, 1]⟩ ![] hs3 (constant (F := Ideal) ⟨0, ![]⟩ .f32 e))))))
      (constant (F := Ideal) ⟨0, ![]⟩ .f32 0x00000000#32) hred hS
    = addf (addf (addf (broadcastInDim ⟨2, ![U, D]⟩ ![] hz (constant (F := Ideal) ⟨0, ![]⟩ .f32 0x00000000#32))
          (mulf (broadcastInDim ⟨2, ![U, D]⟩ ![0, 1] hb (extractStridedSlice ⟨2, ![U, 1]⟩ ![0, 0] w hsl0))
            (Host.divf (F := Ideal) (x 0) (broadcastInDim ⟨2, ![U, D]⟩ ![0, 1] hb
              (addf (extractStridedSlice ⟨2, ![U, 1]⟩ ![0, 0] deg hsl0) (broadcastInDim ⟨2, ![U, 1]⟩ ![] hs1 (constant (F := Ideal) ⟨0, ![]⟩ .f32 e)))))))
        (mulf (broadcastInDim ⟨2, ![U, D]⟩ ![0, 1] hb (extractStridedSlice ⟨2, ![U, 1]⟩ ![0, 1] w hsl1))
          (Host.divf (F := Ideal) (x 1) (broadcastInDim ⟨2, ![U, D]⟩ ![0, 1] hb
            (addf (extractStridedSlice ⟨2, ![U, 1]⟩ ![0, 1] deg hsl1) (broadcastInDim ⟨2, ![U, 1]⟩ ![] hs1 (constant (F := Ideal) ⟨0, ![]⟩ .f32 e)))))))
      (mulf (broadcastInDim ⟨2, ![U, D]⟩ ![0, 1] hb (extractStridedSlice ⟨2, ![U, 1]⟩ ![0, 2] w hsl2))
        (Host.divf (F := Ideal) (x 2) (broadcastInDim ⟨2, ![U, D]⟩ ![0, 1] hb
          (addf (extractStridedSlice ⟨2, ![U, 1]⟩ ![0, 2] deg hsl2) (broadcastInDim ⟨2, ![U, 1]⟩ ![] hs1 (constant (F := Ideal) ⟨0, ![]⟩ .f32 e)))))) := by
  funext i
  obtain ⟨u, d, rfl⟩ : ∃ (u : Fin U) (d : Fin D), i = ix2 u d := ⟨i 0, i 1, eq_ix2 i⟩
  rw [sum3_at _ _ hred hS u d, stackshare_at e w deg x ht h2 h3 hs3 hl hc 0 u d, stackshare_at e w deg x ht h2 h3 hs3 hl hc 1 u d,
    stackshare_at e w deg x ht h2 h3 hs3 hl hc 2 u d, addf_apply, addf_apply, addf_apply, broadcastInDim_scalar_apply]
  have s0 := share_at e w deg (x 0) 0 hsl0 hb hs1 u d
  have s1 := share_at e w deg (x 1) 1 hsl1 hb hs1 u d
  have s2 := share_at e w deg (x 2) 2 hsl2 hb hs1 u d
  refine Eq.trans ?_ (congrArg₂ (· + ·) (congrArg₂ (· + ·) (congrArg₂ (· + ·) rfl s0.symm) s1.symm) s2.symm)
  simp only [add_assoc, constant_apply]

end Cert.LibMix3

end
-- ==== Proof.LibGatherRows.lean ====
/-
  A gather of whole rows, read at an index. For a table x : [N, D] and one row number per result row,
  idx : [R, 1], the gather with one offset axis (the result's axis 1), the table's axis 0 collapsed and named by
  the start index, and slices [1, D], produces the [R, D] array whose row t is the table's row idx[t, 0]: the
  start index is read as a signed integer and clamped into [0, N − 1], and the column is the result's own column.
  The same with one more batch axis: idx : [R, A, 1] and result [R, A, D], row (t, a) being the table's row
  idx[t, a, 0].
-/
import Idealize.ShloMosaic.Lib.ValueIdx

noncomputable section

namespace Idealize.ShloMosaic.ValueIdx

open Idealize.ShloMosaic

section Rows
variable {α : Type}

/-- The dimension numbers of a row gather: operand [N, D], start indices [R, 1], result [R, D]. -/
abbrev rowsDims (N D R : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The start-indices index [t, 0] of result index (t, j). -/
abbrev rowsIdx {R D : Nat} (y : (⟨2, ![R, D]⟩ : Shape).Idx) : (⟨2, ![R, 1]⟩ : Shape).Idx :=
  fun a => match a with | ⟨0, _⟩ => ⟨(y 0).val, idx2_lt0 y⟩ | ⟨1, _⟩ => ⟨0, Nat.one_pos⟩

/-- The row gather at (t, j): the table at row idx[t, 0] (signed, clamped into [0, N − 1]) and column j. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowsDims N D R wf) x idx y
      = x (ix2 ⟨min (idx (rowsIdx y)).toInt.toNat (N - 1), by omega⟩ ⟨(y 1).val, idx2_lt1 y⟩) := by
  unfold Host.gather
  congr 1
  funext a
  refine Fin.ext ?_
  show (rowsDims N D R wf).start y idx a + (rowsDims N D R wf).batchCoord y a + (rowsDims N D R wf).offCoord y a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowsDims N D R wf).startIndexMap from List.mem_singleton.mpr rfl)]
    have hsi : (rowsDims N D R wf).siIdx y ⟨List.idxOf (⟨0, by decide⟩ : Fin 2) (rowsDims N D R wf).startIndexMap,
        List.idxOf_lt_length_iff.2 (List.mem_singleton.mpr rfl)⟩ = rowsIdx y := by
      funext b; refine Fin.ext ?_
      match b with
      | ⟨0, _⟩ => rfl
      | ⟨1, _⟩ => rfl
    rw [hsi]
    rfl
  | ⟨1, _⟩ =>
    unfold GatherDims.start
    rw [dif_neg (show (⟨1, by decide⟩ : Fin 2) ∉ (rowsDims N D R wf).startIndexMap from
      fun h => absurd (congrArg Fin.val (List.mem_singleton.mp h)) Nat.one_ne_zero)]
    simp only [Nat.zero_add]
    rfl

end Rows

section Rows3
variable {α : Type}

/-- The dimension numbers of a row gather with two batch axes: operand [N, D], start indices [R, A, 1], result
    [R, A, D]. -/
abbrev rows3Dims (N D R A : Nat) (wf : GatherDims.WF ⟨2, ![N, D]⟩ ⟨3, ![R, A, 1]⟩ ⟨3, ![R, A, D]⟩ [2] [0] [] [0] [] 2 ![1, D]) :
    GatherDims ⟨2, ![N, D]⟩ ⟨3, ![R, A, 1]⟩ ⟨3, ![R, A, D]⟩ where
  offsetDims := [2]
  collapsedSliceDims := [0]
  operandBatchingDims := []
  startIndicesBatchingDims := []
  startIndexMap := [0]
  indexVectorDim := 2
  sliceSizes := ![1, D]
  wf := wf

theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- The start-indices index [t, a, 0] of result index (t, a, j). -/
abbrev rows3Idx {R A D : Nat} (y : (⟨3, ![R, A, D]⟩ : Shape).Idx) : (⟨3, ![R, A, 1]⟩ : Shape).Idx :=
  fun b => match b with | ⟨0, _⟩ => ⟨(y 0).val, idx3_lt0 y⟩ | ⟨1, _⟩ => ⟨(y 1).val, idx3_lt1 y⟩ | ⟨2, _⟩ => ⟨0, Nat.one_pos⟩

/-- The row gather at (t, a, j): the table at row idx[t, a, 0] (signed, clamped into [0, N − 1]) and column j. -/
theorem gather_rows3_apply {N D R A w : Nat} (hN : 0 < N)
    (wf : GatherDims.WF ⟨2, ![N, D]⟩ ⟨3, ![R, A, 1]⟩ ⟨3, ![R, A, D]⟩ [2] [0] [] [0] [] 2 ![1, D])
    (x : (⟨2, ![N, D]⟩ : Shape).Idx → α) (idx : IVec ⟨3, ![R, A, 1]⟩ w) (y : (⟨3, ![R, A, D]⟩ : Shape).Idx) :
    Host.gather (rows3Dims N D R A wf) x idx y
      = x (ix2 ⟨min (idx (rows3Idx y)).toInt.toNat (N - 1), by omega⟩ ⟨(y 2).val, idx3_lt2 y⟩) := by
  unfold Host.gather
  congr 1
  funext a
  refine Fin.ext ?_
  show (rows3Dims N D R A wf).start y idx a + (rows3Dims N D R A wf).batchCoord y a + (rows3Dims N D R A wf).offCoord y a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rows3Dims N D R A wf).startIndexMap from List.mem_singleton.mpr rfl)]
    have hsi : (rows3Dims N D R A wf).siIdx y ⟨List.idxOf (⟨0, by decide⟩ : Fin 2) (rows3Dims N D R A wf).startIndexMap,
        List.idxOf_lt_length_iff.2 (List.mem_singleton.mpr rfl)⟩ = rows3Idx y := by
      funext b; refine Fin.ext ?_
      match b with
      | ⟨0, _⟩ => rfl
      | ⟨1, _⟩ => rfl
      | ⟨2, _⟩ => rfl
    rw [hsi]
    rfl
  | ⟨1, _⟩ =>
    unfold GatherDims.start
    rw [dif_neg (show (⟨1, by decide⟩ : Fin 2) ∉ (rows3Dims N D R A wf).startIndexMap from
      fun h => absurd (congrArg Fin.val (List.mem_singleton.mp h)) Nat.one_ne_zero)]
    simp only [Nat.zero_add]
    rfl

end Rows3

/-! ## Looking a row up by a signed word in range

jnp's indexing first wraps a negative index by the table's height, select (i < 0) (i + n) i: for an index that is
not negative this is the index itself. The gather then clamps the start index, read as a signed integer, into
[0, N − 1]: for a word w with 0 ≤ w (signed) and w < N the clamped start is w itself. -/

/-- A signed word that is not negative is not below zero in the signed order. -/
theorem cmpi_slt_zero_of_nonneg (w : BitVec 32) (h : 0 ≤ w.toInt) : IntOp.cmpi .slt w (0#32) = 0#1 := by
  unfold IntOp.cmpi
  have : w.slt (0#32) = false := by
    simp only [BitVec.slt, BitVec.toInt_zero, decide_eq_false_iff_not, not_lt]
    exact h
  simp [this]

/-- The negative-index wrap leaves a non-negative index alone. -/
theorem wrap_of_nonneg {α : Type} (w : BitVec 32) (h : 0 ≤ w.toInt) (a b : α) :
    Scalar.select (IntOp.cmpi .slt w (0#32)) a b = b := by
  rw [cmpi_slt_zero_of_nonneg w h]; exact select_zero a b

/-- For a signed word in [0, N) the clamp of a gather's start index is the word's own value. -/
theorem clamp_of_range (w : BitVec 32) (N : Nat) (h0 : 0 ≤ w.toInt) (hlt : w.toNat < N) :
    min w.toInt.toNat (N - 1) = w.toNat := by
  have e : w.toInt.toNat = w.toNat := by
    have := BitVec.toInt_eq_toNat_cond w
    split at this <;> omega
  rw [e]; omega

section
variable {α : Type}

/-- A row gather whose start index at row t is a signed word in [0, N) reads that row of the table. -/
theorem gather_rows_of_word {N D R : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ 32) (y : (⟨2, ![R, D]⟩ : Shape).Idx)
    (w : BitVec 32) (hw : idx (rowsIdx y) = w) (h0 : 0 ≤ w.toInt) (hlt : w.toNat < N) :
    Host.gather (rowsDims N D R wf) x idx y = x (ix2 ⟨w.toNat, hlt⟩ ⟨(y 1).val, idx2_lt1 y⟩) := by
  rw [gather_rows_apply hN wf x idx y]
  refine congrArg x ?_
  refine congrArg (fun r => ix2 r (⟨(y 1).val, idx2_lt1 y⟩ : Fin D)) (Fin.ext ?_)
  show min (idx (rowsIdx y)).toInt.toNat (N - 1) = w.toNat
  rw [hw]; exact clamp_of_range w N h0 hlt

/-- The same with two batch axes. -/
theorem gather_rows3_of_word {N D R A : Nat} (hN : 0 < N)
    (wf : GatherDims.WF ⟨2, ![N, D]⟩ ⟨3, ![R, A, 1]⟩ ⟨3, ![R, A, D]⟩ [2] [0] [] [0] [] 2 ![1, D])
    (x : (⟨2, ![N, D]⟩ : Shape).Idx → α) (idx : IVec ⟨3, ![R, A, 1]⟩ 32) (y : (⟨3, ![R, A, D]⟩ : Shape).Idx)
    (w : BitVec 32) (hw : idx (rows3Idx y) = w) (h0 : 0 ≤ w.toInt) (hlt : w.toNat < N) :
    Host.gather (rows3Dims N D R A wf) x idx y = x (ix2 ⟨w.toNat, hlt⟩ ⟨(y 2).val, idx3_lt2 y⟩) := by
  rw [gather_rows3_apply hN wf x idx y]
  refine congrArg x ?_
  refine congrArg (fun r => ix2 r (⟨(y 2).val, idx3_lt2 y⟩ : Fin D)) (Fin.ext ?_)
  show min (idx (rows3Idx y)).toInt.toNat (N - 1) = w.toNat
  rw [hw]; exact clamp_of_range w N h0 hlt

end

end Idealize.ShloMosaic.ValueIdx

end
-- ==== Proof.LibGatherOnce.lean ====
/-
  One gathered row per batch entry, two spellings, over any element type and any extents: a table T [N,D], one row
  number per batch entry.
  * the row numbers as a column I2 [R,1]: gather to [R,D], then set as [R,1,D];
  * the row numbers as I3 [R,1,1]: gather straight to [R,1,D].
  When I2 (r, 0) = I3 (r, 0, 0) for every r the two [R,1,D] arrays are equal: entry (r, 0, j) of either is T's entry at
  the row number (read signed, clamped into [0, N − 1]) and column j.
-/
import Idealize.ShloMosaic.Lib.Pipeline.Value
import Idealize.ShloMosaic.Lib.ValueIdx
import proofs.«166662_j47579647705297_2_alg».proof.Proof.LibGatherRows

noncomputable section

namespace Cert.LibGatherOnce

open Idealize.ShloMosaic Idealize.ShloMosaic.ValueIdx Idealize.ShloMosaic.Pipeline

variable {α : Type} {N D R : Nat}

theorem once_eq (hN : 0 < N) (T : (⟨2, ![N, D]⟩ : Shape).Idx → α) (I2 : IVec ⟨2, ![R, 1]⟩ 32) (I3 : IVec ⟨3, ![R, 1, 1]⟩ 32)
    (hI : ∀ r : Fin R, I2 (ix2 r (0 : Fin 1)) = I3 (ix3 r (0 : Fin 1) (0 : Fin 1)))
    (wf2 : GatherDims.WF ⟨2, ![N, D]⟩ ⟨2, ![R, 1]⟩ ⟨2, ![R, D]⟩ [1] [0] [] [0] [] 1 ![1, D])
    (wf3 : GatherDims.WF ⟨2, ![N, D]⟩ ⟨3, ![R, 1, 1]⟩ ⟨3, ![R, 1, D]⟩ [2] [0] [] [0] [] 2 ![1, D])
    (hb : (⟨2, ![R, D]⟩ : Shape).BroadcastsInDim ⟨3, ![R, 1, D]⟩ ![0, 2]) :
    broadcastInDim ⟨3, ![R, 1, D]⟩ ![0, 2] hb (Host.gather (rowsDims N D R wf2) T I2)
      = Host.gather (rows3Dims N D R 1 wf3) T I3 := by
  funext y
  obtain ⟨r, z, j, rfl⟩ : ∃ (r : Fin R) (z : Fin 1) (j : Fin D), y = ix3 r z j := ⟨y 0, y 1, y 2, eq_ix3 y⟩
  have hr : r.val < R := r.isLt
  have hj : j.val < D := j.isLt
  have hz : z = 0 := Subsingleton.elim _ _
  subst hz
  rw [broadcastInDim_apply ![0, 2] hb _ (ix3 r 0 j) (ix2 r j) (by
      intro c
      match c with
      | ⟨0, _⟩ => show r.val = if R = 1 then 0 else r.val; split <;> omega
      | ⟨1, _⟩ => show j.val = if D = 1 then 0 else j.val; split <;> omega),
    gather_rows_apply hN wf2 T I2 (ix2 r j), gather_rows3_apply hN wf3 T I3 (ix3 r 0 j)]
  have e2 : rowsIdx (ix2 r j) = ix2 r (0 : Fin 1) := funext fun a => by
    match a with
    | ⟨0, _⟩ => rfl
    | ⟨1, _⟩ => rfl
  have e3 : rows3Idx (ix3 r (0 : Fin 1) j) = ix3 r (0 : Fin 1) (0 : Fin 1) := funext fun a => by
    match a with
    | ⟨0, _⟩ => rfl
    | ⟨1, _⟩ => rfl
    | ⟨2, _⟩ => rfl
  refine congrArg T (funext fun a => Fin.ext ?_)
  match a with
  | ⟨0, _⟩ => show min (I2 (rowsIdx (ix2 r j))).toInt.toNat (N - 1) = min (I3 (rows3Idx (ix3 r 0 j))).toInt.toNat (N - 1); rw [e2, e3, hI r]
  | ⟨1, _⟩ => rfl

/-- The same for a one-column table, the [R,1,1] result flattened to [R,1]: the gather by the column of row numbers is the
    gather by the [R,1,1] row numbers, reshaped. -/
theorem once_flat_eq (hN : 0 < N) (T : (⟨2, ![N, 1]⟩ : Shape).Idx → α) (I2 : IVec ⟨2, ![R, 1]⟩ 32) (I3 : IVec ⟨3, ![R, 1, 1]⟩ 32)
    (hI : ∀ r : Fin R, I2 (ix2 r (0 : Fin 1)) = I3 (ix3 r (0 : Fin 1) (0 : Fin 1)))
    (wf2 : GatherDims.WF ⟨2, ![N, 1]⟩ ⟨2, ![R, 1]⟩ ⟨2, ![R, 1]⟩ [1] [0] [] [0] [] 1 ![1, 1])
    (wf3 : GatherDims.WF ⟨2, ![N, 1]⟩ ⟨3, ![R, 1, 1]⟩ ⟨3, ![R, 1, 1]⟩ [2] [0] [] [0] [] 2 ![1, 1])
    (hsc : (⟨3, ![R, 1, 1]⟩ : Shape).ShapeCasts ⟨2, ![R, 1]⟩) :
    Host.gather (rowsDims N 1 R wf2) T I2
      = shapeCast ⟨2, ![R, 1]⟩ (Host.gather (rows3Dims N 1 R 1 wf3) T I3) hsc := by
  funext y
  obtain ⟨r, z, rfl⟩ : ∃ (r : Fin R) (z : Fin 1), y = ix2 r z := ⟨y 0, y 1, eq_ix2 y⟩
  have hz : z = 0 := Subsingleton.elim _ _
  subst hz
  rw [shapeCast_apply _ hsc (ix2 r (0 : Fin 1)) (ix3 r (0 : Fin 1) (0 : Fin 1)) (by
      rw [Shape.rowMajor_val_three, Shape.rowMajor_val_two]
      show (r.val * 1 + 0) * 1 + 0 = r.val * 1 + 0
      omega),
    gather_rows_apply hN wf2 T I2 (ix2 r 0), gather_rows3_apply hN wf3 T I3 (ix3 r 0 0)]
  have e2 : rowsIdx (ix2 r (0 : Fin 1)) = ix2 r (0 : Fin 1) := funext fun a => by
    match a with
    | ⟨0, _⟩ => rfl
    | ⟨1, _⟩ => rfl
  have e3 : rows3Idx (ix3 r (0 : Fin 1) (0 : Fin 1)) = ix3 r (0 : Fin 1) (0 : Fin 1) := funext fun a => by
    match a with
    | ⟨0, _⟩ => rfl
    | ⟨1, _⟩ => rfl
    | ⟨2, _⟩ => rfl
  refine congrArg T (funext fun a => Fin.ext ?_)
  match a with
  | ⟨0, _⟩ => show min (I2 (rowsIdx (ix2 r 0))).toInt.toNat (N - 1) = min (I3 (rows3Idx (ix3 r 0 0))).toInt.toNat (N - 1); rw [e2, e3, hI r]
  | ⟨1, _⟩ => rfl

end Cert.LibGatherOnce

end
-- ==== Proof.IdealUsers.lean ====
/-
  The user side of the kernel program, as values in the reference's arrangement: the per-user mixing weights, the three
  per-behaviour neighbourhood aggregates, the mixed user feature UF, and the user representation
  [user_emb | UF · W] + UF · user_W. The kernel mixes the three behaviours as one stacked sum over a leading axis and
  computes UF · [W | user_W] in one row-tiled product (region 2) whose first 64 and last 128 columns it cuts apart; the
  reference adds the behaviours one by one and takes the two products separately.
-/
import proofs.«166662_j47579647705297_2_alg».proof.Proof.IdealFlow
import proofs.«166662_j47579647705297_2_alg».proof.Proof.IdealStages
import proofs.«166662_j47579647705297_2_alg».proof.Proof.IdealWhole2
import proofs.«166662_j47579647705297_2_alg».proof.Proof.IdealArgs
import proofs.«166662_j47579647705297_2_alg».proof.Proof.LibSplitWeights
import proofs.«166662_j47579647705297_2_alg».proof.Proof.LibMix3
import proofs.«166662_j47579647705297_2_alg».proof.Proof.LibGatherOnce
import proofs.«166662_j47579647705297_2_alg».proof.Proof.Gen.ReferenceIdeal

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- The per-user mixing weights: degree times behaviour weight, over their weighted total plus eps. -/
def mixWeights (c : Dev nD) : FVec Ideal S100000x3 .f32 :=
  Host.divf (mulf (kA2 m c) (broadcastInDim S100000x3 ![0, 1] bcast_S1x3_S100000x3_0_1 (broadcastInDim S1x3 ![1] bcast_S3_S1x3_1 (kA3 m c)))) (broadcastInDim S100000x3 ![0, 1] bcast_S100000x1_S100000x3_0_1 (addf (Host.dotGeneral dot_S100000x3_S3x1_S100000x1_1_0_0_1_n_n none (kA2 m c) (broadcastInDim S3x1 ![0] bcast_S3_S3x1_0 (kA3 m c))) (broadcastInDim S100000x1 ![] bcast_S_S100000x1 (constant S_ .f32 0x322BCC77#32))))

/-- Behaviour g's neighbourhood aggregate of item embeddings, per user. -/
def aggr (c : Dev nD) : Fin 3 → FVec Ideal S100000x64 .f32
  | 0 => Host.scatterAdd scatter_S100000x64_S500000x1_S500000x64_1_0_0_1 (broadcastInDim S100000x64 ![] bcast_S_S100000x64 (constant S_ .f32 0x00000000#32)) (broadcastInDim S500000x1 ![0] bcast_S500000_S500000x1_0 (shapeCast _ (extractStridedSlice S1x500000 ![0, 0] (kA11 m c) slices_S3x500000_S1x500000_0_0) shapeCasts_S1x500000_S500000)) (Host.gather gather_S30000x64_S500000x1_S500000x64_1_0_n_n_0_1_164 (kA1 m c) (broadcastInDim S500000x1 ![0] bcast_S500000_S500000x1_0 (select (cmpi .slt (shapeCast _ (extractStridedSlice S1x500000 ![0, 0] (kA12 m c) slices_S3x500000_S1x500000_0_0) shapeCasts_S1x500000_S500000) (broadcastInDim S500000 ![] bcast_S_S500000 (constantI S_ 32 0#32))) (addi (shapeCast _ (extractStridedSlice S1x500000 ![0, 0] (kA12 m c) slices_S3x500000_S1x500000_0_0) shapeCasts_S1x500000_S500000) (broadcastInDim S500000 ![] bcast_S_S500000 (constantI S_ 32 30000#32))) (shapeCast _ (extractStridedSlice S1x500000 ![0, 0] (kA12 m c) slices_S3x500000_S1x500000_0_0) shapeCasts_S1x500000_S500000))))
  | 1 => Host.scatterAdd scatter_S100000x64_S500000x1_S500000x64_1_0_0_1 (broadcastInDim S100000x64 ![] bcast_S_S100000x64 (constant S_ .f32 0x00000000#32)) (broadcastInDim S500000x1 ![0] bcast_S500000_S500000x1_0 (shapeCast _ (extractStridedSlice S1x500000 ![1, 0] (kA11 m c) slices_S3x500000_S1x500000_1_0) shapeCasts_S1x500000_S500000)) (Host.gather gather_S30000x64_S500000x1_S500000x64_1_0_n_n_0_1_164 (kA1 m c) (broadcastInDim S500000x1 ![0] bcast_S500000_S500000x1_0 (select (cmpi .slt (shapeCast _ (extractStridedSlice S1x500000 ![1, 0] (kA12 m c) slices_S3x500000_S1x500000_1_0) shapeCasts_S1x500000_S500000) (broadcastInDim S500000 ![] bcast_S_S500000 (constantI S_ 32 0#32))) (addi (shapeCast _ (extractStridedSlice S1x500000 ![1, 0] (kA12 m c) slices_S3x500000_S1x500000_1_0) shapeCasts_S1x500000_S500000) (broadcastInDim S500000 ![] bcast_S_S500000 (constantI S_ 32 30000#32))) (shapeCast _ (extractStridedSlice S1x500000 ![1, 0] (kA12 m c) slices_S3x500000_S1x500000_1_0) shapeCasts_S1x500000_S500000))))
  | 2 => Host.scatterAdd scatter_S100000x64_S500000x1_S500000x64_1_0_0_1 (broadcastInDim S100000x64 ![] bcast_S_S100000x64 (constant S_ .f32 0x00000000#32)) (broadcastInDim S500000x1 ![0] bcast_S500000_S500000x1_0 (shapeCast _ (extractStridedSlice S1x500000 ![2, 0] (kA11 m c) slices_S3x500000_S1x500000_2_0) shapeCasts_S1x500000_S500000)) (Host.gather gather_S30000x64_S500000x1_S500000x64_1_0_n_n_0_1_164 (kA1 m c) (broadcastInDim S500000x1 ![0] bcast_S500000_S500000x1_0 (select (cmpi .slt (shapeCast _ (extractStridedSlice S1x500000 ![2, 0] (kA12 m c) slices_S3x500000_S1x500000_2_0) shapeCasts_S1x500000_S500000) (broadcastInDim S500000 ![] bcast_S_S500000 (constantI S_ 32 0#32))) (addi (shapeCast _ (extractStridedSlice S1x500000 ![2, 0] (kA12 m c) slices_S3x500000_S1x500000_2_0) shapeCasts_S1x500000_S500000) (broadcastInDim S500000 ![] bcast_S_S500000 (constantI S_ 32 30000#32))) (shapeCast _ (extractStridedSlice S1x500000 ![2, 0] (kA12 m c) slices_S3x500000_S1x500000_2_0) shapeCasts_S1x500000_S500000))))

/-- The mixed user feature, the behaviours added one by one. -/
def userFeature (c : Dev nD) : FVec Ideal S100000x64 .f32 :=
  addf (addf (addf (broadcastInDim S100000x64 ![] Cert.ReferenceIdeal.Facts₀.bcast_S_S100000x64 (constant S_ .f32 0x00000000#32))
    (mulf (broadcastInDim S100000x64 ![0, 1] Cert.ReferenceIdeal.Facts₀.bcast_S100000x1_S100000x64_0_1 (extractStridedSlice S100000x1 ![0, 0] (mixWeights m c) Cert.ReferenceIdeal.Facts₀.slices_S100000x3_S100000x1_0_0))
      (Host.divf (aggr m c 0) (broadcastInDim S100000x64 ![0, 1] Cert.ReferenceIdeal.Facts₀.bcast_S100000x1_S100000x64_0_1
        (addf (extractStridedSlice S100000x1 ![0, 0] (kA2 m c) Cert.ReferenceIdeal.Facts₀.slices_S100000x3_S100000x1_0_0)
          (broadcastInDim S100000x1 ![] Cert.ReferenceIdeal.Facts₀.bcast_S_S100000x1 (constant S_ .f32 0x322BCC77#32)))))))
    (mulf (broadcastInDim S100000x64 ![0, 1] Cert.ReferenceIdeal.Facts₀.bcast_S100000x1_S100000x64_0_1 (extractStridedSlice S100000x1 ![0, 1] (mixWeights m c) Cert.ReferenceIdeal.Facts₀.slices_S100000x3_S100000x1_0_1))
      (Host.divf (aggr m c 1) (broadcastInDim S100000x64 ![0, 1] Cert.ReferenceIdeal.Facts₀.bcast_S100000x1_S100000x64_0_1
        (addf (extractStridedSlice S100000x1 ![0, 1] (kA2 m c) Cert.ReferenceIdeal.Facts₀.slices_S100000x3_S100000x1_0_1)
          (broadcastInDim S100000x1 ![] Cert.ReferenceIdeal.Facts₀.bcast_S_S100000x1 (constant S_ .f32 0x322BCC77#32)))))))
    (mulf (broadcastInDim S100000x64 ![0, 1] Cert.ReferenceIdeal.Facts₀.bcast_S100000x1_S100000x64_0_1 (extractStridedSlice S100000x1 ![0, 2] (mixWeights m c) Cert.ReferenceIdeal.Facts₀.slices_S100000x3_S100000x1_0_2))
      (Host.divf (aggr m c 2) (broadcastInDim S100000x64 ![0, 1] Cert.ReferenceIdeal.Facts₀.bcast_S100000x1_S100000x64_0_1
        (addf (extractStridedSlice S100000x1 ![0, 2] (kA2 m c) Cert.ReferenceIdeal.Facts₀.slices_S100000x3_S100000x1_0_2)
          (broadcastInDim S100000x1 ![] Cert.ReferenceIdeal.Facts₀.bcast_S_S100000x1 (constant S_ .f32 0x322BCC77#32))))))

theorem v8_at2 (c : Dev nD) : (at2 m ρ c (Proc.devRef .tc main_v8) : FVec Ideal S100000x3 .f32) = mixWeights m c :=
  (hold_v8_1_2 m ρ c).trans (st0_v8 (at0 m ρ c))

/-- The kernel's stacked sum is the reference's sum, one behaviour at a time. -/
theorem v169_at3 (c : Dev nD) : (at3 m ρ c (Proc.devRef .tc main_v169) : FVec Ideal S100000x64 .f32) = userFeature m c := by
  refine (st1_v169 (at2 m ρ c)).trans ?_
  rw [st1_v162 (at2 m ρ c), st1_v160 (at2 m ρ c), st1_v72 (at2 m ρ c), st1_v86 (at2 m ρ c), st1_v100 (at2 m ρ c),
    v8_at2 m ρ c, hold_arg1_0_2 m ρ c, hold_arg2_0_2 m ρ c, hold_arg11_0_2 m ρ c, hold_arg12_0_2 m ρ c]
  exact Cert.LibMix3.mix3_eq (U := 100000) (D := 64) 0x322BCC77#32 (mixWeights m c) (kA2 m c) (aggr m c)
    transposes_S100000x3_S3x100000_1_0 bcast_S3x100000_S3x100000x1_0_1 bcast_S3x100000x1_S3x100000x64_0_1_2 bcast_S_S3x100000x1
    bcast_S100000x64_S1x100000x64_1_2 concatenates_S1x100000x64_S1x100000x64_S1x100000x64_S3x100000x64_d0
    reducesTo_S3x100000x64_S100000x64_d0 h_S_ Cert.ReferenceIdeal.Facts₀.bcast_S_S100000x64 Cert.ReferenceIdeal.Facts₀.bcast_S100000x1_S100000x64_0_1 Cert.ReferenceIdeal.Facts₀.bcast_S_S100000x1
    Cert.ReferenceIdeal.Facts₀.slices_S100000x3_S100000x1_0_0 Cert.ReferenceIdeal.Facts₀.slices_S100000x3_S100000x1_0_1 Cert.ReferenceIdeal.Facts₀.slices_S100000x3_S100000x1_0_2

/-- The weights region 2 reads: [W | user_W]. -/
theorem v203_at5 (c : Dev nD) :
    (at5 m ρ c (Proc.devRef .tc main_v203) : FVec Ideal S64x192 .f32)
      = concatenate S64x192 1 [⟨S64x64, kA7 m c⟩, ⟨S64x128, kA8 m c⟩] concatenates_S64x64_S64x128_S64x192_d1 :=
  (st2_v203 (at4 m ρ c)).trans (by rw [hold_arg7_0_4 m ρ c, hold_arg8_0_4 m ρ c])

/-- Region 2's output: UF · [W | user_W]. -/
theorem v204_at6 (c : Dev nD) :
    (at6 m ρ c (Proc.devRef .tc main_v204) : FVec Ideal S100000x192 .f32)
      = rows2 (userFeature m c) (concatenate S64x192 1 [⟨S64x64, kA7 m c⟩, ⟨S64x128, kA8 m c⟩] concatenates_S64x64_S64x128_S64x192_d1) := by
  refine (at6_arr m ρ c 2).trans ((array2 (in2 m ρ) c).trans ?_)
  show rows2 (at5 m ρ c (Proc.devRef .tc main_v169)) (at5 m ρ c (Proc.devRef .tc main_v203)) = _
  rw [hold_v169_3_5 m ρ c, v169_at3 m ρ c, v203_at5 m ρ c]

/-- The user representation in the reference's arrangement: [user_emb | UF · W] + UF · user_W. -/
def userRep (c : Dev nD) : FVec Ideal S100000x128 .f32 :=
  addf (concatenate S100000x128 1 [⟨S100000x64, kA0 m c⟩,
      ⟨S100000x64, Host.dotGeneral (φ₁ := .f32) (φ₂ := .f32) Cert.ReferenceIdeal.dot_S100000x64_S64x64_S100000x64_1_0_0_1_n_n none (userFeature m c) (kA7 m c)⟩] concatenates_S100000x64_S100000x64_S100000x128_d1)
    (Host.dotGeneral (φ₁ := .f32) (φ₂ := .f32) Cert.ReferenceIdeal.dot_S100000x64_S64x128_S100000x128_1_0_0_1_n_n none (userFeature m c) (kA8 m c))

theorem v208_at7 (c : Dev nD) :
    (at7 m ρ c (Proc.devRef .tc main_v208) : FVec Ideal S100000x128 .f32) = userRep m c := by
  refine (st3_v208 (at6 m ρ c)).trans ?_
  rw [hold_arg0_0_6 m ρ c, v204_at6 m ρ c]
  have hL := Cert.LibSplitWeights.left_block (M := 100000) (K := 64) (N1 := 64) (N2 := 128) (N := 192) rfl (userFeature m c)
    (kA7 m c) (kA8 m c) concatenates_S64x64_S64x128_S64x192_d1
    slices_S100000x192_S100000x64_0_0 Cert.ReferenceIdeal.dot_S100000x64_S64x64_S100000x64_1_0_0_1_n_n.wf none
  have hR := Cert.LibSplitWeights.right_block (M := 100000) (K := 64) (N1 := 64) (N2 := 128) (N := 192) rfl (userFeature m c)
    (kA7 m c) (kA8 m c) concatenates_S64x64_S64x128_S64x192_d1
    slices_S100000x192_S100000x128_0_64 Cert.ReferenceIdeal.dot_S100000x64_S64x128_S100000x128_1_0_0_1_n_n.wf none
  unfold userRep
  exact congrArg₂ addf (congrArg (fun z : FVec Ideal S100000x64 .f32 => concatenate S100000x128 1 [⟨S100000x64, kA0 m c⟩, ⟨S100000x64, z⟩] concatenates_S100000x64_S100000x64_S100000x128_d1) hL) hR

/-- The batch's user numbers as the kernel reads them: the [2048,1] argument as a vector. -/
theorem v178_at5 (c : Dev nD) :
    (at5 m ρ c (Proc.devRef .tc main_v178) : IVec S2048 32) = shapeCast S2048 (kA17 m c) shapeCasts_S2048x1_S2048 :=
  (st2_v178 (at4 m ρ c)).trans (by rw [hold_arg17_0_4 m ρ c])

/-- The batch's user numbers, wrapped, read two ways — as a vector set as a column, and as the [2048,1] argument set as
    [2048,1,1] — are the same word at every batch entry. -/
theorem userWords (c : Dev nD) (r : Fin 2048) :
    ((broadcastInDim S2048x1 ![0] bcast_S2048_S2048x1_0
          (select (cmpi .slt (shapeCast S2048 (kA17 m c) shapeCasts_S2048x1_S2048) (broadcastInDim S2048 ![] bcast_S_S2048 (constantI S_ 32 0#32)))
            (addi (shapeCast S2048 (kA17 m c) shapeCasts_S2048x1_S2048) (broadcastInDim S2048 ![] bcast_S_S2048 (constantI S_ 32 100000#32)))
            (shapeCast S2048 (kA17 m c) shapeCasts_S2048x1_S2048))) : IVec S2048x1 32) (ValueIdx.ix2 r (0 : Fin 1))
      = ((broadcastInDim Cert.ReferenceIdeal.S2048x1x1 ![0, 1] Cert.ReferenceIdeal.Facts₀.bcast_S2048x1_S2048x1x1_0_1 (select (cmpi .slt (kA17 m c) (broadcastInDim S2048x1 ![] Cert.ReferenceIdeal.Facts₀.bcast_S_S2048x1 (constantI S_ 32 0#32))) (addi (kA17 m c) (broadcastInDim S2048x1 ![] Cert.ReferenceIdeal.Facts₀.bcast_S_S2048x1 (constantI S_ 32 100000#32))) (kA17 m c))) : IVec Cert.ReferenceIdeal.S2048x1x1 32) (ValueIdx.ix3 r (0 : Fin 1) (0 : Fin 1)) := by
  have hv : shapeCast S2048 (kA17 m c) shapeCasts_S2048x1_S2048 (ValueIdx.ix1 r) = kA17 m c (ValueIdx.ix2 r (0 : Fin 1)) :=
    shapeCast_apply (kA17 m c) shapeCasts_S2048x1_S2048 (ValueIdx.ix1 r) (ValueIdx.ix2 r (0 : Fin 1)) (by
      rw [Shape.rowMajor_val_two, Shape.rowMajor_val_one]
      show r.val * 1 + 0 = r.val
      omega)
  rw [broadcastInDim_apply ![0] bcast_S2048_S2048x1_0 _ (ValueIdx.ix2 r (0 : Fin 1)) (ValueIdx.ix1 r) (by intro a; match a with | ⟨0, _⟩ => rfl),
    broadcastInDim_apply ![0, 1] Cert.ReferenceIdeal.Facts₀.bcast_S2048x1_S2048x1x1_0_1 _ (ValueIdx.ix3 r (0 : Fin 1) (0 : Fin 1)) (ValueIdx.ix2 r (0 : Fin 1)) (by intro a; match a with | ⟨0, _⟩ => rfl | ⟨1, _⟩ => rfl)]
  simp only [select, cmpi, addi, hv]
  rfl

/-- The batch's user rows, one per batch entry and set as [2048,1,128], in the reference's spelling: gathered by the
    [2048,1,1] row numbers. -/
def userRows (c : Dev nD) : FVec Ideal S2048x1x128 .f32 :=
  Host.gather Cert.ReferenceIdeal.gather_S100000x128_S2048x1x1_S2048x1x128_2_0_n_n_0_2_1128 (userRep m c)
    (broadcastInDim Cert.ReferenceIdeal.S2048x1x1 ![0, 1] Cert.ReferenceIdeal.Facts₀.bcast_S2048x1_S2048x1x1_0_1 (select (cmpi .slt (kA17 m c) (broadcastInDim S2048x1 ![] Cert.ReferenceIdeal.Facts₀.bcast_S_S2048x1 (constantI S_ 32 0#32))) (addi (kA17 m c) (broadcastInDim S2048x1 ![] Cert.ReferenceIdeal.Facts₀.bcast_S_S2048x1 (constantI S_ 32 100000#32))) (kA17 m c)))

/-- The kernel gathers by the [2048,1] column of (vector) row numbers and then sets the result as [2048,1,128]: the
    same rows. -/
theorem userRows_eq (c : Dev nD) :
    broadcastInDim S2048x1x128 ![0, 2] bcast_S2048x128_S2048x1x128_0_2
      (Host.gather gather_S100000x128_S2048x1_S2048x128_1_0_n_n_0_1_1128 (userRep m c)
        (broadcastInDim S2048x1 ![0] bcast_S2048_S2048x1_0
          (select (cmpi .slt (shapeCast S2048 (kA17 m c) shapeCasts_S2048x1_S2048) (broadcastInDim S2048 ![] bcast_S_S2048 (constantI S_ 32 0#32)))
            (addi (shapeCast S2048 (kA17 m c) shapeCasts_S2048x1_S2048) (broadcastInDim S2048 ![] bcast_S_S2048 (constantI S_ 32 100000#32)))
            (shapeCast S2048 (kA17 m c) shapeCasts_S2048x1_S2048))))
      = userRows m c := by
  unfold userRows
  refine Cert.LibGatherOnce.once_eq (N := 100000) (D := 128) (R := 2048) (by decide) (userRep m c) _ _ (fun r => ?_)
    gather_S100000x128_S2048x1_S2048x128_1_0_n_n_0_1_1128.wf Cert.ReferenceIdeal.gather_S100000x128_S2048x1x1_S2048x1x128_2_0_n_n_0_2_1128.wf bcast_S2048x128_S2048x1x128_0_2
  exact userWords m c r

/-- The kernel's user rows repeated along the twenty candidates: the reference's. -/
theorem v223_at9 (c : Dev nD) :
    (at9 m ρ c (Proc.devRef .tc main_v223) : FVec Ideal S2048x20x128 .f32)
      = broadcastInDim S2048x20x128 ![0, 1, 2] bcast_S2048x1x128_S2048x20x128_0_1_2 (userRows m c) := by
  refine (st4_v223 (at8 m ρ c)).trans ?_
  rw [st4_v221 (at8 m ρ c), hold_v208_7_8 m ρ c, v208_at7 m ρ c, hold_v178_5_8 m ρ c, v178_at5 m ρ c, userRows_eq m c]

end Cert.KernelIdeal.Hand

end
-- ==== Proof.IdealWhole3.lean ====
/-
  Region 3's output array as one function of the arrays the region finds: row r, column q of the [30000, 192] result is
  the sum over c of X (r, c) · P (c, q), X the aggregated item feature and P the column-concatenated weights [W | item_W]. Each grid point writes back the row tile of 5000 rows it computed from
  the same rows of X and the whole of P; the 6 tiles cover the array.
-/
import proofs.«166662_j47579647705297_2_alg».proof.Proof.IdealRegion3
import proofs.«166662_j47579647705297_2_alg».proof.Proof.LibDotNN
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The plain product of a [30000, 64] by a [64, 192] array, index by index. -/
def rows3 (X : S30000x64.Idx → EReal) (P : S64x192.Idx → EReal) : S30000x192.Idx → EReal :=
  fun i => ∑ c : Fin 64, X (ix2 (n0 := 30000) (n1 := 64) (i 0) c) * P (ix2 (n0 := 64) (n1 := 192) c (i 1))

theorem zero3 : (![0, 0] : Fin 2 → Nat) = fun _ => 0 := funext fun a => by fin_cases a <;> rfl

/-- The payload at an index of the tile: the row of the input tile against the column of the weights. -/
theorem pay3_at (x : Vec Ideal S5000x64 .f32) (p : Vec Ideal S64x192 .f32) (a : Fin 5000) (q : Fin 192) :
    k3_pay1 x p (ix2 a q) = ∑ c : Fin 64, x (ix2 a c) * p (ix2 c q) := by
  unfold k3_pay1
  refine (Cert.LibDotNN.matmul_rounded_apply dot_S5000x64_S64x192_S5000x192_1_0_0_1_n_n.wf none .bf16 bitsLt_bf16_f32 bitsLt_bf16_f32 _ _ a q).trans ?_
  simp only [shapeCast_self]

/-- The windows' block indices over the grid: the input rows move with the output rows, the weights stay, and the
    output's row-tile index stays below 6. -/
theorem steps3 : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 5 :=
  (by decide +kernel : ∀ t : Fin grid3.N, _)

/-- Every row tile is some point's. -/
theorem onto3 : ∀ q0 : Fin 6, ∃ t : Fin cfg3.N, win3_2.index t = ![q0.val, 0] :=
  (by decide +kernel : ∀ q0 : Fin 6, ∃ t : Fin grid3.N, win3_2.index t = ![q0.val, 0])

/-- Over variables of the arrays' own types: the row of tile `t` of X against the column of P is the product's entry at
    the tile's place in the output array — the input's row tile sits at the output's rows, the weights are read whole. -/
theorem tile_rows3 (X : S30000x64.Idx → EReal) (P : S64x192.Idx → EReal) (t : Fin cfg3.N) (a : Fin 5000) (q : Fin 192) :
    (∑ k : Fin 64, X (((cfg3.win 0).blk t).view.emb (ix2 a k)) * P (((cfg3.win 1).blk t).view.emb (ix2 k q)))
      = rows3 X P (((cfg3.win 2).blk t).view.emb (ix2 a q)) := by
  obtain ⟨e0, e1, e2, e3, e4, e5⟩ := steps3 t
  unfold rows3
  refine Finset.sum_congr rfl fun k _ => ?_
  have hx : ((cfg3.win 0).blk t).view.emb (ix2 a k) = ix2 (n0 := 30000) (n1 := 64) ((((cfg3.win 2).blk t).view.emb (ix2 a q)) 0) k := by
    funext ax; apply Fin.ext
    match ax with
    | ⟨0, _⟩ => show win3_0.index t (0 : Fin 2) * 5000 + 1 * a.val = win3_2.index t (0 : Fin 2) * 5000 + 1 * a.val; omega
    | ⟨1, _⟩ => show win3_0.index t (1 : Fin 2) * 64 + 1 * k.val = k.val; omega
  have hp : ((cfg3.win 1).blk t).view.emb (ix2 k q) = ix2 (n0 := 64) (n1 := 192) k ((((cfg3.win 2).blk t).view.emb (ix2 a q)) 1) := by
    funext ax; apply Fin.ext
    match ax with
    | ⟨0, _⟩ => show win3_1.index t (0 : Fin 2) * 64 + 1 * k.val = k.val; omega
    | ⟨1, _⟩ => show win3_1.index t (1 : Fin 2) * 192 + 1 * q.val = win3_2.index t (1 : Fin 2) * 192 + 1 * q.val; omega
  rw [hx, hp]

/-- What point `t` writes back is tile `t` of the product of the arrays as the region finds them. -/
theorem tileback3 (c : Dev nD) (t : Fin cfg3.N) :
    (dat3 V c).flushed 2 t = ((cfg3.win 2).blk t).view.read (Elt Ideal) (rows3 (V c main_v202) (V c main_v209)) := by
  show (cfg3.win 2).cut (grid3.coords t) ((dat3 V c).after 2 t) = _
  rw [after3_2]
  unfold left3
  rw [View.canon_unit_zero zero3]
  simp only [View.ld_unit_zero (S := S5000x64) zero3, View.ld_unit_zero (S := S64x192) zero3]
  funext j
  obtain ⟨a, q, rfl⟩ : ∃ (a : Fin 5000) (q : Fin 192), j = ix2 a q := ⟨j 0, j 1, eq_ix2 j⟩
  show k3_pay1 (tile3 V c 0 t) (tile3 V c 1 t) (ix2 a q) = _
  refine (pay3_at (tile3 V c 0 t) (tile3 V c 1 t) a q).trans ?_
  exact tile_rows3 (V c main_v202) (V c main_v209) t a q

/-- An index of the output array lies in point `t`'s tile iff each coordinate is in the tile's range on its axis. -/
theorem in_tile3 (t : Fin cfg3.N) (i : S30000x192.Idx) :
    i ∈ ((cfg3.win 2).blk t).view.set ↔ ∀ a : Fin 2, win3_2.index t a * S5000x192.size a ≤ (i a).val ∧ (i a).val < win3_2.index t a * S5000x192.size a + S5000x192.size a := by
  show i ∈ ((View.whole main_v210).slice (win3_2.rect t)).set ↔ _
  rw [View.set_slice_whole, Rect.mem_set_unit]
  exact Iff.rfl

/-- The 6 tiles cover the output array. -/
theorem covered3 (i : S30000x192.Idx) : ∃ t : Fin cfg3.N, (cfg3.win 2).flush t = true ∧ i ∈ ((cfg3.win 2).blk t).view.set := by
  have hi0 : (i 0).val < 30000 := (i 0).isLt
  have hi1 : (i 1).val < 192 := (i 1).isLt
  obtain ⟨t, ht⟩ := onto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [in_tile3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 192 ≤ (i 1).val ∧ (i 1).val < win3_2.index t (1 : Fin 2) * 192 + 192; omega

/-- The output array after the region: the product of the two input arrays as the region finds them. -/
theorem array3 (c : Dev nD) : (dat3 V c).arrAt 2 cfg3.N = rows3 (V c main_v202) (V c main_v209) :=
  (dat3 V c).arrAt_eq_of_cover 2 (rows3 (V c main_v202) (V c main_v209)) (fun t _ => tileback3 V c t) covered3

end Cert.KernelIdeal.Hand

end
-- ==== Proof.IdealItems.lean ====
/-
  The item side of the kernel program, as values: the aggregated item feature IF, and the item representation
  [item_emb | IF · W] + IF · item_W. The kernel computes IF · [W | item_W] in one row-tiled product (region 3) and cuts
  the result's first 64 and last 128 columns; those are IF · W and IF · item_W.
-/
import proofs.«166662_j47579647705297_2_alg».proof.Proof.IdealFlow
import proofs.«166662_j47579647705297_2_alg».proof.Proof.IdealStages
import proofs.«166662_j47579647705297_2_alg».proof.Proof.IdealWhole3
import proofs.«166662_j47579647705297_2_alg».proof.Proof.IdealArgs
import proofs.«166662_j47579647705297_2_alg».proof.Proof.LibSplitWeights
import proofs.«166662_j47579647705297_2_alg».proof.Proof.Gen.ReferenceIdeal

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- The aggregated item feature: the segment sum, by training item, of the training users' embeddings. -/
def itemFeature (c : Dev nD) : FVec Ideal S30000x64 .f32 :=
  Host.scatterAdd scatter_S30000x64_S1000000x1_S1000000x64_1_0_0_1 (broadcastInDim S30000x64 ![] bcast_S_S30000x64 (constant S_ .f32 0x00000000#32)) (broadcastInDim S1000000x1 ![0] bcast_S1000000_S1000000x1_0 (kA16 m c)) (Host.gather gather_S100000x64_S1000000x1_S1000000x64_1_0_n_n_0_1_164 (kA0 m c) (broadcastInDim S1000000x1 ![0] bcast_S1000000_S1000000x1_0 (select (cmpi .slt (kA15 m c) (broadcastInDim S1000000 ![] bcast_S_S1000000 (constantI S_ 32 0#32))) (addi (kA15 m c) (broadcastInDim S1000000 ![] bcast_S_S1000000 (constantI S_ 32 100000#32))) (kA15 m c))))

theorem v202_at5 (c : Dev nD) : (at5 m ρ c (Proc.devRef .tc main_v202) : FVec Ideal S30000x64 .f32) = itemFeature m c :=
  (st2_v202 (at4 m ρ c)).trans (by rw [hold_arg0_0_4 m ρ c, hold_arg15_0_4 m ρ c, hold_arg16_0_4 m ρ c]; rfl)

/-- The weights region 3 reads: [W | item_W]. -/
theorem v209_at7 (c : Dev nD) :
    (at7 m ρ c (Proc.devRef .tc main_v209) : FVec Ideal S64x192 .f32)
      = concatenate S64x192 1 [⟨S64x64, (m ((c : Thread nD τ).loc main_arg7) : FVec Ideal S64x64 .f32)⟩, ⟨S64x128, (m ((c : Thread nD τ).loc main_arg9) : FVec Ideal S64x128 .f32)⟩] concatenates_S64x64_S64x128_S64x192_d1 :=
  (st3_v209 (at6 m ρ c)).trans (by rw [hold_arg7_0_6 m ρ c, hold_arg9_0_6 m ρ c])

/-- Region 3's output: IF · [W | item_W]. -/
theorem v210_at8 (c : Dev nD) :
    (at8 m ρ c (Proc.devRef .tc main_v210) : FVec Ideal S30000x192 .f32)
      = rows3 (itemFeature m c) (concatenate S64x192 1 [⟨S64x64, (m ((c : Thread nD τ).loc main_arg7) : FVec Ideal S64x64 .f32)⟩, ⟨S64x128, (m ((c : Thread nD τ).loc main_arg9) : FVec Ideal S64x128 .f32)⟩] concatenates_S64x64_S64x128_S64x192_d1) := by
  refine (at8_arr m ρ c 2).trans ((array3 (in3 m ρ) c).trans ?_)
  show rows3 (at7 m ρ c (Proc.devRef .tc main_v202)) (at7 m ρ c (Proc.devRef .tc main_v209)) = _
  rw [hold_v202_5_7 m ρ c, v202_at5 m ρ c, v209_at7 m ρ c]

/-- The item representation in the reference's arrangement: [item_emb | IF · W] + IF · item_W, the two products taken
    separately. -/
def itemRep (c : Dev nD) : FVec Ideal S30000x128 .f32 :=
  addf (concatenate S30000x128 1 [⟨S30000x64, (m ((c : Thread nD τ).loc main_arg1) : FVec Ideal S30000x64 .f32)⟩,
      ⟨S30000x64, Host.dotGeneral (φ₁ := .f32) (φ₂ := .f32) Cert.ReferenceIdeal.dot_S30000x64_S64x64_S30000x64_1_0_0_1_n_n none (itemFeature m c) (m ((c : Thread nD τ).loc main_arg7) : FVec Ideal S64x64 .f32)⟩] concatenates_S30000x64_S30000x64_S30000x128_d1)
    (Host.dotGeneral (φ₁ := .f32) (φ₂ := .f32) Cert.ReferenceIdeal.dot_S30000x64_S64x128_S30000x128_1_0_0_1_n_n none (itemFeature m c) (m ((c : Thread nD τ).loc main_arg9) : FVec Ideal S64x128 .f32))

/-- The kernel's item representation — the fused product's first 64 columns beside item_emb, plus its last 128 columns
    — is the reference's. -/
theorem v214_at9 (c : Dev nD) :
    (after (hostOps4 (F := Ideal)) (at8 m ρ c) (Proc.devRef .tc main_v214) : FVec Ideal S30000x128 .f32) = itemRep m c := by
  refine (st4_v214 (at8 m ρ c)).trans ?_
  rw [hold_arg1_0_8 m ρ c, v210_at8 m ρ c]
  have hL := Cert.LibSplitWeights.left_block (M := 30000) (K := 64) (N1 := 64) (N2 := 128) (N := 192) rfl (itemFeature m c)
    (m ((c : Thread nD τ).loc main_arg7)) (m ((c : Thread nD τ).loc main_arg9)) concatenates_S64x64_S64x128_S64x192_d1
    slices_S30000x192_S30000x64_0_0 Cert.ReferenceIdeal.dot_S30000x64_S64x64_S30000x64_1_0_0_1_n_n.wf none
  have hR := Cert.LibSplitWeights.right_block (M := 30000) (K := 64) (N1 := 64) (N2 := 128) (N := 192) rfl (itemFeature m c)
    (m ((c : Thread nD τ).loc main_arg7)) (m ((c : Thread nD τ).loc main_arg9)) concatenates_S64x64_S64x128_S64x192_d1
    slices_S30000x192_S30000x128_0_64 Cert.ReferenceIdeal.dot_S30000x64_S64x128_S30000x128_1_0_0_1_n_n.wf none
  unfold itemRep
  exact congrArg₂ addf (congrArg (fun z : FVec Ideal S30000x64 .f32 => concatenate S30000x128 1 [⟨S30000x64, (m ((c : Thread nD τ).loc main_arg1) : FVec Ideal S30000x64 .f32)⟩, ⟨S30000x64, z⟩] concatenates_S30000x64_S30000x64_S30000x128_d1) hL) hR

/-- The batch's item rows: the item representation's rows at the (wrapped, clamped) item numbers. -/
def itemRows (c : Dev nD) : FVec Ideal S2048x20x128 .f32 :=
  Host.gather gather_S30000x128_S2048x20x1_S2048x20x128_2_0_n_n_0_2_1128 (itemRep m c)
    (broadcastInDim S2048x20x1 ![0, 1] bcast_S2048x20_S2048x20x1_0_1
      (select (cmpi .slt (m ((c : Thread nD τ).loc main_arg18)) (broadcastInDim S2048x20 ![] bcast_S_S2048x20 (constantI S_ 32 0#32)))
        (addi (m ((c : Thread nD τ).loc main_arg18)) (broadcastInDim S2048x20 ![] bcast_S_S2048x20 (constantI S_ 32 30000#32)))
        (m ((c : Thread nD τ).loc main_arg18))))

theorem v230_at9 (c : Dev nD) :
    (at9 m ρ c (Proc.devRef .tc main_v230) : FVec Ideal S2048x20x128 .f32) = itemRows m c := by
  refine (st4_v230 (at8 m ρ c)).trans ?_
  rw [v214_at9 m ρ c, hold_arg18_0_8 m ρ c]
  rfl

end Cert.KernelIdeal.Hand

end
-- ==== Proof.IdealL2.lean ====
/-
  The regulariser, the second result: REG · (Σ uu² + Σ ui²) over the batch's user rows (repeated along the candidates) and
  item rows. The kernel's value, then the reference's run term read as the same value.
-/
import proofs.«166662_j47579647705297_2_alg».proof.Proof.IdealUsers
import proofs.«166662_j47579647705297_2_alg».proof.Proof.IdealItems
import proofs.«166662_j47579647705297_2_alg».proof.Proof.Gen.ReferenceIdeal.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- The user rows repeated along the twenty candidates. -/
def userTile (c : Dev nD) : FVec Ideal S2048x20x128 .f32 :=
  broadcastInDim S2048x20x128 ![0, 1, 2] bcast_S2048x1x128_S2048x20x128_0_1_2 (userRows m c)

/-- The regulariser. -/
def l2Value (c : Dev nD) : FVec Ideal S_ .f32 :=
  mulf (constant S_ .f32 0x38D1B717#32)
    (addf (Host.reduceAdd (mulf (userTile m c) (userTile m c)) (constant S_ .f32 0x00000000#32) reducesTo_S2048x20x128_S_d0_1_2 h_S_)
      (Host.reduceAdd (mulf (itemRows m c) (itemRows m c)) (constant S_ .f32 0x00000000#32) reducesTo_S2048x20x128_S_d0_1_2 h_S_))

theorem v259_at11 (c : Dev nD) : (at11 m ρ c (Proc.devRef .tc main_v259) : FVec Ideal S_ .f32) = l2Value m c := by
  refine (st5_v259 (at10 m ρ c)).trans ?_
  rw [hold_v223_9_10 m ρ c, hold_v230_9_10 m ρ c, v223_at9 m ρ c, v230_at9 m ρ c]
  rfl

section Ref
open Cert.ReferenceIdeal.Value

/-- The reference's user tile, read off its run's terms at a valuation whose arguments are the kernel's. -/
theorem ref_userTile (c : Dev nD) (V0 : Valuation Cert.ReferenceIdeal.τ Cert.ReferenceIdeal.sig (Elt Ideal))
    (h0 : V0 (Proc.devRef .tc Cert.ReferenceIdeal.main_arg0) = kA0 m c)
    (h1 : V0 (Proc.devRef .tc Cert.ReferenceIdeal.main_arg1) = kA1 m c)
    (h2 : V0 (Proc.devRef .tc Cert.ReferenceIdeal.main_arg2) = kA2 m c)
    (h3 : V0 (Proc.devRef .tc Cert.ReferenceIdeal.main_arg3) = kA3 m c)
    (h4 : V0 (Proc.devRef .tc Cert.ReferenceIdeal.main_arg4) = kA4 m c)
    (h5 : V0 (Proc.devRef .tc Cert.ReferenceIdeal.main_arg5) = kA5 m c)
    (h6 : V0 (Proc.devRef .tc Cert.ReferenceIdeal.main_arg6) = kA6 m c)
    (h7 : V0 (Proc.devRef .tc Cert.ReferenceIdeal.main_arg7) = kA7 m c)
    (h8 : V0 (Proc.devRef .tc Cert.ReferenceIdeal.main_arg8) = kA8 m c)
    (h9 : V0 (Proc.devRef .tc Cert.ReferenceIdeal.main_arg9) = kA9 m c)
    (h10 : V0 (Proc.devRef .tc Cert.ReferenceIdeal.main_arg10) = kA10 m c)
    (h11 : V0 (Proc.devRef .tc Cert.ReferenceIdeal.main_arg11) = kA11 m c)
    (h12 : V0 (Proc.devRef .tc Cert.ReferenceIdeal.main_arg12) = kA12 m c)
    (h13 : V0 (Proc.devRef .tc Cert.ReferenceIdeal.main_arg13) = kA13 m c)
    (h14 : V0 (Proc.devRef .tc Cert.ReferenceIdeal.main_arg14) = kA14 m c)
    (h15 : V0 (Proc.devRef .tc Cert.ReferenceIdeal.main_arg15) = kA15 m c)
    (h16 : V0 (Proc.devRef .tc Cert.ReferenceIdeal.main_arg16) = kA16 m c)
    (h17 : V0 (Proc.devRef .tc Cert.ReferenceIdeal.main_arg17) = kA17 m c)
    (h18 : V0 (Proc.devRef .tc Cert.ReferenceIdeal.main_arg18) = kA18 m c) :
    res_main_v290 V0 = userTile m c := by
  unfold res_main_v290 res_main_v279 res_main_v248 res_main_v8 res_main_v44 res_main_v128 res_main_v212 res_main_v46 res_main_v130 res_main_v214
    userTile userRows userRep userFeature mixWeights
  rw [h0, h1, h2, h3, h7, h8, h11, h12, h17]
  rfl

/-- The reference's item rows. -/
theorem ref_itemRows (c : Dev nD) (V0 : Valuation Cert.ReferenceIdeal.τ Cert.ReferenceIdeal.sig (Elt Ideal))
    (h0 : V0 (Proc.devRef .tc Cert.ReferenceIdeal.main_arg0) = kA0 m c)
    (h1 : V0 (Proc.devRef .tc Cert.ReferenceIdeal.main_arg1) = kA1 m c)
    (h2 : V0 (Proc.devRef .tc Cert.ReferenceIdeal.main_arg2) = kA2 m c)
    (h3 : V0 (Proc.devRef .tc Cert.ReferenceIdeal.main_arg3) = kA3 m c)
    (h4 : V0 (Proc.devRef .tc Cert.ReferenceIdeal.main_arg4) = kA4 m c)
    (h5 : V0 (Proc.devRef .tc Cert.ReferenceIdeal.main_arg5) = kA5 m c)
    (h6 : V0 (Proc.devRef .tc Cert.ReferenceIdeal.main_arg6) = kA6 m c)
    (h7 : V0 (Proc.devRef .tc Cert.ReferenceIdeal.main_arg7) = kA7 m c)
    (h8 : V0 (Proc.devRef .tc Cert.ReferenceIdeal.main_arg8) = kA8 m c)
    (h9 : V0 (Proc.devRef .tc Cert.ReferenceIdeal.main_arg9) = kA9 m c)
    (h10 : V0 (Proc.devRef .tc Cert.ReferenceIdeal.main_arg10) = kA10 m c)
    (h11 : V0 (Proc.devRef .tc Cert.ReferenceIdeal.main_arg11) = kA11 m c)
    (h12 : V0 (Proc.devRef .tc Cert.ReferenceIdeal.main_arg12) = kA12 m c)
    (h13 : V0 (Proc.devRef .tc Cert.ReferenceIdeal.main_arg13) = kA13 m c)
    (h14 : V0 (Proc.devRef .tc Cert.ReferenceIdeal.main_arg14) = kA14 m c)
    (h15 : V0 (Proc.devRef .tc Cert.ReferenceIdeal.main_arg15) = kA15 m c)
    (h16 : V0 (Proc.devRef .tc Cert.ReferenceIdeal.main_arg16) = kA16 m c)
    (h17 : V0 (Proc.devRef .tc Cert.ReferenceIdeal.main_arg17) = kA17 m c)
    (h18 : V0 (Proc.devRef .tc Cert.ReferenceIdeal.main_arg18) = kA18 m c) :
    res_main_v297 V0 = itemRows m c := by
  unfold res_main_v297 res_main_v274 itemRows itemRep itemFeature
  rw [h0, h1, h7, h9, h15, h16, h18]
  rfl

end Ref

end Cert.KernelIdeal.Hand

end
-- ==== Proof.IdealWhole4.lean ====
/-
  Region 4's output array as one function of the arrays the region finds: row r, column q of the [100000, 1] result is
  the sum over c of X (r, c) · P (c, q), X the user representation and P the gate weights. Each grid point writes back the row tile of 5000 rows it computed from
  the same rows of X and the whole of P; the 20 tiles cover the array.
-/
import proofs.«166662_j47579647705297_2_alg».proof.Proof.IdealRegion4
import proofs.«166662_j47579647705297_2_alg».proof.Proof.LibDotNN
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The plain product of a [100000, 128] by a [128, 1] array, index by index. -/
def rows4 (X : S100000x128.Idx → EReal) (P : S128x1.Idx → EReal) : S100000x1.Idx → EReal :=
  fun i => ∑ c : Fin 128, X (ix2 (n0 := 100000) (n1 := 128) (i 0) c) * P (ix2 (n0 := 128) (n1 := 1) c (i 1))

theorem zero4 : (![0, 0] : Fin 2 → Nat) = fun _ => 0 := funext fun a => by fin_cases a <;> rfl

/-- The payload at an index of the tile: the row of the input tile against the column of the weights. -/
theorem pay4_at (x : Vec Ideal S5000x128 .f32) (p : Vec Ideal S128x1 .f32) (a : Fin 5000) (q : Fin 1) :
    k4_pay1 x p (ix2 a q) = ∑ c : Fin 128, x (ix2 a c) * p (ix2 c q) := by
  unfold k4_pay1
  refine (Cert.LibDotNN.matmul_rounded_apply dot_S5000x128_S128x1_S5000x1_1_0_0_1_n_n.wf none .bf16 bitsLt_bf16_f32 bitsLt_bf16_f32 _ _ a q).trans ?_
  simp only [shapeCast_self]

/-- The windows' block indices over the grid: the input rows move with the output rows, the weights stay, and the
    output's row-tile index stays below 20. -/
theorem steps4 : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) ≤ 19 :=
  (by decide +kernel : ∀ t : Fin grid4.N, _)

/-- Every row tile is some point's. -/
theorem onto4 : ∀ q0 : Fin 20, ∃ t : Fin cfg4.N, win4_2.index t = ![q0.val, 0] :=
  (by decide +kernel : ∀ q0 : Fin 20, ∃ t : Fin grid4.N, win4_2.index t = ![q0.val, 0])

/-- Over variables of the arrays' own types: the row of tile `t` of X against the column of P is the product's entry at
    the tile's place in the output array — the input's row tile sits at the output's rows, the weights are read whole. -/
theorem tile_rows4 (X : S100000x128.Idx → EReal) (P : S128x1.Idx → EReal) (t : Fin cfg4.N) (a : Fin 5000) (q : Fin 1) :
    (∑ k : Fin 128, X (((cfg4.win 0).blk t).view.emb (ix2 a k)) * P (((cfg4.win 1).blk t).view.emb (ix2 k q)))
      = rows4 X P (((cfg4.win 2).blk t).view.emb (ix2 a q)) := by
  obtain ⟨e0, e1, e2, e3, e4, e5⟩ := steps4 t
  unfold rows4
  refine Finset.sum_congr rfl fun k _ => ?_
  have hx : ((cfg4.win 0).blk t).view.emb (ix2 a k) = ix2 (n0 := 100000) (n1 := 128) ((((cfg4.win 2).blk t).view.emb (ix2 a q)) 0) k := by
    funext ax; apply Fin.ext
    match ax with
    | ⟨0, _⟩ => show win4_0.index t (0 : Fin 2) * 5000 + 1 * a.val = win4_2.index t (0 : Fin 2) * 5000 + 1 * a.val; omega
    | ⟨1, _⟩ => show win4_0.index t (1 : Fin 2) * 128 + 1 * k.val = k.val; omega
  have hp : ((cfg4.win 1).blk t).view.emb (ix2 k q) = ix2 (n0 := 128) (n1 := 1) k ((((cfg4.win 2).blk t).view.emb (ix2 a q)) 1) := by
    funext ax; apply Fin.ext
    match ax with
    | ⟨0, _⟩ => show win4_1.index t (0 : Fin 2) * 128 + 1 * k.val = k.val; omega
    | ⟨1, _⟩ => show win4_1.index t (1 : Fin 2) * 1 + 1 * q.val = win4_2.index t (1 : Fin 2) * 1 + 1 * q.val; omega
  rw [hx, hp]

/-- What point `t` writes back is tile `t` of the product of the arrays as the region finds them. -/
theorem tileback4 (c : Dev nD) (t : Fin cfg4.N) :
    (dat4 V c).flushed 2 t = ((cfg4.win 2).blk t).view.read (Elt Ideal) (rows4 (V c main_v208) (V c main_arg10)) := by
  show (cfg4.win 2).cut (grid4.coords t) ((dat4 V c).after 2 t) = _
  rw [after4_2]
  unfold left4
  rw [View.canon_unit_zero zero4]
  simp only [View.ld_unit_zero (S := S5000x128) zero4, View.ld_unit_zero (S := S128x1) zero4]
  funext j
  obtain ⟨a, q, rfl⟩ : ∃ (a : Fin 5000) (q : Fin 1), j = ix2 a q := ⟨j 0, j 1, eq_ix2 j⟩
  show k4_pay1 (tile4 V c 0 t) (tile4 V c 1 t) (ix2 a q) = _
  refine (pay4_at (tile4 V c 0 t) (tile4 V c 1 t) a q).trans ?_
  exact tile_rows4 (V c main_v208) (V c main_arg10) t a q

/-- An index of the output array lies in point `t`'s tile iff each coordinate is in the tile's range on its axis. -/
theorem in_tile4 (t : Fin cfg4.N) (i : S100000x1.Idx) :
    i ∈ ((cfg4.win 2).blk t).view.set ↔ ∀ a : Fin 2, win4_2.index t a * S5000x1.size a ≤ (i a).val ∧ (i a).val < win4_2.index t a * S5000x1.size a + S5000x1.size a := by
  show i ∈ ((View.whole main_v233).slice (win4_2.rect t)).set ↔ _
  rw [View.set_slice_whole, Rect.mem_set_unit]
  exact Iff.rfl

/-- The 20 tiles cover the output array. -/
theorem covered4 (i : S100000x1.Idx) : ∃ t : Fin cfg4.N, (cfg4.win 2).flush t = true ∧ i ∈ ((cfg4.win 2).blk t).view.set := by
  have hi0 : (i 0).val < 100000 := (i 0).isLt
  have hi1 : (i 1).val < 1 := (i 1).isLt
  obtain ⟨t, ht⟩ := onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [in_tile4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 1 ≤ (i 1).val ∧ (i 1).val < win4_2.index t (1 : Fin 2) * 1 + 1; omega

/-- The output array after the region: the product of the two input arrays as the region finds them. -/
theorem array4 (c : Dev nD) : (dat4 V c).arrAt 2 cfg4.N = rows4 (V c main_v208) (V c main_arg10) :=
  (dat4 V c).arrAt_eq_of_cover 2 (rows4 (V c main_v208) (V c main_arg10)) (fun t _ => tileback4 V c t) covered4

end Cert.KernelIdeal.Hand

end
-- ==== Proof.IdealGate.lean ====
/-
  The gate: the sigmoid of the user representation's projection on the gate weights, at the batch's users. The kernel takes
  the projection of every user by a row-tiled product (region 4) and gathers the batch's rows by the column of user
  numbers; the reference takes the host product, gathers by the [2048,1,1] numbers and flattens.
-/
import proofs.«166662_j47579647705297_2_alg».proof.Proof.IdealUsers
import proofs.«166662_j47579647705297_2_alg».proof.Proof.IdealWhole4

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- The row-tiled product of region 4 is the host product. -/
theorem rows4_eq (X : FVec Ideal S100000x128 .f32) (P : FVec Ideal S128x1 .f32) :
    rows4 X P = Host.dotGeneral (φ₁ := .f32) (φ₂ := .f32) Cert.ReferenceIdeal.dot_S100000x128_S128x1_S100000x1_1_0_0_1_n_n none X P := by
  funext j
  exact (Cert.LibDotNN.dotGeneral_nn_apply_idx Cert.ReferenceIdeal.dot_S100000x128_S128x1_S100000x1_1_0_0_1_n_n.wf none X P j).symm

/-- Every user's projection on the gate weights. -/
theorem v233_at10 (c : Dev nD) :
    (at10 m ρ c (Proc.devRef .tc main_v233) : FVec Ideal S100000x1 .f32)
      = Host.dotGeneral (φ₁ := .f32) (φ₂ := .f32) Cert.ReferenceIdeal.dot_S100000x128_S128x1_S100000x1_1_0_0_1_n_n none (userRep m c) (kA10 m c) := by
  refine (at10_arr m ρ c 2).trans ((array4 (in4 m ρ) c).trans ?_)
  show rows4 (at9 m ρ c (Proc.devRef .tc main_v208)) (at9 m ρ c (Proc.devRef .tc main_arg10)) = _
  rw [hold_v208_7_9 m ρ c, v208_at7 m ρ c, hold_arg10_0_9 m ρ c]
  exact rows4_eq _ _

/-- The gate in the reference's spelling. -/
def gate (c : Dev nD) : FVec Ideal S2048x1 .f32 :=
  Host.divf (broadcastInDim S2048x1 ![] bcast_S_S2048x1 (constant S_ .f32 0x3F800000#32))
    (addf (broadcastInDim S2048x1 ![] bcast_S_S2048x1 (constant S_ .f32 0x3F800000#32))
      (Host.exp (Host.negf (shapeCast S2048x1
        (Host.gather Cert.ReferenceIdeal.gather_S100000x1_S2048x1x1_S2048x1x1_2_0_n_n_0_2_11
          (Host.dotGeneral (φ₁ := .f32) (φ₂ := .f32) Cert.ReferenceIdeal.dot_S100000x128_S128x1_S100000x1_1_0_0_1_n_n none (userRep m c) (kA10 m c))
          (broadcastInDim Cert.ReferenceIdeal.S2048x1x1 ![0, 1] Cert.ReferenceIdeal.Facts₀.bcast_S2048x1_S2048x1x1_0_1 (select (cmpi .slt (kA17 m c) (broadcastInDim S2048x1 ![] Cert.ReferenceIdeal.Facts₀.bcast_S_S2048x1 (constantI S_ 32 0#32))) (addi (kA17 m c) (broadcastInDim S2048x1 ![] Cert.ReferenceIdeal.Facts₀.bcast_S_S2048x1 (constantI S_ 32 100000#32))) (kA17 m c))))
        Cert.ReferenceIdeal.Facts₀.shapeCasts_S2048x1x1_S2048x1))))

theorem v246_at11 (c : Dev nD) :
    (after (hostOps5 (F := Ideal)) (at10 m ρ c) (Proc.devRef .tc main_v246) : FVec Ideal S2048x1 .f32) = gate m c := by
  refine (st5_v246 (at10 m ρ c)).trans ?_
  rw [st5_v240 (at10 m ρ c), v233_at10 m ρ c, hold_v178_5_10 m ρ c, v178_at5 m ρ c]
  unfold gate
  have hg : Host.gather gather_S100000x1_S2048x1_S2048x1_1_0_n_n_0_1_11 (Host.dotGeneral (φ₁ := .f32) (φ₂ := .f32) Cert.ReferenceIdeal.dot_S100000x128_S128x1_S100000x1_1_0_0_1_n_n none (userRep m c) (kA10 m c)) (broadcastInDim S2048x1 ![0] bcast_S2048_S2048x1_0
          (select (cmpi .slt (shapeCast S2048 (kA17 m c) shapeCasts_S2048x1_S2048) (broadcastInDim S2048 ![] bcast_S_S2048 (constantI S_ 32 0#32)))
            (addi (shapeCast S2048 (kA17 m c) shapeCasts_S2048x1_S2048) (broadcastInDim S2048 ![] bcast_S_S2048 (constantI S_ 32 100000#32)))
            (shapeCast S2048 (kA17 m c) shapeCasts_S2048x1_S2048)))
      = shapeCast S2048x1 (Host.gather Cert.ReferenceIdeal.gather_S100000x1_S2048x1x1_S2048x1x1_2_0_n_n_0_2_11 (Host.dotGeneral (φ₁ := .f32) (φ₂ := .f32) Cert.ReferenceIdeal.dot_S100000x128_S128x1_S100000x1_1_0_0_1_n_n none (userRep m c) (kA10 m c)) (broadcastInDim Cert.ReferenceIdeal.S2048x1x1 ![0, 1] Cert.ReferenceIdeal.Facts₀.bcast_S2048x1_S2048x1x1_0_1 (select (cmpi .slt (kA17 m c) (broadcastInDim S2048x1 ![] Cert.ReferenceIdeal.Facts₀.bcast_S_S2048x1 (constantI S_ 32 0#32))) (addi (kA17 m c) (broadcastInDim S2048x1 ![] Cert.ReferenceIdeal.Facts₀.bcast_S_S2048x1 (constantI S_ 32 100000#32))) (kA17 m c)))) Cert.ReferenceIdeal.Facts₀.shapeCasts_S2048x1x1_S2048x1 :=
    Cert.LibGatherOnce.once_flat_eq (N := 100000) (R := 2048) (by decide) (Host.dotGeneral (φ₁ := .f32) (φ₂ := .f32) Cert.ReferenceIdeal.dot_S100000x128_S128x1_S100000x1_1_0_0_1_n_n none (userRep m c) (kA10 m c)) _ _ (userWords m c)
      gather_S100000x1_S2048x1_S2048x1_1_0_n_n_0_1_11.wf Cert.ReferenceIdeal.gather_S100000x1_S2048x1x1_S2048x1x1_2_0_n_n_0_2_11.wf Cert.ReferenceIdeal.Facts₀.shapeCasts_S2048x1x1_S2048x1
  exact congrArg (fun z : FVec Ideal S2048x1 .f32 => Host.divf (broadcastInDim S2048x1 ![] bcast_S_S2048x1 (constant S_ .f32 0x3F800000#32))
    (addf (broadcastInDim S2048x1 ![] bcast_S_S2048x1 (constant S_ .f32 0x3F800000#32)) (Host.exp (Host.negf z)))) hg

end Cert.KernelIdeal.Hand

end
-- ==== Proof.LibBatchDot.lean ====
/-
  A batched matrix product read at an index, at the ideal values, for any extents and any well-formedness witness of
  the dimension numbers: for a [B,M,K] array A and a [B,K,N] array P, contracted on A's last axis and P's middle axis
  with the leading axis a batch axis of both, the accelerator product into a zero accumulator has entry (b, a, q) equal
  to the sum over c of A (b, a, c) · P (b, c, q); and the same holds when both operands are first rounded to a narrower
  float format, a change of format being the identity on the extended reals.
-/
import Idealize.ShloMosaic.PureOps.Ideal.Laws
import Idealize.ShloMosaic.Lib.ValueIdx

noncomputable section

open scoped BigOperators

namespace Cert.LibBatchDot

open Idealize.ShloMosaic Idealize.ShloMosaic.ValueIdx

variable {B M K N : Nat} {φ₁ φ₂ : FTy}

/-- A [B,M,K] by [B,K,N] batched product accumulated into zeros: entry (b, a, q) is `∑ c, A (b, a, c) · P (b, c, q)`. -/
theorem matmul_zero_apply (w : DotDims.WF ⟨3, ![B, M, K]⟩ ⟨3, ![B, K, N]⟩ ⟨3, ![B, M, N]⟩ [2] [1] [1] [2] [0] [0])
    (prec : Option ContractPrecision) (A : FVec Ideal ⟨3, ![B, M, K]⟩ φ₁) (P : FVec Ideal ⟨3, ![B, K, N]⟩ φ₂)
    (b : Fin B) (a : Fin M) (q : Fin N) :
    matmul (⟨[2], [1], [1], [2], [0], [0], w⟩ : DotDims ⟨3, ![B, M, K]⟩ ⟨3, ![B, K, N]⟩ ⟨3, ![B, M, N]⟩) prec A P
        (constant ⟨3, ![B, M, N]⟩ .f32 0x00000000#32) (ix3 b a q)
      = ∑ c : Fin K, A (ix3 b a c) * P (ix3 b c q) := by
  show FloatOps.matmul _ prec A P _ (ix3 b a q) = _
  rw [Ideal.matmul_constant_zero_apply,
    ← Equiv.sum_comp (contrEquiv1 (⟨[2], [1], [1], [2], [0], [0], w⟩ : DotDims ⟨3, ![B, M, K]⟩ ⟨3, ![B, K, N]⟩ ⟨3, ![B, M, N]⟩) K rfl rfl).symm]
  refine Finset.sum_congr rfl fun c _ => ?_
  have c2 := contrEquiv1_symm_val (⟨[2], [1], [1], [2], [0], [0], w⟩ : DotDims ⟨3, ![B, M, K]⟩ ⟨3, ![B, K, N]⟩ ⟨3, ![B, M, N]⟩) K rfl rfl c
  have l2 : (⟨[2], [1], [1], [2], [0], [0], w⟩ : DotDims ⟨3, ![B, M, K]⟩ ⟨3, ![B, K, N]⟩ ⟨3, ![B, M, N]⟩).lhsIdx (ix3 b a q)
      ((contrEquiv1 _ K rfl rfl).symm c) = ix3 b a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c2
  have r2 : (⟨[2], [1], [1], [2], [0], [0], w⟩ : DotDims ⟨3, ![B, M, K]⟩ ⟨3, ![B, K, N]⟩ ⟨3, ![B, M, N]⟩).rhsIdx (ix3 b a q)
      ((contrEquiv1 _ K rfl rfl).symm c) = ix3 b c q := by
    funext ax; apply Fin.ext
    match ax with
    | ⟨0, _⟩ => simp [DotDims.rhsIdx]; rfl
    | ⟨1, _⟩ => simp [DotDims.rhsIdx]; exact c2
    | ⟨2, _⟩ => simp [DotDims.rhsIdx]; rfl
  rw [l2, r2]

/-- The same product of the two operands each first rounded to a narrower format: the sum of the products of the
    UNROUNDED entries. -/
theorem matmul_rounded_apply (w : DotDims.WF ⟨3, ![B, M, K]⟩ ⟨3, ![B, K, N]⟩ ⟨3, ![B, M, N]⟩ [2] [1] [1] [2] [0] [0])
    (prec : Option ContractPrecision) (ψ : FTy) (h₁ : ψ.bits < φ₁.bits) (h₂ : ψ.bits < φ₂.bits)
    (A : FVec Ideal ⟨3, ![B, M, K]⟩ φ₁) (P : FVec Ideal ⟨3, ![B, K, N]⟩ φ₂) (b : Fin B) (a : Fin M) (q : Fin N) :
    matmul (⟨[2], [1], [1], [2], [0], [0], w⟩ : DotDims ⟨3, ![B, M, K]⟩ ⟨3, ![B, K, N]⟩ ⟨3, ![B, M, N]⟩) prec
        (truncf ψ A h₁) (truncf ψ P h₂) (constant ⟨3, ![B, M, N]⟩ .f32 0x00000000#32) (ix3 b a q)
      = ∑ c : Fin K, A (ix3 b a c) * P (ix3 b c q) :=
  matmul_zero_apply w prec (truncf ψ A h₁) (truncf ψ P h₂) b a q

end Cert.LibBatchDot

end
-- ==== Proof.IdealWhole0.lean ====
/-
  Region 0's output array as one function of the arrays the region finds: for behaviour b, row r, column q of the
  [3, 30000, 64] result is the sum over c of (X (b, r, c) / (D (b, r, 0) + eps)) · P (b, c, q), X the items' aggregates, D their degrees and P the behaviours' propagation matrices. Each grid point writes back the
  tile of 2000 rows (of all three behaviours) it computed from the same rows of its inputs and the whole of P; the 15 tiles
  cover the array.
-/
import proofs.«166662_j47579647705297_2_alg».proof.Proof.IdealRegion0
import proofs.«166662_j47579647705297_2_alg».proof.Proof.LibBatchDot
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The per-behaviour product, index by index. -/
def rows0 (X : S3x30000x64.Idx → EReal) (D : S3x30000x1.Idx → EReal) (P : S3x64x64.Idx → EReal) : S3x30000x64.Idx → EReal :=
  fun i => ∑ c : Fin 64, Ideal.div (X (ix3 (n0 := 3) (n1 := 30000) (n2 := 64) (i 0) (i 1) c)) (D (ix3 (n0 := 3) (n1 := 30000) (n2 := 1) (i 0) (i 1) 0) + Ideal.ofBits .f32 0x322BCC77#32) * P (ix3 (n0 := 3) (n1 := 64) (n2 := 64) (i 0) c (i 2))

theorem zero0 : (![0, 0, 0] : Fin 3 → Nat) = fun _ => 0 := funext fun a => by fin_cases a <;> rfl

/-- The payload at an index of the tile. -/
theorem pay0_at (x : Vec Ideal S3x2000x64 .f32) (d : Vec Ideal S3x2000x1 .f32) (p : Vec Ideal S3x64x64 .f32) (b : Fin 3) (a : Fin 2000) (q : Fin 64) :
    k0_pay1 x d p (ix3 b a q) = ∑ c : Fin 64, Ideal.div (x (ix3 b a c)) (d (ix3 b a 0) + Ideal.ofBits .f32 0x322BCC77#32) * p (ix3 b c q) := by
  unfold k0_pay1
  refine (Cert.LibBatchDot.matmul_rounded_apply dot_S3x2000x64_S3x64x64_S3x2000x64_2_1_1_2_0_0.wf none .bf16 bitsLt_bf16_f32 bitsLt_bf16_f32 _ _ b a q).trans ?_
  refine Finset.sum_congr rfl fun c _ => ?_
  simp only [shapeCast_self]
  rw [divf_apply, broadcastTo_apply _ _ (ix3 b a c) (ix3 b a 0) (fun ax => by match ax with | ⟨0, _⟩ => rfl | ⟨1, _⟩ => rfl | ⟨2, _⟩ => rfl)]
  rfl

/-- The windows' block indices over the grid: the inputs' rows move with the output's rows, the weights stay. -/
theorem steps0 : ∀ t : Fin cfg0.N, win0_0.index t (0 : Fin 3) = 0 ∧ win0_0.index t (1 : Fin 3) = win0_3.index t (1 : Fin 3) ∧ win0_0.index t (2 : Fin 3) = 0
    ∧ win0_1.index t (0 : Fin 3) = 0 ∧ win0_1.index t (1 : Fin 3) = win0_3.index t (1 : Fin 3) ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (2 : Fin 3) = 0 ∧ win0_3.index t (1 : Fin 3) ≤ 14 :=
  (by decide +kernel : ∀ t : Fin grid0.N, _)

/-- Every row tile is some point's. -/
theorem onto0 : ∀ q0 : Fin 15, ∃ t : Fin cfg0.N, win0_3.index t = ![0, q0.val, 0] :=
  (by decide +kernel : ∀ q0 : Fin 15, ∃ t : Fin grid0.N, win0_3.index t = ![0, q0.val, 0])

/-- Over variables of the arrays' own types: the tile's sum is the product's entry at the tile's place in the output array. -/
theorem tile_rows0 (X : S3x30000x64.Idx → EReal) (D : S3x30000x1.Idx → EReal) (P : S3x64x64.Idx → EReal) (t : Fin cfg0.N) (b : Fin 3) (a : Fin 2000) (q : Fin 64) :
    (∑ k : Fin 64, Ideal.div (X (((cfg0.win 0).blk t).view.emb (ix3 b a k))) (D (((cfg0.win 1).blk t).view.emb (ix3 b a 0)) + Ideal.ofBits .f32 0x322BCC77#32) * P (((cfg0.win 2).blk t).view.emb (ix3 b k q)))
      = rows0 X D P (((cfg0.win 3).blk t).view.emb (ix3 b a q)) := by
  obtain ⟨e0, e1, e2, f0, f1, f2, g0, g1, g2, o0, o2, o1⟩ := steps0 t
  unfold rows0
  refine Finset.sum_congr rfl fun k _ => ?_
  have hx : ((cfg0.win 0).blk t).view.emb (ix3 b a k) = ix3 (n0 := 3) (n1 := 30000) (n2 := 64) ((((cfg0.win 3).blk t).view.emb (ix3 b a q)) 0) ((((cfg0.win 3).blk t).view.emb (ix3 b a q)) 1) k := by
    funext ax; apply Fin.ext
    match ax with
    | ⟨0, _⟩ => show win0_0.index t (0 : Fin 3) * 3 + 1 * b.val = win0_3.index t (0 : Fin 3) * 3 + 1 * b.val; omega
    | ⟨1, _⟩ => show win0_0.index t (1 : Fin 3) * 2000 + 1 * a.val = win0_3.index t (1 : Fin 3) * 2000 + 1 * a.val; omega
    | ⟨2, _⟩ => show win0_0.index t (2 : Fin 3) * 64 + 1 * k.val = k.val; omega
  have hd : ((cfg0.win 1).blk t).view.emb (ix3 b a 0) = ix3 (n0 := 3) (n1 := 30000) (n2 := 1) ((((cfg0.win 3).blk t).view.emb (ix3 b a q)) 0) ((((cfg0.win 3).blk t).view.emb (ix3 b a q)) 1) 0 := by
    funext ax; apply Fin.ext
    match ax with
    | ⟨0, _⟩ => show win0_1.index t (0 : Fin 3) * 3 + 1 * b.val = win0_3.index t (0 : Fin 3) * 3 + 1 * b.val; omega
    | ⟨1, _⟩ => show win0_1.index t (1 : Fin 3) * 2000 + 1 * a.val = win0_3.index t (1 : Fin 3) * 2000 + 1 * a.val; omega
    | ⟨2, _⟩ => show win0_1.index t (2 : Fin 3) * 1 + 1 * 0 = 0; omega
  have hp : ((cfg0.win 2).blk t).view.emb (ix3 b k q) = ix3 (n0 := 3) (n1 := 64) (n2 := 64) ((((cfg0.win 3).blk t).view.emb (ix3 b a q)) 0) k ((((cfg0.win 3).blk t).view.emb (ix3 b a q)) 2) := by
    funext ax; apply Fin.ext
    match ax with
    | ⟨0, _⟩ => show win0_2.index t (0 : Fin 3) * 3 + 1 * b.val = win0_3.index t (0 : Fin 3) * 3 + 1 * b.val; omega
    | ⟨1, _⟩ => show win0_2.index t (1 : Fin 3) * 64 + 1 * k.val = k.val; omega
    | ⟨2, _⟩ => show win0_2.index t (2 : Fin 3) * 64 + 1 * q.val = win0_3.index t (2 : Fin 3) * 64 + 1 * q.val; omega
  rw [hx, hd, hp]

/-- What point `t` writes back is tile `t` of the product of the arrays as the region finds them. -/
theorem tileback0 (c : Dev nD) (t : Fin cfg0.N) :
    (dat0 V c).flushed 3 t = ((cfg0.win 3).blk t).view.read (Elt Ideal) (rows0 (V c main_v54) (V c main_arg4) (V c main_arg6)) := by
  show (cfg0.win 3).cut (grid0.coords t) ((dat0 V c).after 3 t) = _
  rw [after0_3]
  unfold left0
  rw [View.canon_unit_zero zero0]
  simp only [View.ld_unit_zero (S := S3x2000x64) zero0, View.ld_unit_zero (S := S3x2000x1) zero0, View.ld_unit_zero (S := S3x64x64) zero0]
  funext j
  obtain ⟨b, a, q, rfl⟩ : ∃ (b : Fin 3) (a : Fin 2000) (q : Fin 64), j = ix3 b a q := ⟨j 0, j 1, j 2, eq_ix3 j⟩
  show k0_pay1 (tile0 V c 0 t) (tile0 V c 1 t) (tile0 V c 2 t) (ix3 b a q) = _
  refine (pay0_at (tile0 V c 0 t) (tile0 V c 1 t) (tile0 V c 2 t) b a q).trans ?_
  exact tile_rows0 (V c main_v54) (V c main_arg4) (V c main_arg6) t b a q

/-- An index of the output array lies in point `t`'s tile iff each coordinate is in the tile's range on its axis. -/
theorem in_tile0 (t : Fin cfg0.N) (i : S3x30000x64.Idx) :
    i ∈ ((cfg0.win 3).blk t).view.set ↔ ∀ a : Fin 3, win0_3.index t a * S3x2000x64.size a ≤ (i a).val ∧ (i a).val < win0_3.index t a * S3x2000x64.size a + S3x2000x64.size a := by
  show i ∈ ((View.whole main_v55).slice (win0_3.rect t)).set ↔ _
  rw [View.set_slice_whole, Rect.mem_set_unit]
  exact Iff.rfl

/-- The 15 tiles cover the output array. -/
theorem covered0 (i : S3x30000x64.Idx) : ∃ t : Fin cfg0.N, (cfg0.win 3).flush t = true ∧ i ∈ ((cfg0.win 3).blk t).view.set := by
  have hi0 : (i 0).val < 3 := (i 0).isLt
  have hi1 : (i 1).val < 30000 := (i 1).isLt
  have hi2 : (i 2).val < 64 := (i 2).isLt
  obtain ⟨t, ht⟩ := onto0 ⟨(i 1).val / 2000, by omega⟩
  have q0 : win0_3.index t (0 : Fin 3) = 0 := congrFun ht 0
  have q1 : win0_3.index t (1 : Fin 3) = (i 1).val / 2000 := congrFun ht 1
  have q2 : win0_3.index t (2 : Fin 3) = 0 := congrFun ht 2
  refine ⟨t, flush0_3 t, ?_⟩
  rw [in_tile0]
  intro a
  match a with
  | ⟨0, _⟩ => show win0_3.index t (0 : Fin 3) * 3 ≤ (i 0).val ∧ (i 0).val < win0_3.index t (0 : Fin 3) * 3 + 3; omega
  | ⟨1, _⟩ => show win0_3.index t (1 : Fin 3) * 2000 ≤ (i 1).val ∧ (i 1).val < win0_3.index t (1 : Fin 3) * 2000 + 2000; omega
  | ⟨2, _⟩ => show win0_3.index t (2 : Fin 3) * 64 ≤ (i 2).val ∧ (i 2).val < win0_3.index t (2 : Fin 3) * 64 + 64; omega

/-- The output array after the region. -/
theorem array0 (c : Dev nD) : (dat0 V c).arrAt 3 cfg0.N = rows0 (V c main_v54) (V c main_arg4) (V c main_arg6) :=
  (dat0 V c).arrAt_eq_of_cover 3 (rows0 (V c main_v54) (V c main_arg4) (V c main_arg6)) (fun t _ => tileback0 V c t) covered0

end Cert.KernelIdeal.Hand

end
-- ==== Proof.IdealWhole1.lean ====
/-
  Region 1's output array as one function of the arrays the region finds: for behaviour b, row r, column q of the
  [3, 100000, 128] result is the sum over c of X (b, r, c) · P (b, c, q), X the users' neighbourhood features and P the behaviours' projection matrices. Each grid point writes back the
  tile of 2000 rows (of all three behaviours) it computed from the same rows of its inputs and the whole of P; the 50 tiles
  cover the array.
-/
import proofs.«166662_j47579647705297_2_alg».proof.Proof.IdealRegion1
import proofs.«166662_j47579647705297_2_alg».proof.Proof.LibBatchDot
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The per-behaviour product, index by index. -/
def rows1 (X : S3x100000x128.Idx → EReal) (P : S3x128x128.Idx → EReal) : S3x100000x128.Idx → EReal :=
  fun i => ∑ c : Fin 128, X (ix3 (n0 := 3) (n1 := 100000) (n2 := 128) (i 0) (i 1) c) * P (ix3 (n0 := 3) (n1 := 128) (n2 := 128) (i 0) c (i 2))

theorem zero1 : (![0, 0, 0] : Fin 3 → Nat) = fun _ => 0 := funext fun a => by fin_cases a <;> rfl

/-- The payload at an index of the tile. -/
theorem pay1_at (x : Vec Ideal S3x2000x128 .f32) (p : Vec Ideal S3x128x128 .f32) (b : Fin 3) (a : Fin 2000) (q : Fin 128) :
    k1_pay1 x p (ix3 b a q) = ∑ c : Fin 128, x (ix3 b a c) * p (ix3 b c q) := by
  unfold k1_pay1
  refine (Cert.LibBatchDot.matmul_rounded_apply dot_S3x2000x128_S3x128x128_S3x2000x128_2_1_1_2_0_0.wf none .bf16 bitsLt_bf16_f32 bitsLt_bf16_f32 _ _ b a q).trans ?_
  refine Finset.sum_congr rfl fun c _ => ?_
  simp only [shapeCast_self]

/-- The windows' block indices over the grid: the inputs' rows move with the output's rows, the weights stay. -/
theorem steps1 : ∀ t : Fin cfg1.N, win1_0.index t (0 : Fin 3) = 0 ∧ win1_0.index t (1 : Fin 3) = win1_2.index t (1 : Fin 3) ∧ win1_0.index t (2 : Fin 3) = 0
    ∧ win1_1.index t (0 : Fin 3) = 0 ∧ win1_1.index t (1 : Fin 3) = 0 ∧ win1_1.index t (2 : Fin 3) = 0
    ∧ win1_2.index t (0 : Fin 3) = 0 ∧ win1_2.index t (2 : Fin 3) = 0 ∧ win1_2.index t (1 : Fin 3) ≤ 49 :=
  (by decide +kernel : ∀ t : Fin grid1.N, _)

/-- Every row tile is some point's. -/
theorem onto1 : ∀ q0 : Fin 50, ∃ t : Fin cfg1.N, win1_2.index t = ![0, q0.val, 0] :=
  (by decide +kernel : ∀ q0 : Fin 50, ∃ t : Fin grid1.N, win1_2.index t = ![0, q0.val, 0])

/-- Over variables of the arrays' own types: the tile's sum is the product's entry at the tile's place in the output array. -/
theorem tile_rows1 (X : S3x100000x128.Idx → EReal) (P : S3x128x128.Idx → EReal) (t : Fin cfg1.N) (b : Fin 3) (a : Fin 2000) (q : Fin 128) :
    (∑ k : Fin 128, X (((cfg1.win 0).blk t).view.emb (ix3 b a k)) * P (((cfg1.win 1).blk t).view.emb (ix3 b k q)))
      = rows1 X P (((cfg1.win 2).blk t).view.emb (ix3 b a q)) := by
  obtain ⟨e0, e1, e2, g0, g1, g2, o0, o2, o1⟩ := steps1 t
  unfold rows1
  refine Finset.sum_congr rfl fun k _ => ?_
  have hx : ((cfg1.win 0).blk t).view.emb (ix3 b a k) = ix3 (n0 := 3) (n1 := 100000) (n2 := 128) ((((cfg1.win 2).blk t).view.emb (ix3 b a q)) 0) ((((cfg1.win 2).blk t).view.emb (ix3 b a q)) 1) k := by
    funext ax; apply Fin.ext
    match ax with
    | ⟨0, _⟩ => show win1_0.index t (0 : Fin 3) * 3 + 1 * b.val = win1_2.index t (0 : Fin 3) * 3 + 1 * b.val; omega
    | ⟨1, _⟩ => show win1_0.index t (1 : Fin 3) * 2000 + 1 * a.val = win1_2.index t (1 : Fin 3) * 2000 + 1 * a.val; omega
    | ⟨2, _⟩ => show win1_0.index t (2 : Fin 3) * 128 + 1 * k.val = k.val; omega
  have hp : ((cfg1.win 1).blk t).view.emb (ix3 b k q) = ix3 (n0 := 3) (n1 := 128) (n2 := 128) ((((cfg1.win 2).blk t).view.emb (ix3 b a q)) 0) k ((((cfg1.win 2).blk t).view.emb (ix3 b a q)) 2) := by
    funext ax; apply Fin.ext
    match ax with
    | ⟨0, _⟩ => show win1_1.index t (0 : Fin 3) * 3 + 1 * b.val = win1_2.index t (0 : Fin 3) * 3 + 1 * b.val; omega
    | ⟨1, _⟩ => show win1_1.index t (1 : Fin 3) * 128 + 1 * k.val = k.val; omega
    | ⟨2, _⟩ => show win1_1.index t (2 : Fin 3) * 128 + 1 * q.val = win1_2.index t (2 : Fin 3) * 128 + 1 * q.val; omega
  rw [hx, hp]

/-- What point `t` writes back is tile `t` of the product of the arrays as the region finds them. -/
theorem tileback1 (c : Dev nD) (t : Fin cfg1.N) :
    (dat1 V c).flushed 2 t = ((cfg1.win 2).blk t).view.read (Elt Ideal) (rows1 (V c main_v164) (V c main_arg5)) := by
  show (cfg1.win 2).cut (grid1.coords t) ((dat1 V c).after 2 t) = _
  rw [after1_2]
  unfold left1
  rw [View.canon_unit_zero zero1]
  simp only [View.ld_unit_zero (S := S3x2000x128) zero1, View.ld_unit_zero (S := S3x128x128) zero1]
  funext j
  obtain ⟨b, a, q, rfl⟩ : ∃ (b : Fin 3) (a : Fin 2000) (q : Fin 128), j = ix3 b a q := ⟨j 0, j 1, j 2, eq_ix3 j⟩
  show k1_pay1 (tile1 V c 0 t) (tile1 V c 1 t) (ix3 b a q) = _
  refine (pay1_at (tile1 V c 0 t) (tile1 V c 1 t) b a q).trans ?_
  exact tile_rows1 (V c main_v164) (V c main_arg5) t b a q

/-- An index of the output array lies in point `t`'s tile iff each coordinate is in the tile's range on its axis. -/
theorem in_tile1 (t : Fin cfg1.N) (i : S3x100000x128.Idx) :
    i ∈ ((cfg1.win 2).blk t).view.set ↔ ∀ a : Fin 3, win1_2.index t a * S3x2000x128.size a ≤ (i a).val ∧ (i a).val < win1_2.index t a * S3x2000x128.size a + S3x2000x128.size a := by
  show i ∈ ((View.whole main_v170).slice (win1_2.rect t)).set ↔ _
  rw [View.set_slice_whole, Rect.mem_set_unit]
  exact Iff.rfl

/-- The 50 tiles cover the output array. -/
theorem covered1 (i : S3x100000x128.Idx) : ∃ t : Fin cfg1.N, (cfg1.win 2).flush t = true ∧ i ∈ ((cfg1.win 2).blk t).view.set := by
  have hi0 : (i 0).val < 3 := (i 0).isLt
  have hi1 : (i 1).val < 100000 := (i 1).isLt
  have hi2 : (i 2).val < 128 := (i 2).isLt
  obtain ⟨t, ht⟩ := onto1 ⟨(i 1).val / 2000, by omega⟩
  have q0 : win1_2.index t (0 : Fin 3) = 0 := congrFun ht 0
  have q1 : win1_2.index t (1 : Fin 3) = (i 1).val / 2000 := congrFun ht 1
  have q2 : win1_2.index t (2 : Fin 3) = 0 := congrFun ht 2
  refine ⟨t, flush1_2 t, ?_⟩
  rw [in_tile1]
  intro a
  match a with
  | ⟨0, _⟩ => show win1_2.index t (0 : Fin 3) * 3 ≤ (i 0).val ∧ (i 0).val < win1_2.index t (0 : Fin 3) * 3 + 3; omega
  | ⟨1, _⟩ => show win1_2.index t (1 : Fin 3) * 2000 ≤ (i 1).val ∧ (i 1).val < win1_2.index t (1 : Fin 3) * 2000 + 2000; omega
  | ⟨2, _⟩ => show win1_2.index t (2 : Fin 3) * 128 ≤ (i 2).val ∧ (i 2).val < win1_2.index t (2 : Fin 3) * 128 + 128; omega

/-- The output array after the region. -/
theorem array1 (c : Dev nD) : (dat1 V c).arrAt 2 cfg1.N = rows1 (V c main_v164) (V c main_arg5) :=
  (dat1 V c).arrAt_eq_of_cover 2 (rows1 (V c main_v164) (V c main_arg5)) (fun t _ => tileback1 V c t) covered1

end Cert.KernelIdeal.Hand

end
-- ==== Proof.LibUnstack.lean ====
/-
  A stack [G,A,B] read member by member, and arrays joined along the last of three axes, at explicit coordinates, over any
  element type and any extents:
  * member g cut out as [1,A,B] and reshaped to [A,B]: entry (a, b) is the stack's entry (g, a, b) (`unstack_apply`);
  * an [A,B] array set as [1,A,B] and repeated G times along the leading axis: entry (g, a, b) is x (a, b) (`rep_lead_apply`);
  * two stacks [G,A,c1] and [G,A,c2] joined along the last axis into [G,A,C]: entry (g, a, k) is the first's (g, a, k) for a
    column k of the first, the second's (g, a, k') at column c1 + k' (`cat_last_left`, `cat_last_right`).
-/
import Idealize.ShloMosaic.Lib.Pipeline.Value
import Idealize.ShloMosaic.Lib.ValueIdx

noncomputable section

namespace Cert.LibUnstack

open Idealize.ShloMosaic Idealize.ShloMosaic.ValueIdx Idealize.ShloMosaic.Pipeline

variable {α : Type} {G A B : Nat}

theorem unstack_apply (X : (⟨3, ![G, A, B]⟩ : Shape).Idx → α) (g : Fin G)
    (hs : (⟨3, ![G, A, B]⟩ : Shape).Slices ![g.val, 0, 0] ⟨3, ![1, A, B]⟩)
    (hsc : (⟨3, ![1, A, B]⟩ : Shape).ShapeCasts ⟨2, ![A, B]⟩) (a : Fin A) (b : Fin B) :
    shapeCast ⟨2, ![A, B]⟩ (extractStridedSlice ⟨3, ![1, A, B]⟩ ![g.val, 0, 0] X hs) hsc (ix2 a b) = X (ix3 g a b) := by
  rw [shapeCast_apply _ hsc (ix2 a b) (ix3 (0 : Fin 1) a b) (by
      rw [Shape.rowMajor_val_three, Shape.rowMajor_val_two]
      show (0 * A + a.val) * B + b.val = a.val * B + b.val
      simp)]
  exact extractStridedSlice_apply ![g.val, 0, 0] X hs (ix3 (0 : Fin 1) a b) (ix3 g a b) (by
    intro c
    match c with
    | ⟨0, _⟩ => simp
    | ⟨1, _⟩ => simp
    | ⟨2, _⟩ => simp)

theorem rep_lead_apply (x : (⟨2, ![A, B]⟩ : Shape).Idx → α)
    (h1 : (⟨2, ![A, B]⟩ : Shape).BroadcastsInDim ⟨3, ![1, A, B]⟩ ![1, 2])
    (h3 : (⟨3, ![1, A, B]⟩ : Shape).BroadcastsInDim ⟨3, ![G, A, B]⟩ ![0, 1, 2]) (g : Fin G) (a : Fin A) (b : Fin B) :
    broadcastInDim ⟨3, ![G, A, B]⟩ ![0, 1, 2] h3 (broadcastInDim ⟨3, ![1, A, B]⟩ ![1, 2] h1 x) (ix3 g a b) = x (ix2 a b) := by
  have ha : a.val < A := a.isLt
  have hb : b.val < B := b.isLt
  have e3 := broadcastInDim_apply ![0, 1, 2] h3 (broadcastInDim ⟨3, ![1, A, B]⟩ ![1, 2] h1 x) (ix3 g a b) (ix3 (0 : Fin 1) a b) (by
    intro c
    match c with
    | ⟨0, _⟩ => rfl
    | ⟨1, _⟩ => show a.val = if A = 1 then 0 else a.val; split <;> omega
    | ⟨2, _⟩ => show b.val = if B = 1 then 0 else b.val; split <;> omega)
  have e1 := broadcastInDim_apply ![1, 2] h1 x (ix3 (0 : Fin 1) a b) (ix2 a b) (by
    intro c
    match c with
    | ⟨0, _⟩ => show a.val = if A = 1 then 0 else a.val; split <;> omega
    | ⟨1, _⟩ => show b.val = if B = 1 then 0 else b.val; split <;> omega)
  exact e3.trans e1

variable {c1 c2 C : Nat}

theorem cat_last_left (X : (⟨3, ![G, A, c1]⟩ : Shape).Idx → α) (Y : (⟨3, ![G, A, c2]⟩ : Shape).Idx → α)
    (hc : Shape.Concatenates [(⟨3, ![G, A, c1]⟩ : Shape), ⟨3, ![G, A, c2]⟩] ⟨3, ![G, A, C]⟩ 2)
    (g : Fin G) (a : Fin A) (k : Fin C) (k' : Fin c1) (hk : k'.val = k.val) :
    concatenate ⟨3, ![G, A, C]⟩ 2 [⟨⟨3, ![G, A, c1]⟩, X⟩, ⟨⟨3, ![G, A, c2]⟩, Y⟩] hc (ix3 g a k) = X (ix3 g a k') :=
  concatenate_apply_piece (t := ⟨3, ![G, A, C]⟩) 2 [⟨⟨3, ![G, A, c1]⟩, X⟩, ⟨⟨3, ![G, A, c2]⟩, Y⟩] hc (ix3 g a k) 0 (by simp)
    ⟨3, ![G, A, c1]⟩ X rfl rfl 0 (by simp) (ix3 g a k')
    (fun b hb => by
      match b with
      | ⟨0, _⟩ => rfl
      | ⟨1, _⟩ => rfl
      | ⟨2, _⟩ => exact absurd rfl hb)
    (by show 0 + k'.val = k.val; omega)

theorem cat_last_right (X : (⟨3, ![G, A, c1]⟩ : Shape).Idx → α) (Y : (⟨3, ![G, A, c2]⟩ : Shape).Idx → α)
    (hc : Shape.Concatenates [(⟨3, ![G, A, c1]⟩ : Shape), ⟨3, ![G, A, c2]⟩] ⟨3, ![G, A, C]⟩ 2)
    (g : Fin G) (a : Fin A) (k : Fin C) (k' : Fin c2) (hk : c1 + k'.val = k.val) :
    concatenate ⟨3, ![G, A, C]⟩ 2 [⟨⟨3, ![G, A, c1]⟩, X⟩, ⟨⟨3, ![G, A, c2]⟩, Y⟩] hc (ix3 g a k) = Y (ix3 g a k') :=
  concatenate_apply_piece (t := ⟨3, ![G, A, C]⟩) 2 [⟨⟨3, ![G, A, c1]⟩, X⟩, ⟨⟨3, ![G, A, c2]⟩, Y⟩] hc (ix3 g a k) 1 (by simp)
    ⟨3, ![G, A, c2]⟩ Y rfl rfl c1 (by simp) (ix3 g a k')
    (fun b hb => by
      match b with
      | ⟨0, _⟩ => rfl
      | ⟨1, _⟩ => rfl
      | ⟨2, _⟩ => exact absurd rfl hb)
    hk

end Cert.LibUnstack

end
-- ==== Proof.LibBehaviour.lean ====
/-
  One behaviour's matrix out of a stack, against a quotient, read at an index at the ideal values, for any extents:
  * `prop_at`: x [N,D] divided, row by row, by (member g of a stack of degree columns deg [G,N,1], plus eps), times member g
    of a stack of matrices P [G,D,E] — entry (r, q) is the sum over d of (x (r, d) / (deg (g, r, 0) + eps)) · P (g, d, q);
  * `proj_at`: the same with the degrees given as column g of a [N,G] array — entry (r, q) is the sum over d of
    (x (r, d) / (deg (r, g) + eps)) · P (g, d, q).
-/
import Idealize.ShloMosaic.PureOps.Ideal.Laws
import Idealize.ShloMosaic.Lib.IdealHost
import Idealize.ShloMosaic.Lib.Pipeline.Value
import Idealize.ShloMosaic.Lib.ValueIdx
import proofs.«166662_j47579647705297_2_alg».proof.Proof.LibStack3
import proofs.«166662_j47579647705297_2_alg».proof.Proof.LibUnstack
import proofs.«166662_j47579647705297_2_alg».proof.Proof.LibDotNN

noncomputable section

open scoped BigOperators

namespace Cert.LibBehaviour

open Idealize.ShloMosaic Idealize.ShloMosaic.ValueIdx Idealize.ShloMosaic.Pipeline

variable {G N D E : Nat}

theorem prop_at (e : BitVec 32) (x : FVec Ideal ⟨2, ![N, D]⟩ .f32) (deg : FVec Ideal ⟨3, ![G, N, 1]⟩ .f32) (P : FVec Ideal ⟨3, ![G, D, E]⟩ .f32)
    (g : Fin G)
    (hsD : (⟨3, ![G, N, 1]⟩ : Shape).Slices ![g.val, 0, 0] ⟨3, ![1, N, 1]⟩) (hscD : (⟨3, ![1, N, 1]⟩ : Shape).ShapeCasts ⟨2, ![N, 1]⟩)
    (hb : (⟨2, ![N, 1]⟩ : Shape).BroadcastsInDim ⟨2, ![N, D]⟩ ![0, 1]) (hbs : (⟨0, ![]⟩ : Shape).BroadcastsInDim ⟨2, ![N, 1]⟩ ![])
    (hsP : (⟨3, ![G, D, E]⟩ : Shape).Slices ![g.val, 0, 0] ⟨3, ![1, D, E]⟩) (hscP : (⟨3, ![1, D, E]⟩ : Shape).ShapeCasts ⟨2, ![D, E]⟩)
    (w : DotDims.WF ⟨2, ![N, D]⟩ ⟨2, ![D, E]⟩ ⟨2, ![N, E]⟩ [1] [0] [0] [1] [] []) (prec : Option ContractPrecision)
    (r : Fin N) (q : Fin E) :
    Host.dotGeneral (⟨[1], [0], [0], [1], [], [], w⟩ : DotDims ⟨2, ![N, D]⟩ ⟨2, ![D, E]⟩ ⟨2, ![N, E]⟩) prec
        (Host.divf (F := Ideal) x (broadcastInDim ⟨2, ![N, D]⟩ ![0, 1] hb
          (addf (shapeCast ⟨2, ![N, 1]⟩ (extractStridedSlice ⟨3, ![1, N, 1]⟩ ![g.val, 0, 0] deg hsD) hscD)
            (broadcastInDim ⟨2, ![N, 1]⟩ ![] hbs (constant (F := Ideal) ⟨0, ![]⟩ .f32 e)))))
        (shapeCast ⟨2, ![D, E]⟩ (extractStridedSlice ⟨3, ![1, D, E]⟩ ![g.val, 0, 0] P hsP) hscP) (ix2 r q)
      = ∑ d : Fin D, Ideal.div (x (ix2 r d)) (deg (ix3 g r (0 : Fin 1)) + Ideal.ofBits .f32 e) * P (ix3 g d q) := by
  rw [Cert.LibDotNN.dotGeneral_nn_apply w prec _ _ r q]
  refine Finset.sum_congr rfl fun d _ => ?_
  rw [hostDivf_apply, Cert.LibStack3.cols_apply _ hb r d, addf_apply, Cert.LibUnstack.unstack_apply deg g hsD hscD r 0,
    broadcastInDim_scalar_apply, Cert.LibUnstack.unstack_apply P g hsP hscP d q]
  rfl

theorem proj_at (e : BitVec 32) (x : FVec Ideal ⟨2, ![N, D]⟩ .f32) (deg : FVec Ideal ⟨2, ![N, G]⟩ .f32) (P : FVec Ideal ⟨3, ![G, D, E]⟩ .f32)
    (g : Fin G)
    (hsD : (⟨2, ![N, G]⟩ : Shape).Slices ![0, g.val] ⟨2, ![N, 1]⟩)
    (hb : (⟨2, ![N, 1]⟩ : Shape).BroadcastsInDim ⟨2, ![N, D]⟩ ![0, 1]) (hbs : (⟨0, ![]⟩ : Shape).BroadcastsInDim ⟨2, ![N, 1]⟩ ![])
    (hsP : (⟨3, ![G, D, E]⟩ : Shape).Slices ![g.val, 0, 0] ⟨3, ![1, D, E]⟩) (hscP : (⟨3, ![1, D, E]⟩ : Shape).ShapeCasts ⟨2, ![D, E]⟩)
    (w : DotDims.WF ⟨2, ![N, D]⟩ ⟨2, ![D, E]⟩ ⟨2, ![N, E]⟩ [1] [0] [0] [1] [] []) (prec : Option ContractPrecision)
    (r : Fin N) (q : Fin E) :
    Host.dotGeneral (⟨[1], [0], [0], [1], [], [], w⟩ : DotDims ⟨2, ![N, D]⟩ ⟨2, ![D, E]⟩ ⟨2, ![N, E]⟩) prec
        (Host.divf (F := Ideal) x (broadcastInDim ⟨2, ![N, D]⟩ ![0, 1] hb
          (addf (extractStridedSlice ⟨2, ![N, 1]⟩ ![0, g.val] deg hsD)
            (broadcastInDim ⟨2, ![N, 1]⟩ ![] hbs (constant (F := Ideal) ⟨0, ![]⟩ .f32 e)))))
        (shapeCast ⟨2, ![D, E]⟩ (extractStridedSlice ⟨3, ![1, D, E]⟩ ![g.val, 0, 0] P hsP) hscP) (ix2 r q)
      = ∑ d : Fin D, Ideal.div (x (ix2 r d)) (deg (ix2 r g) + Ideal.ofBits .f32 e) * P (ix3 g d q) := by
  rw [Cert.LibDotNN.dotGeneral_nn_apply w prec _ _ r q]
  refine Finset.sum_congr rfl fun d _ => ?_
  rw [hostDivf_apply, Cert.LibStack3.cols_apply _ hb r d, addf_apply, Cert.LibStack3.col_apply deg g hsD r 0,
    broadcastInDim_scalar_apply, Cert.LibUnstack.unstack_apply P g hsP hscP d q]
  rfl

end Cert.LibBehaviour

end
-- ==== Proof.LibBatchGather.lean ====
/-
  A gather of whole rows out of a stack of tables, read at an index. For a stack x : [B, N, D] and row numbers that do not
  depend on the member, the gather that keeps the stack's leading axis and its last axis as offset axes, collapses the
  row axis and names it by the start index, with slices [B, 1, D]:
  * row numbers idx : [R, A, 1], result [B, R, A, D]: entry (b, t, a, j) is x (b, idx[t, a, 0], j);
  * row numbers idx : [R, 1], result [B, R, D]: entry (b, t, j) is x (b, idx[t, 0], j);
  the start index read as a signed integer and clamped into [0, N − 1].
-/
import Idealize.ShloMosaic.Lib.ValueIdx

noncomputable section

namespace Cert.LibBatchGather

open Idealize.ShloMosaic Idealize.ShloMosaic.ValueIdx

variable {α : Type}

/-- The dimension numbers: operand [B, N, D], start indices [R, A, 1], result [B, R, A, D]. -/
abbrev dims4 (B N D R A : Nat)
    (wf : GatherDims.WF ⟨3, ![B, N, D]⟩ ⟨3, ![R, A, 1]⟩ ⟨4, ![B, R, A, D]⟩ [0, 3] [1] [] [1] [] 2 ![B, 1, D]) :
    GatherDims ⟨3, ![B, N, D]⟩ ⟨3, ![R, A, 1]⟩ ⟨4, ![B, R, A, D]⟩ where
  offsetDims := [0, 3]
  collapsedSliceDims := [1]
  operandBatchingDims := []
  startIndicesBatchingDims := []
  startIndexMap := [1]
  indexVectorDim := 2
  sliceSizes := ![B, 1, D]
  wf := wf

/-- The start-indices index [t, a, 0] of result index (b, t, a, j). -/
abbrev idx4 {B R A D : Nat} (y : (⟨4, ![B, R, A, D]⟩ : Shape).Idx) : (⟨3, ![R, A, 1]⟩ : Shape).Idx :=
  fun c => match c with | ⟨0, _⟩ => ⟨(y 1).val, (y 1).isLt⟩ | ⟨1, _⟩ => ⟨(y 2).val, (y 2).isLt⟩ | ⟨2, _⟩ => ⟨0, Nat.one_pos⟩

theorem gather4_apply {B N D R A w : Nat} (hN : 0 < N)
    (wf : GatherDims.WF ⟨3, ![B, N, D]⟩ ⟨3, ![R, A, 1]⟩ ⟨4, ![B, R, A, D]⟩ [0, 3] [1] [] [1] [] 2 ![B, 1, D])
    (x : (⟨3, ![B, N, D]⟩ : Shape).Idx → α) (idx : IVec ⟨3, ![R, A, 1]⟩ w) (y : (⟨4, ![B, R, A, D]⟩ : Shape).Idx) :
    Host.gather (dims4 B N D R A wf) x idx y
      = x (ix3 ⟨(y 0).val, (y 0).isLt⟩ ⟨min (idx (idx4 y)).toInt.toNat (N - 1), by omega⟩ ⟨(y 3).val, (y 3).isLt⟩) := by
  unfold Host.gather
  congr 1
  funext a
  refine Fin.ext ?_
  show (dims4 B N D R A wf).start y idx a + (dims4 B N D R A wf).batchCoord y a + (dims4 B N D R A wf).offCoord y a = _
  rw [GatherDims.batchCoord_eq_zero _ _ _ List.not_mem_nil]
  match a with
  | ⟨0, _⟩ =>
    unfold GatherDims.start
    rw [dif_neg (show (⟨0, by decide⟩ : Fin 3) ∉ (dims4 B N D R A wf).startIndexMap from
      fun h => absurd (congrArg Fin.val (List.mem_singleton.mp h)) (by simp))]
    simp only [Nat.zero_add]
    rfl
  | ⟨1, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 3) ∈ (dims4 B N D R A wf).startIndexMap from List.mem_singleton.mpr rfl)]
    have hsi : (dims4 B N D R A wf).siIdx y ⟨List.idxOf (⟨1, by decide⟩ : Fin 3) (dims4 B N D R A wf).startIndexMap,
        List.idxOf_lt_length_iff.2 (List.mem_singleton.mpr rfl)⟩ = idx4 y := by
      funext b; refine Fin.ext ?_
      match b with
      | ⟨0, _⟩ => rfl
      | ⟨1, _⟩ => rfl
      | ⟨2, _⟩ => rfl
    rw [hsi]
    rfl
  | ⟨2, _⟩ =>
    unfold GatherDims.start
    rw [dif_neg (show (⟨2, by decide⟩ : Fin 3) ∉ (dims4 B N D R A wf).startIndexMap from
      fun h => absurd (congrArg Fin.val (List.mem_singleton.mp h)) (by simp))]
    simp only [Nat.zero_add]
    rfl

/-- The dimension numbers: operand [B, N, D], start indices [R, 1], result [B, R, D]. -/
abbrev dims3 (B N D R : Nat)
    (wf : GatherDims.WF ⟨3, ![B, N, D]⟩ ⟨2, ![R, 1]⟩ ⟨3, ![B, R, D]⟩ [0, 2] [1] [] [1] [] 1 ![B, 1, D]) :
    GatherDims ⟨3, ![B, N, D]⟩ ⟨2, ![R, 1]⟩ ⟨3, ![B, R, D]⟩ where
  offsetDims := [0, 2]
  collapsedSliceDims := [1]
  operandBatchingDims := []
  startIndicesBatchingDims := []
  startIndexMap := [1]
  indexVectorDim := 1
  sliceSizes := ![B, 1, D]
  wf := wf

/-- The start-indices index [t, 0] of result index (b, t, j). -/
abbrev idx3 {B R D : Nat} (y : (⟨3, ![B, R, D]⟩ : Shape).Idx) : (⟨2, ![R, 1]⟩ : Shape).Idx :=
  fun c => match c with | ⟨0, _⟩ => ⟨(y 1).val, (y 1).isLt⟩ | ⟨1, _⟩ => ⟨0, Nat.one_pos⟩

theorem gather3_apply {B N D R w : Nat} (hN : 0 < N)
    (wf : GatherDims.WF ⟨3, ![B, N, D]⟩ ⟨2, ![R, 1]⟩ ⟨3, ![B, R, D]⟩ [0, 2] [1] [] [1] [] 1 ![B, 1, D])
    (x : (⟨3, ![B, N, D]⟩ : Shape).Idx → α) (idx : IVec ⟨2, ![R, 1]⟩ w) (y : (⟨3, ![B, R, D]⟩ : Shape).Idx) :
    Host.gather (dims3 B N D R wf) x idx y
      = x (ix3 ⟨(y 0).val, (y 0).isLt⟩ ⟨min (idx (idx3 y)).toInt.toNat (N - 1), by omega⟩ ⟨(y 2).val, (y 2).isLt⟩) := by
  unfold Host.gather
  congr 1
  funext a
  refine Fin.ext ?_
  show (dims3 B N D R wf).start y idx a + (dims3 B N D R wf).batchCoord y a + (dims3 B N D R wf).offCoord y a = _
  rw [GatherDims.batchCoord_eq_zero _ _ _ List.not_mem_nil]
  match a with
  | ⟨0, _⟩ =>
    unfold GatherDims.start
    rw [dif_neg (show (⟨0, by decide⟩ : Fin 3) ∉ (dims3 B N D R wf).startIndexMap from
      fun h => absurd (congrArg Fin.val (List.mem_singleton.mp h)) (by simp))]
    simp only [Nat.zero_add]
    rfl
  | ⟨1, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 3) ∈ (dims3 B N D R wf).startIndexMap from List.mem_singleton.mpr rfl)]
    have hsi : (dims3 B N D R wf).siIdx y ⟨List.idxOf (⟨1, by decide⟩ : Fin 3) (dims3 B N D R wf).startIndexMap,
        List.idxOf_lt_length_iff.2 (List.mem_singleton.mpr rfl)⟩ = idx3 y := by
      funext b; refine Fin.ext ?_
      match b with
      | ⟨0, _⟩ => rfl
      | ⟨1, _⟩ => rfl
    rw [hsi]
    rfl
  | ⟨2, _⟩ =>
    unfold GatherDims.start
    rw [dif_neg (show (⟨2, by decide⟩ : Fin 3) ∉ (dims3 B N D R wf).startIndexMap from
      fun h => absurd (congrArg Fin.val (List.mem_singleton.mp h)) (by simp))]
    simp only [Nat.zero_add]
    rfl

end Cert.LibBatchGather

end
-- ==== Proof.LibSums.lean ====
/-
  The host's sum over the last axis read at an index, at the ideal values, for any extents: of a [G,R,A,K] array at
  (g, r, a), and of an [R,A,K] array at (r, a) — the initial value plus the sum over k of the entries along that axis.
-/
import Idealize.ShloMosaic.PureOps.Ideal.Laws
import Idealize.ShloMosaic.Lib.IdealHost
import Idealize.ShloMosaic.Lib.ValueIdx

noncomputable section

open scoped BigOperators

namespace Cert.LibSums

open Idealize.ShloMosaic Idealize.ShloMosaic.ValueIdx

variable {G R A K : Nat}

theorem sumLast4_at (X : FVec Ideal ⟨4, ![G, R, A, K]⟩ .f32) (init : (⟨0, ![]⟩ : Shape).Idx → Ideal .f32)
    (hred : (⟨4, ![G, R, A, K]⟩ : Shape).ReducesTo [3] ⟨3, ![G, R, A]⟩) (hS : 0 < (⟨0, ![]⟩ : Shape).numel)
    (g : Fin G) (r : Fin R) (a : Fin A) :
    Host.reduceAdd X init hred hS (ix3 g r a) = init (Shape.Idx.first hS) + ∑ k : Fin K, X (ix4 g r a k) := by
  have h : (⟨4, ![G, R, A, K]⟩ : Shape).Reduces [3] ⟨3, ![G, R, A]⟩ := ⟨hred.1, Nat.succ_pos 2, hred.2⟩
  rw [hostReduceAdd_apply, Ideal.hostReduceAdd_single hred h]
  refine congrArg (init (Shape.Idx.first hS) + ·) (Finset.sum_congr rfl fun k _ => ?_)
  refine congrArg X (funext fun c => Fin.ext ?_)
  match c with
  | ⟨0, _⟩ => rfl
  | ⟨1, _⟩ => rfl
  | ⟨2, _⟩ => rfl
  | ⟨3, _⟩ => rfl

theorem sumLast3_at (X : FVec Ideal ⟨3, ![R, A, K]⟩ .f32) (init : (⟨0, ![]⟩ : Shape).Idx → Ideal .f32)
    (hred : (⟨3, ![R, A, K]⟩ : Shape).ReducesTo [2] ⟨2, ![R, A]⟩) (hS : 0 < (⟨0, ![]⟩ : Shape).numel)
    (r : Fin R) (a : Fin A) :
    Host.reduceAdd X init hred hS (ix2 r a) = init (Shape.Idx.first hS) + ∑ k : Fin K, X (ix3 r a k) := by
  have h : (⟨3, ![R, A, K]⟩ : Shape).Reduces [2] ⟨2, ![R, A]⟩ := ⟨hred.1, Nat.two_pos, hred.2⟩
  rw [hostReduceAdd_apply, Ideal.hostReduceAdd_single hred h]
  refine congrArg (init (Shape.Idx.first hS) + ·) (Finset.sum_congr rfl fun k _ => ?_)
  refine congrArg X (funext fun c => Fin.ext ?_)
  match c with
  | ⟨0, _⟩ => rfl
  | ⟨1, _⟩ => rfl
  | ⟨2, _⟩ => rfl

end Cert.LibSums

end
-- ==== Proof.IdealPairs.lean ====
/-
  The second score, behaviour by behaviour. The kernel keeps the three behaviours stacked along a leading axis — the
  item propagation (region 0) and the user projection (region 1) are batched products over that axis, the batch's rows are
  gathered out of the stacks, and the behaviours are summed over the leading axis at the end; the reference runs the three
  behaviours one after the other. Entry by entry the stacks' members are the reference's per-behaviour arrays.
-/
import proofs.«166662_j47579647705297_2_alg».proof.Proof.IdealFlow
import proofs.«166662_j47579647705297_2_alg».proof.Proof.IdealStages
import proofs.«166662_j47579647705297_2_alg».proof.Proof.IdealWhole0
import proofs.«166662_j47579647705297_2_alg».proof.Proof.IdealWhole1
import proofs.«166662_j47579647705297_2_alg».proof.Proof.IdealUsers
import proofs.«166662_j47579647705297_2_alg».proof.Proof.LibBehaviour
import proofs.«166662_j47579647705297_2_alg».proof.Proof.LibGrid
import proofs.«166662_j47579647705297_2_alg».proof.Proof.LibBatchGather
import proofs.«166662_j47579647705297_2_alg».proof.Proof.LibSums

set_option maxRecDepth 16384

noncomputable section

open scoped BigOperators

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ) (ρ : Dev nD → PrngReg)

/-- Behaviour g's item-item aggregate: the segment sum, by item, of its neighbours' embeddings. -/
def iiRaw (c : Dev nD) : Fin 3 → FVec Ideal S30000x64 .f32
  | 0 => Host.scatterAdd scatter_S30000x64_S400000x1_S400000x64_1_0_0_1 (broadcastInDim S30000x64 ![] bcast_S_S30000x64 (constant S_ .f32 0x00000000#32)) (broadcastInDim S400000x1 ![0] bcast_S400000_S400000x1_0 (shapeCast _ (extractStridedSlice S1x400000 ![0, 0] (kA13 m c) slices_S3x400000_S1x400000_0_0) shapeCasts_S1x400000_S400000)) (Host.gather gather_S30000x64_S400000x1_S400000x64_1_0_n_n_0_1_164 (kA1 m c) (broadcastInDim S400000x1 ![0] bcast_S400000_S400000x1_0 (select (cmpi .slt (shapeCast _ (extractStridedSlice S1x400000 ![0, 0] (kA14 m c) slices_S3x400000_S1x400000_0_0) shapeCasts_S1x400000_S400000) (broadcastInDim S400000 ![] bcast_S_S400000 (constantI S_ 32 0#32))) (addi (shapeCast _ (extractStridedSlice S1x400000 ![0, 0] (kA14 m c) slices_S3x400000_S1x400000_0_0) shapeCasts_S1x400000_S400000) (broadcastInDim S400000 ![] bcast_S_S400000 (constantI S_ 32 30000#32))) (shapeCast _ (extractStridedSlice S1x400000 ![0, 0] (kA14 m c) slices_S3x400000_S1x400000_0_0) shapeCasts_S1x400000_S400000))))
  | 1 => Host.scatterAdd scatter_S30000x64_S400000x1_S400000x64_1_0_0_1 (broadcastInDim S30000x64 ![] bcast_S_S30000x64 (constant S_ .f32 0x00000000#32)) (broadcastInDim S400000x1 ![0] bcast_S400000_S400000x1_0 (shapeCast _ (extractStridedSlice S1x400000 ![1, 0] (kA13 m c) slices_S3x400000_S1x400000_1_0) shapeCasts_S1x400000_S400000)) (Host.gather gather_S30000x64_S400000x1_S400000x64_1_0_n_n_0_1_164 (kA1 m c) (broadcastInDim S400000x1 ![0] bcast_S400000_S400000x1_0 (select (cmpi .slt (shapeCast _ (extractStridedSlice S1x400000 ![1, 0] (kA14 m c) slices_S3x400000_S1x400000_1_0) shapeCasts_S1x400000_S400000) (broadcastInDim S400000 ![] bcast_S_S400000 (constantI S_ 32 0#32))) (addi (shapeCast _ (extractStridedSlice S1x400000 ![1, 0] (kA14 m c) slices_S3x400000_S1x400000_1_0) shapeCasts_S1x400000_S400000) (broadcastInDim S400000 ![] bcast_S_S400000 (constantI S_ 32 30000#32))) (shapeCast _ (extractStridedSlice S1x400000 ![1, 0] (kA14 m c) slices_S3x400000_S1x400000_1_0) shapeCasts_S1x400000_S400000))))
  | 2 => Host.scatterAdd scatter_S30000x64_S400000x1_S400000x64_1_0_0_1 (broadcastInDim S30000x64 ![] bcast_S_S30000x64 (constant S_ .f32 0x00000000#32)) (broadcastInDim S400000x1 ![0] bcast_S400000_S400000x1_0 (shapeCast _ (extractStridedSlice S1x400000 ![2, 0] (kA13 m c) slices_S3x400000_S1x400000_2_0) shapeCasts_S1x400000_S400000)) (Host.gather gather_S30000x64_S400000x1_S400000x64_1_0_n_n_0_1_164 (kA1 m c) (broadcastInDim S400000x1 ![0] bcast_S400000_S400000x1_0 (select (cmpi .slt (shapeCast _ (extractStridedSlice S1x400000 ![2, 0] (kA14 m c) slices_S3x400000_S1x400000_2_0) shapeCasts_S1x400000_S400000) (broadcastInDim S400000 ![] bcast_S_S400000 (constantI S_ 32 0#32))) (addi (shapeCast _ (extractStridedSlice S1x400000 ![2, 0] (kA14 m c) slices_S3x400000_S1x400000_2_0) shapeCasts_S1x400000_S400000) (broadcastInDim S400000 ![] bcast_S_S400000 (constantI S_ 32 30000#32))) (shapeCast _ (extractStridedSlice S1x400000 ![2, 0] (kA14 m c) slices_S3x400000_S1x400000_2_0) shapeCasts_S1x400000_S400000))))

/-- Behaviour g's propagated item feature: the aggregate over the degree plus eps, times the propagation matrix. -/
def propagated (c : Dev nD) : Fin 3 → FVec Ideal S30000x64 .f32
  | 0 => Host.dotGeneral (φ₁ := .f32) (φ₂ := .f32) Cert.ReferenceIdeal.dot_S30000x64_S64x64_S30000x64_1_0_0_1_n_n none
      (Host.divf (iiRaw m c 0) (broadcastInDim S30000x64 ![0, 1] Cert.ReferenceIdeal.Facts₀.bcast_S30000x1_S30000x64_0_1 (addf (shapeCast Cert.ReferenceIdeal.S30000x1 (extractStridedSlice Cert.ReferenceIdeal.S1x30000x1 ![0, 0, 0] (kA4 m c) Cert.ReferenceIdeal.Facts₀.slices_S3x30000x1_S1x30000x1_0_0_0) Cert.ReferenceIdeal.Facts₀.shapeCasts_S1x30000x1_S30000x1) (broadcastInDim Cert.ReferenceIdeal.S30000x1 ![] Cert.ReferenceIdeal.Facts₀.bcast_S_S30000x1 (constant S_ .f32 0x322BCC77#32)))))
      (shapeCast S64x64 (extractStridedSlice Cert.ReferenceIdeal.S1x64x64 ![0, 0, 0] (kA6 m c) Cert.ReferenceIdeal.Facts₀.slices_S3x64x64_S1x64x64_0_0_0) Cert.ReferenceIdeal.Facts₀.shapeCasts_S1x64x64_S64x64)
  | 1 => Host.dotGeneral (φ₁ := .f32) (φ₂ := .f32) Cert.ReferenceIdeal.dot_S30000x64_S64x64_S30000x64_1_0_0_1_n_n none
      (Host.divf (iiRaw m c 1) (broadcastInDim S30000x64 ![0, 1] Cert.ReferenceIdeal.Facts₀.bcast_S30000x1_S30000x64_0_1 (addf (shapeCast Cert.ReferenceIdeal.S30000x1 (extractStridedSlice Cert.ReferenceIdeal.S1x30000x1 ![1, 0, 0] (kA4 m c) Cert.ReferenceIdeal.Facts₀.slices_S3x30000x1_S1x30000x1_1_0_0) Cert.ReferenceIdeal.Facts₀.shapeCasts_S1x30000x1_S30000x1) (broadcastInDim Cert.ReferenceIdeal.S30000x1 ![] Cert.ReferenceIdeal.Facts₀.bcast_S_S30000x1 (constant S_ .f32 0x322BCC77#32)))))
      (shapeCast S64x64 (extractStridedSlice Cert.ReferenceIdeal.S1x64x64 ![1, 0, 0] (kA6 m c) Cert.ReferenceIdeal.Facts₀.slices_S3x64x64_S1x64x64_1_0_0) Cert.ReferenceIdeal.Facts₀.shapeCasts_S1x64x64_S64x64)
  | 2 => Host.dotGeneral (φ₁ := .f32) (φ₂ := .f32) Cert.ReferenceIdeal.dot_S30000x64_S64x64_S30000x64_1_0_0_1_n_n none
      (Host.divf (iiRaw m c 2) (broadcastInDim S30000x64 ![0, 1] Cert.ReferenceIdeal.Facts₀.bcast_S30000x1_S30000x64_0_1 (addf (shapeCast Cert.ReferenceIdeal.S30000x1 (extractStridedSlice Cert.ReferenceIdeal.S1x30000x1 ![2, 0, 0] (kA4 m c) Cert.ReferenceIdeal.Facts₀.slices_S3x30000x1_S1x30000x1_2_0_0) Cert.ReferenceIdeal.Facts₀.shapeCasts_S1x30000x1_S30000x1) (broadcastInDim Cert.ReferenceIdeal.S30000x1 ![] Cert.ReferenceIdeal.Facts₀.bcast_S_S30000x1 (constant S_ .f32 0x322BCC77#32)))))
      (shapeCast S64x64 (extractStridedSlice Cert.ReferenceIdeal.S1x64x64 ![2, 0, 0] (kA6 m c) Cert.ReferenceIdeal.Facts₀.slices_S3x64x64_S1x64x64_2_0_0) Cert.ReferenceIdeal.Facts₀.shapeCasts_S1x64x64_S64x64)

/-- [item_emb | propagated g]. -/
def itemCat (c : Dev nD) (g : Fin 3) : FVec Ideal S30000x128 .f32 :=
  concatenate S30000x128 1 [⟨S30000x64, kA1 m c⟩, ⟨S30000x64, propagated m c g⟩] concatenates_S30000x64_S30000x64_S30000x128_d1

/-- Behaviour g's neighbourhood aggregate of [item_emb | propagated g], per user. -/
def n2uRaw (c : Dev nD) : Fin 3 → FVec Ideal S100000x128 .f32
  | 0 => Host.scatterAdd scatter_S100000x128_S500000x1_S500000x128_1_0_0_1 (broadcastInDim S100000x128 ![] bcast_S_S100000x128 (constant S_ .f32 0x00000000#32)) (broadcastInDim S500000x1 ![0] bcast_S500000_S500000x1_0 (shapeCast _ (extractStridedSlice S1x500000 ![0, 0] (kA11 m c) slices_S3x500000_S1x500000_0_0) shapeCasts_S1x500000_S500000)) (Host.gather gather_S30000x128_S500000x1_S500000x128_1_0_n_n_0_1_1128 (itemCat m c 0) (broadcastInDim S500000x1 ![0] bcast_S500000_S500000x1_0 (select (cmpi .slt (shapeCast _ (extractStridedSlice S1x500000 ![0, 0] (kA12 m c) slices_S3x500000_S1x500000_0_0) shapeCasts_S1x500000_S500000) (broadcastInDim S500000 ![] bcast_S_S500000 (constantI S_ 32 0#32))) (addi (shapeCast _ (extractStridedSlice S1x500000 ![0, 0] (kA12 m c) slices_S3x500000_S1x500000_0_0) shapeCasts_S1x500000_S500000) (broadcastInDim S500000 ![] bcast_S_S500000 (constantI S_ 32 30000#32))) (shapeCast _ (extractStridedSlice S1x500000 ![0, 0] (kA12 m c) slices_S3x500000_S1x500000_0_0) shapeCasts_S1x500000_S500000))))
  | 1 => Host.scatterAdd scatter_S100000x128_S500000x1_S500000x128_1_0_0_1 (broadcastInDim S100000x128 ![] bcast_S_S100000x128 (constant S_ .f32 0x00000000#32)) (broadcastInDim S500000x1 ![0] bcast_S500000_S500000x1_0 (shapeCast _ (extractStridedSlice S1x500000 ![1, 0] (kA11 m c) slices_S3x500000_S1x500000_1_0) shapeCasts_S1x500000_S500000)) (Host.gather gather_S30000x128_S500000x1_S500000x128_1_0_n_n_0_1_1128 (itemCat m c 1) (broadcastInDim S500000x1 ![0] bcast_S500000_S500000x1_0 (select (cmpi .slt (shapeCast _ (extractStridedSlice S1x500000 ![1, 0] (kA12 m c) slices_S3x500000_S1x500000_1_0) shapeCasts_S1x500000_S500000) (broadcastInDim S500000 ![] bcast_S_S500000 (constantI S_ 32 0#32))) (addi (shapeCast _ (extractStridedSlice S1x500000 ![1, 0] (kA12 m c) slices_S3x500000_S1x500000_1_0) shapeCasts_S1x500000_S500000) (broadcastInDim S500000 ![] bcast_S_S500000 (constantI S_ 32 30000#32))) (shapeCast _ (extractStridedSlice S1x500000 ![1, 0] (kA12 m c) slices_S3x500000_S1x500000_1_0) shapeCasts_S1x500000_S500000))))
  | 2 => Host.scatterAdd scatter_S100000x128_S500000x1_S500000x128_1_0_0_1 (broadcastInDim S100000x128 ![] bcast_S_S100000x128 (constant S_ .f32 0x00000000#32)) (broadcastInDim S500000x1 ![0] bcast_S500000_S500000x1_0 (shapeCast _ (extractStridedSlice S1x500000 ![2, 0] (kA11 m c) slices_S3x500000_S1x500000_2_0) shapeCasts_S1x500000_S500000)) (Host.gather gather_S30000x128_S500000x1_S500000x128_1_0_n_n_0_1_1128 (itemCat m c 2) (broadcastInDim S500000x1 ![0] bcast_S500000_S500000x1_0 (select (cmpi .slt (shapeCast _ (extractStridedSlice S1x500000 ![2, 0] (kA12 m c) slices_S3x500000_S1x500000_2_0) shapeCasts_S1x500000_S500000) (broadcastInDim S500000 ![] bcast_S_S500000 (constantI S_ 32 0#32))) (addi (shapeCast _ (extractStridedSlice S1x500000 ![2, 0] (kA12 m c) slices_S3x500000_S1x500000_2_0) shapeCasts_S1x500000_S500000) (broadcastInDim S500000 ![] bcast_S_S500000 (constantI S_ 32 30000#32))) (shapeCast _ (extractStridedSlice S1x500000 ![2, 0] (kA12 m c) slices_S3x500000_S1x500000_2_0) shapeCasts_S1x500000_S500000))))

/-- Behaviour g's user projection: the aggregate over the degree plus eps, times the behaviour's matrix. -/
def projected (c : Dev nD) : Fin 3 → FVec Ideal S100000x128 .f32
  | 0 => Host.dotGeneral (φ₁ := .f32) (φ₂ := .f32) Cert.ReferenceIdeal.dot_S100000x128_S128x128_S100000x128_1_0_0_1_n_n none
      (Host.divf (n2uRaw m c 0) (broadcastInDim S100000x128 ![0, 1] Cert.ReferenceIdeal.Facts₀.bcast_S100000x1_S100000x128_0_1 (addf (extractStridedSlice S100000x1 ![0, 0] (kA2 m c) Cert.ReferenceIdeal.Facts₀.slices_S100000x3_S100000x1_0_0) (broadcastInDim S100000x1 ![] Cert.ReferenceIdeal.Facts₀.bcast_S_S100000x1 (constant S_ .f32 0x322BCC77#32)))))
      (shapeCast Cert.ReferenceIdeal.S128x128 (extractStridedSlice Cert.ReferenceIdeal.S1x128x128 ![0, 0, 0] (kA5 m c) Cert.ReferenceIdeal.Facts₀.slices_S3x128x128_S1x128x128_0_0_0) Cert.ReferenceIdeal.Facts₀.shapeCasts_S1x128x128_S128x128)
  | 1 => Host.dotGeneral (φ₁ := .f32) (φ₂ := .f32) Cert.ReferenceIdeal.dot_S100000x128_S128x128_S100000x128_1_0_0_1_n_n none
      (Host.divf (n2uRaw m c 1) (broadcastInDim S100000x128 ![0, 1] Cert.ReferenceIdeal.Facts₀.bcast_S100000x1_S100000x128_0_1 (addf (extractStridedSlice S100000x1 ![0, 1] (kA2 m c) Cert.ReferenceIdeal.Facts₀.slices_S100000x3_S100000x1_0_1) (broadcastInDim S100000x1 ![] Cert.ReferenceIdeal.Facts₀.bcast_S_S100000x1 (constant S_ .f32 0x322BCC77#32)))))
      (shapeCast Cert.ReferenceIdeal.S128x128 (extractStridedSlice Cert.ReferenceIdeal.S1x128x128 ![1, 0, 0] (kA5 m c) Cert.ReferenceIdeal.Facts₀.slices_S3x128x128_S1x128x128_1_0_0) Cert.ReferenceIdeal.Facts₀.shapeCasts_S1x128x128_S128x128)
  | 2 => Host.dotGeneral (φ₁ := .f32) (φ₂ := .f32) Cert.ReferenceIdeal.dot_S100000x128_S128x128_S100000x128_1_0_0_1_n_n none
      (Host.divf (n2uRaw m c 2) (broadcastInDim S100000x128 ![0, 1] Cert.ReferenceIdeal.Facts₀.bcast_S100000x1_S100000x128_0_1 (addf (extractStridedSlice S100000x1 ![0, 2] (kA2 m c) Cert.ReferenceIdeal.Facts₀.slices_S100000x3_S100000x1_0_2) (broadcastInDim S100000x1 ![] Cert.ReferenceIdeal.Facts₀.bcast_S_S100000x1 (constant S_ .f32 0x322BCC77#32)))))
      (shapeCast Cert.ReferenceIdeal.S128x128 (extractStridedSlice Cert.ReferenceIdeal.S1x128x128 ![2, 0, 0] (kA5 m c) Cert.ReferenceIdeal.Facts₀.slices_S3x128x128_S1x128x128_2_0_0) Cert.ReferenceIdeal.Facts₀.shapeCasts_S1x128x128_S128x128)

/-- Behaviour g's pair scores: over the 128 columns, the batch user's projection against each candidate's [item_emb | propagated g]. -/
def pairScore (c : Dev nD) (g : Fin 3) : FVec Ideal S2048x20 .f32 :=
  Host.reduceAdd (mulf (broadcastInDim S2048x20x128 ![0, 1, 2] bcast_S2048x1x128_S2048x20x128_0_1_2
      (Host.gather Cert.ReferenceIdeal.gather_S100000x128_S2048x1x1_S2048x1x128_2_0_n_n_0_2_1128 (projected m c g) (broadcastInDim Cert.ReferenceIdeal.S2048x1x1 ![0, 1] Cert.ReferenceIdeal.Facts₀.bcast_S2048x1_S2048x1x1_0_1 (select (cmpi .slt (kA17 m c) (broadcastInDim S2048x1 ![] Cert.ReferenceIdeal.Facts₀.bcast_S_S2048x1 (constantI S_ 32 0#32))) (addi (kA17 m c) (broadcastInDim S2048x1 ![] Cert.ReferenceIdeal.Facts₀.bcast_S_S2048x1 (constantI S_ 32 100000#32))) (kA17 m c)))))
    (Host.gather gather_S30000x128_S2048x20x1_S2048x20x128_2_0_n_n_0_2_1128 (itemCat m c g) (broadcastInDim S2048x20x1 ![0, 1] bcast_S2048x20_S2048x20x1_0_1
      (select (cmpi .slt (kA18 m c) (broadcastInDim S2048x20 ![] bcast_S_S2048x20 (constantI S_ 32 0#32)))
        (addi (kA18 m c) (broadcastInDim S2048x20 ![] bcast_S_S2048x20 (constantI S_ 32 30000#32)))
        (kA18 m c)))))
    (constant S_ .f32 0x00000000#32) reducesTo_S2048x20x128_S2048x20_d2 h_S_

/-- The second score: the three behaviours' pair scores added one by one from zero, over three. -/
def score2 (c : Dev nD) : FVec Ideal S2048x20 .f32 :=
  Host.divf (addf (addf (addf (broadcastInDim S2048x20 ![] bcast_S_S2048x20 (constant S_ .f32 0x00000000#32)) (pairScore m c 0)) (pairScore m c 1)) (pairScore m c 2))
    (broadcastInDim S2048x20 ![] bcast_S_S2048x20 (constant S_ .f32 0x40400000#32))

/-- Region 0's input: the three aggregates stacked. -/
theorem v54_at1 (c : Dev nD) :
    (at1 m ρ c (Proc.devRef .tc main_v54) : FVec Ideal S3x30000x64 .f32) = concatenate S3x30000x64 0 [⟨S1x30000x64, broadcastInDim S1x30000x64 ![1, 2] bcast_S30000x64_S1x30000x64_1_2 (iiRaw m c 0)⟩, ⟨S1x30000x64, broadcastInDim S1x30000x64 ![1, 2] bcast_S30000x64_S1x30000x64_1_2 (iiRaw m c 1)⟩, ⟨S1x30000x64, broadcastInDim S1x30000x64 ![1, 2] bcast_S30000x64_S1x30000x64_1_2 (iiRaw m c 2)⟩] concatenates_S1x30000x64_S1x30000x64_S1x30000x64_S3x30000x64_d0 := by
  refine (st0_v54 (at0 m ρ c)).trans ?_
  rw [st0_v22 (at0 m ρ c), st0_v36 (at0 m ρ c), st0_v50 (at0 m ρ c)]
  rfl

/-- Region 0's output as the whole-array product. -/
theorem v55_at2 (c : Dev nD) :
    (at2 m ρ c (Proc.devRef .tc main_v55) : FVec Ideal S3x30000x64 .f32)
      = rows0 (concatenate S3x30000x64 0 [⟨S1x30000x64, broadcastInDim S1x30000x64 ![1, 2] bcast_S30000x64_S1x30000x64_1_2 (iiRaw m c 0)⟩, ⟨S1x30000x64, broadcastInDim S1x30000x64 ![1, 2] bcast_S30000x64_S1x30000x64_1_2 (iiRaw m c 1)⟩, ⟨S1x30000x64, broadcastInDim S1x30000x64 ![1, 2] bcast_S30000x64_S1x30000x64_1_2 (iiRaw m c 2)⟩] concatenates_S1x30000x64_S1x30000x64_S1x30000x64_S3x30000x64_d0) (kA4 m c) (kA6 m c) := by
  refine (at2_arr m ρ c 3).trans ((array0 (in0 m ρ) c).trans ?_)
  show rows0 (at1 m ρ c (Proc.devRef .tc main_v54)) (at1 m ρ c (Proc.devRef .tc main_arg4)) (at1 m ρ c (Proc.devRef .tc main_arg6)) = _
  rw [hold_arg4_0_1 m ρ c, hold_arg6_0_1 m ρ c, v54_at1 m ρ c]

/-- Member g of region 0's output is behaviour g's propagated item feature. -/
theorem v55_at (c : Dev nD) (g : Fin 3) (r : Fin 30000) (e : Fin 64) :
    (at2 m ρ c (Proc.devRef .tc main_v55) : FVec Ideal S3x30000x64 .f32) (ix3 g r e) = propagated m c g (ix2 r e) := by
  rw [v55_at2 m ρ c]
  have h1 : rows0 (concatenate S3x30000x64 0 [⟨S1x30000x64, broadcastInDim S1x30000x64 ![1, 2] bcast_S30000x64_S1x30000x64_1_2 (iiRaw m c 0)⟩, ⟨S1x30000x64, broadcastInDim S1x30000x64 ![1, 2] bcast_S30000x64_S1x30000x64_1_2 (iiRaw m c 1)⟩, ⟨S1x30000x64, broadcastInDim S1x30000x64 ![1, 2] bcast_S30000x64_S1x30000x64_1_2 (iiRaw m c 2)⟩] concatenates_S1x30000x64_S1x30000x64_S1x30000x64_S3x30000x64_d0) (kA4 m c) (kA6 m c) (ix3 g r e)
      = ∑ d : Fin 64, Ideal.div (iiRaw m c g (ix2 r d)) (kA4 m c (ix3 g r (0 : Fin 1)) + Ideal.ofBits .f32 0x322BCC77#32) * kA6 m c (ix3 g d e) := by
    unfold rows0
    refine Finset.sum_congr rfl fun d _ => ?_
    show Ideal.div ((concatenate S3x30000x64 0 [⟨S1x30000x64, broadcastInDim S1x30000x64 ![1, 2] bcast_S30000x64_S1x30000x64_1_2 (iiRaw m c 0)⟩, ⟨S1x30000x64, broadcastInDim S1x30000x64 ![1, 2] bcast_S30000x64_S1x30000x64_1_2 (iiRaw m c 1)⟩, ⟨S1x30000x64, broadcastInDim S1x30000x64 ![1, 2] bcast_S30000x64_S1x30000x64_1_2 (iiRaw m c 2)⟩] concatenates_S1x30000x64_S1x30000x64_S1x30000x64_S3x30000x64_d0) (ix3 g r d)) _ * _ = _
    rw [Cert.LibStack3.stack3_apply (iiRaw m c) bcast_S30000x64_S1x30000x64_1_2 concatenates_S1x30000x64_S1x30000x64_S1x30000x64_S3x30000x64_d0 g r d]
  rw [h1]
  fin_cases g
  · exact (Cert.LibBehaviour.prop_at (G := 3) (N := 30000) (D := 64) (E := 64) 0x322BCC77#32 (iiRaw m c 0) (kA4 m c) (kA6 m c) 0
      Cert.ReferenceIdeal.Facts₀.slices_S3x30000x1_S1x30000x1_0_0_0 Cert.ReferenceIdeal.Facts₀.shapeCasts_S1x30000x1_S30000x1 Cert.ReferenceIdeal.Facts₀.bcast_S30000x1_S30000x64_0_1 Cert.ReferenceIdeal.Facts₀.bcast_S_S30000x1
      Cert.ReferenceIdeal.Facts₀.slices_S3x64x64_S1x64x64_0_0_0 Cert.ReferenceIdeal.Facts₀.shapeCasts_S1x64x64_S64x64 Cert.ReferenceIdeal.dot_S30000x64_S64x64_S30000x64_1_0_0_1_n_n.wf none r e).symm
  · exact (Cert.LibBehaviour.prop_at (G := 3) (N := 30000) (D := 64) (E := 64) 0x322BCC77#32 (iiRaw m c 1) (kA4 m c) (kA6 m c) 1
      Cert.ReferenceIdeal.Facts₀.slices_S3x30000x1_S1x30000x1_1_0_0 Cert.ReferenceIdeal.Facts₀.shapeCasts_S1x30000x1_S30000x1 Cert.ReferenceIdeal.Facts₀.bcast_S30000x1_S30000x64_0_1 Cert.ReferenceIdeal.Facts₀.bcast_S_S30000x1
      Cert.ReferenceIdeal.Facts₀.slices_S3x64x64_S1x64x64_1_0_0 Cert.ReferenceIdeal.Facts₀.shapeCasts_S1x64x64_S64x64 Cert.ReferenceIdeal.dot_S30000x64_S64x64_S30000x64_1_0_0_1_n_n.wf none r e).symm
  · exact (Cert.LibBehaviour.prop_at (G := 3) (N := 30000) (D := 64) (E := 64) 0x322BCC77#32 (iiRaw m c 2) (kA4 m c) (kA6 m c) 2
      Cert.ReferenceIdeal.Facts₀.slices_S3x30000x1_S1x30000x1_2_0_0 Cert.ReferenceIdeal.Facts₀.shapeCasts_S1x30000x1_S30000x1 Cert.ReferenceIdeal.Facts₀.bcast_S30000x1_S30000x64_0_1 Cert.ReferenceIdeal.Facts₀.bcast_S_S30000x1
      Cert.ReferenceIdeal.Facts₀.slices_S3x64x64_S1x64x64_2_0_0 Cert.ReferenceIdeal.Facts₀.shapeCasts_S1x64x64_S64x64 Cert.ReferenceIdeal.dot_S30000x64_S64x64_S30000x64_1_0_0_1_n_n.wf none r e).symm

/-- The stacked [item_emb | propagated] array as the kernel joins it. -/
theorem v58_at3 (c : Dev nD) :
    (at3 m ρ c (Proc.devRef .tc main_v58) : FVec Ideal S3x30000x128 .f32) = concatenate S3x30000x128 2 [⟨S3x30000x64, broadcastInDim S3x30000x64 ![0, 1, 2] bcast_S1x30000x64_S3x30000x64_0_1_2 (broadcastInDim S1x30000x64 ![1, 2] bcast_S30000x64_S1x30000x64_1_2 (kA1 m c))⟩, ⟨S3x30000x64, (at2 m ρ c (Proc.devRef .tc main_v55) : FVec Ideal S3x30000x64 .f32)⟩] concatenates_S3x30000x64_S3x30000x64_S3x30000x128_d2 :=
  (st1_v58 (at2 m ρ c)).trans (by rw [hold_arg1_0_2 m ρ c])

/-- Entry (g, r, k) of the stack is behaviour g's [item_emb | propagated g] at (r, k). -/
theorem v58_at (c : Dev nD) (g : Fin 3) (r : Fin 30000) (k : Fin 128) :
    (at3 m ρ c (Proc.devRef .tc main_v58) : FVec Ideal S3x30000x128 .f32) (ix3 g r k) = itemCat m c g (ix2 r k) := by
  rw [v58_at3 m ρ c]
  unfold itemCat
  by_cases hk : k.val < 64
  · refine (Cert.LibUnstack.cat_last_left (G := 3) (A := 30000) (c1 := 64) (c2 := 64) (C := 128) _ _ concatenates_S3x30000x64_S3x30000x64_S3x30000x128_d2 g r k ⟨k.val, hk⟩ rfl).trans ?_
    refine (Cert.LibUnstack.rep_lead_apply (G := 3) (kA1 m c) bcast_S30000x64_S1x30000x64_1_2 bcast_S1x30000x64_S3x30000x64_0_1_2 g r ⟨k.val, hk⟩).trans ?_
    exact (Cert.LibGrid.cols_apply [⟨S30000x64, kA1 m c⟩, ⟨S30000x64, propagated m c g⟩] concatenates_S30000x64_S30000x64_S30000x128_d1 r k 0 (by simp) 64 (kA1 m c) rfl 0 (by simp) ⟨k.val, hk⟩ (by simp)).symm
  · have hk2 : k.val - 64 < 64 := by have := k.isLt; omega
    refine (Cert.LibUnstack.cat_last_right (G := 3) (A := 30000) (c1 := 64) (c2 := 64) (C := 128) _ _ concatenates_S3x30000x64_S3x30000x64_S3x30000x128_d2 g r k ⟨k.val - 64, hk2⟩ (by show 64 + (k.val - 64) = k.val; omega)).trans ?_
    refine (v55_at m ρ c g r ⟨k.val - 64, hk2⟩).trans ?_
    exact (Cert.LibGrid.cols_apply [⟨S30000x64, kA1 m c⟩, ⟨S30000x64, propagated m c g⟩] concatenates_S30000x64_S30000x64_S30000x128_d1 r k 1 (by simp) 64 (propagated m c g) rfl 64 (by simp) ⟨k.val - 64, hk2⟩ (by show 64 + (k.val - 64) = k.val; omega)).symm

/-- Member g of the stack, cut out and reshaped, is behaviour g's [item_emb | propagated g]. -/
theorem member58 (c : Dev nD) (g : Fin 3) (hs : S3x30000x128.Slices ![g.val, 0, 0] S1x30000x128) :
    shapeCast S30000x128 (extractStridedSlice S1x30000x128 ![g.val, 0, 0] (at3 m ρ c (Proc.devRef .tc main_v58) : FVec Ideal S3x30000x128 .f32) hs) shapeCasts_S1x30000x128_S30000x128
      = itemCat m c g := by
  funext j
  obtain ⟨r, k, rfl⟩ : ∃ (r : Fin 30000) (k : Fin 128), j = ix2 r k := ⟨j 0, j 1, eq_ix2 j⟩
  exact (Cert.LibUnstack.unstack_apply (G := 3) (A := 30000) (B := 128) _ g hs shapeCasts_S1x30000x128_S30000x128 r k).trans (v58_at m ρ c g r k)

/-! ## The per-user aggregates and the user projection, behaviour by behaviour -/

theorem v120_at3 (c : Dev nD) :
    (after (hostOps1 (F := Ideal)) (at2 m ρ c) (Proc.devRef .tc main_v120) : FVec Ideal S100000x128 .f32) = n2uRaw m c 0 := by
  have hX : (after (hostOps1 (F := Ideal)) (at2 m ρ c) (Proc.devRef .tc main_v106) : FVec Ideal S30000x128 .f32) = itemCat m c 0 :=
    (st1_v106 (at2 m ρ c)).trans (member58 m ρ c 0 slices_S3x30000x128_S1x30000x128_0_0_0)
  refine (st1_v120 (at2 m ρ c)).trans ?_
  rw [hX, hold_arg11_0_2 m ρ c, hold_arg12_0_2 m ρ c]
  rfl

theorem v136_at3 (c : Dev nD) :
    (after (hostOps1 (F := Ideal)) (at2 m ρ c) (Proc.devRef .tc main_v136) : FVec Ideal S100000x128 .f32) = n2uRaw m c 1 := by
  have hX : (after (hostOps1 (F := Ideal)) (at2 m ρ c) (Proc.devRef .tc main_v122) : FVec Ideal S30000x128 .f32) = itemCat m c 1 :=
    (st1_v122 (at2 m ρ c)).trans (member58 m ρ c 1 slices_S3x30000x128_S1x30000x128_1_0_0)
  refine (st1_v136 (at2 m ρ c)).trans ?_
  rw [hX, hold_arg11_0_2 m ρ c, hold_arg12_0_2 m ρ c]
  rfl

theorem v152_at3 (c : Dev nD) :
    (after (hostOps1 (F := Ideal)) (at2 m ρ c) (Proc.devRef .tc main_v152) : FVec Ideal S100000x128 .f32) = n2uRaw m c 2 := by
  have hX : (after (hostOps1 (F := Ideal)) (at2 m ρ c) (Proc.devRef .tc main_v138) : FVec Ideal S30000x128 .f32) = itemCat m c 2 :=
    (st1_v138 (at2 m ρ c)).trans (member58 m ρ c 2 slices_S3x30000x128_S1x30000x128_2_0_0)
  refine (st1_v152 (at2 m ρ c)).trans ?_
  rw [hX, hold_arg11_0_2 m ρ c, hold_arg12_0_2 m ρ c]
  rfl

/-- The stacked quotient at (g, u, k): behaviour g's aggregate over its degree plus eps. -/
theorem v164_at (c : Dev nD) (g : Fin 3) (u : Fin 100000) (k : Fin 128) :
    (at3 m ρ c (Proc.devRef .tc main_v164) : FVec Ideal S3x100000x128 .f32) (ix3 g u k)
      = Ideal.div (n2uRaw m c g (ix2 u k)) (kA2 m c (ix2 u g) + Ideal.ofBits .f32 0x322BCC77#32) := by
  have h : (at3 m ρ c (Proc.devRef .tc main_v164) : FVec Ideal S3x100000x128 .f32)
      = Host.divf (concatenate S3x100000x128 0 [⟨S1x100000x128, broadcastInDim S1x100000x128 ![1, 2] bcast_S100000x128_S1x100000x128_1_2 (n2uRaw m c 0)⟩, ⟨S1x100000x128, broadcastInDim S1x100000x128 ![1, 2] bcast_S100000x128_S1x100000x128_1_2 (n2uRaw m c 1)⟩, ⟨S1x100000x128, broadcastInDim S1x100000x128 ![1, 2] bcast_S100000x128_S1x100000x128_1_2 (n2uRaw m c 2)⟩] concatenates_S1x100000x128_S1x100000x128_S1x100000x128_S3x100000x128_d0)
          (broadcastInDim S3x100000x128 ![0, 1, 2] bcast_S3x100000x1_S3x100000x128_0_1_2
            (addf (broadcastInDim S3x100000x1 ![0, 1] bcast_S3x100000_S3x100000x1_0_1 (transpose S3x100000 [1, 0] (kA2 m c) transposes_S100000x3_S3x100000_1_0))
              (broadcastInDim S3x100000x1 ![] bcast_S_S3x100000x1 (constant S_ .f32 0x322BCC77#32)))) := by
    refine (st1_v164 (at2 m ρ c)).trans ?_
    rw [v120_at3 m ρ c, v136_at3 m ρ c, v152_at3 m ρ c, st1_v160 (at2 m ρ c), hold_arg2_0_2 m ρ c]
  rw [h]
  exact Cert.LibMix3.stackdiv_at (U := 100000) (D := 128) 0x322BCC77#32 (kA2 m c) (n2uRaw m c) transposes_S100000x3_S3x100000_1_0
    bcast_S3x100000_S3x100000x1_0_1 bcast_S3x100000x1_S3x100000x128_0_1_2 bcast_S_S3x100000x1 bcast_S100000x128_S1x100000x128_1_2
    concatenates_S1x100000x128_S1x100000x128_S1x100000x128_S3x100000x128_d0 g u k

/-- Member g of region 1's output is behaviour g's user projection. -/
theorem v170_at (c : Dev nD) (g : Fin 3) (u : Fin 100000) (q : Fin 128) :
    (at4 m ρ c (Proc.devRef .tc main_v170) : FVec Ideal S3x100000x128 .f32) (ix3 g u q) = projected m c g (ix2 u q) := by
  have h : (at4 m ρ c (Proc.devRef .tc main_v170) : FVec Ideal S3x100000x128 .f32)
      = rows1 (at3 m ρ c (Proc.devRef .tc main_v164)) (kA5 m c) := by
    refine (at4_arr m ρ c 2).trans ((array1 (in1 m ρ) c).trans ?_)
    show rows1 (at3 m ρ c (Proc.devRef .tc main_v164)) (at3 m ρ c (Proc.devRef .tc main_arg5)) = _
    rw [hold_arg5_0_3 m ρ c]
  rw [h]
  have h1 : rows1 (at3 m ρ c (Proc.devRef .tc main_v164)) (kA5 m c) (ix3 g u q)
      = ∑ d : Fin 128, Ideal.div (n2uRaw m c g (ix2 u d)) (kA2 m c (ix2 u g) + Ideal.ofBits .f32 0x322BCC77#32) * kA5 m c (ix3 g d q) := by
    unfold rows1
    refine Finset.sum_congr rfl fun d _ => ?_
    exact congrArg (fun z : EReal => z * kA5 m c (ix3 g d q)) (v164_at m ρ c g u d)
  rw [h1]
  fin_cases g
  · exact (Cert.LibBehaviour.proj_at (G := 3) (N := 100000) (D := 128) (E := 128) 0x322BCC77#32 (n2uRaw m c 0) (kA2 m c) (kA5 m c) 0
      Cert.ReferenceIdeal.Facts₀.slices_S100000x3_S100000x1_0_0 Cert.ReferenceIdeal.Facts₀.bcast_S100000x1_S100000x128_0_1 Cert.ReferenceIdeal.Facts₀.bcast_S_S100000x1
      Cert.ReferenceIdeal.Facts₀.slices_S3x128x128_S1x128x128_0_0_0 Cert.ReferenceIdeal.Facts₀.shapeCasts_S1x128x128_S128x128 Cert.ReferenceIdeal.dot_S100000x128_S128x128_S100000x128_1_0_0_1_n_n.wf none u q).symm
  · exact (Cert.LibBehaviour.proj_at (G := 3) (N := 100000) (D := 128) (E := 128) 0x322BCC77#32 (n2uRaw m c 1) (kA2 m c) (kA5 m c) 1
      Cert.ReferenceIdeal.Facts₀.slices_S100000x3_S100000x1_0_1 Cert.ReferenceIdeal.Facts₀.bcast_S100000x1_S100000x128_0_1 Cert.ReferenceIdeal.Facts₀.bcast_S_S100000x1
      Cert.ReferenceIdeal.Facts₀.slices_S3x128x128_S1x128x128_1_0_0 Cert.ReferenceIdeal.Facts₀.shapeCasts_S1x128x128_S128x128 Cert.ReferenceIdeal.dot_S100000x128_S128x128_S100000x128_1_0_0_1_n_n.wf none u q).symm
  · exact (Cert.LibBehaviour.proj_at (G := 3) (N := 100000) (D := 128) (E := 128) 0x322BCC77#32 (n2uRaw m c 2) (kA2 m c) (kA5 m c) 2
      Cert.ReferenceIdeal.Facts₀.slices_S100000x3_S100000x1_0_2 Cert.ReferenceIdeal.Facts₀.bcast_S100000x1_S100000x128_0_1 Cert.ReferenceIdeal.Facts₀.bcast_S_S100000x1
      Cert.ReferenceIdeal.Facts₀.slices_S3x128x128_S1x128x128_2_0_0 Cert.ReferenceIdeal.Facts₀.shapeCasts_S1x128x128_S128x128 Cert.ReferenceIdeal.dot_S100000x128_S128x128_S100000x128_1_0_0_1_n_n.wf none u q).symm

/-! ## The batch's rows out of the stacks -/

/-- The candidates' rows: entry (g, b, j, k) of the kernel's stacked gather is behaviour g's gathered row. -/
theorem v177_at (c : Dev nD) (g : Fin 3) (b : Fin 2048) (j : Fin 20) (k : Fin 128) :
    (after (hostOps2 (F := Ideal)) (at4 m ρ c) (Proc.devRef .tc main_v177) : FVec Ideal S3x2048x20x128 .f32) (ix4 g b j k)
      = (Host.gather gather_S30000x128_S2048x20x1_S2048x20x128_2_0_n_n_0_2_1128 (itemCat m c g) (broadcastInDim S2048x20x1 ![0, 1] bcast_S2048x20_S2048x20x1_0_1
      (select (cmpi .slt (kA18 m c) (broadcastInDim S2048x20 ![] bcast_S_S2048x20 (constantI S_ 32 0#32)))
        (addi (kA18 m c) (broadcastInDim S2048x20 ![] bcast_S_S2048x20 (constantI S_ 32 30000#32)))
        (kA18 m c))) : FVec Ideal S2048x20x128 .f32) (ix3 b j k) := by
  have h : (after (hostOps2 (F := Ideal)) (at4 m ρ c) (Proc.devRef .tc main_v177) : FVec Ideal S3x2048x20x128 .f32)
      = Host.gather gather_S3x30000x128_S2048x20x1_S3x2048x20x128_03_1_n_n_1_2_31128 (at3 m ρ c (Proc.devRef .tc main_v58) : FVec Ideal S3x30000x128 .f32) (broadcastInDim S2048x20x1 ![0, 1] bcast_S2048x20_S2048x20x1_0_1
      (select (cmpi .slt (kA18 m c) (broadcastInDim S2048x20 ![] bcast_S_S2048x20 (constantI S_ 32 0#32)))
        (addi (kA18 m c) (broadcastInDim S2048x20 ![] bcast_S_S2048x20 (constantI S_ 32 30000#32)))
        (kA18 m c))) :=
    (st2_v177 (at4 m ρ c)).trans (by rw [hold_v58_3_4 m ρ c, hold_arg18_0_4 m ρ c])
  rw [h]
  refine (Cert.LibBatchGather.gather4_apply (B := 3) (N := 30000) (D := 128) (R := 2048) (A := 20) (by decide)
    gather_S3x30000x128_S2048x20x1_S3x2048x20x128_03_1_n_n_1_2_31128.wf _ _ (ix4 g b j k)).trans ?_
  refine Eq.trans ?_ (gather_rows3_apply (N := 30000) (D := 128) (R := 2048) (A := 20) (by decide)
    gather_S30000x128_S2048x20x1_S2048x20x128_2_0_n_n_0_2_1128.wf (itemCat m c g) _ (ix3 b j k)).symm
  have e : Cert.LibBatchGather.idx4 (ix4 g b j k) = rows3Idx (ix3 b j k) := funext fun a => by
    match a with
    | ⟨0, _⟩ => rfl
    | ⟨1, _⟩ => rfl
    | ⟨2, _⟩ => rfl
  refine (v58_at m ρ c g _ k).trans ?_
  refine congrArg (itemCat m c g) (funext fun a => Fin.ext ?_)
  match a with
  | ⟨0, _⟩ =>
    show min (((broadcastInDim S2048x20x1 ![0, 1] bcast_S2048x20_S2048x20x1_0_1
      (select (cmpi .slt (kA18 m c) (broadcastInDim S2048x20 ![] bcast_S_S2048x20 (constantI S_ 32 0#32)))
        (addi (kA18 m c) (broadcastInDim S2048x20 ![] bcast_S_S2048x20 (constantI S_ 32 30000#32)))
        (kA18 m c))) : IVec S2048x20x1 32) (Cert.LibBatchGather.idx4 (ix4 g b j k))).toInt.toNat (30000 - 1)
      = min (((broadcastInDim S2048x20x1 ![0, 1] bcast_S2048x20_S2048x20x1_0_1
      (select (cmpi .slt (kA18 m c) (broadcastInDim S2048x20 ![] bcast_S_S2048x20 (constantI S_ 32 0#32)))
        (addi (kA18 m c) (broadcastInDim S2048x20 ![] bcast_S_S2048x20 (constantI S_ 32 30000#32)))
        (kA18 m c))) : IVec S2048x20x1 32) (rows3Idx (ix3 b j k))).toInt.toNat (30000 - 1)
    rw [e]
  | ⟨1, _⟩ => rfl

/-- The batch users' rows: entry (g, b, k) of the kernel's stacked gather is behaviour g's gathered row. -/
theorem v185_at (c : Dev nD) (g : Fin 3) (b : Fin 2048) (k : Fin 128) :
    (after (hostOps2 (F := Ideal)) (at4 m ρ c) (Proc.devRef .tc main_v185) : FVec Ideal S3x2048x128 .f32) (ix3 g b k)
      = (Host.gather Cert.ReferenceIdeal.gather_S100000x128_S2048x1x1_S2048x1x128_2_0_n_n_0_2_1128 (projected m c g) (broadcastInDim Cert.ReferenceIdeal.S2048x1x1 ![0, 1] Cert.ReferenceIdeal.Facts₀.bcast_S2048x1_S2048x1x1_0_1 (select (cmpi .slt (kA17 m c) (broadcastInDim S2048x1 ![] Cert.ReferenceIdeal.Facts₀.bcast_S_S2048x1 (constantI S_ 32 0#32))) (addi (kA17 m c) (broadcastInDim S2048x1 ![] Cert.ReferenceIdeal.Facts₀.bcast_S_S2048x1 (constantI S_ 32 100000#32))) (kA17 m c))) : FVec Ideal S2048x1x128 .f32) (ix3 b (0 : Fin 1) k) := by
  have h : (after (hostOps2 (F := Ideal)) (at4 m ρ c) (Proc.devRef .tc main_v185) : FVec Ideal S3x2048x128 .f32)
      = Host.gather gather_S3x100000x128_S2048x1_S3x2048x128_02_1_n_n_1_1_31128 (at4 m ρ c (Proc.devRef .tc main_v170) : FVec Ideal S3x100000x128 .f32) (broadcastInDim S2048x1 ![0] bcast_S2048_S2048x1_0
          (select (cmpi .slt (shapeCast S2048 (kA17 m c) shapeCasts_S2048x1_S2048) (broadcastInDim S2048 ![] bcast_S_S2048 (constantI S_ 32 0#32)))
            (addi (shapeCast S2048 (kA17 m c) shapeCasts_S2048x1_S2048) (broadcastInDim S2048 ![] bcast_S_S2048 (constantI S_ 32 100000#32)))
            (shapeCast S2048 (kA17 m c) shapeCasts_S2048x1_S2048))) :=
    (st2_v185 (at4 m ρ c)).trans (by rw [st2_v178 (at4 m ρ c), hold_arg17_0_4 m ρ c])
  rw [h]
  refine (Cert.LibBatchGather.gather3_apply (B := 3) (N := 100000) (D := 128) (R := 2048) (by decide)
    gather_S3x100000x128_S2048x1_S3x2048x128_02_1_n_n_1_1_31128.wf _ _ (ix3 g b k)).trans ?_
  refine Eq.trans ?_ (gather_rows3_apply (N := 100000) (D := 128) (R := 2048) (A := 1) (by decide)
    Cert.ReferenceIdeal.gather_S100000x128_S2048x1x1_S2048x1x128_2_0_n_n_0_2_1128.wf (projected m c g) _ (ix3 b (0 : Fin 1) k)).symm
  have e2 : Cert.LibBatchGather.idx3 (ix3 g b k) = ix2 b (0 : Fin 1) := funext fun a => by
    match a with
    | ⟨0, _⟩ => rfl
    | ⟨1, _⟩ => rfl
  have e3 : rows3Idx (ix3 b (0 : Fin 1) k) = ix3 b (0 : Fin 1) (0 : Fin 1) := funext fun a => by
    match a with
    | ⟨0, _⟩ => rfl
    | ⟨1, _⟩ => rfl
    | ⟨2, _⟩ => rfl
  refine (v170_at m ρ c g _ k).trans ?_
  refine congrArg (projected m c g) (funext fun a => Fin.ext ?_)
  match a with
  | ⟨0, _⟩ =>
    show min (((broadcastInDim S2048x1 ![0] bcast_S2048_S2048x1_0
          (select (cmpi .slt (shapeCast S2048 (kA17 m c) shapeCasts_S2048x1_S2048) (broadcastInDim S2048 ![] bcast_S_S2048 (constantI S_ 32 0#32)))
            (addi (shapeCast S2048 (kA17 m c) shapeCasts_S2048x1_S2048) (broadcastInDim S2048 ![] bcast_S_S2048 (constantI S_ 32 100000#32)))
            (shapeCast S2048 (kA17 m c) shapeCasts_S2048x1_S2048))) : IVec S2048x1 32) (Cert.LibBatchGather.idx3 (ix3 g b k))).toInt.toNat (100000 - 1)
      = min (((broadcastInDim Cert.ReferenceIdeal.S2048x1x1 ![0, 1] Cert.ReferenceIdeal.Facts₀.bcast_S2048x1_S2048x1x1_0_1 (select (cmpi .slt (kA17 m c) (broadcastInDim S2048x1 ![] Cert.ReferenceIdeal.Facts₀.bcast_S_S2048x1 (constantI S_ 32 0#32))) (addi (kA17 m c) (broadcastInDim S2048x1 ![] Cert.ReferenceIdeal.Facts₀.bcast_S_S2048x1 (constantI S_ 32 100000#32))) (kA17 m c))) : IVec Cert.ReferenceIdeal.S2048x1x1 32) (rows3Idx (ix3 b (0 : Fin 1) k))).toInt.toNat (100000 - 1)
    rw [e2, e3, userWords m c b]
  | ⟨1, _⟩ => rfl

/-! ## The sums -/

/-- The users' rows set as [3,2048,1,128] and repeated along the candidates: entry (g, b, j, k) is X (g, b, k). -/
theorem spreadU_at (X : FVec Ideal S3x2048x128 .f32) (g : Fin 3) (b : Fin 2048) (j : Fin 20) (k : Fin 128) :
    (broadcastInDim S3x2048x20x128 ![0, 1, 2, 3] bcast_S3x2048x1x128_S3x2048x20x128_0_1_2_3
      (broadcastInDim S3x2048x1x128 ![0, 1, 3] bcast_S3x2048x128_S3x2048x1x128_0_1_3 X)) (ix4 g b j k) = X (ix3 g b k) := by
  rw [broadcastInDim_apply ![0, 1, 2, 3] bcast_S3x2048x1x128_S3x2048x20x128_0_1_2_3 _ (ix4 g b j k) (ix4 g b (0 : Fin 1) k) (by
      intro a
      match a with
      | ⟨0, _⟩ => rfl
      | ⟨1, _⟩ => rfl
      | ⟨2, _⟩ => rfl
      | ⟨3, _⟩ => rfl),
    broadcastInDim_apply ![0, 1, 3] bcast_S3x2048x128_S3x2048x1x128_0_1_3 X (ix4 g b (0 : Fin 1) k) (ix3 g b k) (by
      intro a
      match a with
      | ⟨0, _⟩ => rfl
      | ⟨1, _⟩ => rfl
      | ⟨2, _⟩ => rfl)]

/-- A [2048,1,128] array repeated along the candidates: entry (b, j, k) is X (b, 0, k). -/
theorem spreadR_at (X : FVec Ideal S2048x1x128 .f32) (b : Fin 2048) (j : Fin 20) (k : Fin 128) :
    (broadcastInDim S2048x20x128 ![0, 1, 2] bcast_S2048x1x128_S2048x20x128_0_1_2 X) (ix3 b j k) = X (ix3 b (0 : Fin 1) k) :=
  broadcastInDim_apply ![0, 1, 2] bcast_S2048x1x128_S2048x20x128_0_1_2 X (ix3 b j k) (ix3 b (0 : Fin 1) k) (by
    intro a
    match a with
    | ⟨0, _⟩ => rfl
    | ⟨1, _⟩ => rfl
    | ⟨2, _⟩ => rfl)

/-- The kernel's sum over the 128 columns, for behaviour g at (b, j), is behaviour g's pair score. -/
theorem inner_at (c : Dev nD) (g : Fin 3) (b : Fin 2048) (j : Fin 20) :
    (Host.reduceAdd (mulf (broadcastInDim S3x2048x20x128 ![0, 1, 2, 3] bcast_S3x2048x1x128_S3x2048x20x128_0_1_2_3
          (broadcastInDim S3x2048x1x128 ![0, 1, 3] bcast_S3x2048x128_S3x2048x1x128_0_1_3
            (after (hostOps2 (F := Ideal)) (at4 m ρ c) (Proc.devRef .tc main_v185) : FVec Ideal S3x2048x128 .f32)))
        (after (hostOps2 (F := Ideal)) (at4 m ρ c) (Proc.devRef .tc main_v177) : FVec Ideal S3x2048x20x128 .f32))
      (constant S_ .f32 0x00000000#32) reducesTo_S3x2048x20x128_S3x2048x20_d3 h_S_ : FVec Ideal S3x2048x20 .f32) (ix3 g b j)
      = pairScore m c g (ix2 b j) := by
  rw [Cert.LibSums.sumLast4_at (G := 3) (R := 2048) (A := 20) (K := 128) _ _ reducesTo_S3x2048x20x128_S3x2048x20_d3 h_S_ g b j]
  unfold pairScore
  rw [Cert.LibSums.sumLast3_at (R := 2048) (A := 20) (K := 128) _ _ reducesTo_S2048x20x128_S2048x20_d2 h_S_ b j]
  refine congrArg (_ + ·) (Finset.sum_congr rfl fun k _ => ?_)
  rw [mulf_apply, mulf_apply, spreadU_at, spreadR_at, v185_at m ρ c g b k, v177_at m ρ c g b j k]

/-- The kernel's second score is the reference's. -/
theorem v192_at5 (c : Dev nD) : (at5 m ρ c (Proc.devRef .tc main_v192) : FVec Ideal S2048x20 .f32) = score2 m c := by
  refine (st2_v192 (at4 m ρ c)).trans ?_
  rw [st2_v190 (at4 m ρ c)]
  funext i
  obtain ⟨b, j, rfl⟩ : ∃ (b : Fin 2048) (j : Fin 20), i = ix2 b j := ⟨i 0, i 1, eq_ix2 i⟩
  unfold score2
  rw [hostDivf_apply, hostDivf_apply, Cert.LibMix3.sum3_at (U := 2048) (D := 20) _ _ reducesTo_S3x2048x20_S2048x20_d0 h_S_ b j,
    inner_at m ρ c 0 b j, inner_at m ρ c 1 b j, inner_at m ρ c 2 b j, addf_apply, addf_apply, addf_apply]
  refine congrArg (fun z => Ideal.div z _) ?_
  simp only [add_assoc]
  rfl

end Cert.KernelIdeal.Hand

end
-- ==== Proof.IdealScores.lean ====
/-
  The first result, the scores: score1 · gate + score2 · (1 − gate), score1 the batch user's representation against each
  candidate's over the 128 columns. The kernel's value, then the reference's run terms read as the same values.
-/
import proofs.«166662_j47579647705297_2_alg».proof.Proof.IdealL2
import proofs.«166662_j47579647705297_2_alg».proof.Proof.IdealGate
import proofs.«166662_j47579647705297_2_alg».proof.Proof.IdealPairs

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- The first score: the user tile against the item rows, over the 128 columns. -/
def score1 (c : Dev nD) : FVec Ideal S2048x20 .f32 :=
  Host.reduceAdd (mulf (userTile m c) (itemRows m c)) (constant S_ .f32 0x00000000#32) reducesTo_S2048x20x128_S2048x20_d2 h_S_

theorem v232_at9 (c : Dev nD) : (at9 m ρ c (Proc.devRef .tc main_v232) : FVec Ideal S2048x20 .f32) = score1 m c := by
  refine (st4_v232 (at8 m ρ c)).trans ?_
  exact congrArg₂ (fun x y : FVec Ideal S2048x20x128 .f32 => Host.reduceAdd (mulf x y) (constant S_ .f32 0x00000000#32) reducesTo_S2048x20x128_S2048x20_d2 h_S_)
    (v223_at9 m ρ c) (v230_at9 m ρ c)

/-- The scores. -/
def scoreValue (c : Dev nD) : FVec Ideal S2048x20 .f32 :=
  addf (mulf (score1 m c) (broadcastInDim S2048x20 ![0, 1] bcast_S2048x1_S2048x20_0_1 (gate m c)))
    (mulf (score2 m c) (broadcastInDim S2048x20 ![0, 1] bcast_S2048x1_S2048x20_0_1
      (subf (broadcastInDim S2048x1 ![] bcast_S_S2048x1 (constant S_ .f32 0x3F800000#32)) (gate m c))))

theorem v253_at11 (c : Dev nD) : (at11 m ρ c (Proc.devRef .tc main_v253) : FVec Ideal S2048x20 .f32) = scoreValue m c := by
  refine (st5_v253 (at10 m ρ c)).trans ?_
  rw [v246_at11 m ρ c, hold_v232_9_10 m ρ c, v232_at9 m ρ c, hold_v192_5_10 m ρ c, v192_at5 m ρ c]
  rfl

end Cert.KernelIdeal.Hand

end
-- ==== Proof.RefSide.lean ====
/-
  The reference's two results, as its generated run states them — composed terms over named intermediate buffers —, read
  at a valuation whose arguments are the kernel's: they are the kernel's two values. Every intermediate of the reference is
  unfolded to its operations; what is left is the same operations on the same arguments, one behaviour at a time.
-/
import proofs.«166662_j47579647705297_2_alg».proof.Proof.IdealScores
import proofs.«166662_j47579647705297_2_alg».proof.Proof.Gen.ReferenceIdeal.Run

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo
open Idealize.SL Idealize.SL.Sem
open Cert.KernelIdeal.Hand (scoreValue score1 score2 pairScore projected n2uRaw itemCat propagated iiRaw gate userTile userRows userRep
  userFeature mixWeights aggr itemRows itemRep itemFeature l2Value)

variable (m : (ℓ : Loc Cert.KernelIdeal.nD Cert.KernelIdeal.τ Cert.KernelIdeal.sig) → Buf (Elt Ideal) ℓ)

set_option maxHeartbeats 4000000 in
/-- The reference's scores. -/
theorem scores_eq (c : Dev Cert.KernelIdeal.nD) (V0 : Valuation τ sig (Elt Ideal))
    (h0 : V0 (Proc.devRef .tc main_arg0) = Cert.KernelIdeal.Hand.kA0 m c)
    (h1 : V0 (Proc.devRef .tc main_arg1) = Cert.KernelIdeal.Hand.kA1 m c)
    (h2 : V0 (Proc.devRef .tc main_arg2) = Cert.KernelIdeal.Hand.kA2 m c)
    (h3 : V0 (Proc.devRef .tc main_arg3) = Cert.KernelIdeal.Hand.kA3 m c)
    (h4 : V0 (Proc.devRef .tc main_arg4) = Cert.KernelIdeal.Hand.kA4 m c)
    (h5 : V0 (Proc.devRef .tc main_arg5) = Cert.KernelIdeal.Hand.kA5 m c)
    (h6 : V0 (Proc.devRef .tc main_arg6) = Cert.KernelIdeal.Hand.kA6 m c)
    (h7 : V0 (Proc.devRef .tc main_arg7) = Cert.KernelIdeal.Hand.kA7 m c)
    (h8 : V0 (Proc.devRef .tc main_arg8) = Cert.KernelIdeal.Hand.kA8 m c)
    (h9 : V0 (Proc.devRef .tc main_arg9) = Cert.KernelIdeal.Hand.kA9 m c)
    (h10 : V0 (Proc.devRef .tc main_arg10) = Cert.KernelIdeal.Hand.kA10 m c)
    (h11 : V0 (Proc.devRef .tc main_arg11) = Cert.KernelIdeal.Hand.kA11 m c)
    (h12 : V0 (Proc.devRef .tc main_arg12) = Cert.KernelIdeal.Hand.kA12 m c)
    (h13 : V0 (Proc.devRef .tc main_arg13) = Cert.KernelIdeal.Hand.kA13 m c)
    (h14 : V0 (Proc.devRef .tc main_arg14) = Cert.KernelIdeal.Hand.kA14 m c)
    (h15 : V0 (Proc.devRef .tc main_arg15) = Cert.KernelIdeal.Hand.kA15 m c)
    (h16 : V0 (Proc.devRef .tc main_arg16) = Cert.KernelIdeal.Hand.kA16 m c)
    (h17 : V0 (Proc.devRef .tc main_arg17) = Cert.KernelIdeal.Hand.kA17 m c)
    (h18 : V0 (Proc.devRef .tc main_arg18) = Cert.KernelIdeal.Hand.kA18 m c) :
    val7 V0 (Proc.devRef .tc main_v321) = scoreValue m c := by
  refine (val7_main_v321 V0).trans ?_
  unfold res_main_v290 res_main_v297 res_main_v314 res_main_v178 res_main_v202 res_main_v230 res_main_v279 res_main_v274 res_main_v34 res_main_v62 res_main_v118 res_main_v146 res_main_v180 res_main_v248 res_main_v12 res_main_v96 res_main_v8 res_main_v46 res_main_v44 res_main_v130 res_main_v128 res_main_v214 res_main_v212
    scoreValue score1 score2 pairScore projected n2uRaw itemCat propagated iiRaw gate userTile userRows userRep userFeature mixWeights itemRows itemRep itemFeature
  rw [h0, h1, h2, h3, h4, h5, h6, h7, h8, h9, h10, h11, h12, h13, h14, h15, h16, h17, h18]
  rfl

set_option maxHeartbeats 4000000 in
/-- The reference's regulariser. -/
theorem l2_eq (c : Dev Cert.KernelIdeal.nD) (V0 : Valuation τ sig (Elt Ideal))
    (h0 : V0 (Proc.devRef .tc main_arg0) = Cert.KernelIdeal.Hand.kA0 m c)
    (h1 : V0 (Proc.devRef .tc main_arg1) = Cert.KernelIdeal.Hand.kA1 m c)
    (h2 : V0 (Proc.devRef .tc main_arg2) = Cert.KernelIdeal.Hand.kA2 m c)
    (h3 : V0 (Proc.devRef .tc main_arg3) = Cert.KernelIdeal.Hand.kA3 m c)
    (h4 : V0 (Proc.devRef .tc main_arg4) = Cert.KernelIdeal.Hand.kA4 m c)
    (h5 : V0 (Proc.devRef .tc main_arg5) = Cert.KernelIdeal.Hand.kA5 m c)
    (h6 : V0 (Proc.devRef .tc main_arg6) = Cert.KernelIdeal.Hand.kA6 m c)
    (h7 : V0 (Proc.devRef .tc main_arg7) = Cert.KernelIdeal.Hand.kA7 m c)
    (h8 : V0 (Proc.devRef .tc main_arg8) = Cert.KernelIdeal.Hand.kA8 m c)
    (h9 : V0 (Proc.devRef .tc main_arg9) = Cert.KernelIdeal.Hand.kA9 m c)
    (h10 : V0 (Proc.devRef .tc main_arg10) = Cert.KernelIdeal.Hand.kA10 m c)
    (h11 : V0 (Proc.devRef .tc main_arg11) = Cert.KernelIdeal.Hand.kA11 m c)
    (h12 : V0 (Proc.devRef .tc main_arg12) = Cert.KernelIdeal.Hand.kA12 m c)
    (h13 : V0 (Proc.devRef .tc main_arg13) = Cert.KernelIdeal.Hand.kA13 m c)
    (h14 : V0 (Proc.devRef .tc main_arg14) = Cert.KernelIdeal.Hand.kA14 m c)
    (h15 : V0 (Proc.devRef .tc main_arg15) = Cert.KernelIdeal.Hand.kA15 m c)
    (h16 : V0 (Proc.devRef .tc main_arg16) = Cert.KernelIdeal.Hand.kA16 m c)
    (h17 : V0 (Proc.devRef .tc main_arg17) = Cert.KernelIdeal.Hand.kA17 m c)
    (h18 : V0 (Proc.devRef .tc main_arg18) = Cert.KernelIdeal.Hand.kA18 m c) :
    val7 V0 (Proc.devRef .tc main_v327) = l2Value m c := by
  refine (val7_main_v327 V0).trans ?_
  unfold res_main_v290 res_main_v297 res_main_v279 res_main_v274 res_main_v248 res_main_v8 res_main_v46 res_main_v44 res_main_v130 res_main_v128 res_main_v214 res_main_v212
    l2Value userTile userRows userRep userFeature mixWeights itemRows itemRep itemFeature
  rw [h0, h1, h2, h3, h7, h8, h9, h11, h12, h15, h16, h17, h18]
  rfl

end Cert.ReferenceIdeal.Hand

end
-- ==== Proof.lean ====
/-
  The certificate of the five-region recommendation forward pass against its jnp reference.

  The kernel computes, with five row-tiled matrix products on the accelerator (the per-behaviour item propagation
  x / (deg + eps) · Wp over 15 row tiles of 2000, the per-behaviour user projection over 50 row tiles of 2000, the two
  fused projections by the column-concatenated weights [W | user_W] and [W | item_W] over 20 and 6 row tiles of 5000,
  and the gate projection over 20 row tiles of 5000) and the segment sums, gathers and pointwise arithmetic on the
  host, the same scores [2048, 20] and regulariser as the reference, which computes every product on the host, one
  behaviour at a time. At the ideal instance a change of float format is the identity, a matrix product into a zero
  accumulator is the plain sum of products, and a product by column-concatenated weights is the two products side by
  side, so the two programs are one function of the arguments.

  The conjuncts are proved one by one below; `claim` assembles them.
-/
import proofs.«166662_j47579647705297_2_alg».proof.Defs
import proofs.«166662_j47579647705297_2_alg».proof.Proof.Gen.Kernel
import proofs.«166662_j47579647705297_2_alg».proof.Proof.Gen.Kernel.Skeleton
import proofs.«166662_j47579647705297_2_alg».proof.Proof.Gen.Kernel.Launch
import proofs.«166662_j47579647705297_2_alg».proof.Proof.Gen.Kernel.Points
import proofs.«166662_j47579647705297_2_alg».proof.Proof.Gen.KernelIdeal
import proofs.«166662_j47579647705297_2_alg».proof.Proof.Gen.KernelIdeal.Skeleton
import proofs.«166662_j47579647705297_2_alg».proof.Proof.Gen.KernelIdeal.Launch
import proofs.«166662_j47579647705297_2_alg».proof.Proof.Gen.KernelIdeal.Points
import proofs.«166662_j47579647705297_2_alg».proof.Proof.Gen.ReferenceIdeal
import proofs.«166662_j47579647705297_2_alg».proof.Proof.Gen.ReferenceIdeal.Run
import proofs.«166662_j47579647705297_2_alg».proof.Proof.Gen.Pre_finite_inputs
import proofs.«166662_j47579647705297_2_alg».proof.Proof.BitsRun
import proofs.«166662_j47579647705297_2_alg».proof.Proof.IdealRun
import proofs.«166662_j47579647705297_2_alg».proof.Proof.RefSide
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The reference is host operations only: its run ends with every argument as launched. -/
theorem frame_ri : Cert.frame_ReferenceIdeal := fun m ρ _ =>
  (θ_run Cert.ReferenceIdeal.defs _ _).mono (fun _ h c => (h c).2.2) (Cert.ReferenceIdeal.Value.run (F := Ideal) m ρ)

/-- The idealisation rewrote nothing: its ledger is empty. -/
theorem preserves : Cert.preserves_Kernel_KernelIdeal := trivial

/-- The word-level kernel program runs to its end and leaves every argument as launched. -/
theorem frame_p : Cert.frame_Kernel := fun m ρ _ => Cert.Kernel.Hand.frame (F := Bits) m ρ

/-- So does the idealised kernel program. -/
theorem frame_pi : Cert.frame_KernelIdeal := fun m ρ _ => Cert.KernelIdeal.Hand.frame (F := Ideal) m ρ

/-- At the ideal values, from memories agreeing on the arguments, the kernel program ends with the scores and the regulariser
    at the values computed behaviour by behaviour, and the reference's run ends with its two results at the same values. -/
theorem algebraic : Cert.algebraic_KernelIdeal_ReferenceIdeal := by
  intro m ρ m' ρ' _ hagree
  refine ⟨fun c => Cert.KernelIdeal.Hand.scoreValue m c, fun c => Cert.KernelIdeal.Hand.l2Value m c, ?_, ?_⟩
  · exact (θ_run Cert.KernelIdeal.defs _ _).mono (fun _ h c =>
      ⟨(h c _ (Cert.KernelIdeal.Hand.mem_uc Cert.KernelIdeal.main_v253 (by decide))).trans (Cert.KernelIdeal.Hand.v253_at11 m ρ c),
       (h c _ (Cert.KernelIdeal.Hand.mem_uc Cert.KernelIdeal.main_v259 (by decide))).trans (Cert.KernelIdeal.Hand.v259_at11 m ρ c),
       (h c _ (Cert.KernelIdeal.Hand.mem_uc Cert.KernelIdeal.main_arg0 (by decide))).trans (Cert.KernelIdeal.Hand.at11_main_arg0 m ρ c),
       (h c _ (Cert.KernelIdeal.Hand.mem_uc Cert.KernelIdeal.main_arg1 (by decide))).trans (Cert.KernelIdeal.Hand.at11_main_arg1 m ρ c),
       (h c _ (Cert.KernelIdeal.Hand.mem_uc Cert.KernelIdeal.main_arg2 (by decide))).trans (Cert.KernelIdeal.Hand.at11_main_arg2 m ρ c),
       (h c _ (Cert.KernelIdeal.Hand.mem_uc Cert.KernelIdeal.main_arg3 (by decide))).trans (Cert.KernelIdeal.Hand.at11_main_arg3 m ρ c),
       (h c _ (Cert.KernelIdeal.Hand.mem_uc Cert.KernelIdeal.main_arg4 (by decide))).trans (Cert.KernelIdeal.Hand.at11_main_arg4 m ρ c),
       (h c _ (Cert.KernelIdeal.Hand.mem_uc Cert.KernelIdeal.main_arg5 (by decide))).trans (Cert.KernelIdeal.Hand.at11_main_arg5 m ρ c),
       (h c _ (Cert.KernelIdeal.Hand.mem_uc Cert.KernelIdeal.main_arg6 (by decide))).trans (Cert.KernelIdeal.Hand.at11_main_arg6 m ρ c),
       (h c _ (Cert.KernelIdeal.Hand.mem_uc Cert.KernelIdeal.main_arg7 (by decide))).trans (Cert.KernelIdeal.Hand.at11_main_arg7 m ρ c),
       (h c _ (Cert.KernelIdeal.Hand.mem_uc Cert.KernelIdeal.main_arg8 (by decide))).trans (Cert.KernelIdeal.Hand.at11_main_arg8 m ρ c),
       (h c _ (Cert.KernelIdeal.Hand.mem_uc Cert.KernelIdeal.main_arg9 (by decide))).trans (Cert.KernelIdeal.Hand.at11_main_arg9 m ρ c),
       (h c _ (Cert.KernelIdeal.Hand.mem_uc Cert.KernelIdeal.main_arg10 (by decide))).trans (Cert.KernelIdeal.Hand.at11_main_arg10 m ρ c),
       (h c _ (Cert.KernelIdeal.Hand.mem_uc Cert.KernelIdeal.main_arg11 (by decide))).trans (Cert.KernelIdeal.Hand.at11_main_arg11 m ρ c),
       (h c _ (Cert.KernelIdeal.Hand.mem_uc Cert.KernelIdeal.main_arg12 (by decide))).trans (Cert.KernelIdeal.Hand.at11_main_arg12 m ρ c),
       (h c _ (Cert.KernelIdeal.Hand.mem_uc Cert.KernelIdeal.main_arg13 (by decide))).trans (Cert.KernelIdeal.Hand.at11_main_arg13 m ρ c),
       (h c _ (Cert.KernelIdeal.Hand.mem_uc Cert.KernelIdeal.main_arg14 (by decide))).trans (Cert.KernelIdeal.Hand.at11_main_arg14 m ρ c),
       (h c _ (Cert.KernelIdeal.Hand.mem_uc Cert.KernelIdeal.main_arg15 (by decide))).trans (Cert.KernelIdeal.Hand.at11_main_arg15 m ρ c),
       (h c _ (Cert.KernelIdeal.Hand.mem_uc Cert.KernelIdeal.main_arg16 (by decide))).trans (Cert.KernelIdeal.Hand.at11_main_arg16 m ρ c),
       (h c _ (Cert.KernelIdeal.Hand.mem_uc Cert.KernelIdeal.main_arg17 (by decide))).trans (Cert.KernelIdeal.Hand.at11_main_arg17 m ρ c),
       (h c _ (Cert.KernelIdeal.Hand.mem_uc Cert.KernelIdeal.main_arg18 (by decide))).trans (Cert.KernelIdeal.Hand.at11_main_arg18 m ρ c)⟩)
      (Cert.KernelIdeal.Hand.run_all (F := Ideal) m ρ)
  · exact (θ_run Cert.ReferenceIdeal.defs _ _).mono (fun _ h c =>
      ⟨(h c).1.trans ((Cert.ReferenceIdeal.Value.val7_main_v321 (StableHlo.launchContents m' c)).symm.trans (Cert.ReferenceIdeal.Hand.scores_eq m c (StableHlo.launchContents m' c)
          (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2.1 (hagree c).2.2.2.2.2.2.2.2.2.2.2.2.2.2.2.2.2.1 (hagree c).2.2.2.2.2.2.2.2.2.2.2.2.2.2.2.2.2.2)),
       (h c).2.1.trans ((Cert.ReferenceIdeal.Value.val7_main_v327 (StableHlo.launchContents m' c)).symm.trans (Cert.ReferenceIdeal.Hand.l2_eq m c (StableHlo.launchContents m' c)
          (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2.1 (hagree c).2.2.2.2.2.2.2.2.2.2.2.2.2.2.2.2.2.1 (hagree c).2.2.2.2.2.2.2.2.2.2.2.2.2.2.2.2.2.2)),
       (h c).2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
